-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v568) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3x512x512 : Shape := ⟨4, ![1, 3, 512, 512]⟩
abbrev S512x512x9x9 : Shape := ⟨4, ![512, 512, 9, 9]⟩
abbrev S_ : Shape := ⟨0, ![]⟩

class Facts : Prop where
  bcast_S_S1x3x512x512 : S_.BroadcastsInDim S1x3x512x512 (![] : Fin 0 → Fin S1x3x512x512.rank)
  reducesTo_S1x3x512x512_S_d0_1_2_3 : S1x3x512x512.ReducesTo [0, 1, 2, 3] S_
  h_S_ : 0 < S_.numel
  bcast_S_S512x512x9x9 : S_.BroadcastsInDim S512x512x9x9 (![] : Fin 0 → Fin S512x512x9x9.rank)
  reducesTo_S512x512x9x9_S_d0_1_2_3 : S512x512x9x9.ReducesTo [0, 1, 2, 3] S_

variable [Facts]

def fn {F : FTy → Type} [FloatOps F] (main_arg0 : FVec F S1x3x512x512 .f32) (main_arg1 : FVec F S512x512x9x9 .f32) : IVec S_ 1 :=
  let main_v0 : FVec F S1x3x512x512 .f32 := Host.absf main_arg0
  let main_cst : FVec F S_ .f32 := constant S_ .f32 0x7F800000#32
  let main_v1 : FVec F S1x3x512x512 .f32 := broadcastInDim S1x3x512x512 ![] bcast_S_S1x3x512x512 main_cst
  let main_v2 : IVec S1x3x512x512 1 := cmpf .olt main_v0 main_v1
  let main_c : IVec S_ 1 := constantI S_ 1 1#1
  let main_v3 : IVec S_ 1 := (fun x v => Host.reduce IntOp.andi x v reducesTo_S1x3x512x512_S_d0_1_2_3 h_S_) main_v2 main_c
  let main_v4 : FVec F S512x512x9x9 .f32 := Host.absf main_arg1
  let main_cst_0 : FVec F S_ .f32 := constant S_ .f32 0x7F800000#32
  let main_v5 : FVec F S512x512x9x9 .f32 := broadcastInDim S512x512x9x9 ![] bcast_S_S512x512x9x9 main_cst_0
  let main_v6 : IVec S512x512x9x9 1 := cmpf .olt main_v4 main_v5
  let main_c_1 : IVec S_ 1 := constantI S_ 1 1#1
  let main_v7 : IVec S_ 1 := (fun x v => Host.reduce IntOp.andi x v reducesTo_S512x512x9x9_S_d0_1_2_3 h_S_) main_v6 main_c_1
  let main_v8 : IVec S_ 1 := andi main_v3 main_v7
  main_v8
-- ==== Kernel.lean ====
abbrev S1x3x512x512 : Shape := ⟨4, ![1, 3, 512, 512]⟩
abbrev S512x512x9x9 : Shape := ⟨4, ![512, 512, 9, 9]⟩
abbrev S3x512x512 : Shape := ⟨3, ![3, 512, 512]⟩
abbrev S_ : Shape := ⟨0, ![]⟩
abbrev S3x1x512 : Shape := ⟨3, ![3, 1, 512]⟩
abbrev S3x4x512 : Shape := ⟨3, ![3, 4, 512]⟩
abbrev S3x516x512 : Shape := ⟨3, ![3, 516, 512]⟩
abbrev S3x520x512 : Shape := ⟨3, ![3, 520, 512]⟩
abbrev S3x520x1 : Shape := ⟨3, ![3, 520, 1]⟩
abbrev S3x520x4 : Shape := ⟨3, ![3, 520, 4]⟩
abbrev S3x520x516 : Shape := ⟨3, ![3, 520, 516]⟩
abbrev S3x520x520 : Shape := ⟨3, ![3, 520, 520]⟩
abbrev S512x512x81 : Shape := ⟨3, ![512, 512, 81]⟩
abbrev S81x512x512 : Shape := ⟨3, ![81, 512, 512]⟩
abbrev S81x128x128 : Shape := ⟨3, ![81, 128, 128]⟩
abbrev S3x128x128 : Shape := ⟨3, ![3, 128, 128]⟩
abbrev S3x136x136 : Shape := ⟨3, ![3, 136, 136]⟩
abbrev S1x128x128 : Shape := ⟨3, ![1, 128, 128]⟩
abbrev S128x128 : Shape := ⟨2, ![128, 128]⟩

abbrev nBuf : Space → Nat
  | .hbm => 24
  | .vmem => 5
  | .smem => 0
  | _ => 0

abbrev bufTy : (tb : Table) → Fin (tcTables nBuf tb) → BufTy
  | .hbm, ⟨0, _⟩ => ⟨S1x3x512x512, .f32⟩
  | .hbm, ⟨1, _⟩ => ⟨S512x512x9x9, .f32⟩
  | .hbm, ⟨2, _⟩ => ⟨S3x512x512, .f32⟩
  | .hbm, ⟨3, _⟩ => ⟨S_, .i32⟩
  | .hbm, ⟨4, _⟩ => ⟨S3x1x512, .f32⟩
  | .hbm, ⟨5, _⟩ => ⟨S3x4x512, .f32⟩
  | .hbm, ⟨6, _⟩ => ⟨S3x4x512, .f32⟩
  | .hbm, ⟨7, _⟩ => ⟨S3x516x512, .f32⟩
  | .hbm, ⟨8, _⟩ => ⟨S3x1x512, .f32⟩
  | .hbm, ⟨9, _⟩ => ⟨S3x4x512, .f32⟩
  | .hbm, ⟨10, _⟩ => ⟨S3x4x512, .f32⟩
  | .hbm, ⟨11, _⟩ => ⟨S3x520x512, .f32⟩
  | .hbm, ⟨12, _⟩ => ⟨S3x520x1, .f32⟩
  | .hbm, ⟨13, _⟩ => ⟨S3x520x4, .f32⟩
  | .hbm, ⟨14, _⟩ => ⟨S3x520x4, .f32⟩
  | .hbm, ⟨15, _⟩ => ⟨S3x520x516, .f32⟩
  | .hbm, ⟨16, _⟩ => ⟨S3x520x1, .f32⟩
  | .hbm, ⟨17, _⟩ => ⟨S3x520x4, .f32⟩
  | .hbm, ⟨18, _⟩ => ⟨S3x520x4, .f32⟩
  | .hbm, ⟨19, _⟩ => ⟨S3x520x520, .f32⟩
  | .hbm, ⟨20, _⟩ => ⟨S512x512x81, .f32⟩
  | .hbm, ⟨21, _⟩ => ⟨S81x512x512, .f32⟩
  | .hbm, ⟨22, _⟩ => ⟨S3x512x512, .f32⟩
  | .hbm, ⟨23, _⟩ => ⟨S1x3x512x512, .f32⟩
  | .local _ .vmem, ⟨0, _⟩ => ⟨S3x520x520, .f32⟩
  | .local _ .vmem, ⟨1, _⟩ => ⟨S81x128x128, .f32⟩
  | .local _ .vmem, ⟨2, _⟩ => ⟨S81x128x128, .f32⟩
  | .local _ .vmem, ⟨3, _⟩ => ⟨S3x128x128, .f32⟩
  | .local _ .vmem, ⟨4, _⟩ => ⟨S3x128x128, .f32⟩
  | _, _ => ⟨S1x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_v14 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_mult2 (i : grid0.Coords) : BitVec 32 :=
  let arg1 : BitVec 32 := BitVec.ofNat 32 (i 1).val
  let c128_i32_0 : BitVec 32 := 128#32
  let v2 : BitVec 32 := Scalar.muli arg1 c128_i32_0
  v2
def k0_off1 (i : grid0.Coords) : Fin 3 → Nat :=
  let c0 : Index := 0#32
  let arg0 : BitVec 32 := BitVec.ofNat 32 (i 0).val
  let c128_i32 : BitVec 32 := 128#32
  let v0 : BitVec 32 := Scalar.muli arg0 c128_i32
  let v1 : BitVec 32 := v0
  let v4 : Index := Scalar.indexCast v1
  let arg1 : BitVec 32 := BitVec.ofNat 32 (i 1).val
  let c128_i32_0 : BitVec 32 := 128#32
  let v2 : BitVec 32 := Scalar.muli arg1 c128_i32_0
  let v3 : BitVec 32 := v2
  let v5 : Index := Scalar.indexCast v3
  ![0, v4.toNat, v5.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S3x520x520 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S81x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1x3x512x512_S3x512x512 : S1x3x512x512.ShapeCasts S3x512x512
  slices_S3x512x512_S3x1x512_0_0_0 : S3x512x512.Slices ![0, 0, 0] S3x1x512
  slices_S3x512x512_S3x4x512_0_1_0 : S3x512x512.Slices ![0, 1, 0] S3x4x512
  concatenates_S3x4x512_S3x512x512_S3x516x512_d1 : Shape.Concatenates [S3x4x512, S3x512x512] S3x516x512 1
  slices_S3x516x512_S3x1x512_0_515_0 : S3x516x512.Slices ![0, 515, 0] S3x1x512
  slices_S3x516x512_S3x4x512_0_511_0 : S3x516x512.Slices ![0, 511, 0] S3x4x512
  concatenates_S3x516x512_S3x4x512_S3x520x512_d1 : Shape.Concatenates [S3x516x512, S3x4x512] S3x520x512 1
  slices_S3x520x512_S3x520x1_0_0_0 : S3x520x512.Slices ![0, 0, 0] S3x520x1
  slices_S3x520x512_S3x520x4_0_0_1 : S3x520x512.Slices ![0, 0, 1] S3x520x4
  concatenates_S3x520x4_S3x520x512_S3x520x516_d2 : Shape.Concatenates [S3x520x4, S3x520x512] S3x520x516 2
  slices_S3x520x516_S3x520x1_0_0_515 : S3x520x516.Slices ![0, 0, 515] S3x520x1
  slices_S3x520x516_S3x520x4_0_0_511 : S3x520x516.Slices ![0, 0, 511] S3x520x4
  concatenates_S3x520x516_S3x520x4_S3x520x520_d2 : Shape.Concatenates [S3x520x516, S3x520x4] S3x520x520 2
  shapeCasts_S512x512x9x9_S512x512x81 : S512x512x9x9.ShapeCasts S512x512x81
  transposes_S512x512x81_S81x512x512_2_0_1 : S512x512x81.Transposes [2, 0, 1] S81x512x512
  h_S3x136x136 : 0 < S3x136x136.numel
  shapeCasts_S3x136x136_S3x136x136 : S3x136x136.ShapeCasts S3x136x136
  slices_S3x136x136_o0_0_0_S3x128x128 : S3x136x136.Slices ![0, 0, 0] S3x128x128
  inb_S81x128x128_S1x128x128_0_0_0 : ∀ a, (![0, 0, 0] : Fin 3 → Nat) a + S1x128x128.size a ≤ S81x128x128.size a
  h_S1x128x128 : 0 < S1x128x128.numel
  shapeCasts_S1x128x128_S128x128 : S1x128x128.ShapeCasts S128x128
  shapeCasts_S128x128_S1x128x128 : S128x128.ShapeCasts S1x128x128
  broadcasts_S1x128x128_S3x128x128 : S1x128x128.Broadcasts S3x128x128
  slices_S3x136x136_o0_0_1_S3x128x128 : S3x136x136.Slices ![0, 0, 1] S3x128x128
  inb_S81x128x128_S1x128x128_1_0_0 : ∀ a, (![1, 0, 0] : Fin 3 → Nat) a + S1x128x128.size a ≤ S81x128x128.size a
  slices_S3x136x136_o0_0_2_S3x128x128 : S3x136x136.Slices ![0, 0, 2] S3x128x128
  inb_S81x128x128_S1x128x128_2_0_0 : ∀ a, (![2, 0, 0] : Fin 3 → Nat) a + S1x128x128.size a ≤ S81x128x128.size a
  slices_S3x136x136_o0_0_3_S3x128x128 : S3x136x136.Slices ![0, 0, 3] S3x128x128
  inb_S81x128x128_S1x128x128_3_0_0 : ∀ a, (![3, 0, 0] : Fin 3 → Nat) a + S1x128x128.size a ≤ S81x128x128.size a
  slices_S3x136x136_o0_0_4_S3x128x128 : S3x136x136.Slices ![0, 0, 4] S3x128x128
  inb_S81x128x128_S1x128x128_4_0_0 : ∀ a, (![4, 0, 0] : Fin 3 → Nat) a + S1x128x128.size a ≤ S81x128x128.size a
  slices_S3x136x136_o0_0_5_S3x128x128 : S3x136x136.Slices ![0, 0, 5] S3x128x128
  inb_S81x128x128_S1x128x128_5_0_0 : ∀ a, (![5, 0, 0] : Fin 3 → Nat) a + S1x128x128.size a ≤ S81x128x128.size a
  slices_S3x136x136_o0_0_6_S3x128x128 : S3x136x136.Slices ![0, 0, 6] S3x128x128
  inb_S81x128x128_S1x128x128_6_0_0 : ∀ a, (![6, 0, 0] : Fin 3 → Nat) a + S1x128x128.size a ≤ S81x128x128.size a
  slices_S3x136x136_o0_0_7_S3x128x128 : S3x136x136.Slices ![0, 0, 7] S3x128x128
  inb_S81x128x128_S1x128x128_7_0_0 : ∀ a, (![7, 0, 0] : Fin 3 → Nat) a + S1x128x128.size a ≤ S81x128x128.size a
  slices_S3x136x136_o0_0_8_S3x128x128 : S3x136x136.Slices ![0, 0, 8] S3x128x128
  inb_S81x128x128_S1x128x128_8_0_0 : ∀ a, (![8, 0, 0] : Fin 3 → Nat) a + S1x128x128.size a ≤ S81x128x128.size a
  slices_S3x136x136_o0_1_0_S3x128x128 : S3x136x136.Slices ![0, 1, 0] S3x128x128
  inb_S81x128x128_S1x128x128_9_0_0 : ∀ a, (![9, 0, 0] : Fin 3 → Nat) a + S1x128x128.size a ≤ S81x128x128.size a
  slices_S3x136x136_o0_1_1_S3x128x128 : S3x136x136.Slices ![0, 1, 1] S3x128x128
  inb_S81x128x128_S1x128x128_10_0_0 : ∀ a, (![10, 0, 0] : Fin 3 → Nat) a + S1x128x128.size a ≤ S81x128x128.size a
  slices_S3x136x136_o0_1_2_S3x128x128 : S3x136x136.Slices ![0, 1, 2] S3x128x128
  inb_S81x128x128_S1x128x128_11_0_0 : ∀ a, (![11, 0, 0] : Fin 3 → Nat) a + S1x128x128.size a ≤ S81x128x128.size a
  slices_S3x136x136_o0_1_3_S3x128x128 : S3x136x136.Slices ![0, 1, 3] S3x128x128
  inb_S81x128x128_S1x128x128_12_0_0 : ∀ a, (![12, 0, 0] : Fin 3 → Nat) a + S1x128x128.size a ≤ S81x128x128.size a
  slices_S3x136x136_o0_1_4_S3x128x128 : S3x136x136.Slices ![0, 1, 4] S3x128x128
  inb_S81x128x128_S1x128x128_13_0_0 : ∀ a, (![13, 0, 0] : Fin 3 → Nat) a + S1x128x128.size a ≤ S81x128x128.size a
  slices_S3x136x136_o0_1_5_S3x128x128 : S3x136x136.Slices ![0, 1, 5] S3x128x128
  inb_S81x128x128_S1x128x128_14_0_0 : ∀ a, (![14, 0, 0] : Fin 3 → Nat) a + S1x128x128.size a ≤ S81x128x128.size a
  slices_S3x136x136_o0_1_6_S3x128x128 : S3x136x136.Slices ![0, 1, 6] S3x128x128
  inb_S81x128x128_S1x128x128_15_0_0 : ∀ a, (![15, 0, 0] : Fin 3 → Nat) a + S1x128x128.size a ≤ S81x128x128.size a
  slices_S3x136x136_o0_1_7_S3x128x128 : S3x136x136.Slices ![0, 1, 7] S3x128x128
  inb_S81x128x128_S1x128x128_16_0_0 : ∀ a, (![16, 0, 0] : Fin 3 → Nat) a + S1x128x128.size a ≤ S81x128x128.size a
  slices_S3x136x136_o0_1_8_S3x128x128 : S3x136x136.Slices ![0, 1, 8] S3x128x128
  inb_S81x128x128_S1x128x128_17_0_0 : ∀ a, (![17, 0, 0] : Fin 3 → Nat) a + S1x128x128.size a ≤ S81x128x128.size a
  slices_S3x136x136_o0_2_0_S3x128x128 : S3x136x136.Slices ![0, 2, 0] S3x128x128
  inb_S81x128x128_S1x128x128_18_0_0 : ∀ a, (![18, 0, 0] : Fin 3 → Nat) a + S1x128x128.size a ≤ S81x128x128.size a
  slices_S3x136x136_o0_2_1_S3x128x128 : S3x136x136.Slices ![0, 2, 1] S3x128x128
  inb_S81x128x128_S1x128x128_19_0_0 : ∀ a, (![19, 0, 0] : Fin 3 → Nat) a + S1x128x128.size a ≤ S81x128x128.size a
  slices_S3x136x136_o0_2_2_S3x128x128 : S3x136x136.Slices ![0, 2, 2] S3x128x128
  inb_S81x128x128_S1x128x128_20_0_0 : ∀ a, (![20, 0, 0] : Fin 3 → Nat) a + S1x128x128.size a ≤ S81x128x128.size a
  slices_S3x136x136_o0_2_3_S3x128x128 : S3x136x136.Slices ![0, 2, 3] S3x128x128
  inb_S81x128x128_S1x128x128_21_0_0 : ∀ a, (![21, 0, 0] : Fin 3 → Nat) a + S1x128x128.size a ≤ S81x128x128.size a
  slices_S3x136x136_o0_2_4_S3x128x128 : S3x136x136.Slices ![0, 2, 4] S3x128x128
  inb_S81x128x128_S1x128x128_22_0_0 : ∀ a, (![22, 0, 0] : Fin 3 → Nat) a + S1x128x128.size a ≤ S81x128x128.size a
  slices_S3x136x136_o0_2_5_S3x128x128 : S3x136x136.Slices ![0, 2, 5] S3x128x128
  inb_S81x128x128_S1x128x128_23_0_0 : ∀ a, (![23, 0, 0] : Fin 3 → Nat) a + S1x128x128.size a ≤ S81x128x128.size a
  slices_S3x136x136_o0_2_6_S3x128x128 : S3x136x136.Slices ![0, 2, 6] S3x128x128
  inb_S81x128x128_S1x128x128_24_0_0 : ∀ a, (![24, 0, 0] : Fin 3 → Nat) a + S1x128x128.size a ≤ S81x128x128.size a
  slices_S3x136x136_o0_2_7_S3x128x128 : S3x136x136.Slices ![0, 2, 7] S3x128x128
  inb_S81x128x128_S1x128x128_25_0_0 : ∀ a, (![25, 0, 0] : Fin 3 → Nat) a + S1x128x128.size a ≤ S81x128x128.size a
  slices_S3x136x136_o0_2_8_S3x128x128 : S3x136x136.Slices ![0, 2, 8] S3x128x128
  inb_S81x128x128_S1x128x128_26_0_0 : ∀ a, (![26, 0, 0] : Fin 3 → Nat) a + S1x128x128.size a ≤ S81x128x128.size a
  slices_S3x136x136_o0_3_0_S3x128x128 : S3x136x136.Slices ![0, 3, 0] S3x128x128
  inb_S81x128x128_S1x128x128_27_0_0 : ∀ a, (![27, 0, 0] : Fin 3 → Nat) a + S1x128x128.size a ≤ S81x128x128.size a
  slices_S3x136x136_o0_3_1_S3x128x128 : S3x136x136.Slices ![0, 3, 1] S3x128x128
  inb_S81x128x128_S1x128x128_28_0_0 : ∀ a, (![28, 0, 0] : Fin 3 → Nat) a + S1x128x128.size a ≤ S81x128x128.size a
  slices_S3x136x136_o0_3_2_S3x128x128 : S3x136x136.Slices ![0, 3, 2] S3x128x128
  inb_S81x128x128_S1x128x128_29_0_0 : ∀ a, (![29, 0, 0] : Fin 3 → Nat) a + S1x128x128.size a ≤ S81x128x128.size a
  slices_S3x136x136_o0_3_3_S3x128x128 : S3x136x136.Slices ![0, 3, 3] S3x128x128
  inb_S81x128x128_S1x128x128_30_0_0 : ∀ a, (![30, 0, 0] : Fin 3 → Nat) a + S1x128x128.size a ≤ S81x128x128.size a
  slices_S3x136x136_o0_3_4_S3x128x128 : S3x136x136.Slices ![0, 3, 4] S3x128x128
  inb_S81x128x128_S1x128x128_31_0_0 : ∀ a, (![31, 0, 0] : Fin 3 → Nat) a + S1x128x128.size a ≤ S81x128x128.size a
  slices_S3x136x136_o0_3_5_S3x128x128 : S3x136x136.Slices ![0, 3, 5] S3x128x128
  inb_S81x128x128_S1x128x128_32_0_0 : ∀ a, (![32, 0, 0] : Fin 3 → Nat) a + S1x128x128.size a ≤ S81x128x128.size a
  slices_S3x136x136_o0_3_6_S3x128x128 : S3x136x136.Slices ![0, 3, 6] S3x128x128
  inb_S81x128x128_S1x128x128_33_0_0 : ∀ a, (![33, 0, 0] : Fin 3 → Nat) a + S1x128x128.size a ≤ S81x128x128.size a
  slices_S3x136x136_o0_3_7_S3x128x128 : S3x136x136.Slices ![0, 3, 7] S3x128x128
  inb_S81x128x128_S1x128x128_34_0_0 : ∀ a, (![34, 0, 0] : Fin 3 → Nat) a + S1x128x128.size a ≤ S81x128x128.size a
  slices_S3x136x136_o0_3_8_S3x128x128 : S3x136x136.Slices ![0, 3, 8] S3x128x128
  inb_S81x128x128_S1x128x128_35_0_0 : ∀ a, (![35, 0, 0] : Fin 3 → Nat) a + S1x128x128.size a ≤ S81x128x128.size a
  slices_S3x136x136_o0_4_0_S3x128x128 : S3x136x136.Slices ![0, 4, 0] S3x128x128
  inb_S81x128x128_S1x128x128_36_0_0 : ∀ a, (![36, 0, 0] : Fin 3 → Nat) a + S1x128x128.size a ≤ S81x128x128.size a
  slices_S3x136x136_o0_4_1_S3x128x128 : S3x136x136.Slices ![0, 4, 1] S3x128x128
  inb_S81x128x128_S1x128x128_37_0_0 : ∀ a, (![37, 0, 0] : Fin 3 → Nat) a + S1x128x128.size a ≤ S81x128x128.size a
  slices_S3x136x136_o0_4_2_S3x128x128 : S3x136x136.Slices ![0, 4, 2] S3x128x128
  inb_S81x128x128_S1x128x128_38_0_0 : ∀ a, (![38, 0, 0] : Fin 3 → Nat) a + S1x128x128.size a ≤ S81x128x128.size a
  slices_S3x136x136_o0_4_3_S3x128x128 : S3x136x136.Slices ![0, 4, 3] S3x128x128
  inb_S81x128x128_S1x128x128_39_0_0 : ∀ a, (![39, 0, 0] : Fin 3 → Nat) a + S1x128x128.size a ≤ S81x128x128.size a
  slices_S3x136x136_o0_4_4_S3x128x128 : S3x136x136.Slices ![0, 4, 4] S3x128x128
  inb_S81x128x128_S1x128x128_40_0_0 : ∀ a, (![40, 0, 0] : Fin 3 → Nat) a + S1x128x128.size a ≤ S81x128x128.size a
  slices_S3x136x136_o0_4_5_S3x128x128 : S3x136x136.Slices ![0, 4, 5] S3x128x128
  inb_S81x128x128_S1x128x128_41_0_0 : ∀ a, (![41, 0, 0] : Fin 3 → Nat) a + S1x128x128.size a ≤ S81x128x128.size a
  slices_S3x136x136_o0_4_6_S3x128x128 : S3x136x136.Slices ![0, 4, 6] S3x128x128
  inb_S81x128x128_S1x128x128_42_0_0 : ∀ a, (![42, 0, 0] : Fin 3 → Nat) a + S1x128x128.size a ≤ S81x128x128.size a
  slices_S3x136x136_o0_4_7_S3x128x128 : S3x136x136.Slices ![0, 4, 7] S3x128x128
  inb_S81x128x128_S1x128x128_43_0_0 : ∀ a, (![43, 0, 0] : Fin 3 → Nat) a + S1x128x128.size a ≤ S81x128x128.size a
  slices_S3x136x136_o0_4_8_S3x128x128 : S3x136x136.Slices ![0, 4, 8] S3x128x128
  inb_S81x128x128_S1x128x128_44_0_0 : ∀ a, (![44, 0, 0] : Fin 3 → Nat) a + S1x128x128.size a ≤ S81x128x128.size a
  slices_S3x136x136_o0_5_0_S3x128x128 : S3x136x136.Slices ![0, 5, 0] S3x128x128
  inb_S81x128x128_S1x128x128_45_0_0 : ∀ a, (![45, 0, 0] : Fin 3 → Nat) a + S1x128x128.size a ≤ S81x128x128.size a
  slices_S3x136x136_o0_5_1_S3x128x128 : S3x136x136.Slices ![0, 5, 1] S3x128x128
  inb_S81x128x128_S1x128x128_46_0_0 : ∀ a, (![46, 0, 0] : Fin 3 → Nat) a + S1x128x128.size a ≤ S81x128x128.size a
  slices_S3x136x136_o0_5_2_S3x128x128 : S3x136x136.Slices ![0, 5, 2] S3x128x128
  inb_S81x128x128_S1x128x128_47_0_0 : ∀ a, (![47, 0, 0] : Fin 3 → Nat) a + S1x128x128.size a ≤ S81x128x128.size a
  slices_S3x136x136_o0_5_3_S3x128x128 : S3x136x136.Slices ![0, 5, 3] S3x128x128
  inb_S81x128x128_S1x128x128_48_0_0 : ∀ a, (![48, 0, 0] : Fin 3 → Nat) a + S1x128x128.size a ≤ S81x128x128.size a
  slices_S3x136x136_o0_5_4_S3x128x128 : S3x136x136.Slices ![0, 5, 4] S3x128x128
  inb_S81x128x128_S1x128x128_49_0_0 : ∀ a, (![49, 0, 0] : Fin 3 → Nat) a + S1x128x128.size a ≤ S81x128x128.size a
  slices_S3x136x136_o0_5_5_S3x128x128 : S3x136x136.Slices ![0, 5, 5] S3x128x128
  inb_S81x128x128_S1x128x128_50_0_0 : ∀ a, (![50, 0, 0] : Fin 3 → Nat) a + S1x128x128.size a ≤ S81x128x128.size a
  slices_S3x136x136_o0_5_6_S3x128x128 : S3x136x136.Slices ![0, 5, 6] S3x128x128
  inb_S81x128x128_S1x128x128_51_0_0 : ∀ a, (![51, 0, 0] : Fin 3 → Nat) a + S1x128x128.size a ≤ S81x128x128.size a
  slices_S3x136x136_o0_5_7_S3x128x128 : S3x136x136.Slices ![0, 5, 7] S3x128x128
  inb_S81x128x128_S1x128x128_52_0_0 : ∀ a, (![52, 0, 0] : Fin 3 → Nat) a + S1x128x128.size a ≤ S81x128x128.size a
  slices_S3x136x136_o0_5_8_S3x128x128 : S3x136x136.Slices ![0, 5, 8] S3x128x128
  inb_S81x128x128_S1x128x128_53_0_0 : ∀ a, (![53, 0, 0] : Fin 3 → Nat) a + S1x128x128.size a ≤ S81x128x128.size a
  slices_S3x136x136_o0_6_0_S3x128x128 : S3x136x136.Slices ![0, 6, 0] S3x128x128
  inb_S81x128x128_S1x128x128_54_0_0 : ∀ a, (![54, 0, 0] : Fin 3 → Nat) a + S1x128x128.size a ≤ S81x128x128.size a
  slices_S3x136x136_o0_6_1_S3x128x128 : S3x136x136.Slices ![0, 6, 1] S3x128x128
  inb_S81x128x128_S1x128x128_55_0_0 : ∀ a, (![55, 0, 0] : Fin 3 → Nat) a + S1x128x128.size a ≤ S81x128x128.size a
  slices_S3x136x136_o0_6_2_S3x128x128 : S3x136x136.Slices ![0, 6, 2] S3x128x128
  inb_S81x128x128_S1x128x128_56_0_0 : ∀ a, (![56, 0, 0] : Fin 3 → Nat) a + S1x128x128.size a ≤ S81x128x128.size a
  slices_S3x136x136_o0_6_3_S3x128x128 : S3x136x136.Slices ![0, 6, 3] S3x128x128
  inb_S81x128x128_S1x128x128_57_0_0 : ∀ a, (![57, 0, 0] : Fin 3 → Nat) a + S1x128x128.size a ≤ S81x128x128.size a
  slices_S3x136x136_o0_6_4_S3x128x128 : S3x136x136.Slices ![0, 6, 4] S3x128x128
  inb_S81x128x128_S1x128x128_58_0_0 : ∀ a, (![58, 0, 0] : Fin 3 → Nat) a + S1x128x128.size a ≤ S81x128x128.size a
  slices_S3x136x136_o0_6_5_S3x128x128 : S3x136x136.Slices ![0, 6, 5] S3x128x128
  inb_S81x128x128_S1x128x128_59_0_0 : ∀ a, (![59, 0, 0] : Fin 3 → Nat) a + S1x128x128.size a ≤ S81x128x128.size a
  slices_S3x136x136_o0_6_6_S3x128x128 : S3x136x136.Slices ![0, 6, 6] S3x128x128
  inb_S81x128x128_S1x128x128_60_0_0 : ∀ a, (![60, 0, 0] : Fin 3 → Nat) a + S1x128x128.size a ≤ S81x128x128.size a
  slices_S3x136x136_o0_6_7_S3x128x128 : S3x136x136.Slices ![0, 6, 7] S3x128x128
  inb_S81x128x128_S1x128x128_61_0_0 : ∀ a, (![61, 0, 0] : Fin 3 → Nat) a + S1x128x128.size a ≤ S81x128x128.size a
  slices_S3x136x136_o0_6_8_S3x128x128 : S3x136x136.Slices ![0, 6, 8] S3x128x128
  inb_S81x128x128_S1x128x128_62_0_0 : ∀ a, (![62, 0, 0] : Fin 3 → Nat) a + S1x128x128.size a ≤ S81x128x128.size a
  slices_S3x136x136_o0_7_0_S3x128x128 : S3x136x136.Slices ![0, 7, 0] S3x128x128
  inb_S81x128x128_S1x128x128_63_0_0 : ∀ a, (![63, 0, 0] : Fin 3 → Nat) a + S1x128x128.size a ≤ S81x128x128.size a
  slices_S3x136x136_o0_7_1_S3x128x128 : S3x136x136.Slices ![0, 7, 1] S3x128x128
  inb_S81x128x128_S1x128x128_64_0_0 : ∀ a, (![64, 0, 0] : Fin 3 → Nat) a + S1x128x128.size a ≤ S81x128x128.size a
  slices_S3x136x136_o0_7_2_S3x128x128 : S3x136x136.Slices ![0, 7, 2] S3x128x128
  inb_S81x128x128_S1x128x128_65_0_0 : ∀ a, (![65, 0, 0] : Fin 3 → Nat) a + S1x128x128.size a ≤ S81x128x128.size a
  slices_S3x136x136_o0_7_3_S3x128x128 : S3x136x136.Slices ![0, 7, 3] S3x128x128
  inb_S81x128x128_S1x128x128_66_0_0 : ∀ a, (![66, 0, 0] : Fin 3 → Nat) a + S1x128x128.size a ≤ S81x128x128.size a
  slices_S3x136x136_o0_7_4_S3x128x128 : S3x136x136.Slices ![0, 7, 4] S3x128x128
  inb_S81x128x128_S1x128x128_67_0_0 : ∀ a, (![67, 0, 0] : Fin 3 → Nat) a + S1x128x128.size a ≤ S81x128x128.size a
  slices_S3x136x136_o0_7_5_S3x128x128 : S3x136x136.Slices ![0, 7, 5] S3x128x128
  inb_S81x128x128_S1x128x128_68_0_0 : ∀ a, (![68, 0, 0] : Fin 3 → Nat) a + S1x128x128.size a ≤ S81x128x128.size a
  slices_S3x136x136_o0_7_6_S3x128x128 : S3x136x136.Slices ![0, 7, 6] S3x128x128
  inb_S81x128x128_S1x128x128_69_0_0 : ∀ a, (![69, 0, 0] : Fin 3 → Nat) a + S1x128x128.size a ≤ S81x128x128.size a
  slices_S3x136x136_o0_7_7_S3x128x128 : S3x136x136.Slices ![0, 7, 7] S3x128x128
  inb_S81x128x128_S1x128x128_70_0_0 : ∀ a, (![70, 0, 0] : Fin 3 → Nat) a + S1x128x128.size a ≤ S81x128x128.size a
  slices_S3x136x136_o0_7_8_S3x128x128 : S3x136x136.Slices ![0, 7, 8] S3x128x128
  inb_S81x128x128_S1x128x128_71_0_0 : ∀ a, (![71, 0, 0] : Fin 3 → Nat) a + S1x128x128.size a ≤ S81x128x128.size a
  slices_S3x136x136_o0_8_0_S3x128x128 : S3x136x136.Slices ![0, 8, 0] S3x128x128
  inb_S81x128x128_S1x128x128_72_0_0 : ∀ a, (![72, 0, 0] : Fin 3 → Nat) a + S1x128x128.size a ≤ S81x128x128.size a
  slices_S3x136x136_o0_8_1_S3x128x128 : S3x136x136.Slices ![0, 8, 1] S3x128x128
  inb_S81x128x128_S1x128x128_73_0_0 : ∀ a, (![73, 0, 0] : Fin 3 → Nat) a + S1x128x128.size a ≤ S81x128x128.size a
  slices_S3x136x136_o0_8_2_S3x128x128 : S3x136x136.Slices ![0, 8, 2] S3x128x128
  inb_S81x128x128_S1x128x128_74_0_0 : ∀ a, (![74, 0, 0] : Fin 3 → Nat) a + S1x128x128.size a ≤ S81x128x128.size a
  slices_S3x136x136_o0_8_3_S3x128x128 : S3x136x136.Slices ![0, 8, 3] S3x128x128
  inb_S81x128x128_S1x128x128_75_0_0 : ∀ a, (![75, 0, 0] : Fin 3 → Nat) a + S1x128x128.size a ≤ S81x128x128.size a
  slices_S3x136x136_o0_8_4_S3x128x128 : S3x136x136.Slices ![0, 8, 4] S3x128x128
  inb_S81x128x128_S1x128x128_76_0_0 : ∀ a, (![76, 0, 0] : Fin 3 → Nat) a + S1x128x128.size a ≤ S81x128x128.size a
  slices_S3x136x136_o0_8_5_S3x128x128 : S3x136x136.Slices ![0, 8, 5] S3x128x128
  inb_S81x128x128_S1x128x128_77_0_0 : ∀ a, (![77, 0, 0] : Fin 3 → Nat) a + S1x128x128.size a ≤ S81x128x128.size a
  slices_S3x136x136_o0_8_6_S3x128x128 : S3x136x136.Slices ![0, 8, 6] S3x128x128
  inb_S81x128x128_S1x128x128_78_0_0 : ∀ a, (![78, 0, 0] : Fin 3 → Nat) a + S1x128x128.size a ≤ S81x128x128.size a
  slices_S3x136x136_o0_8_7_S3x128x128 : S3x136x136.Slices ![0, 8, 7] S3x128x128
  inb_S81x128x128_S1x128x128_79_0_0 : ∀ a, (![79, 0, 0] : Fin 3 → Nat) a + S1x128x128.size a ≤ S81x128x128.size a
  slices_S3x136x136_o0_8_8_S3x128x128 : S3x136x136.Slices ![0, 8, 8] S3x128x128
  inb_S81x128x128_S1x128x128_80_0_0 : ∀ a, (![80, 0, 0] : Fin 3 → Nat) a + S1x128x128.size a ≤ S81x128x128.size a
  inb_S3x128x128_S3x128x128_0_0_0 : ∀ a, (![0, 0, 0] : Fin 3 → Nat) a + S3x128x128.size a ≤ S3x128x128.size a
  h_S3x128x128 : 0 < S3x128x128.numel
  bcast_S3x512x512_S1x3x512x512_1_2_3 : S3x512x512.BroadcastsInDim S1x3x512x512 (![1, 2, 3] : Fin 3 → Fin S1x3x512x512.rank)
  hrank0 : 0 < grid0.rank
  k0_mult1_dvd : ∀ i : grid0.Coords, 128 ∣ (k0_mult1 i).toNat
  k0_mult2_dvd : ∀ i : grid0.Coords, 128 ∣ (k0_mult2 i).toNat
  k0_off1_inb : ∀ i : grid0.Coords, ∀ a, (k0_off1 i) a + S3x136x136.size a ≤ S3x520x520.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x520x520.size a ≤ S3x520x520.size a
  hwx0_0 : ∀ i : grid0.Coords, EltTy.bits .f32 = 32 ∨ (Rect.block (s := S3x520x520) S3x520x520.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S81x128x128.size a ≤ S81x512x512.size a
  hwx0_1 : ∀ i : grid0.Coords, EltTy.bits .f32 = 32 ∨ (Rect.block (s := S81x512x512) S81x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x128x128.size a ≤ S3x512x512.size a
  hwx0_2 : ∀ i : grid0.Coords, EltTy.bits .f32 = 32 ∨ (Rect.block (s := S3x512x512) S3x128x128.size (cc0_transform_2 i) (hinb0_2 i)).WholeWords (EltTy.packing .f32)

variable [Facts₀]

abbrev win0_0 : Pipeline.Window sig grid0 :=
  Pipeline.Window.ofSpec (Memref.whole main_v1) S3x520x520.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S81x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S3x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x3x512x512 : Shape := ⟨4, ![1, 3, 512, 512]⟩
abbrev S512x512x9x9 : Shape := ⟨4, ![512, 512, 9, 9]⟩
abbrev S_ : Shape := ⟨0, ![]⟩
abbrev S1x3x1x512 : Shape := ⟨4, ![1, 3, 1, 512]⟩
abbrev S1x3x4x512 : Shape := ⟨4, ![1, 3, 4, 512]⟩
abbrev S1x3x516x512 : Shape := ⟨4, ![1, 3, 516, 512]⟩
abbrev S1x3x520x512 : Shape := ⟨4, ![1, 3, 520, 512]⟩
abbrev S1x3x520x1 : Shape := ⟨4, ![1, 3, 520, 1]⟩
abbrev S1x3x520x4 : Shape := ⟨4, ![1, 3, 520, 4]⟩
abbrev S1x3x520x516 : Shape := ⟨4, ![1, 3, 520, 516]⟩
abbrev S1x3x520x520 : Shape := ⟨4, ![1, 3, 520, 520]⟩
abbrev S512x512x1x1 : Shape := ⟨4, ![512, 512, 1, 1]⟩
abbrev S512x512 : Shape := ⟨2, ![512, 512]⟩
abbrev S1x1x512x512 : Shape := ⟨4, ![1, 1, 512, 512]⟩

abbrev nBuf : Space → Nat
  | .hbm => 588
  | .vmem => 0
  | .smem => 0
  | _ => 0

abbrev hbmTy0_0 (i : Nat) : BufTy := match i % 128 with
  | 0 => ⟨S1x3x512x512, .f32⟩
  | 1 => ⟨S512x512x9x9, .f32⟩
  | 2 => ⟨S_, .i32⟩
  | 3 => ⟨S1x3x1x512, .f32⟩
  | 4 => ⟨S1x3x4x512, .f32⟩
  | 5 => ⟨S1x3x4x512, .f32⟩
  | 6 => ⟨S1x3x516x512, .f32⟩
  | 7 => ⟨S1x3x1x512, .f32⟩
  | 8 => ⟨S1x3x4x512, .f32⟩
  | 9 => ⟨S1x3x4x512, .f32⟩
  | 10 => ⟨S1x3x520x512, .f32⟩
  | 11 => ⟨S1x3x520x1, .f32⟩
  | 12 => ⟨S1x3x520x4, .f32⟩
  | 13 => ⟨S1x3x520x4, .f32⟩
  | 14 => ⟨S1x3x520x516, .f32⟩
  | 15 => ⟨S1x3x520x1, .f32⟩
  | 16 => ⟨S1x3x520x4, .f32⟩
  | 17 => ⟨S1x3x520x4, .f32⟩
  | 18 => ⟨S1x3x520x520, .f32⟩
  | 19 => ⟨S_, .f32⟩
  | 20 => ⟨S1x3x512x512, .f32⟩
  | 21 => ⟨S1x3x512x512, .f32⟩
  | 22 => ⟨S512x512x1x1, .f32⟩
  | 23 => ⟨S512x512, .f32⟩
  | 24 => ⟨S1x1x512x512, .f32⟩
  | 25 => ⟨S1x3x512x512, .f32⟩
  | 26 => ⟨S1x3x512x512, .f32⟩
  | 27 => ⟨S1x3x512x512, .f32⟩
  | 28 => ⟨S1x3x512x512, .f32⟩
  | 29 => ⟨S512x512x1x1, .f32⟩
  | 30 => ⟨S512x512, .f32⟩
  | 31 => ⟨S1x1x512x512, .f32⟩
  | 32 => ⟨S1x3x512x512, .f32⟩
  | 33 => ⟨S1x3x512x512, .f32⟩
  | 34 => ⟨S1x3x512x512, .f32⟩
  | 35 => ⟨S1x3x512x512, .f32⟩
  | 36 => ⟨S512x512x1x1, .f32⟩
  | 37 => ⟨S512x512, .f32⟩
  | 38 => ⟨S1x1x512x512, .f32⟩
  | 39 => ⟨S1x3x512x512, .f32⟩
  | 40 => ⟨S1x3x512x512, .f32⟩
  | 41 => ⟨S1x3x512x512, .f32⟩
  | 42 => ⟨S1x3x512x512, .f32⟩
  | 43 => ⟨S512x512x1x1, .f32⟩
  | 44 => ⟨S512x512, .f32⟩
  | 45 => ⟨S1x1x512x512, .f32⟩
  | 46 => ⟨S1x3x512x512, .f32⟩
  | 47 => ⟨S1x3x512x512, .f32⟩
  | 48 => ⟨S1x3x512x512, .f32⟩
  | 49 => ⟨S1x3x512x512, .f32⟩
  | 50 => ⟨S512x512x1x1, .f32⟩
  | 51 => ⟨S512x512, .f32⟩
  | 52 => ⟨S1x1x512x512, .f32⟩
  | 53 => ⟨S1x3x512x512, .f32⟩
  | 54 => ⟨S1x3x512x512, .f32⟩
  | 55 => ⟨S1x3x512x512, .f32⟩
  | 56 => ⟨S1x3x512x512, .f32⟩
  | 57 => ⟨S512x512x1x1, .f32⟩
  | 58 => ⟨S512x512, .f32⟩
  | 59 => ⟨S1x1x512x512, .f32⟩
  | 60 => ⟨S1x3x512x512, .f32⟩
  | 61 => ⟨S1x3x512x512, .f32⟩
  | 62 => ⟨S1x3x512x512, .f32⟩
  | 63 => ⟨S1x3x512x512, .f32⟩
  | 64 => ⟨S512x512x1x1, .f32⟩
  | 65 => ⟨S512x512, .f32⟩
  | 66 => ⟨S1x1x512x512, .f32⟩
  | 67 => ⟨S1x3x512x512, .f32⟩
  | 68 => ⟨S1x3x512x512, .f32⟩
  | 69 => ⟨S1x3x512x512, .f32⟩
  | 70 => ⟨S1x3x512x512, .f32⟩
  | 71 => ⟨S512x512x1x1, .f32⟩
  | 72 => ⟨S512x512, .f32⟩
  | 73 => ⟨S1x1x512x512, .f32⟩
  | 74 => ⟨S1x3x512x512, .f32⟩
  | 75 => ⟨S1x3x512x512, .f32⟩
  | 76 => ⟨S1x3x512x512, .f32⟩
  | 77 => ⟨S1x3x512x512, .f32⟩
  | 78 => ⟨S512x512x1x1, .f32⟩
  | 79 => ⟨S512x512, .f32⟩
  | 80 => ⟨S1x1x512x512, .f32⟩
  | 81 => ⟨S1x3x512x512, .f32⟩
  | 82 => ⟨S1x3x512x512, .f32⟩
  | 83 => ⟨S1x3x512x512, .f32⟩
  | 84 => ⟨S1x3x512x512, .f32⟩
  | 85 => ⟨S512x512x1x1, .f32⟩
  | 86 => ⟨S512x512, .f32⟩
  | 87 => ⟨S1x1x512x512, .f32⟩
  | 88 => ⟨S1x3x512x512, .f32⟩
  | 89 => ⟨S1x3x512x512, .f32⟩
  | 90 => ⟨S1x3x512x512, .f32⟩
  | 91 => ⟨S1x3x512x512, .f32⟩
  | 92 => ⟨S512x512x1x1, .f32⟩
  | 93 => ⟨S512x512, .f32⟩
  | 94 => ⟨S1x1x512x512, .f32⟩
  | 95 => ⟨S1x3x512x512, .f32⟩
  | 96 => ⟨S1x3x512x512, .f32⟩
  | 97 => ⟨S1x3x512x512, .f32⟩
  | 98 => ⟨S1x3x512x512, .f32⟩
  | 99 => ⟨S512x512x1x1, .f32⟩
  | 100 => ⟨S512x512, .f32⟩
  | 101 => ⟨S1x1x512x512, .f32⟩
  | 102 => ⟨S1x3x512x512, .f32⟩
  | 103 => ⟨S1x3x512x512, .f32⟩
  | 104 => ⟨S1x3x512x512, .f32⟩
  | 105 => ⟨S1x3x512x512, .f32⟩
  | 106 => ⟨S512x512x1x1, .f32⟩
  | 107 => ⟨S512x512, .f32⟩
  | 108 => ⟨S1x1x512x512, .f32⟩
  | 109 => ⟨S1x3x512x512, .f32⟩
  | 110 => ⟨S1x3x512x512, .f32⟩
  | 111 => ⟨S1x3x512x512, .f32⟩
  | 112 => ⟨S1x3x512x512, .f32⟩
  | 113 => ⟨S512x512x1x1, .f32⟩
  | 114 => ⟨S512x512, .f32⟩
  | 115 => ⟨S1x1x512x512, .f32⟩
  | 116 => ⟨S1x3x512x512, .f32⟩
  | 117 => ⟨S1x3x512x512, .f32⟩
  | 118 => ⟨S1x3x512x512, .f32⟩
  | 119 => ⟨S1x3x512x512, .f32⟩
  | 120 => ⟨S512x512x1x1, .f32⟩
  | 121 => ⟨S512x512, .f32⟩
  | 122 => ⟨S1x1x512x512, .f32⟩
  | 123 => ⟨S1x3x512x512, .f32⟩
  | 124 => ⟨S1x3x512x512, .f32⟩
  | 125 => ⟨S1x3x512x512, .f32⟩
  | 126 => ⟨S1x3x512x512, .f32⟩
  | 127 => ⟨S512x512x1x1, .f32⟩
  | _ => ⟨S1x3x512x512, .f32⟩

abbrev hbmTy0_1 (i : Nat) : BufTy := match i % 128 with
  | 0 => ⟨S512x512, .f32⟩
  | 1 => ⟨S1x1x512x512, .f32⟩
  | 2 => ⟨S1x3x512x512, .f32⟩
  | 3 => ⟨S1x3x512x512, .f32⟩
  | 4 => ⟨S1x3x512x512, .f32⟩
  | 5 => ⟨S1x3x512x512, .f32⟩
  | 6 => ⟨S512x512x1x1, .f32⟩
  | 7 => ⟨S512x512, .f32⟩
  | 8 => ⟨S1x1x512x512, .f32⟩
  | 9 => ⟨S1x3x512x512, .f32⟩
  | 10 => ⟨S1x3x512x512, .f32⟩
  | 11 => ⟨S1x3x512x512, .f32⟩
  | 12 => ⟨S1x3x512x512, .f32⟩
  | 13 => ⟨S512x512x1x1, .f32⟩
  | 14 => ⟨S512x512, .f32⟩
  | 15 => ⟨S1x1x512x512, .f32⟩
  | 16 => ⟨S1x3x512x512, .f32⟩
  | 17 => ⟨S1x3x512x512, .f32⟩
  | 18 => ⟨S1x3x512x512, .f32⟩
  | 19 => ⟨S1x3x512x512, .f32⟩
  | 20 => ⟨S512x512x1x1, .f32⟩
  | 21 => ⟨S512x512, .f32⟩
  | 22 => ⟨S1x1x512x512, .f32⟩
  | 23 => ⟨S1x3x512x512, .f32⟩
  | 24 => ⟨S1x3x512x512, .f32⟩
  | 25 => ⟨S1x3x512x512, .f32⟩
  | 26 => ⟨S1x3x512x512, .f32⟩
  | 27 => ⟨S512x512x1x1, .f32⟩
  | 28 => ⟨S512x512, .f32⟩
  | 29 => ⟨S1x1x512x512, .f32⟩
  | 30 => ⟨S1x3x512x512, .f32⟩
  | 31 => ⟨S1x3x512x512, .f32⟩
  | 32 => ⟨S1x3x512x512, .f32⟩
  | 33 => ⟨S1x3x512x512, .f32⟩
  | 34 => ⟨S512x512x1x1, .f32⟩
  | 35 => ⟨S512x512, .f32⟩
  | 36 => ⟨S1x1x512x512, .f32⟩
  | 37 => ⟨S1x3x512x512, .f32⟩
  | 38 => ⟨S1x3x512x512, .f32⟩
  | 39 => ⟨S1x3x512x512, .f32⟩
  | 40 => ⟨S1x3x512x512, .f32⟩
  | 41 => ⟨S512x512x1x1, .f32⟩
  | 42 => ⟨S512x512, .f32⟩
  | 43 => ⟨S1x1x512x512, .f32⟩
  | 44 => ⟨S1x3x512x512, .f32⟩
  | 45 => ⟨S1x3x512x512, .f32⟩
  | 46 => ⟨S1x3x512x512, .f32⟩
  | 47 => ⟨S1x3x512x512, .f32⟩
  | 48 => ⟨S512x512x1x1, .f32⟩
  | 49 => ⟨S512x512, .f32⟩
  | 50 => ⟨S1x1x512x512, .f32⟩
  | 51 => ⟨S1x3x512x512, .f32⟩
  | 52 => ⟨S1x3x512x512, .f32⟩
  | 53 => ⟨S1x3x512x512, .f32⟩
  | 54 => ⟨S1x3x512x512, .f32⟩
  | 55 => ⟨S512x512x1x1, .f32⟩
  | 56 => ⟨S512x512, .f32⟩
  | 57 => ⟨S1x1x512x512, .f32⟩
  | 58 => ⟨S1x3x512x512, .f32⟩
  | 59 => ⟨S1x3x512x512, .f32⟩
  | 60 => ⟨S1x3x512x512, .f32⟩
  | 61 => ⟨S1x3x512x512, .f32⟩
  | 62 => ⟨S512x512x1x1, .f32⟩
  | 63 => ⟨S512x512, .f32⟩
  | 64 => ⟨S1x1x512x512, .f32⟩
  | 65 => ⟨S1x3x512x512, .f32⟩
  | 66 => ⟨S1x3x512x512, .f32⟩
  | 67 => ⟨S1x3x512x512, .f32⟩
  | 68 => ⟨S1x3x512x512, .f32⟩
  | 69 => ⟨S512x512x1x1, .f32⟩
  | 70 => ⟨S512x512, .f32⟩
  | 71 => ⟨S1x1x512x512, .f32⟩
  | 72 => ⟨S1x3x512x512, .f32⟩
  | 73 => ⟨S1x3x512x512, .f32⟩
  | 74 => ⟨S1x3x512x512, .f32⟩
  | 75 => ⟨S1x3x512x512, .f32⟩
  | 76 => ⟨S512x512x1x1, .f32⟩
  | 77 => ⟨S512x512, .f32⟩
  | 78 => ⟨S1x1x512x512, .f32⟩
  | 79 => ⟨S1x3x512x512, .f32⟩
  | 80 => ⟨S1x3x512x512, .f32⟩
  | 81 => ⟨S1x3x512x512, .f32⟩
  | 82 => ⟨S1x3x512x512, .f32⟩
  | 83 => ⟨S512x512x1x1, .f32⟩
  | 84 => ⟨S512x512, .f32⟩
  | 85 => ⟨S1x1x512x512, .f32⟩
  | 86 => ⟨S1x3x512x512, .f32⟩
  | 87 => ⟨S1x3x512x512, .f32⟩
  | 88 => ⟨S1x3x512x512, .f32⟩
  | 89 => ⟨S1x3x512x512, .f32⟩
  | 90 => ⟨S512x512x1x1, .f32⟩
  | 91 => ⟨S512x512, .f32⟩
  | 92 => ⟨S1x1x512x512, .f32⟩
  | 93 => ⟨S1x3x512x512, .f32⟩
  | 94 => ⟨S1x3x512x512, .f32⟩
  | 95 => ⟨S1x3x512x512, .f32⟩
  | 96 => ⟨S1x3x512x512, .f32⟩
  | 97 => ⟨S512x512x1x1, .f32⟩
  | 98 => ⟨S512x512, .f32⟩
  | 99 => ⟨S1x1x512x512, .f32⟩
  | 100 => ⟨S1x3x512x512, .f32⟩
  | 101 => ⟨S1x3x512x512, .f32⟩
  | 102 => ⟨S1x3x512x512, .f32⟩
  | 103 => ⟨S1x3x512x512, .f32⟩
  | 104 => ⟨S512x512x1x1, .f32⟩
  | 105 => ⟨S512x512, .f32⟩
  | 106 => ⟨S1x1x512x512, .f32⟩
  | 107 => ⟨S1x3x512x512, .f32⟩
  | 108 => ⟨S1x3x512x512, .f32⟩
  | 109 => ⟨S1x3x512x512, .f32⟩
  | 110 => ⟨S1x3x512x512, .f32⟩
  | 111 => ⟨S512x512x1x1, .f32⟩
  | 112 => ⟨S512x512, .f32⟩
  | 113 => ⟨S1x1x512x512, .f32⟩
  | 114 => ⟨S1x3x512x512, .f32⟩
  | 115 => ⟨S1x3x512x512, .f32⟩
  | 116 => ⟨S1x3x512x512, .f32⟩
  | 117 => ⟨S1x3x512x512, .f32⟩
  | 118 => ⟨S512x512x1x1, .f32⟩
  | 119 => ⟨S512x512, .f32⟩
  | 120 => ⟨S1x1x512x512, .f32⟩
  | 121 => ⟨S1x3x512x512, .f32⟩
  | 122 => ⟨S1x3x512x512, .f32⟩
  | 123 => ⟨S1x3x512x512, .f32⟩
  | 124 => ⟨S1x3x512x512, .f32⟩
  | 125 => ⟨S512x512x1x1, .f32⟩
  | 126 => ⟨S512x512, .f32⟩
  | 127 => ⟨S1x1x512x512, .f32⟩
  | _ => ⟨S1x3x512x512, .f32⟩

abbrev hbmTy0_2 (i : Nat) : BufTy := match i % 128 with
  | 0 => ⟨S1x3x512x512, .f32⟩
  | 1 => ⟨S1x3x512x512, .f32⟩
  | 2 => ⟨S1x3x512x512, .f32⟩
  | 3 => ⟨S1x3x512x512, .f32⟩
  | 4 => ⟨S512x512x1x1, .f32⟩
  | 5 => ⟨S512x512, .f32⟩
  | 6 => ⟨S1x1x512x512, .f32⟩
  | 7 => ⟨S1x3x512x512, .f32⟩
  | 8 => ⟨S1x3x512x512, .f32⟩
  | 9 => ⟨S1x3x512x512, .f32⟩
  | 10 => ⟨S1x3x512x512, .f32⟩
  | 11 => ⟨S512x512x1x1, .f32⟩
  | 12 => ⟨S512x512, .f32⟩
  | 13 => ⟨S1x1x512x512, .f32⟩
  | 14 => ⟨S1x3x512x512, .f32⟩
  | 15 => ⟨S1x3x512x512, .f32⟩
  | 16 => ⟨S1x3x512x512, .f32⟩
  | 17 => ⟨S1x3x512x512, .f32⟩
  | 18 => ⟨S512x512x1x1, .f32⟩
  | 19 => ⟨S512x512, .f32⟩
  | 20 => ⟨S1x1x512x512, .f32⟩
  | 21 => ⟨S1x3x512x512, .f32⟩
  | 22 => ⟨S1x3x512x512, .f32⟩
  | 23 => ⟨S1x3x512x512, .f32⟩
  | 24 => ⟨S1x3x512x512, .f32⟩
  | 25 => ⟨S512x512x1x1, .f32⟩
  | 26 => ⟨S512x512, .f32⟩
  | 27 => ⟨S1x1x512x512, .f32⟩
  | 28 => ⟨S1x3x512x512, .f32⟩
  | 29 => ⟨S1x3x512x512, .f32⟩
  | 30 => ⟨S1x3x512x512, .f32⟩
  | 31 => ⟨S1x3x512x512, .f32⟩
  | 32 => ⟨S512x512x1x1, .f32⟩
  | 33 => ⟨S512x512, .f32⟩
  | 34 => ⟨S1x1x512x512, .f32⟩
  | 35 => ⟨S1x3x512x512, .f32⟩
  | 36 => ⟨S1x3x512x512, .f32⟩
  | 37 => ⟨S1x3x512x512, .f32⟩
  | 38 => ⟨S1x3x512x512, .f32⟩
  | 39 => ⟨S512x512x1x1, .f32⟩
  | 40 => ⟨S512x512, .f32⟩
  | 41 => ⟨S1x1x512x512, .f32⟩
  | 42 => ⟨S1x3x512x512, .f32⟩
  | 43 => ⟨S1x3x512x512, .f32⟩
  | 44 => ⟨S1x3x512x512, .f32⟩
  | 45 => ⟨S1x3x512x512, .f32⟩
  | 46 => ⟨S512x512x1x1, .f32⟩
  | 47 => ⟨S512x512, .f32⟩
  | 48 => ⟨S1x1x512x512, .f32⟩
  | 49 => ⟨S1x3x512x512, .f32⟩
  | 50 => ⟨S1x3x512x512, .f32⟩
  | 51 => ⟨S1x3x512x512, .f32⟩
  | 52 => ⟨S1x3x512x512, .f32⟩
  | 53 => ⟨S512x512x1x1, .f32⟩
  | 54 => ⟨S512x512, .f32⟩
  | 55 => ⟨S1x1x512x512, .f32⟩
  | 56 => ⟨S1x3x512x512, .f32⟩
  | 57 => ⟨S1x3x512x512, .f32⟩
  | 58 => ⟨S1x3x512x512, .f32⟩
  | 59 => ⟨S1x3x512x512, .f32⟩
  | 60 => ⟨S512x512x1x1, .f32⟩
  | 61 => ⟨S512x512, .f32⟩
  | 62 => ⟨S1x1x512x512, .f32⟩
  | 63 => ⟨S1x3x512x512, .f32⟩
  | 64 => ⟨S1x3x512x512, .f32⟩
  | 65 => ⟨S1x3x512x512, .f32⟩
  | 66 => ⟨S1x3x512x512, .f32⟩
  | 67 => ⟨S512x512x1x1, .f32⟩
  | 68 => ⟨S512x512, .f32⟩
  | 69 => ⟨S1x1x512x512, .f32⟩
  | 70 => ⟨S1x3x512x512, .f32⟩
  | 71 => ⟨S1x3x512x512, .f32⟩
  | 72 => ⟨S1x3x512x512, .f32⟩
  | 73 => ⟨S1x3x512x512, .f32⟩
  | 74 => ⟨S512x512x1x1, .f32⟩
  | 75 => ⟨S512x512, .f32⟩
  | 76 => ⟨S1x1x512x512, .f32⟩
  | 77 => ⟨S1x3x512x512, .f32⟩
  | 78 => ⟨S1x3x512x512, .f32⟩
  | 79 => ⟨S1x3x512x512, .f32⟩
  | 80 => ⟨S1x3x512x512, .f32⟩
  | 81 => ⟨S512x512x1x1, .f32⟩
  | 82 => ⟨S512x512, .f32⟩
  | 83 => ⟨S1x1x512x512, .f32⟩
  | 84 => ⟨S1x3x512x512, .f32⟩
  | 85 => ⟨S1x3x512x512, .f32⟩
  | 86 => ⟨S1x3x512x512, .f32⟩
  | 87 => ⟨S1x3x512x512, .f32⟩
  | 88 => ⟨S512x512x1x1, .f32⟩
  | 89 => ⟨S512x512, .f32⟩
  | 90 => ⟨S1x1x512x512, .f32⟩
  | 91 => ⟨S1x3x512x512, .f32⟩
  | 92 => ⟨S1x3x512x512, .f32⟩
  | 93 => ⟨S1x3x512x512, .f32⟩
  | 94 => ⟨S1x3x512x512, .f32⟩
  | 95 => ⟨S512x512x1x1, .f32⟩
  | 96 => ⟨S512x512, .f32⟩
  | 97 => ⟨S1x1x512x512, .f32⟩
  | 98 => ⟨S1x3x512x512, .f32⟩
  | 99 => ⟨S1x3x512x512, .f32⟩
  | 100 => ⟨S1x3x512x512, .f32⟩
  | 101 => ⟨S1x3x512x512, .f32⟩
  | 102 => ⟨S512x512x1x1, .f32⟩
  | 103 => ⟨S512x512, .f32⟩
  | 104 => ⟨S1x1x512x512, .f32⟩
  | 105 => ⟨S1x3x512x512, .f32⟩
  | 106 => ⟨S1x3x512x512, .f32⟩
  | 107 => ⟨S1x3x512x512, .f32⟩
  | 108 => ⟨S1x3x512x512, .f32⟩
  | 109 => ⟨S512x512x1x1, .f32⟩
  | 110 => ⟨S512x512, .f32⟩
  | 111 => ⟨S1x1x512x512, .f32⟩
  | 112 => ⟨S1x3x512x512, .f32⟩
  | 113 => ⟨S1x3x512x512, .f32⟩
  | 114 => ⟨S1x3x512x512, .f32⟩
  | 115 => ⟨S1x3x512x512, .f32⟩
  | 116 => ⟨S512x512x1x1, .f32⟩
  | 117 => ⟨S512x512, .f32⟩
  | 118 => ⟨S1x1x512x512, .f32⟩
  | 119 => ⟨S1x3x512x512, .f32⟩
  | 120 => ⟨S1x3x512x512, .f32⟩
  | 121 => ⟨S1x3x512x512, .f32⟩
  | 122 => ⟨S1x3x512x512, .f32⟩
  | 123 => ⟨S512x512x1x1, .f32⟩
  | 124 => ⟨S512x512, .f32⟩
  | 125 => ⟨S1x1x512x512, .f32⟩
  | 126 => ⟨S1x3x512x512, .f32⟩
  | 127 => ⟨S1x3x512x512, .f32⟩
  | _ => ⟨S1x3x512x512, .f32⟩

abbrev hbmTy0_3 (i : Nat) : BufTy := match i % 128 with
  | 0 => ⟨S1x3x512x512, .f32⟩
  | 1 => ⟨S1x3x512x512, .f32⟩
  | 2 => ⟨S512x512x1x1, .f32⟩
  | 3 => ⟨S512x512, .f32⟩
  | 4 => ⟨S1x1x512x512, .f32⟩
  | 5 => ⟨S1x3x512x512, .f32⟩
  | 6 => ⟨S1x3x512x512, .f32⟩
  | 7 => ⟨S1x3x512x512, .f32⟩
  | 8 => ⟨S1x3x512x512, .f32⟩
  | 9 => ⟨S512x512x1x1, .f32⟩
  | 10 => ⟨S512x512, .f32⟩
  | 11 => ⟨S1x1x512x512, .f32⟩
  | 12 => ⟨S1x3x512x512, .f32⟩
  | 13 => ⟨S1x3x512x512, .f32⟩
  | 14 => ⟨S1x3x512x512, .f32⟩
  | 15 => ⟨S1x3x512x512, .f32⟩
  | 16 => ⟨S512x512x1x1, .f32⟩
  | 17 => ⟨S512x512, .f32⟩
  | 18 => ⟨S1x1x512x512, .f32⟩
  | 19 => ⟨S1x3x512x512, .f32⟩
  | 20 => ⟨S1x3x512x512, .f32⟩
  | 21 => ⟨S1x3x512x512, .f32⟩
  | 22 => ⟨S1x3x512x512, .f32⟩
  | 23 => ⟨S512x512x1x1, .f32⟩
  | 24 => ⟨S512x512, .f32⟩
  | 25 => ⟨S1x1x512x512, .f32⟩
  | 26 => ⟨S1x3x512x512, .f32⟩
  | 27 => ⟨S1x3x512x512, .f32⟩
  | 28 => ⟨S1x3x512x512, .f32⟩
  | 29 => ⟨S1x3x512x512, .f32⟩
  | 30 => ⟨S512x512x1x1, .f32⟩
  | 31 => ⟨S512x512, .f32⟩
  | 32 => ⟨S1x1x512x512, .f32⟩
  | 33 => ⟨S1x3x512x512, .f32⟩
  | 34 => ⟨S1x3x512x512, .f32⟩
  | 35 => ⟨S1x3x512x512, .f32⟩
  | 36 => ⟨S1x3x512x512, .f32⟩
  | 37 => ⟨S512x512x1x1, .f32⟩
  | 38 => ⟨S512x512, .f32⟩
  | 39 => ⟨S1x1x512x512, .f32⟩
  | 40 => ⟨S1x3x512x512, .f32⟩
  | 41 => ⟨S1x3x512x512, .f32⟩
  | 42 => ⟨S1x3x512x512, .f32⟩
  | 43 => ⟨S1x3x512x512, .f32⟩
  | 44 => ⟨S512x512x1x1, .f32⟩
  | 45 => ⟨S512x512, .f32⟩
  | 46 => ⟨S1x1x512x512, .f32⟩
  | 47 => ⟨S1x3x512x512, .f32⟩
  | 48 => ⟨S1x3x512x512, .f32⟩
  | 49 => ⟨S1x3x512x512, .f32⟩
  | 50 => ⟨S1x3x512x512, .f32⟩
  | 51 => ⟨S512x512x1x1, .f32⟩
  | 52 => ⟨S512x512, .f32⟩
  | 53 => ⟨S1x1x512x512, .f32⟩
  | 54 => ⟨S1x3x512x512, .f32⟩
  | 55 => ⟨S1x3x512x512, .f32⟩
  | 56 => ⟨S1x3x512x512, .f32⟩
  | 57 => ⟨S1x3x512x512, .f32⟩
  | 58 => ⟨S512x512x1x1, .f32⟩
  | 59 => ⟨S512x512, .f32⟩
  | 60 => ⟨S1x1x512x512, .f32⟩
  | 61 => ⟨S1x3x512x512, .f32⟩
  | 62 => ⟨S1x3x512x512, .f32⟩
  | 63 => ⟨S1x3x512x512, .f32⟩
  | 64 => ⟨S1x3x512x512, .f32⟩
  | 65 => ⟨S512x512x1x1, .f32⟩
  | 66 => ⟨S512x512, .f32⟩
  | 67 => ⟨S1x1x512x512, .f32⟩
  | 68 => ⟨S1x3x512x512, .f32⟩
  | 69 => ⟨S1x3x512x512, .f32⟩
  | 70 => ⟨S1x3x512x512, .f32⟩
  | 71 => ⟨S1x3x512x512, .f32⟩
  | 72 => ⟨S512x512x1x1, .f32⟩
  | 73 => ⟨S512x512, .f32⟩
  | 74 => ⟨S1x1x512x512, .f32⟩
  | 75 => ⟨S1x3x512x512, .f32⟩
  | 76 => ⟨S1x3x512x512, .f32⟩
  | 77 => ⟨S1x3x512x512, .f32⟩
  | 78 => ⟨S1x3x512x512, .f32⟩
  | 79 => ⟨S512x512x1x1, .f32⟩
  | 80 => ⟨S512x512, .f32⟩
  | 81 => ⟨S1x1x512x512, .f32⟩
  | 82 => ⟨S1x3x512x512, .f32⟩
  | 83 => ⟨S1x3x512x512, .f32⟩
  | 84 => ⟨S1x3x512x512, .f32⟩
  | 85 => ⟨S1x3x512x512, .f32⟩
  | 86 => ⟨S512x512x1x1, .f32⟩
  | 87 => ⟨S512x512, .f32⟩
  | 88 => ⟨S1x1x512x512, .f32⟩
  | 89 => ⟨S1x3x512x512, .f32⟩
  | 90 => ⟨S1x3x512x512, .f32⟩
  | 91 => ⟨S1x3x512x512, .f32⟩
  | 92 => ⟨S1x3x512x512, .f32⟩
  | 93 => ⟨S512x512x1x1, .f32⟩
  | 94 => ⟨S512x512, .f32⟩
  | 95 => ⟨S1x1x512x512, .f32⟩
  | 96 => ⟨S1x3x512x512, .f32⟩
  | 97 => ⟨S1x3x512x512, .f32⟩
  | 98 => ⟨S1x3x512x512, .f32⟩
  | 99 => ⟨S1x3x512x512, .f32⟩
  | 100 => ⟨S512x512x1x1, .f32⟩
  | 101 => ⟨S512x512, .f32⟩
  | 102 => ⟨S1x1x512x512, .f32⟩
  | 103 => ⟨S1x3x512x512, .f32⟩
  | 104 => ⟨S1x3x512x512, .f32⟩
  | 105 => ⟨S1x3x512x512, .f32⟩
  | 106 => ⟨S1x3x512x512, .f32⟩
  | 107 => ⟨S512x512x1x1, .f32⟩
  | 108 => ⟨S512x512, .f32⟩
  | 109 => ⟨S1x1x512x512, .f32⟩
  | 110 => ⟨S1x3x512x512, .f32⟩
  | 111 => ⟨S1x3x512x512, .f32⟩
  | 112 => ⟨S1x3x512x512, .f32⟩
  | 113 => ⟨S1x3x512x512, .f32⟩
  | 114 => ⟨S512x512x1x1, .f32⟩
  | 115 => ⟨S512x512, .f32⟩
  | 116 => ⟨S1x1x512x512, .f32⟩
  | 117 => ⟨S1x3x512x512, .f32⟩
  | 118 => ⟨S1x3x512x512, .f32⟩
  | 119 => ⟨S1x3x512x512, .f32⟩
  | 120 => ⟨S1x3x512x512, .f32⟩
  | 121 => ⟨S512x512x1x1, .f32⟩
  | 122 => ⟨S512x512, .f32⟩
  | 123 => ⟨S1x1x512x512, .f32⟩
  | 124 => ⟨S1x3x512x512, .f32⟩
  | 125 => ⟨S1x3x512x512, .f32⟩
  | 126 => ⟨S1x3x512x512, .f32⟩
  | 127 => ⟨S1x3x512x512, .f32⟩
  | _ => ⟨S1x3x512x512, .f32⟩

abbrev hbmTy0_4 (i : Nat) : BufTy := match i % 128 with
  | 0 => ⟨S512x512x1x1, .f32⟩
  | 1 => ⟨S512x512, .f32⟩
  | 2 => ⟨S1x1x512x512, .f32⟩
  | 3 => ⟨S1x3x512x512, .f32⟩
  | 4 => ⟨S1x3x512x512, .f32⟩
  | 5 => ⟨S1x3x512x512, .f32⟩
  | 6 => ⟨S1x3x512x512, .f32⟩
  | 7 => ⟨S512x512x1x1, .f32⟩
  | 8 => ⟨S512x512, .f32⟩
  | 9 => ⟨S1x1x512x512, .f32⟩
  | 10 => ⟨S1x3x512x512, .f32⟩
  | 11 => ⟨S1x3x512x512, .f32⟩
  | 12 => ⟨S1x3x512x512, .f32⟩
  | 13 => ⟨S1x3x512x512, .f32⟩
  | 14 => ⟨S512x512x1x1, .f32⟩
  | 15 => ⟨S512x512, .f32⟩
  | 16 => ⟨S1x1x512x512, .f32⟩
  | 17 => ⟨S1x3x512x512, .f32⟩
  | 18 => ⟨S1x3x512x512, .f32⟩
  | 19 => ⟨S1x3x512x512, .f32⟩
  | 20 => ⟨S1x3x512x512, .f32⟩
  | 21 => ⟨S512x512x1x1, .f32⟩
  | 22 => ⟨S512x512, .f32⟩
  | 23 => ⟨S1x1x512x512, .f32⟩
  | 24 => ⟨S1x3x512x512, .f32⟩
  | 25 => ⟨S1x3x512x512, .f32⟩
  | 26 => ⟨S1x3x512x512, .f32⟩
  | 27 => ⟨S1x3x512x512, .f32⟩
  | 28 => ⟨S512x512x1x1, .f32⟩
  | 29 => ⟨S512x512, .f32⟩
  | 30 => ⟨S1x1x512x512, .f32⟩
  | 31 => ⟨S1x3x512x512, .f32⟩
  | 32 => ⟨S1x3x512x512, .f32⟩
  | 33 => ⟨S1x3x512x512, .f32⟩
  | 34 => ⟨S1x3x512x512, .f32⟩
  | 35 => ⟨S512x512x1x1, .f32⟩
  | 36 => ⟨S512x512, .f32⟩
  | 37 => ⟨S1x1x512x512, .f32⟩
  | 38 => ⟨S1x3x512x512, .f32⟩
  | 39 => ⟨S1x3x512x512, .f32⟩
  | 40 => ⟨S1x3x512x512, .f32⟩
  | 41 => ⟨S1x3x512x512, .f32⟩
  | 42 => ⟨S512x512x1x1, .f32⟩
  | 43 => ⟨S512x512, .f32⟩
  | 44 => ⟨S1x1x512x512, .f32⟩
  | 45 => ⟨S1x3x512x512, .f32⟩
  | 46 => ⟨S1x3x512x512, .f32⟩
  | 47 => ⟨S1x3x512x512, .f32⟩
  | 48 => ⟨S1x3x512x512, .f32⟩
  | 49 => ⟨S512x512x1x1, .f32⟩
  | 50 => ⟨S512x512, .f32⟩
  | 51 => ⟨S1x1x512x512, .f32⟩
  | 52 => ⟨S1x3x512x512, .f32⟩
  | 53 => ⟨S1x3x512x512, .f32⟩
  | 54 => ⟨S1x3x512x512, .f32⟩
  | 55 => ⟨S1x3x512x512, .f32⟩
  | 56 => ⟨S512x512x1x1, .f32⟩
  | 57 => ⟨S512x512, .f32⟩
  | 58 => ⟨S1x1x512x512, .f32⟩
  | 59 => ⟨S1x3x512x512, .f32⟩
  | 60 => ⟨S1x3x512x512, .f32⟩
  | 61 => ⟨S1x3x512x512, .f32⟩
  | 62 => ⟨S1x3x512x512, .f32⟩
  | 63 => ⟨S512x512x1x1, .f32⟩
  | 64 => ⟨S512x512, .f32⟩
  | 65 => ⟨S1x1x512x512, .f32⟩
  | 66 => ⟨S1x3x512x512, .f32⟩
  | 67 => ⟨S1x3x512x512, .f32⟩
  | 68 => ⟨S1x3x512x512, .f32⟩
  | 69 => ⟨S1x3x512x512, .f32⟩
  | 70 => ⟨S512x512x1x1, .f32⟩
  | 71 => ⟨S512x512, .f32⟩
  | 72 => ⟨S1x1x512x512, .f32⟩
  | 73 => ⟨S1x3x512x512, .f32⟩
  | 74 => ⟨S1x3x512x512, .f32⟩
  | 75 => ⟨S1x3x512x512, .f32⟩
  | _ => ⟨S1x3x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x3x512x512, .f32⟩

abbrev bufTy : (tb : Table) → Fin (tcTables nBuf tb) → BufTy
  | .hbm, ⟨i, _⟩ => hbmTy i
  | _, _ => ⟨S1x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_v265 : Ref sig .tc := ⟨.hbm, 284, rfl⟩
abbrev main_v266 : Ref sig .tc := ⟨.hbm, 285, rfl⟩
abbrev main_v267 : Ref sig .tc := ⟨.hbm, 286, rfl⟩
abbrev main_v268 : Ref sig .tc := ⟨.hbm, 287, rfl⟩
abbrev main_v269 : Ref sig .tc := ⟨.hbm, 288, rfl⟩
abbrev main_v270 : Ref sig .tc := ⟨.hbm, 289, rfl⟩
abbrev main_v271 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_v276 : Ref sig .tc := ⟨.hbm, 295, rfl⟩
abbrev main_v277 : Ref sig .tc := ⟨.hbm, 296, rfl⟩
abbrev main_v278 : Ref sig .tc := ⟨.hbm, 297, rfl⟩
abbrev main_v279 : Ref sig .tc := ⟨.hbm, 298, rfl⟩
abbrev main_v280 : Ref sig .tc := ⟨.hbm, 299, rfl⟩
abbrev main_v281 : Ref sig .tc := ⟨.hbm, 300, rfl⟩
abbrev main_v282 : Ref sig .tc := ⟨.hbm, 301, rfl⟩
abbrev main_v283 : Ref sig .tc := ⟨.hbm, 302, rfl⟩
abbrev main_v284 : Ref sig .tc := ⟨.hbm, 303, rfl⟩
abbrev main_v285 : Ref sig .tc := ⟨.hbm, 304, rfl⟩
abbrev main_v286 : Ref sig .tc := ⟨.hbm, 305, rfl⟩
abbrev main_v287 : Ref sig .tc := ⟨.hbm, 306, rfl⟩
abbrev main_v288 : Ref sig .tc := ⟨.hbm, 307, rfl⟩
abbrev main_v289 : Ref sig .tc := ⟨.hbm, 308, rfl⟩
abbrev main_v290 : Ref sig .tc := ⟨.hbm, 309, rfl⟩
abbrev main_v291 : Ref sig .tc := ⟨.hbm, 310, rfl⟩
abbrev main_v292 : Ref sig .tc := ⟨.hbm, 311, rfl⟩
abbrev main_v293 : Ref sig .tc := ⟨.hbm, 312, rfl⟩
abbrev main_v294 : Ref sig .tc := ⟨.hbm, 313, rfl⟩
abbrev main_v295 : Ref sig .tc := ⟨.hbm, 314, rfl⟩
abbrev main_v296 : Ref sig .tc := ⟨.hbm, 315, rfl⟩
abbrev main_v297 : Ref sig .tc := ⟨.hbm, 316, rfl⟩
abbrev main_v298 : Ref sig .tc := ⟨.hbm, 317, rfl⟩
abbrev main_v299 : Ref sig .tc := ⟨.hbm, 318, rfl⟩
abbrev main_v300 : Ref sig .tc := ⟨.hbm, 319, rfl⟩
abbrev main_v301 : Ref sig .tc := ⟨.hbm, 320, rfl⟩
abbrev main_v302 : Ref sig .tc := ⟨.hbm, 321, rfl⟩
abbrev main_v303 : Ref sig .tc := ⟨.hbm, 322, rfl⟩
abbrev main_v304 : Ref sig .tc := ⟨.hbm, 323, rfl⟩
abbrev main_v305 : Ref sig .tc := ⟨.hbm, 324, rfl⟩
abbrev main_v306 : Ref sig .tc := ⟨.hbm, 325, rfl⟩
abbrev main_v307 : Ref sig .tc := ⟨.hbm, 326, rfl⟩
abbrev main_v308 : Ref sig .tc := ⟨.hbm, 327, rfl⟩
abbrev main_v309 : Ref sig .tc := ⟨.hbm, 328, rfl⟩
abbrev main_v310 : Ref sig .tc := ⟨.hbm, 329, rfl⟩
abbrev main_v311 : Ref sig .tc := ⟨.hbm, 330, rfl⟩
abbrev main_v312 : Ref sig .tc := ⟨.hbm, 331, rfl⟩
abbrev main_v313 : Ref sig .tc := ⟨.hbm, 332, rfl⟩
abbrev main_v314 : Ref sig .tc := ⟨.hbm, 333, rfl⟩
abbrev main_v315 : Ref sig .tc := ⟨.hbm, 334, rfl⟩
abbrev main_v316 : Ref sig .tc := ⟨.hbm, 335, rfl⟩
abbrev main_v317 : Ref sig .tc := ⟨.hbm, 336, rfl⟩
abbrev main_v318 : Ref sig .tc := ⟨.hbm, 337, rfl⟩
abbrev main_v319 : Ref sig .tc := ⟨.hbm, 338, rfl⟩
abbrev main_v320 : Ref sig .tc := ⟨.hbm, 339, rfl⟩
abbrev main_v321 : Ref sig .tc := ⟨.hbm, 340, rfl⟩
abbrev main_v322 : Ref sig .tc := ⟨.hbm, 341, rfl⟩
abbrev main_v323 : Ref sig .tc := ⟨.hbm, 342, rfl⟩
abbrev main_v324 : Ref sig .tc := ⟨.hbm, 343, rfl⟩
abbrev main_v325 : Ref sig .tc := ⟨.hbm, 344, rfl⟩
abbrev main_v326 : Ref sig .tc := ⟨.hbm, 345, rfl⟩
abbrev main_v327 : Ref sig .tc := ⟨.hbm, 346, rfl⟩
abbrev main_v328 : Ref sig .tc := ⟨.hbm, 347, rfl⟩
abbrev main_v329 : Ref sig .tc := ⟨.hbm, 348, rfl⟩
abbrev main_v330 : Ref sig .tc := ⟨.hbm, 349, rfl⟩
abbrev main_v331 : Ref sig .tc := ⟨.hbm, 350, rfl⟩
abbrev main_v332 : Ref sig .tc := ⟨.hbm, 351, rfl⟩
abbrev main_v333 : Ref sig .tc := ⟨.hbm, 352, rfl⟩
abbrev main_v334 : Ref sig .tc := ⟨.hbm, 353, rfl⟩
abbrev main_v335 : Ref sig .tc := ⟨.hbm, 354, rfl⟩
abbrev main_v336 : Ref sig .tc := ⟨.hbm, 355, rfl⟩
abbrev main_v337 : Ref sig .tc := ⟨.hbm, 356, rfl⟩
abbrev main_v338 : Ref sig .tc := ⟨.hbm, 357, rfl⟩
abbrev main_v339 : Ref sig .tc := ⟨.hbm, 358, rfl⟩
abbrev main_v340 : Ref sig .tc := ⟨.hbm, 359, rfl⟩
abbrev main_v341 : Ref sig .tc := ⟨.hbm, 360, rfl⟩
abbrev main_v342 : Ref sig .tc := ⟨.hbm, 361, rfl⟩
abbrev main_v343 : Ref sig .tc := ⟨.hbm, 362, rfl⟩
abbrev main_v344 : Ref sig .tc := ⟨.hbm, 363, rfl⟩
abbrev main_v345 : Ref sig .tc := ⟨.hbm, 364, rfl⟩
abbrev main_v346 : Ref sig .tc := ⟨.hbm, 365, rfl⟩
abbrev main_v347 : Ref sig .tc := ⟨.hbm, 366, rfl⟩
abbrev main_v348 : Ref sig .tc := ⟨.hbm, 367, rfl⟩
abbrev main_v349 : Ref sig .tc := ⟨.hbm, 368, rfl⟩
abbrev main_v350 : Ref sig .tc := ⟨.hbm, 369, rfl⟩
abbrev main_v351 : Ref sig .tc := ⟨.hbm, 370, rfl⟩
abbrev main_v352 : Ref sig .tc := ⟨.hbm, 371, rfl⟩
abbrev main_v353 : Ref sig .tc := ⟨.hbm, 372, rfl⟩
abbrev main_v354 : Ref sig .tc := ⟨.hbm, 373, rfl⟩
abbrev main_v355 : Ref sig .tc := ⟨.hbm, 374, rfl⟩
abbrev main_v356 : Ref sig .tc := ⟨.hbm, 375, rfl⟩
abbrev main_v357 : Ref sig .tc := ⟨.hbm, 376, rfl⟩
abbrev main_v358 : Ref sig .tc := ⟨.hbm, 377, rfl⟩
abbrev main_v359 : Ref sig .tc := ⟨.hbm, 378, rfl⟩
abbrev main_v360 : Ref sig .tc := ⟨.hbm, 379, rfl⟩
abbrev main_v361 : Ref sig .tc := ⟨.hbm, 380, rfl⟩
abbrev main_v362 : Ref sig .tc := ⟨.hbm, 381, rfl⟩
abbrev main_v363 : Ref sig .tc := ⟨.hbm, 382, rfl⟩
abbrev main_v364 : Ref sig .tc := ⟨.hbm, 383, rfl⟩
abbrev main_v365 : Ref sig .tc := ⟨.hbm, 384, rfl⟩
abbrev main_v366 : Ref sig .tc := ⟨.hbm, 385, rfl⟩
abbrev main_v367 : Ref sig .tc := ⟨.hbm, 386, rfl⟩
abbrev main_v368 : Ref sig .tc := ⟨.hbm, 387, rfl⟩
abbrev main_v369 : Ref sig .tc := ⟨.hbm, 388, rfl⟩
abbrev main_v370 : Ref sig .tc := ⟨.hbm, 389, rfl⟩
abbrev main_v371 : Ref sig .tc := ⟨.hbm, 390, rfl⟩
abbrev main_v372 : Ref sig .tc := ⟨.hbm, 391, rfl⟩
abbrev main_v373 : Ref sig .tc := ⟨.hbm, 392, rfl⟩
abbrev main_v374 : Ref sig .tc := ⟨.hbm, 393, rfl⟩
abbrev main_v375 : Ref sig .tc := ⟨.hbm, 394, rfl⟩
abbrev main_v376 : Ref sig .tc := ⟨.hbm, 395, rfl⟩
abbrev main_v377 : Ref sig .tc := ⟨.hbm, 396, rfl⟩
abbrev main_v378 : Ref sig .tc := ⟨.hbm, 397, rfl⟩
abbrev main_v379 : Ref sig .tc := ⟨.hbm, 398, rfl⟩
abbrev main_v380 : Ref sig .tc := ⟨.hbm, 399, rfl⟩
abbrev main_v381 : Ref sig .tc := ⟨.hbm, 400, rfl⟩
abbrev main_v382 : Ref sig .tc := ⟨.hbm, 401, rfl⟩
abbrev main_v383 : Ref sig .tc := ⟨.hbm, 402, rfl⟩
abbrev main_v384 : Ref sig .tc := ⟨.hbm, 403, rfl⟩
abbrev main_v385 : Ref sig .tc := ⟨.hbm, 404, rfl⟩
abbrev main_v386 : Ref sig .tc := ⟨.hbm, 405, rfl⟩
abbrev main_v387 : Ref sig .tc := ⟨.hbm, 406, rfl⟩
abbrev main_v388 : Ref sig .tc := ⟨.hbm, 407, rfl⟩
abbrev main_v389 : Ref sig .tc := ⟨.hbm, 408, rfl⟩
abbrev main_v390 : Ref sig .tc := ⟨.hbm, 409, rfl⟩
abbrev main_v391 : Ref sig .tc := ⟨.hbm, 410, rfl⟩
abbrev main_v392 : Ref sig .tc := ⟨.hbm, 411, rfl⟩
abbrev main_v393 : Ref sig .tc := ⟨.hbm, 412, rfl⟩
abbrev main_v394 : Ref sig .tc := ⟨.hbm, 413, rfl⟩
abbrev main_v395 : Ref sig .tc := ⟨.hbm, 414, rfl⟩
abbrev main_v396 : Ref sig .tc := ⟨.hbm, 415, rfl⟩
abbrev main_v397 : Ref sig .tc := ⟨.hbm, 416, rfl⟩
abbrev main_v398 : Ref sig .tc := ⟨.hbm, 417, rfl⟩
abbrev main_v399 : Ref sig .tc := ⟨.hbm, 418, rfl⟩
abbrev main_v400 : Ref sig .tc := ⟨.hbm, 419, rfl⟩
abbrev main_v401 : Ref sig .tc := ⟨.hbm, 420, rfl⟩
abbrev main_v402 : Ref sig .tc := ⟨.hbm, 421, rfl⟩
abbrev main_v403 : Ref sig .tc := ⟨.hbm, 422, rfl⟩
abbrev main_v404 : Ref sig .tc := ⟨.hbm, 423, rfl⟩
abbrev main_v405 : Ref sig .tc := ⟨.hbm, 424, rfl⟩
abbrev main_v406 : Ref sig .tc := ⟨.hbm, 425, rfl⟩
abbrev main_v407 : Ref sig .tc := ⟨.hbm, 426, rfl⟩
abbrev main_v408 : Ref sig .tc := ⟨.hbm, 427, rfl⟩
abbrev main_v409 : Ref sig .tc := ⟨.hbm, 428, rfl⟩
abbrev main_v410 : Ref sig .tc := ⟨.hbm, 429, rfl⟩
abbrev main_v411 : Ref sig .tc := ⟨.hbm, 430, rfl⟩
abbrev main_v412 : Ref sig .tc := ⟨.hbm, 431, rfl⟩
abbrev main_v413 : Ref sig .tc := ⟨.hbm, 432, rfl⟩
abbrev main_v414 : Ref sig .tc := ⟨.hbm, 433, rfl⟩
abbrev main_v415 : Ref sig .tc := ⟨.hbm, 434, rfl⟩
abbrev main_v416 : Ref sig .tc := ⟨.hbm, 435, rfl⟩
abbrev main_v417 : Ref sig .tc := ⟨.hbm, 436, rfl⟩
abbrev main_v418 : Ref sig .tc := ⟨.hbm, 437, rfl⟩
abbrev main_v419 : Ref sig .tc := ⟨.hbm, 438, rfl⟩
abbrev main_v420 : Ref sig .tc := ⟨.hbm, 439, rfl⟩
abbrev main_v421 : Ref sig .tc := ⟨.hbm, 440, rfl⟩
abbrev main_v422 : Ref sig .tc := ⟨.hbm, 441, rfl⟩
abbrev main_v423 : Ref sig .tc := ⟨.hbm, 442, rfl⟩
abbrev main_v424 : Ref sig .tc := ⟨.hbm, 443, rfl⟩
abbrev main_v425 : Ref sig .tc := ⟨.hbm, 444, rfl⟩
abbrev main_v426 : Ref sig .tc := ⟨.hbm, 445, rfl⟩
abbrev main_v427 : Ref sig .tc := ⟨.hbm, 446, rfl⟩
abbrev main_v428 : Ref sig .tc := ⟨.hbm, 447, rfl⟩
abbrev main_v429 : Ref sig .tc := ⟨.hbm, 448, rfl⟩
abbrev main_v430 : Ref sig .tc := ⟨.hbm, 449, rfl⟩
abbrev main_v431 : Ref sig .tc := ⟨.hbm, 450, rfl⟩
abbrev main_v432 : Ref sig .tc := ⟨.hbm, 451, rfl⟩
abbrev main_v433 : Ref sig .tc := ⟨.hbm, 452, rfl⟩
abbrev main_v434 : Ref sig .tc := ⟨.hbm, 453, rfl⟩
abbrev main_v435 : Ref sig .tc := ⟨.hbm, 454, rfl⟩
abbrev main_v436 : Ref sig .tc := ⟨.hbm, 455, rfl⟩
abbrev main_v437 : Ref sig .tc := ⟨.hbm, 456, rfl⟩
abbrev main_v438 : Ref sig .tc := ⟨.hbm, 457, rfl⟩
abbrev main_v439 : Ref sig .tc := ⟨.hbm, 458, rfl⟩
abbrev main_v440 : Ref sig .tc := ⟨.hbm, 459, rfl⟩
abbrev main_v441 : Ref sig .tc := ⟨.hbm, 460, rfl⟩
abbrev main_v442 : Ref sig .tc := ⟨.hbm, 461, rfl⟩
abbrev main_v443 : Ref sig .tc := ⟨.hbm, 462, rfl⟩
abbrev main_v444 : Ref sig .tc := ⟨.hbm, 463, rfl⟩
abbrev main_v445 : Ref sig .tc := ⟨.hbm, 464, rfl⟩
abbrev main_v446 : Ref sig .tc := ⟨.hbm, 465, rfl⟩
abbrev main_v447 : Ref sig .tc := ⟨.hbm, 466, rfl⟩
abbrev main_v448 : Ref sig .tc := ⟨.hbm, 467, rfl⟩
abbrev main_v449 : Ref sig .tc := ⟨.hbm, 468, rfl⟩
abbrev main_v450 : Ref sig .tc := ⟨.hbm, 469, rfl⟩
abbrev main_v451 : Ref sig .tc := ⟨.hbm, 470, rfl⟩
abbrev main_v452 : Ref sig .tc := ⟨.hbm, 471, rfl⟩
abbrev main_v453 : Ref sig .tc := ⟨.hbm, 472, rfl⟩
abbrev main_v454 : Ref sig .tc := ⟨.hbm, 473, rfl⟩
abbrev main_v455 : Ref sig .tc := ⟨.hbm, 474, rfl⟩
abbrev main_v456 : Ref sig .tc := ⟨.hbm, 475, rfl⟩
abbrev main_v457 : Ref sig .tc := ⟨.hbm, 476, rfl⟩
abbrev main_v458 : Ref sig .tc := ⟨.hbm, 477, rfl⟩
abbrev main_v459 : Ref sig .tc := ⟨.hbm, 478, rfl⟩
abbrev main_v460 : Ref sig .tc := ⟨.hbm, 479, rfl⟩
abbrev main_v461 : Ref sig .tc := ⟨.hbm, 480, rfl⟩
abbrev main_v462 : Ref sig .tc := ⟨.hbm, 481, rfl⟩
abbrev main_v463 : Ref sig .tc := ⟨.hbm, 482, rfl⟩
abbrev main_v464 : Ref sig .tc := ⟨.hbm, 483, rfl⟩
abbrev main_v465 : Ref sig .tc := ⟨.hbm, 484, rfl⟩
abbrev main_v466 : Ref sig .tc := ⟨.hbm, 485, rfl⟩
abbrev main_v467 : Ref sig .tc := ⟨.hbm, 486, rfl⟩
abbrev main_v468 : Ref sig .tc := ⟨.hbm, 487, rfl⟩
abbrev main_v469 : Ref sig .tc := ⟨.hbm, 488, rfl⟩
abbrev main_v470 : Ref sig .tc := ⟨.hbm, 489, rfl⟩
abbrev main_v471 : Ref sig .tc := ⟨.hbm, 490, rfl⟩
abbrev main_v472 : Ref sig .tc := ⟨.hbm, 491, rfl⟩
abbrev main_v473 : Ref sig .tc := ⟨.hbm, 492, rfl⟩
abbrev main_v474 : Ref sig .tc := ⟨.hbm, 493, rfl⟩
abbrev main_v475 : Ref sig .tc := ⟨.hbm, 494, rfl⟩
abbrev main_v476 : Ref sig .tc := ⟨.hbm, 495, rfl⟩
abbrev main_v477 : Ref sig .tc := ⟨.hbm, 496, rfl⟩
abbrev main_v478 : Ref sig .tc := ⟨.hbm, 497, rfl⟩
abbrev main_v479 : Ref sig .tc := ⟨.hbm, 498, rfl⟩
abbrev main_v480 : Ref sig .tc := ⟨.hbm, 499, rfl⟩
abbrev main_v481 : Ref sig .tc := ⟨.hbm, 500, rfl⟩
abbrev main_v482 : Ref sig .tc := ⟨.hbm, 501, rfl⟩
abbrev main_v483 : Ref sig .tc := ⟨.hbm, 502, rfl⟩
abbrev main_v484 : Ref sig .tc := ⟨.hbm, 503, rfl⟩
abbrev main_v485 : Ref sig .tc := ⟨.hbm, 504, rfl⟩
abbrev main_v486 : Ref sig .tc := ⟨.hbm, 505, rfl⟩
abbrev main_v487 : Ref sig .tc := ⟨.hbm, 506, rfl⟩
abbrev main_v488 : Ref sig .tc := ⟨.hbm, 507, rfl⟩
abbrev main_v489 : Ref sig .tc := ⟨.hbm, 508, rfl⟩
abbrev main_v490 : Ref sig .tc := ⟨.hbm, 509, rfl⟩
abbrev main_v491 : Ref sig .tc := ⟨.hbm, 510, rfl⟩
abbrev main_v492 : Ref sig .tc := ⟨.hbm, 511, rfl⟩
abbrev main_v493 : Ref sig .tc := ⟨.hbm, 512, rfl⟩
abbrev main_v494 : Ref sig .tc := ⟨.hbm, 513, rfl⟩
abbrev main_v495 : Ref sig .tc := ⟨.hbm, 514, rfl⟩
abbrev main_v496 : Ref sig .tc := ⟨.hbm, 515, rfl⟩
abbrev main_v497 : Ref sig .tc := ⟨.hbm, 516, rfl⟩
abbrev main_v498 : Ref sig .tc := ⟨.hbm, 517, rfl⟩
abbrev main_v499 : Ref sig .tc := ⟨.hbm, 518, rfl⟩
abbrev main_v500 : Ref sig .tc := ⟨.hbm, 519, rfl⟩
abbrev main_v501 : Ref sig .tc := ⟨.hbm, 520, rfl⟩
abbrev main_v502 : Ref sig .tc := ⟨.hbm, 521, rfl⟩
abbrev main_v503 : Ref sig .tc := ⟨.hbm, 522, rfl⟩
abbrev main_v504 : Ref sig .tc := ⟨.hbm, 523, rfl⟩
abbrev main_v505 : Ref sig .tc := ⟨.hbm, 524, rfl⟩
abbrev main_v506 : Ref sig .tc := ⟨.hbm, 525, rfl⟩
abbrev main_v507 : Ref sig .tc := ⟨.hbm, 526, rfl⟩
abbrev main_v508 : Ref sig .tc := ⟨.hbm, 527, rfl⟩
abbrev main_v509 : Ref sig .tc := ⟨.hbm, 528, rfl⟩
abbrev main_v510 : Ref sig .tc := ⟨.hbm, 529, rfl⟩
abbrev main_v511 : Ref sig .tc := ⟨.hbm, 530, rfl⟩
abbrev main_v512 : Ref sig .tc := ⟨.hbm, 531, rfl⟩
abbrev main_v513 : Ref sig .tc := ⟨.hbm, 532, rfl⟩
abbrev main_v514 : Ref sig .tc := ⟨.hbm, 533, rfl⟩
abbrev main_v515 : Ref sig .tc := ⟨.hbm, 534, rfl⟩
abbrev main_v516 : Ref sig .tc := ⟨.hbm, 535, rfl⟩
abbrev main_v517 : Ref sig .tc := ⟨.hbm, 536, rfl⟩
abbrev main_v518 : Ref sig .tc := ⟨.hbm, 537, rfl⟩
abbrev main_v519 : Ref sig .tc := ⟨.hbm, 538, rfl⟩
abbrev main_v520 : Ref sig .tc := ⟨.hbm, 539, rfl⟩
abbrev main_v521 : Ref sig .tc := ⟨.hbm, 540, rfl⟩
abbrev main_v522 : Ref sig .tc := ⟨.hbm, 541, rfl⟩
abbrev main_v523 : Ref sig .tc := ⟨.hbm, 542, rfl⟩
abbrev main_v524 : Ref sig .tc := ⟨.hbm, 543, rfl⟩
abbrev main_v525 : Ref sig .tc := ⟨.hbm, 544, rfl⟩
abbrev main_v526 : Ref sig .tc := ⟨.hbm, 545, rfl⟩
abbrev main_v527 : Ref sig .tc := ⟨.hbm, 546, rfl⟩
abbrev main_v528 : Ref sig .tc := ⟨.hbm, 547, rfl⟩
abbrev main_v529 : Ref sig .tc := ⟨.hbm, 548, rfl⟩
abbrev main_v530 : Ref sig .tc := ⟨.hbm, 549, rfl⟩
abbrev main_v531 : Ref sig .tc := ⟨.hbm, 550, rfl⟩
abbrev main_v532 : Ref sig .tc := ⟨.hbm, 551, rfl⟩
abbrev main_v533 : Ref sig .tc := ⟨.hbm, 552, rfl⟩
abbrev main_v534 : Ref sig .tc := ⟨.hbm, 553, rfl⟩
abbrev main_v535 : Ref sig .tc := ⟨.hbm, 554, rfl⟩
abbrev main_v536 : Ref sig .tc := ⟨.hbm, 555, rfl⟩
abbrev main_v537 : Ref sig .tc := ⟨.hbm, 556, rfl⟩
abbrev main_v538 : Ref sig .tc := ⟨.hbm, 557, rfl⟩
abbrev main_v539 : Ref sig .tc := ⟨.hbm, 558, rfl⟩
abbrev main_v540 : Ref sig .tc := ⟨.hbm, 559, rfl⟩
abbrev main_v541 : Ref sig .tc := ⟨.hbm, 560, rfl⟩
abbrev main_v542 : Ref sig .tc := ⟨.hbm, 561, rfl⟩
abbrev main_v543 : Ref sig .tc := ⟨.hbm, 562, rfl⟩
abbrev main_v544 : Ref sig .tc := ⟨.hbm, 563, rfl⟩
abbrev main_v545 : Ref sig .tc := ⟨.hbm, 564, rfl⟩
abbrev main_v546 : Ref sig .tc := ⟨.hbm, 565, rfl⟩
abbrev main_v547 : Ref sig .tc := ⟨.hbm, 566, rfl⟩
abbrev main_v548 : Ref sig .tc := ⟨.hbm, 567, rfl⟩
abbrev main_v549 : Ref sig .tc := ⟨.hbm, 568, rfl⟩
abbrev main_v550 : Ref sig .tc := ⟨.hbm, 569, rfl⟩
abbrev main_v551 : Ref sig .tc := ⟨.hbm, 570, rfl⟩
abbrev main_v552 : Ref sig .tc := ⟨.hbm, 571, rfl⟩
abbrev main_v553 : Ref sig .tc := ⟨.hbm, 572, rfl⟩
abbrev main_v554 : Ref sig .tc := ⟨.hbm, 573, rfl⟩
abbrev main_v555 : Ref sig .tc := ⟨.hbm, 574, rfl⟩
abbrev main_v556 : Ref sig .tc := ⟨.hbm, 575, rfl⟩
abbrev main_v557 : Ref sig .tc := ⟨.hbm, 576, rfl⟩
abbrev main_v558 : Ref sig .tc := ⟨.hbm, 577, rfl⟩
abbrev main_v559 : Ref sig .tc := ⟨.hbm, 578, rfl⟩
abbrev main_v560 : Ref sig .tc := ⟨.hbm, 579, rfl⟩
abbrev main_v561 : Ref sig .tc := ⟨.hbm, 580, rfl⟩
abbrev main_v562 : Ref sig .tc := ⟨.hbm, 581, rfl⟩
abbrev main_v563 : Ref sig .tc := ⟨.hbm, 582, rfl⟩
abbrev main_v564 : Ref sig .tc := ⟨.hbm, 583, rfl⟩
abbrev main_v565 : Ref sig .tc := ⟨.hbm, 584, rfl⟩
abbrev main_v566 : Ref sig .tc := ⟨.hbm, 585, rfl⟩
abbrev main_v567 : Ref sig .tc := ⟨.hbm, 586, rfl⟩
abbrev main_v568 : Ref sig .tc := ⟨.hbm, 587, rfl⟩

abbrev nD : Nat := 1
abbrev τ : Topo := Topo.v7x

variable {F : FTy → Type} [FloatOps F]

class Facts₀ : Prop where
  slices_S1x3x512x512_S1x3x1x512_0_0_0_0 : S1x3x512x512.Slices ![0, 0, 0, 0] S1x3x1x512
  slices_S1x3x512x512_S1x3x4x512_0_0_1_0 : S1x3x512x512.Slices ![0, 0, 1, 0] S1x3x4x512
  concatenates_S1x3x4x512_S1x3x512x512_S1x3x516x512_d2 : Shape.Concatenates [S1x3x4x512, S1x3x512x512] S1x3x516x512 2
  slices_S1x3x516x512_S1x3x1x512_0_0_515_0 : S1x3x516x512.Slices ![0, 0, 515, 0] S1x3x1x512
  slices_S1x3x516x512_S1x3x4x512_0_0_511_0 : S1x3x516x512.Slices ![0, 0, 511, 0] S1x3x4x512
  concatenates_S1x3x516x512_S1x3x4x512_S1x3x520x512_d2 : Shape.Concatenates [S1x3x516x512, S1x3x4x512] S1x3x520x512 2
  slices_S1x3x520x512_S1x3x520x1_0_0_0_0 : S1x3x520x512.Slices ![0, 0, 0, 0] S1x3x520x1
  slices_S1x3x520x512_S1x3x520x4_0_0_0_1 : S1x3x520x512.Slices ![0, 0, 0, 1] S1x3x520x4
  concatenates_S1x3x520x4_S1x3x520x512_S1x3x520x516_d3 : Shape.Concatenates [S1x3x520x4, S1x3x520x512] S1x3x520x516 3
  slices_S1x3x520x516_S1x3x520x1_0_0_0_515 : S1x3x520x516.Slices ![0, 0, 0, 515] S1x3x520x1
  slices_S1x3x520x516_S1x3x520x4_0_0_0_511 : S1x3x520x516.Slices ![0, 0, 0, 511] S1x3x520x4
  concatenates_S1x3x520x516_S1x3x520x4_S1x3x520x520_d3 : Shape.Concatenates [S1x3x520x516, S1x3x520x4] S1x3x520x520 3
  bcast_S_S1x3x512x512 : S_.BroadcastsInDim S1x3x512x512 (![] : Fin 0 → Fin S1x3x512x512.rank)
  slices_S1x3x520x520_S1x3x512x512_0_0_0_0 : S1x3x520x520.Slices ![0, 0, 0, 0] S1x3x512x512
  slices_S512x512x9x9_S512x512x1x1_0_0_0_0 : S512x512x9x9.Slices ![0, 0, 0, 0] S512x512x1x1
  shapeCasts_S512x512x1x1_S512x512 : S512x512x1x1.ShapeCasts S512x512
  bcast_S512x512_S1x1x512x512_2_3 : S512x512.BroadcastsInDim S1x1x512x512 (![2, 3] : Fin 2 → Fin S1x1x512x512.rank)
  bcast_S1x1x512x512_S1x3x512x512_0_1_2_3 : S1x1x512x512.BroadcastsInDim S1x3x512x512 (![0, 1, 2, 3] : Fin 4 → Fin S1x3x512x512.rank)
  slices_S1x3x520x520_S1x3x512x512_0_0_0_1 : S1x3x520x520.Slices ![0, 0, 0, 1] S1x3x512x512
  slices_S512x512x9x9_S512x512x1x1_0_0_0_1 : S512x512x9x9.Slices ![0, 0, 0, 1] S512x512x1x1
  slices_S1x3x520x520_S1x3x512x512_0_0_0_2 : S1x3x520x520.Slices ![0, 0, 0, 2] S1x3x512x512
  slices_S512x512x9x9_S512x512x1x1_0_0_0_2 : S512x512x9x9.Slices ![0, 0, 0, 2] S512x512x1x1
  slices_S1x3x520x520_S1x3x512x512_0_0_0_3 : S1x3x520x520.Slices ![0, 0, 0, 3] S1x3x512x512
  slices_S512x512x9x9_S512x512x1x1_0_0_0_3 : S512x512x9x9.Slices ![0, 0, 0, 3] S512x512x1x1
  slices_S1x3x520x520_S1x3x512x512_0_0_0_4 : S1x3x520x520.Slices ![0, 0, 0, 4] S1x3x512x512
  slices_S512x512x9x9_S512x512x1x1_0_0_0_4 : S512x512x9x9.Slices ![0, 0, 0, 4] S512x512x1x1
  slices_S1x3x520x520_S1x3x512x512_0_0_0_5 : S1x3x520x520.Slices ![0, 0, 0, 5] S1x3x512x512
  slices_S512x512x9x9_S512x512x1x1_0_0_0_5 : S512x512x9x9.Slices ![0, 0, 0, 5] S512x512x1x1
  slices_S1x3x520x520_S1x3x512x512_0_0_0_6 : S1x3x520x520.Slices ![0, 0, 0, 6] S1x3x512x512
  slices_S512x512x9x9_S512x512x1x1_0_0_0_6 : S512x512x9x9.Slices ![0, 0, 0, 6] S512x512x1x1
  slices_S1x3x520x520_S1x3x512x512_0_0_0_7 : S1x3x520x520.Slices ![0, 0, 0, 7] S1x3x512x512
  slices_S512x512x9x9_S512x512x1x1_0_0_0_7 : S512x512x9x9.Slices ![0, 0, 0, 7] S512x512x1x1
  slices_S1x3x520x520_S1x3x512x512_0_0_0_8 : S1x3x520x520.Slices ![0, 0, 0, 8] S1x3x512x512
  slices_S512x512x9x9_S512x512x1x1_0_0_0_8 : S512x512x9x9.Slices ![0, 0, 0, 8] S512x512x1x1
  slices_S1x3x520x520_S1x3x512x512_0_0_1_0 : S1x3x520x520.Slices ![0, 0, 1, 0] S1x3x512x512
  slices_S512x512x9x9_S512x512x1x1_0_0_1_0 : S512x512x9x9.Slices ![0, 0, 1, 0] S512x512x1x1
  slices_S1x3x520x520_S1x3x512x512_0_0_1_1 : S1x3x520x520.Slices ![0, 0, 1, 1] S1x3x512x512
  slices_S512x512x9x9_S512x512x1x1_0_0_1_1 : S512x512x9x9.Slices ![0, 0, 1, 1] S512x512x1x1
  slices_S1x3x520x520_S1x3x512x512_0_0_1_2 : S1x3x520x520.Slices ![0, 0, 1, 2] S1x3x512x512
  slices_S512x512x9x9_S512x512x1x1_0_0_1_2 : S512x512x9x9.Slices ![0, 0, 1, 2] S512x512x1x1
  slices_S1x3x520x520_S1x3x512x512_0_0_1_3 : S1x3x520x520.Slices ![0, 0, 1, 3] S1x3x512x512
  slices_S512x512x9x9_S512x512x1x1_0_0_1_3 : S512x512x9x9.Slices ![0, 0, 1, 3] S512x512x1x1
  slices_S1x3x520x520_S1x3x512x512_0_0_1_4 : S1x3x520x520.Slices ![0, 0, 1, 4] S1x3x512x512
  slices_S512x512x9x9_S512x512x1x1_0_0_1_4 : S512x512x9x9.Slices ![0, 0, 1, 4] S512x512x1x1
  slices_S1x3x520x520_S1x3x512x512_0_0_1_5 : S1x3x520x520.Slices ![0, 0, 1, 5] S1x3x512x512
  slices_S512x512x9x9_S512x512x1x1_0_0_1_5 : S512x512x9x9.Slices ![0, 0, 1, 5] S512x512x1x1
  slices_S1x3x520x520_S1x3x512x512_0_0_1_6 : S1x3x520x520.Slices ![0, 0, 1, 6] S1x3x512x512
  slices_S512x512x9x9_S512x512x1x1_0_0_1_6 : S512x512x9x9.Slices ![0, 0, 1, 6] S512x512x1x1
  slices_S1x3x520x520_S1x3x512x512_0_0_1_7 : S1x3x520x520.Slices ![0, 0, 1, 7] S1x3x512x512
  slices_S512x512x9x9_S512x512x1x1_0_0_1_7 : S512x512x9x9.Slices ![0, 0, 1, 7] S512x512x1x1
  slices_S1x3x520x520_S1x3x512x512_0_0_1_8 : S1x3x520x520.Slices ![0, 0, 1, 8] S1x3x512x512
  slices_S512x512x9x9_S512x512x1x1_0_0_1_8 : S512x512x9x9.Slices ![0, 0, 1, 8] S512x512x1x1
  slices_S1x3x520x520_S1x3x512x512_0_0_2_0 : S1x3x520x520.Slices ![0, 0, 2, 0] S1x3x512x512
  slices_S512x512x9x9_S512x512x1x1_0_0_2_0 : S512x512x9x9.Slices ![0, 0, 2, 0] S512x512x1x1
  slices_S1x3x520x520_S1x3x512x512_0_0_2_1 : S1x3x520x520.Slices ![0, 0, 2, 1] S1x3x512x512
  slices_S512x512x9x9_S512x512x1x1_0_0_2_1 : S512x512x9x9.Slices ![0, 0, 2, 1] S512x512x1x1
  slices_S1x3x520x520_S1x3x512x512_0_0_2_2 : S1x3x520x520.Slices ![0, 0, 2, 2] S1x3x512x512
  slices_S512x512x9x9_S512x512x1x1_0_0_2_2 : S512x512x9x9.Slices ![0, 0, 2, 2] S512x512x1x1
  slices_S1x3x520x520_S1x3x512x512_0_0_2_3 : S1x3x520x520.Slices ![0, 0, 2, 3] S1x3x512x512
  slices_S512x512x9x9_S512x512x1x1_0_0_2_3 : S512x512x9x9.Slices ![0, 0, 2, 3] S512x512x1x1
  slices_S1x3x520x520_S1x3x512x512_0_0_2_4 : S1x3x520x520.Slices ![0, 0, 2, 4] S1x3x512x512
  slices_S512x512x9x9_S512x512x1x1_0_0_2_4 : S512x512x9x9.Slices ![0, 0, 2, 4] S512x512x1x1
  slices_S1x3x520x520_S1x3x512x512_0_0_2_5 : S1x3x520x520.Slices ![0, 0, 2, 5] S1x3x512x512
  slices_S512x512x9x9_S512x512x1x1_0_0_2_5 : S512x512x9x9.Slices ![0, 0, 2, 5] S512x512x1x1
  slices_S1x3x520x520_S1x3x512x512_0_0_2_6 : S1x3x520x520.Slices ![0, 0, 2, 6] S1x3x512x512
  slices_S512x512x9x9_S512x512x1x1_0_0_2_6 : S512x512x9x9.Slices ![0, 0, 2, 6] S512x512x1x1
  slices_S1x3x520x520_S1x3x512x512_0_0_2_7 : S1x3x520x520.Slices ![0, 0, 2, 7] S1x3x512x512
  slices_S512x512x9x9_S512x512x1x1_0_0_2_7 : S512x512x9x9.Slices ![0, 0, 2, 7] S512x512x1x1
  slices_S1x3x520x520_S1x3x512x512_0_0_2_8 : S1x3x520x520.Slices ![0, 0, 2, 8] S1x3x512x512
  slices_S512x512x9x9_S512x512x1x1_0_0_2_8 : S512x512x9x9.Slices ![0, 0, 2, 8] S512x512x1x1
  slices_S1x3x520x520_S1x3x512x512_0_0_3_0 : S1x3x520x520.Slices ![0, 0, 3, 0] S1x3x512x512
  slices_S512x512x9x9_S512x512x1x1_0_0_3_0 : S512x512x9x9.Slices ![0, 0, 3, 0] S512x512x1x1
  slices_S1x3x520x520_S1x3x512x512_0_0_3_1 : S1x3x520x520.Slices ![0, 0, 3, 1] S1x3x512x512
  slices_S512x512x9x9_S512x512x1x1_0_0_3_1 : S512x512x9x9.Slices ![0, 0, 3, 1] S512x512x1x1
  slices_S1x3x520x520_S1x3x512x512_0_0_3_2 : S1x3x520x520.Slices ![0, 0, 3, 2] S1x3x512x512
  slices_S512x512x9x9_S512x512x1x1_0_0_3_2 : S512x512x9x9.Slices ![0, 0, 3, 2] S512x512x1x1
  slices_S1x3x520x520_S1x3x512x512_0_0_3_3 : S1x3x520x520.Slices ![0, 0, 3, 3] S1x3x512x512
  slices_S512x512x9x9_S512x512x1x1_0_0_3_3 : S512x512x9x9.Slices ![0, 0, 3, 3] S512x512x1x1
  slices_S1x3x520x520_S1x3x512x512_0_0_3_4 : S1x3x520x520.Slices ![0, 0, 3, 4] S1x3x512x512
  slices_S512x512x9x9_S512x512x1x1_0_0_3_4 : S512x512x9x9.Slices ![0, 0, 3, 4] S512x512x1x1
  slices_S1x3x520x520_S1x3x512x512_0_0_3_5 : S1x3x520x520.Slices ![0, 0, 3, 5] S1x3x512x512
  slices_S512x512x9x9_S512x512x1x1_0_0_3_5 : S512x512x9x9.Slices ![0, 0, 3, 5] S512x512x1x1
  slices_S1x3x520x520_S1x3x512x512_0_0_3_6 : S1x3x520x520.Slices ![0, 0, 3, 6] S1x3x512x512
  slices_S512x512x9x9_S512x512x1x1_0_0_3_6 : S512x512x9x9.Slices ![0, 0, 3, 6] S512x512x1x1
  slices_S1x3x520x520_S1x3x512x512_0_0_3_7 : S1x3x520x520.Slices ![0, 0, 3, 7] S1x3x512x512
  slices_S512x512x9x9_S512x512x1x1_0_0_3_7 : S512x512x9x9.Slices ![0, 0, 3, 7] S512x512x1x1
  slices_S1x3x520x520_S1x3x512x512_0_0_3_8 : S1x3x520x520.Slices ![0, 0, 3, 8] S1x3x512x512
  slices_S512x512x9x9_S512x512x1x1_0_0_3_8 : S512x512x9x9.Slices ![0, 0, 3, 8] S512x512x1x1
  slices_S1x3x520x520_S1x3x512x512_0_0_4_0 : S1x3x520x520.Slices ![0, 0, 4, 0] S1x3x512x512
  slices_S512x512x9x9_S512x512x1x1_0_0_4_0 : S512x512x9x9.Slices ![0, 0, 4, 0] S512x512x1x1
  slices_S1x3x520x520_S1x3x512x512_0_0_4_1 : S1x3x520x520.Slices ![0, 0, 4, 1] S1x3x512x512
  slices_S512x512x9x9_S512x512x1x1_0_0_4_1 : S512x512x9x9.Slices ![0, 0, 4, 1] S512x512x1x1
  slices_S1x3x520x520_S1x3x512x512_0_0_4_2 : S1x3x520x520.Slices ![0, 0, 4, 2] S1x3x512x512
  slices_S512x512x9x9_S512x512x1x1_0_0_4_2 : S512x512x9x9.Slices ![0, 0, 4, 2] S512x512x1x1
  slices_S1x3x520x520_S1x3x512x512_0_0_4_3 : S1x3x520x520.Slices ![0, 0, 4, 3] S1x3x512x512
  slices_S512x512x9x9_S512x512x1x1_0_0_4_3 : S512x512x9x9.Slices ![0, 0, 4, 3] S512x512x1x1
  slices_S1x3x520x520_S1x3x512x512_0_0_4_4 : S1x3x520x520.Slices ![0, 0, 4, 4] S1x3x512x512
  slices_S512x512x9x9_S512x512x1x1_0_0_4_4 : S512x512x9x9.Slices ![0, 0, 4, 4] S512x512x1x1
  slices_S1x3x520x520_S1x3x512x512_0_0_4_5 : S1x3x520x520.Slices ![0, 0, 4, 5] S1x3x512x512
  slices_S512x512x9x9_S512x512x1x1_0_0_4_5 : S512x512x9x9.Slices ![0, 0, 4, 5] S512x512x1x1
  slices_S1x3x520x520_S1x3x512x512_0_0_4_6 : S1x3x520x520.Slices ![0, 0, 4, 6] S1x3x512x512
  slices_S512x512x9x9_S512x512x1x1_0_0_4_6 : S512x512x9x9.Slices ![0, 0, 4, 6] S512x512x1x1
  slices_S1x3x520x520_S1x3x512x512_0_0_4_7 : S1x3x520x520.Slices ![0, 0, 4, 7] S1x3x512x512
  slices_S512x512x9x9_S512x512x1x1_0_0_4_7 : S512x512x9x9.Slices ![0, 0, 4, 7] S512x512x1x1
  slices_S1x3x520x520_S1x3x512x512_0_0_4_8 : S1x3x520x520.Slices ![0, 0, 4, 8] S1x3x512x512
  slices_S512x512x9x9_S512x512x1x1_0_0_4_8 : S512x512x9x9.Slices ![0, 0, 4, 8] S512x512x1x1
  slices_S1x3x520x520_S1x3x512x512_0_0_5_0 : S1x3x520x520.Slices ![0, 0, 5, 0] S1x3x512x512
  slices_S512x512x9x9_S512x512x1x1_0_0_5_0 : S512x512x9x9.Slices ![0, 0, 5, 0] S512x512x1x1
  slices_S1x3x520x520_S1x3x512x512_0_0_5_1 : S1x3x520x520.Slices ![0, 0, 5, 1] S1x3x512x512
  slices_S512x512x9x9_S512x512x1x1_0_0_5_1 : S512x512x9x9.Slices ![0, 0, 5, 1] S512x512x1x1
  slices_S1x3x520x520_S1x3x512x512_0_0_5_2 : S1x3x520x520.Slices ![0, 0, 5, 2] S1x3x512x512
  slices_S512x512x9x9_S512x512x1x1_0_0_5_2 : S512x512x9x9.Slices ![0, 0, 5, 2] S512x512x1x1
  slices_S1x3x520x520_S1x3x512x512_0_0_5_3 : S1x3x520x520.Slices ![0, 0, 5, 3] S1x3x512x512
  slices_S512x512x9x9_S512x512x1x1_0_0_5_3 : S512x512x9x9.Slices ![0, 0, 5, 3] S512x512x1x1
  slices_S1x3x520x520_S1x3x512x512_0_0_5_4 : S1x3x520x520.Slices ![0, 0, 5, 4] S1x3x512x512
  slices_S512x512x9x9_S512x512x1x1_0_0_5_4 : S512x512x9x9.Slices ![0, 0, 5, 4] S512x512x1x1
  slices_S1x3x520x520_S1x3x512x512_0_0_5_5 : S1x3x520x520.Slices ![0, 0, 5, 5] S1x3x512x512
  slices_S512x512x9x9_S512x512x1x1_0_0_5_5 : S512x512x9x9.Slices ![0, 0, 5, 5] S512x512x1x1
  slices_S1x3x520x520_S1x3x512x512_0_0_5_6 : S1x3x520x520.Slices ![0, 0, 5, 6] S1x3x512x512
  slices_S512x512x9x9_S512x512x1x1_0_0_5_6 : S512x512x9x9.Slices ![0, 0, 5, 6] S512x512x1x1
  slices_S1x3x520x520_S1x3x512x512_0_0_5_7 : S1x3x520x520.Slices ![0, 0, 5, 7] S1x3x512x512
  slices_S512x512x9x9_S512x512x1x1_0_0_5_7 : S512x512x9x9.Slices ![0, 0, 5, 7] S512x512x1x1
  slices_S1x3x520x520_S1x3x512x512_0_0_5_8 : S1x3x520x520.Slices ![0, 0, 5, 8] S1x3x512x512
  slices_S512x512x9x9_S512x512x1x1_0_0_5_8 : S512x512x9x9.Slices ![0, 0, 5, 8] S512x512x1x1
  slices_S1x3x520x520_S1x3x512x512_0_0_6_0 : S1x3x520x520.Slices ![0, 0, 6, 0] S1x3x512x512
  slices_S512x512x9x9_S512x512x1x1_0_0_6_0 : S512x512x9x9.Slices ![0, 0, 6, 0] S512x512x1x1
  slices_S1x3x520x520_S1x3x512x512_0_0_6_1 : S1x3x520x520.Slices ![0, 0, 6, 1] S1x3x512x512
  slices_S512x512x9x9_S512x512x1x1_0_0_6_1 : S512x512x9x9.Slices ![0, 0, 6, 1] S512x512x1x1
  slices_S1x3x520x520_S1x3x512x512_0_0_6_2 : S1x3x520x520.Slices ![0, 0, 6, 2] S1x3x512x512
  slices_S512x512x9x9_S512x512x1x1_0_0_6_2 : S512x512x9x9.Slices ![0, 0, 6, 2] S512x512x1x1
  slices_S1x3x520x520_S1x3x512x512_0_0_6_3 : S1x3x520x520.Slices ![0, 0, 6, 3] S1x3x512x512
  slices_S512x512x9x9_S512x512x1x1_0_0_6_3 : S512x512x9x9.Slices ![0, 0, 6, 3] S512x512x1x1
  slices_S1x3x520x520_S1x3x512x512_0_0_6_4 : S1x3x520x520.Slices ![0, 0, 6, 4] S1x3x512x512
  slices_S512x512x9x9_S512x512x1x1_0_0_6_4 : S512x512x9x9.Slices ![0, 0, 6, 4] S512x512x1x1
  slices_S1x3x520x520_S1x3x512x512_0_0_6_5 : S1x3x520x520.Slices ![0, 0, 6, 5] S1x3x512x512
  slices_S512x512x9x9_S512x512x1x1_0_0_6_5 : S512x512x9x9.Slices ![0, 0, 6, 5] S512x512x1x1
  slices_S1x3x520x520_S1x3x512x512_0_0_6_6 : S1x3x520x520.Slices ![0, 0, 6, 6] S1x3x512x512
  slices_S512x512x9x9_S512x512x1x1_0_0_6_6 : S512x512x9x9.Slices ![0, 0, 6, 6] S512x512x1x1
  slices_S1x3x520x520_S1x3x512x512_0_0_6_7 : S1x3x520x520.Slices ![0, 0, 6, 7] S1x3x512x512
  slices_S512x512x9x9_S512x512x1x1_0_0_6_7 : S512x512x9x9.Slices ![0, 0, 6, 7] S512x512x1x1
  slices_S1x3x520x520_S1x3x512x512_0_0_6_8 : S1x3x520x520.Slices ![0, 0, 6, 8] S1x3x512x512
  slices_S512x512x9x9_S512x512x1x1_0_0_6_8 : S512x512x9x9.Slices ![0, 0, 6, 8] S512x512x1x1
  slices_S1x3x520x520_S1x3x512x512_0_0_7_0 : S1x3x520x520.Slices ![0, 0, 7, 0] S1x3x512x512
  slices_S512x512x9x9_S512x512x1x1_0_0_7_0 : S512x512x9x9.Slices ![0, 0, 7, 0] S512x512x1x1
  slices_S1x3x520x520_S1x3x512x512_0_0_7_1 : S1x3x520x520.Slices ![0, 0, 7, 1] S1x3x512x512
  slices_S512x512x9x9_S512x512x1x1_0_0_7_1 : S512x512x9x9.Slices ![0, 0, 7, 1] S512x512x1x1
  slices_S1x3x520x520_S1x3x512x512_0_0_7_2 : S1x3x520x520.Slices ![0, 0, 7, 2] S1x3x512x512
  slices_S512x512x9x9_S512x512x1x1_0_0_7_2 : S512x512x9x9.Slices ![0, 0, 7, 2] S512x512x1x1
  slices_S1x3x520x520_S1x3x512x512_0_0_7_3 : S1x3x520x520.Slices ![0, 0, 7, 3] S1x3x512x512
  slices_S512x512x9x9_S512x512x1x1_0_0_7_3 : S512x512x9x9.Slices ![0, 0, 7, 3] S512x512x1x1
  slices_S1x3x520x520_S1x3x512x512_0_0_7_4 : S1x3x520x520.Slices ![0, 0, 7, 4] S1x3x512x512
  slices_S512x512x9x9_S512x512x1x1_0_0_7_4 : S512x512x9x9.Slices ![0, 0, 7, 4] S512x512x1x1
  slices_S1x3x520x520_S1x3x512x512_0_0_7_5 : S1x3x520x520.Slices ![0, 0, 7, 5] S1x3x512x512
  slices_S512x512x9x9_S512x512x1x1_0_0_7_5 : S512x512x9x9.Slices ![0, 0, 7, 5] S512x512x1x1
  slices_S1x3x520x520_S1x3x512x512_0_0_7_6 : S1x3x520x520.Slices ![0, 0, 7, 6] S1x3x512x512
  slices_S512x512x9x9_S512x512x1x1_0_0_7_6 : S512x512x9x9.Slices ![0, 0, 7, 6] S512x512x1x1
  slices_S1x3x520x520_S1x3x512x512_0_0_7_7 : S1x3x520x520.Slices ![0, 0, 7, 7] S1x3x512x512
  slices_S512x512x9x9_S512x512x1x1_0_0_7_7 : S512x512x9x9.Slices ![0, 0, 7, 7] S512x512x1x1
  slices_S1x3x520x520_S1x3x512x512_0_0_7_8 : S1x3x520x520.Slices ![0, 0, 7, 8] S1x3x512x512
  slices_S512x512x9x9_S512x512x1x1_0_0_7_8 : S512x512x9x9.Slices ![0, 0, 7, 8] S512x512x1x1
  slices_S1x3x520x520_S1x3x512x512_0_0_8_0 : S1x3x520x520.Slices ![0, 0, 8, 0] S1x3x512x512
  slices_S512x512x9x9_S512x512x1x1_0_0_8_0 : S512x512x9x9.Slices ![0, 0, 8, 0] S512x512x1x1
  slices_S1x3x520x520_S1x3x512x512_0_0_8_1 : S1x3x520x520.Slices ![0, 0, 8, 1] S1x3x512x512
  slices_S512x512x9x9_S512x512x1x1_0_0_8_1 : S512x512x9x9.Slices ![0, 0, 8, 1] S512x512x1x1
  slices_S1x3x520x520_S1x3x512x512_0_0_8_2 : S1x3x520x520.Slices ![0, 0, 8, 2] S1x3x512x512
  slices_S512x512x9x9_S512x512x1x1_0_0_8_2 : S512x512x9x9.Slices ![0, 0, 8, 2] S512x512x1x1
  slices_S1x3x520x520_S1x3x512x512_0_0_8_3 : S1x3x520x520.Slices ![0, 0, 8, 3] S1x3x512x512
  slices_S512x512x9x9_S512x512x1x1_0_0_8_3 : S512x512x9x9.Slices ![0, 0, 8, 3] S512x512x1x1
  slices_S1x3x520x520_S1x3x512x512_0_0_8_4 : S1x3x520x520.Slices ![0, 0, 8, 4] S1x3x512x512
  slices_S512x512x9x9_S512x512x1x1_0_0_8_4 : S512x512x9x9.Slices ![0, 0, 8, 4] S512x512x1x1
  slices_S1x3x520x520_S1x3x512x512_0_0_8_5 : S1x3x520x520.Slices ![0, 0, 8, 5] S1x3x512x512
  slices_S512x512x9x9_S512x512x1x1_0_0_8_5 : S512x512x9x9.Slices ![0, 0, 8, 5] S512x512x1x1
  slices_S1x3x520x520_S1x3x512x512_0_0_8_6 : S1x3x520x520.Slices ![0, 0, 8, 6] S1x3x512x512
  slices_S512x512x9x9_S512x512x1x1_0_0_8_6 : S512x512x9x9.Slices ![0, 0, 8, 6] S512x512x1x1
  slices_S1x3x520x520_S1x3x512x512_0_0_8_7 : S1x3x520x520.Slices ![0, 0, 8, 7] S1x3x512x512
  slices_S512x512x9x9_S512x512x1x1_0_0_8_7 : S512x512x9x9.Slices ![0, 0, 8, 7] S512x512x1x1
  slices_S1x3x520x520_S1x3x512x512_0_0_8_8 : S1x3x520x520.Slices ![0, 0, 8, 8] S1x3x512x512
  slices_S512x512x9x9_S512x512x1x1_0_0_8_8 : S512x512x9x9.Slices ![0, 0, 8, 8] S512x512x1x1

variable [Facts₀]

class Facts : Prop extends Facts₀ where

variable [Facts]
-- ==== Proof.Spec.lean ====
/-
  The function both programs compute, over the extended reals.

  A 3-channel 512×512 image `x` is padded by 4 on each side of its two spatial axes by REFLECTION about the edge
  sample (the edge itself is not repeated): padded coordinate `a ∈ [0, 520)` reads source coordinate `refl a`, which is
  `4 - a` below the image, `a - 4` inside it, and `1026 - a` above it. Every output pixel `(c, h, w)` is then the
  81-tap sum, in row-major order of the taps `(i, j) ∈ [0, 9)²`, accumulated from the left starting at zero,
      out[c, h, w] = (…((0 + xp[c, h+0, w+0] · K[h, w, 0, 0]) + xp[c, h+0, w+1] · K[h, w, 0, 1]) + … ) + xp[c, h+8, w+8] · K[h, w, 8, 8],
  with a per-pixel 9×9 kernel `K[h, w, ·, ·]`. Addition on the extended reals is not associative in the presence of
  both infinities, so the ORDER of the accumulation is part of the function; both programs use this one.
-/
import Idealize.ShloMosaic.PureOps.Ideal
import Idealize.ShloMosaic.Lib.ValueIdx

noncomputable section

namespace Cert.Blur

open Idealize.ShloMosaic Idealize.ShloMosaic.ValueIdx

/-- The image's shape `[1, 3, 512, 512]` and the kernel field's `[512, 512, 9, 9]`. -/
abbrev SX : Shape := ⟨4, ![1, 3, 512, 512]⟩
abbrev SK : Shape := ⟨4, ![512, 512, 9, 9]⟩

/-- Reflection padding by 4 of an axis of extent 512: the source coordinate a padded coordinate reads. -/
def refl (a : Fin 520) : Fin 512 :=
  ⟨if a.val < 4 then 4 - a.val else if a.val < 516 then a.val - 4 else 1026 - a.val, by
    have := a.isLt; split_ifs <;> omega⟩

theorem refl_val (a : Fin 520) :
    (refl a).val = if a.val < 4 then 4 - a.val else if a.val < 516 then a.val - 4 else 1026 - a.val := rfl

/-- Output coordinate `h` moved `i` along the padded axis (`h + i` for the taps `i ≤ 8`; clamped so that it is total). -/
def sh (h : Fin 512) (i : ℕ) : Fin 520 := ⟨min (h.val + i) 519, by omega⟩

theorem sh_val (h : Fin 512) (i : ℕ) (hi : i ≤ 8) : (sh h i).val = h.val + i := by
  have := h.isLt; simp only [sh]; omega

/-- Tap number `i` as a coordinate of the kernel field's tap axes (`i` itself for `i ≤ 8`). -/
def tap (i : ℕ) : Fin 9 := ⟨min i 8, by omega⟩

theorem tap_val (i : ℕ) (hi : i ≤ 8) : (tap i).val = i := by simp only [tap]; omega

/-- The 81 taps in the order they are accumulated: row-major. -/
def taps : List (ℕ × ℕ) :=
  [
    (0, 0), (0, 1), (0, 2), (0, 3), (0, 4), (0, 5), (0, 6), (0, 7), (0, 8),
    (1, 0), (1, 1), (1, 2), (1, 3), (1, 4), (1, 5), (1, 6), (1, 7), (1, 8),
    (2, 0), (2, 1), (2, 2), (2, 3), (2, 4), (2, 5), (2, 6), (2, 7), (2, 8),
    (3, 0), (3, 1), (3, 2), (3, 3), (3, 4), (3, 5), (3, 6), (3, 7), (3, 8),
    (4, 0), (4, 1), (4, 2), (4, 3), (4, 4), (4, 5), (4, 6), (4, 7), (4, 8),
    (5, 0), (5, 1), (5, 2), (5, 3), (5, 4), (5, 5), (5, 6), (5, 7), (5, 8),
    (6, 0), (6, 1), (6, 2), (6, 3), (6, 4), (6, 5), (6, 6), (6, 7), (6, 8),
    (7, 0), (7, 1), (7, 2), (7, 3), (7, 4), (7, 5), (7, 6), (7, 7), (7, 8),
    (8, 0), (8, 1), (8, 2), (8, 3), (8, 4), (8, 5), (8, 6), (8, 7), (8, 8) ]

/-- One output pixel: the taps' products accumulated from the left, from zero, in the order of `taps`. -/
def blurAt (P : Fin 3 → Fin 520 → Fin 520 → EReal) (K : Fin 512 → Fin 512 → Fin 9 → Fin 9 → EReal)
    (c : Fin 3) (h w : Fin 512) : EReal :=
  taps.foldl (fun acc p => acc + P c (sh h p.1) (sh w p.2) * K h w (tap p.1) (tap p.2)) 0

/-- The reflect-padded image, by channel and padded coordinates. -/
def padR (x : FVec Ideal SX .f32) (c : Fin 3) (a b : Fin 520) : EReal := x (ix4 0 c (refl a) (refl b))

/-- The kernel field by pixel and tap. -/
def kerR (K : FVec Ideal SK .f32) (h w : Fin 512) (i j : Fin 9) : EReal := K (ix4 h w i j)

/-- The whole result: every pixel's accumulated sum over the reflect-padded image. -/
def G (x : FVec Ideal SX .f32) (K : FVec Ideal SK .f32) : FVec Ideal SX .f32 :=
  fun idx => blurAt (padR x) (kerR K) (idx 1) (idx 2) (idx 3)

theorem G_apply (x : FVec Ideal SX .f32) (K : FVec Ideal SK .f32) (b : Fin 1) (c : Fin 3) (h w : Fin 512) :
    G x K (ix4 b c h w) = blurAt (padR x) (kerR K) c h w := rfl

end Cert.Blur

end
-- ==== Proof.KerTap.lean ====
/-
  Reading the kernel body's pieces at an index, over the extended reals.

  At grid point (tr, tc) the body loads the 3×136×136 patch of the padded image whose corner is (128·tr, 128·tc), and, for
  each tap t = 9·i + j, the 1×128×128 slab t of its kernel block. Tap (i, j) multiplies the patch shifted by (i, j) — the
  unit-stride slice at offsets [0, i, j] — by that slab broadcast over the three channels. The lemmas here read each of
  those pieces at an output coordinate (c, y, z) of the 3×128×128 tile.
-/
import proofs.«108208_j53102975647806_2_alg».proof.Proof.Gen.KernelIdeal.Frame
import proofs.«108208_j53102975647806_2_alg».proof.Proof.Spec
import Idealize.ShloMosaic.Lib.Pipeline.Value
import Idealize.ShloMosaic.Lib.ValueIdx

noncomputable section

namespace Cert.KernelIdeal.Tap

open Cert.KernelIdeal Cert.KernelIdeal.Gen Idealize.ShloMosaic Idealize.ShloMosaic.ValueIdx Idealize.ShloMosaic.TcCoe

/-- Tile coordinate `y` moved `i` along the patch (`y + i` for `i ≤ 8`; clamped so that it is total). -/
def shp (y : Fin 128) (i : ℕ) : Fin 136 := ⟨min (y.val + i) 135, by omega⟩

theorem shp_val (y : Fin 128) (i : ℕ) (hi : i ≤ 8) : (shp y i).val = y.val + i := by
  have := y.isLt; simp only [shp]; omega

/-- Tap number `t` as a coordinate of the kernel block's leading axis (`t` itself for `t ≤ 80`). -/
def tIdx (t : ℕ) : Fin 81 := ⟨min t 80, by omega⟩

theorem tIdx_val (t : ℕ) (ht : t ≤ 80) : (tIdx t).val = t := by simp only [tIdx]; omega

/-- The patch shifted by `(i, j)`, at tile coordinate `(c, y, z)`, is the patch at `(c, y + i, z + j)`. -/
theorem slice_patch (i j : ℕ) (hi : i ≤ 8) (hj : j ≤ 8) (v : FVec Ideal S3x136x136 .f32)
    (hs : S3x136x136.Slices ![0, i, j] S3x128x128) (c : Fin 3) (y z : Fin 128) :
    extractStridedSlice S3x128x128 ![0, i, j] v hs (ix3 c y z) = v (ix3 c (shp y i) (shp z j)) := by
  refine extractStridedSlice_apply _ _ _ _ _ (fun a => ?_)
  match a with
  | ⟨0, _⟩ => simp
  | ⟨1, _⟩ => exact (shp_val y i hi).trans (Nat.add_comm _ _)
  | ⟨2, _⟩ => exact (shp_val z j hj).trans (Nat.add_comm _ _)

/-- A kernel slab, with its unit axis dropped and restored and then broadcast over the channels, at `(c, y, z)` is the slab at
    `(0, y, z)`. -/
theorem slab_bcast (L : FVec Ideal S1x128x128 .f32) (h1 : S1x128x128.ShapeCasts S128x128) (h2 : S128x128.ShapeCasts S1x128x128)
    (h3 : S1x128x128.Broadcasts S3x128x128) (c : Fin 3) (y z : Fin 128) :
    broadcastTo S3x128x128 (shapeCast S1x128x128 (shapeCast S128x128 L h1) h2) h3 (ix3 c y z) = L (ix3 (0 : Fin 1) y z) := by
  rw [shapeCast_shapeCast]
  refine broadcastTo_apply _ _ _ _ (fun a => ?_)
  match a with
  | ⟨0, _⟩ => simp
  | ⟨1, _⟩ => simp
  | ⟨2, _⟩ => simp

/-- A load through a unit-stride rectangle from a whole buffer holding `X` reads `X` at offset plus coordinate. -/
theorem readAt_unit {S : Shape} (M : Memref sig .tc .vmem S .f32) (hM : M.IsWhole) (X : S.Idx → Elt Ideal .f32)
    (off size : Fin S.rank → Nat) (inb : ∀ a, off a + size a ≤ S.size a)
    (x : (Rect.unit off size inb).toLoadRect.shape.Idx) (k : S.Idx)
    (hk : ∀ a, (k a).val = off a + (x a).val) :
    View.readAt (Elt Ideal) M.view (Rect.unit off size inb).toLoadRect (hM.unread X) x = X k := by
  rw [View.readAt_apply, hM.read_unread]
  refine congrArg X (funext fun a => Fin.ext ?_)
  rw [hk a]
  simp [LoadRect.idx, Rect.unit]

/-- Tap `(i, j)`'s shifted patch at `(c, y, z)`, when the patch's corner is `(off 1, off 2)` and the buffer holds `P`:
    `P` at the pixel's padded coordinates moved by the tap. -/
theorem tap_x (i j : ℕ) (hi : i ≤ 8) (hj : j ≤ 8) (M : Memref sig .tc .vmem S3x520x520 .f32) (hM : M.IsWhole)
    (x0 : S3x520x520.Idx → Elt Ideal .f32) (P : Fin 3 → Fin 520 → Fin 520 → EReal)
    (hx0 : ∀ c a b, x0 (ix3 c a b) = P c a b)
    (off : Fin 3 → Nat) (inb : ∀ a, off a + S3x136x136.size a ≤ S3x520x520.size a) (h0 : off 0 = 0)
    (c : Fin 3) (y z : Fin 128) (h w : Fin 512) (hh : h.val = off 1 + y.val) (hw : w.val = off 2 + z.val)
    (hs : S3x136x136.Slices ![0, i, j] S3x128x128) :
    extractStridedSlice (s := S3x136x136) S3x128x128 ![0, i, j]
        (View.readAt (Elt Ideal) M.view (Rect.unit (s := S3x520x520) off S3x136x136.size inb).toLoadRect (hM.unread x0) : Vec Ideal S3x136x136 .f32) hs (ix3 c y z)
      = P c (Cert.Blur.sh h i) (Cert.Blur.sh w j) := by
  rw [slice_patch i j hi hj _ hs c y z, ← hx0]
  refine readAt_unit M hM x0 off _ inb _ _ (fun a => ?_)
  match a with
  | ⟨0, _⟩ => show c.val = off 0 + c.val; omega
  | ⟨1, _⟩ => show (Cert.Blur.sh h i).val = off 1 + (shp y i).val; rw [Cert.Blur.sh_val h i hi, shp_val y i hi]; omega
  | ⟨2, _⟩ => show (Cert.Blur.sh w j).val = off 2 + (shp z j).val; rw [Cert.Blur.sh_val w j hj, shp_val z j hj]; omega

/-- Tap `t`'s kernel slab, broadcast over the channels, at `(c, y, z)`: the kernel block at `(t, y, z)`. -/
theorem tap_k (t : ℕ) (ht : t ≤ 80) (M : Memref sig .tc .vmem S81x128x128 .f32) (hM : M.IsWhole)
    (x1 : S81x128x128.Idx → Elt Ideal .f32)
    (inb : ∀ a, (![t, 0, 0] : Fin 3 → Nat) a + S1x128x128.size a ≤ S81x128x128.size a)
    (h1 : S1x128x128.ShapeCasts S128x128) (h2 : S128x128.ShapeCasts S1x128x128) (h3 : S1x128x128.Broadcasts S3x128x128)
    (c : Fin 3) (y z : Fin 128) :
    broadcastTo S3x128x128 (shapeCast S1x128x128 (shapeCast S128x128
        (View.readAt (Elt Ideal) M.view (Rect.unit (s := S81x128x128) ![t, 0, 0] S1x128x128.size inb).toLoadRect (hM.unread x1) : Vec Ideal S1x128x128 .f32) h1) h2) h3 (ix3 c y z)
      = x1 (ix3 (tIdx t) y z) := by
  rw [slab_bcast _ h1 h2 h3 c y z]
  refine readAt_unit M hM x1 _ _ inb _ _ (fun a => ?_)
  match a with
  | ⟨0, _⟩ => show (tIdx t).val = t + 0; rw [tIdx_val t ht]; rfl
  | ⟨1, _⟩ => show y.val = 0 + y.val; omega
  | ⟨2, _⟩ => show z.val = 0 + z.val; omega

end Cert.KernelIdeal.Tap

end
-- ==== Proof.KerBody.lean ====
/-
  What one grid point leaves in its output tile.

  The body stores, through the whole 3×128×128 tile, the value accumulated over the 81 taps. Read at a tile coordinate
  (c, y, z) of the point whose patch corner is (off 1, off 2), with the padded image `P` in the first buffer, that value is
  the pixel's accumulated sum `Cert.Blur.blurAt` at the pixel (off 1 + y, off 2 + z), the per-pixel kernel being read from
  the second buffer's slab t = 9·i + j at (y, z).
-/
import proofs.«108208_j53102975647806_2_alg».proof.Proof.KerTap
import Idealize.ShloMosaic.PureOps.Ideal.Laws

set_option maxRecDepth 16384

noncomputable section

namespace Cert.KernelIdeal.Body

open Cert.KernelIdeal Cert.KernelIdeal.Gen Cert.KernelIdeal.Tap Idealize.ShloMosaic Idealize.ShloMosaic.ValueIdx
open Idealize.ShloMosaic.TcCoe Idealize.ShloMosaic.Tactic Idealize.SL.Sem

/-- The tile's store starts at the tile's corner. -/
theorem zero3 : (![0, 0, 0] : Fin 3 → Nat) = fun _ => 0 := by
  funext a; match a with | ⟨0, _⟩ => rfl | ⟨1, _⟩ => rfl | ⟨2, _⟩ => rfl

set_option maxHeartbeats 4000000 in
/-- The tile's value at `(cc, y, z)`: the body's one store covers the tile, its value is the taps' accumulation, and each
    tap's two factors are the padded image at the pixel's coordinates moved by the tap and the tap's slab at `(y, z)`; the
    accumulation starts from the zero word, which denotes `0`. The two sides are then the same 81 sums, term for term. -/
theorem tile_at (c : Dev nD) (i : grid0.Coords) (arg2 : Memref sig .tc .vmem S3x520x520 .f32) (harg2 : arg2.IsWhole)
    (arg3 : Memref sig .tc .vmem S81x128x128 .f32) (harg3 : arg3.IsWhole) (arg4 : Memref sig .tc .vmem S3x128x128 .f32) (harg4 : arg4.IsWhole)
    (x0 : Vec Ideal S3x520x520 .f32) (x1 : Vec Ideal S81x128x128 .f32)
    (P : Fin 3 → Fin 520 → Fin 520 → EReal) (hx0 : ∀ c a b, x0 (ix3 c a b) = P c a b)
    (h0 : k0_off1 i 0 = 0)
    (cc : Fin 3) (y z : Fin 128) (h w : Fin 512) (hh : h.val = k0_off1 i 1 + y.val) (hw : w.val = k0_off1 i 2 + z.val) :
    out0_A_2 (F := Ideal) c i arg2 harg2 arg3 harg3 arg4 harg4 x0 x1 (ix3 cc y z)
      = Cert.Blur.blurAt P (fun _ _ a b => x1 (ix3 (tIdx (9 * a.val + b.val)) y z)) cc h w := by
  unfold out0_A_2
  rw [View.read_writes_eq_canon _ _ _ (cover0_A_2 c i arg2 harg2 arg3 harg3 arg4 harg4 x0 x1)]
  unfold kernelRun0_A
  dsimp only
  sl_unfold_run_names
  rw [View.canon_unit_zero zero3]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, shapeCast_self]
  simp (disch := omega) only [addf_apply, mulf_apply, broadcast_apply,
    tap_x (M := arg2) (hM := harg2) (x0 := x0) (P := P) (hx0 := hx0) (off := k0_off1 i) (h0 := h0) (c := cc) (y := y) (z := z)
      (h := h) (w := w) (hh := hh) (hw := hw),
    tap_k (M := arg3) (hM := harg3) (x1 := x1) (c := cc) (y := y) (z := z)]
  simp (disch := omega) only [Cert.Blur.blurAt, Cert.Blur.taps, List.foldl, Cert.Blur.tap_val, Nat.reduceMul, Nat.reduceAdd]
  have hzero : (FloatOps.ofBits (F := Ideal) FTy.f32 0#32) = (0 : EReal) := Ideal.ofBits_zero_f32
  rw [hzero]

end Cert.KernelIdeal.Body

end
-- ==== Proof.KerPad.lean ====
/-
  Reflection padding of the three-channel image by 4 on its two spatial axes, as the kernel program's host-side padding
  function composes it at rank 3: along an axis of extent 512, the four samples after the edge are reversed and put
  before the image (extent 516), then the four samples before the far edge of that are reversed and put after it
  (extent 520); first along the rows, then along the columns of the result. Read at a padded coordinate this is the
  image at the reflected coordinate.
-/
import proofs.«108208_j53102975647806_2_alg».proof.KernelIdeal
import proofs.«108208_j53102975647806_2_alg».proof.Proof.Spec
import Idealize.ShloMosaic.Lib.Pipeline.Value
import Idealize.ShloMosaic.Lib.ValueIdx

noncomputable section

namespace Cert.KernelIdeal.PadValue

open Cert.KernelIdeal Idealize.ShloMosaic

variable {F : FTy → Type} [FloatOps F] [Facts₀]
open Facts₀

/-- Rows, first step: the reversed rows 1…4 before the image; extent 516 along the rows. -/
def rowsLo (x3 : FVec F S3x512x512 .f32) : FVec F S3x516x512 .f32 :=
  concatenate S3x516x512 1
    [⟨S3x4x512, Host.reverse [1] (extractStridedSlice S3x4x512 ![0, 1, 0] x3 slices_S3x512x512_S3x4x512_0_1_0)⟩,
     ⟨S3x512x512, x3⟩]
    concatenates_S3x4x512_S3x512x512_S3x516x512_d1

/-- Rows, second step: the reversed rows 511…514 of the first step after it; extent 520 along the rows. -/
def rows (x3 : FVec F S3x512x512 .f32) : FVec F S3x520x512 .f32 :=
  concatenate S3x520x512 1
    [⟨S3x516x512, rowsLo x3⟩,
     ⟨S3x4x512, Host.reverse [1] (extractStridedSlice S3x4x512 ![0, 511, 0] (rowsLo x3) slices_S3x516x512_S3x4x512_0_511_0)⟩]
    concatenates_S3x516x512_S3x4x512_S3x520x512_d1

/-- Columns, first step: the reversed columns 1…4 of the row-padded image before it; extent 516 along the columns. -/
def colsLo (x3 : FVec F S3x512x512 .f32) : FVec F S3x520x516 .f32 :=
  concatenate S3x520x516 2
    [⟨S3x520x4, Host.reverse [2] (extractStridedSlice S3x520x4 ![0, 0, 1] (rows x3) slices_S3x520x512_S3x520x4_0_0_1)⟩,
     ⟨S3x520x512, rows x3⟩]
    concatenates_S3x520x4_S3x520x512_S3x520x516_d2

/-- the padded image as the composition of the padding function's operations -/
def padTerm (x3 : FVec F S3x512x512 .f32) : FVec F S3x520x520 .f32 :=
  concatenate S3x520x520 2
    [⟨S3x520x516, colsLo x3⟩,
     ⟨S3x520x4, Host.reverse [2] (extractStridedSlice S3x520x4 ![0, 0, 511] (colsLo x3) slices_S3x520x516_S3x520x4_0_0_511)⟩]
    concatenates_S3x520x516_S3x520x4_S3x520x520_d2

/-! ## One operation read at an index -/

section Reverse
variable {α : Type}

/-- Reversal along axis 1 of a rank-3 array reads the operand at the mirrored coordinate on that axis. -/
theorem reverse1_apply {n0 n1 n2 : Nat} (v : (⟨3, ![n0, n1, n2]⟩ : Shape).Idx → α)
    (i0 : Fin n0) (i1 : Fin n1) (i2 : Fin n2) :
    Host.reverse [1] v (ValueIdx.ix3 i0 i1 i2) = v (ValueIdx.ix3 i0 i1.rev i2) := by
  unfold Host.reverse
  refine congrArg v (funext fun d => ?_)
  match d with
  | ⟨0, _⟩ => rfl
  | ⟨1, _⟩ => rfl
  | ⟨2, _⟩ => rfl

/-- Reversal along axis 2 of a rank-3 array reads the operand at the mirrored coordinate on that axis. -/
theorem reverse2_apply {n0 n1 n2 : Nat} (v : (⟨3, ![n0, n1, n2]⟩ : Shape).Idx → α)
    (i0 : Fin n0) (i1 : Fin n1) (i2 : Fin n2) :
    Host.reverse [2] v (ValueIdx.ix3 i0 i1 i2) = v (ValueIdx.ix3 i0 i1 i2.rev) := by
  unfold Host.reverse
  refine congrArg v (funext fun d => ?_)
  match d with
  | ⟨0, _⟩ => rfl
  | ⟨1, _⟩ => rfl
  | ⟨2, _⟩ => rfl

end Reverse

/-! ## The four steps read at an index -/

section Steps
variable (x3 : FVec F S3x512x512 .f32)

/-- Rows, first step, below the image: row `a < 4` is the image's row `4 - a`. -/
theorem rowsLo_lo (c : Fin 3) (a : Fin 516) (b : Fin 512) (h : a.val < 4) :
    rowsLo x3 (ValueIdx.ix3 c a b) = x3 (ValueIdx.ix3 c (⟨4 - a.val, by omega⟩ : Fin 512) b) := by
  unfold rowsLo
  refine (concatenate_pair_apply_left (t := S3x516x512) (s₁ := S3x4x512) (s₂ := S3x512x512) (1 : Fin 3) _ _ _
    (ValueIdx.ix3 c a b) rfl (ValueIdx.ix3 c (⟨a.val, h⟩ : Fin 4) b)
    (fun d => match d with | ⟨0, _⟩ => rfl | ⟨1, _⟩ => rfl | ⟨2, _⟩ => rfl)).trans ?_
  refine (reverse1_apply _ _ _ _).trans ?_
  exact extractStridedSlice_apply _ _ _ _ _ (fun d => match d with
    | ⟨0, _⟩ => by show c.val = 0 + c.val; omega
    | ⟨1, _⟩ => by show 4 - a.val = 1 + (4 - (a.val + 1)); omega
    | ⟨2, _⟩ => by show b.val = 0 + b.val; omega)

/-- Rows, first step, from the image on: row `a ≥ 4` is the image's row `a - 4`. -/
theorem rowsLo_hi (c : Fin 3) (a : Fin 516) (b : Fin 512) (h : 4 ≤ a.val) :
    rowsLo x3 (ValueIdx.ix3 c a b) = x3 (ValueIdx.ix3 c (⟨a.val - 4, by omega⟩ : Fin 512) b) := by
  unfold rowsLo
  exact concatenate_pair_apply_right (t := S3x516x512) (s₁ := S3x4x512) (s₂ := S3x512x512) (1 : Fin 3) _ _ _
    (ValueIdx.ix3 c a b) rfl rfl (ValueIdx.ix3 c (⟨a.val - 4, by omega⟩ : Fin 512) b)
    (fun d hd => match d with
      | ⟨0, _⟩ => rfl | ⟨1, _⟩ => absurd rfl hd | ⟨2, _⟩ => rfl)
    (by show a.val - 4 + 4 = a.val; omega)

/-- Rows, second step, inside the first step: row `a < 516` is the first step's row `a`. -/
theorem rows_lo (c : Fin 3) (a : Fin 520) (b : Fin 512) (h : a.val < 516) :
    rows x3 (ValueIdx.ix3 c a b) = rowsLo x3 (ValueIdx.ix3 c (⟨a.val, h⟩ : Fin 516) b) := by
  unfold rows
  exact concatenate_pair_apply_left (t := S3x520x512) (s₁ := S3x516x512) (s₂ := S3x4x512) (1 : Fin 3) _ _ _
    (ValueIdx.ix3 c a b) rfl (ValueIdx.ix3 c (⟨a.val, h⟩ : Fin 516) b)
    (fun d => match d with | ⟨0, _⟩ => rfl | ⟨1, _⟩ => rfl | ⟨2, _⟩ => rfl)

/-- Rows, second step, past the first step: row `a ≥ 516` is the first step's row `1030 - a`. -/
theorem rows_hi (c : Fin 3) (a : Fin 520) (b : Fin 512) (h : 516 ≤ a.val) :
    rows x3 (ValueIdx.ix3 c a b)
      = rowsLo x3 (ValueIdx.ix3 c (⟨1030 - a.val, by have := a.isLt; omega⟩ : Fin 516) b) := by
  have ha := a.isLt
  unfold rows
  refine (concatenate_pair_apply_right (t := S3x520x512) (s₁ := S3x516x512) (s₂ := S3x4x512) (1 : Fin 3) _ _ _
    (ValueIdx.ix3 c a b) rfl rfl (ValueIdx.ix3 c (⟨a.val - 516, by omega⟩ : Fin 4) b)
    (fun d hd => match d with
      | ⟨0, _⟩ => rfl | ⟨1, _⟩ => absurd rfl hd | ⟨2, _⟩ => rfl)
    (by show a.val - 516 + 516 = a.val; omega)).trans ?_
  refine (reverse1_apply _ _ _ _).trans ?_
  exact extractStridedSlice_apply _ _ _ _ _ (fun d => match d with
    | ⟨0, _⟩ => by show c.val = 0 + c.val; omega
    | ⟨1, _⟩ => by show 1030 - a.val = 511 + (4 - (a.val - 516 + 1)); omega
    | ⟨2, _⟩ => by show b.val = 0 + b.val; omega)

/-- The row-padded image reads the image at the reflected row. -/
theorem rows_apply (c : Fin 3) (a : Fin 520) (b : Fin 512) :
    rows x3 (ValueIdx.ix3 c a b) = x3 (ValueIdx.ix3 c (Cert.Blur.refl a) b) := by
  have ha := a.isLt
  by_cases h1 : a.val < 4
  · rw [rows_lo x3 c a b (by omega), rowsLo_lo x3 c _ b h1]
    exact congrArg (fun r => x3 (ValueIdx.ix3 c r b))
      (Fin.ext (by rw [Cert.Blur.refl_val, if_pos h1]))
  · by_cases h2 : a.val < 516
    · rw [rows_lo x3 c a b h2, rowsLo_hi x3 c _ b (by show 4 ≤ a.val; omega)]
      exact congrArg (fun r => x3 (ValueIdx.ix3 c r b))
        (Fin.ext (by rw [Cert.Blur.refl_val, if_neg h1, if_pos h2]))
    · rw [rows_hi x3 c a b (by omega), rowsLo_hi x3 c _ b (by show 4 ≤ 1030 - a.val; omega)]
      exact congrArg (fun r => x3 (ValueIdx.ix3 c r b))
        (Fin.ext (by rw [Cert.Blur.refl_val, if_neg h1, if_neg h2]; show 1030 - a.val - 4 = 1026 - a.val; omega))

/-- Columns, first step, before the image: column `b < 4` is the row-padded image's column `4 - b`. -/
theorem colsLo_lo (c : Fin 3) (a : Fin 520) (b : Fin 516) (h : b.val < 4) :
    colsLo x3 (ValueIdx.ix3 c a b) = rows x3 (ValueIdx.ix3 c a (⟨4 - b.val, by omega⟩ : Fin 512)) := by
  unfold colsLo
  refine (concatenate_pair_apply_left (t := S3x520x516) (s₁ := S3x520x4) (s₂ := S3x520x512) (2 : Fin 3) _ _ _
    (ValueIdx.ix3 c a b) rfl (ValueIdx.ix3 c a (⟨b.val, h⟩ : Fin 4))
    (fun d => match d with | ⟨0, _⟩ => rfl | ⟨1, _⟩ => rfl | ⟨2, _⟩ => rfl)).trans ?_
  refine (reverse2_apply _ _ _ _).trans ?_
  exact extractStridedSlice_apply _ _ _ _ _ (fun d => match d with
    | ⟨0, _⟩ => by show c.val = 0 + c.val; omega
    | ⟨1, _⟩ => by show a.val = 0 + a.val; omega
    | ⟨2, _⟩ => by show 4 - b.val = 1 + (4 - (b.val + 1)); omega)

/-- Columns, first step, from the image on: column `b ≥ 4` is the row-padded image's column `b - 4`. -/
theorem colsLo_hi (c : Fin 3) (a : Fin 520) (b : Fin 516) (h : 4 ≤ b.val) :
    colsLo x3 (ValueIdx.ix3 c a b) = rows x3 (ValueIdx.ix3 c a (⟨b.val - 4, by omega⟩ : Fin 512)) := by
  unfold colsLo
  exact concatenate_pair_apply_right (t := S3x520x516) (s₁ := S3x520x4) (s₂ := S3x520x512) (2 : Fin 3) _ _ _
    (ValueIdx.ix3 c a b) rfl rfl (ValueIdx.ix3 c a (⟨b.val - 4, by omega⟩ : Fin 512))
    (fun d hd => match d with
      | ⟨0, _⟩ => rfl | ⟨1, _⟩ => rfl | ⟨2, _⟩ => absurd rfl hd)
    (by show b.val - 4 + 4 = b.val; omega)

/-- Columns, second step, inside the first step: column `b < 516` is the first step's column `b`. -/
theorem pad_lo (c : Fin 3) (a : Fin 520) (b : Fin 520) (h : b.val < 516) :
    padTerm x3 (ValueIdx.ix3 c a b) = colsLo x3 (ValueIdx.ix3 c a (⟨b.val, h⟩ : Fin 516)) := by
  unfold padTerm
  exact concatenate_pair_apply_left (t := S3x520x520) (s₁ := S3x520x516) (s₂ := S3x520x4) (2 : Fin 3) _ _ _
    (ValueIdx.ix3 c a b) rfl (ValueIdx.ix3 c a (⟨b.val, h⟩ : Fin 516))
    (fun d => match d with | ⟨0, _⟩ => rfl | ⟨1, _⟩ => rfl | ⟨2, _⟩ => rfl)

/-- Columns, second step, past the first step: column `b ≥ 516` is the first step's column `1030 - b`. -/
theorem pad_hi (c : Fin 3) (a : Fin 520) (b : Fin 520) (h : 516 ≤ b.val) :
    padTerm x3 (ValueIdx.ix3 c a b)
      = colsLo x3 (ValueIdx.ix3 c a (⟨1030 - b.val, by have := b.isLt; omega⟩ : Fin 516)) := by
  have hb := b.isLt
  unfold padTerm
  refine (concatenate_pair_apply_right (t := S3x520x520) (s₁ := S3x520x516) (s₂ := S3x520x4) (2 : Fin 3) _ _ _
    (ValueIdx.ix3 c a b) rfl rfl (ValueIdx.ix3 c a (⟨b.val - 516, by omega⟩ : Fin 4))
    (fun d hd => match d with
      | ⟨0, _⟩ => rfl | ⟨1, _⟩ => rfl | ⟨2, _⟩ => absurd rfl hd)
    (by show b.val - 516 + 516 = b.val; omega)).trans ?_
  refine (reverse2_apply _ _ _ _).trans ?_
  exact extractStridedSlice_apply _ _ _ _ _ (fun d => match d with
    | ⟨0, _⟩ => by show c.val = 0 + c.val; omega
    | ⟨1, _⟩ => by show a.val = 0 + a.val; omega
    | ⟨2, _⟩ => by show 1030 - b.val = 511 + (4 - (b.val - 516 + 1)); omega)

/-- The padded image reads the row-padded image at the reflected column. -/
theorem cols_apply (c : Fin 3) (a : Fin 520) (b : Fin 520) :
    padTerm x3 (ValueIdx.ix3 c a b) = rows x3 (ValueIdx.ix3 c a (Cert.Blur.refl b)) := by
  have hb := b.isLt
  by_cases h1 : b.val < 4
  · rw [pad_lo x3 c a b (by omega), colsLo_lo x3 c a _ h1]
    exact congrArg (fun r => rows x3 (ValueIdx.ix3 c a r))
      (Fin.ext (by rw [Cert.Blur.refl_val, if_pos h1]))
  · by_cases h2 : b.val < 516
    · rw [pad_lo x3 c a b h2, colsLo_hi x3 c a _ (by show 4 ≤ b.val; omega)]
      exact congrArg (fun r => rows x3 (ValueIdx.ix3 c a r))
        (Fin.ext (by rw [Cert.Blur.refl_val, if_neg h1, if_pos h2]))
    · rw [pad_hi x3 c a b (by omega), colsLo_hi x3 c a _ (by show 4 ≤ 1030 - b.val; omega)]
      exact congrArg (fun r => rows x3 (ValueIdx.ix3 c a r))
        (Fin.ext (by rw [Cert.Blur.refl_val, if_neg h1, if_neg h2]; show 1030 - b.val - 4 = 1026 - b.val; omega))

end Steps

/-- The padded image at channel `c` and padded coordinates `(a, b)` is the image at the reflected coordinates. -/
theorem padTerm_apply (x3 : FVec Ideal S3x512x512 .f32) (c : Fin 3) (a b : Fin 520) :
    padTerm (F := Ideal) x3 (ValueIdx.ix3 c a b) = x3 (ValueIdx.ix3 c (Cert.Blur.refl a) (Cert.Blur.refl b)) := by
  rw [cols_apply x3 c a b, rows_apply x3 c a (Cert.Blur.refl b)]

end Cert.KernelIdeal.PadValue

end
-- ==== Proof.KerHost.lean ====
/-
  The two arrays the kernel's region finds, read at an index.

  Before the region the host code drops the image's unit axis ([1,3,512,512] → [3,512,512]), reflect-pads it to
  [3,520,520], and re-lays the kernel field [512,512,9,9] → [512,512,81] → [81,512,512] (the two tap axes merged
  row-major, t = 9·i + j, then moved to the front). So the first array at (c, a, b) is the image at (0, c, refl a, refl b),
  and the second at (9·i + j, h, w) is the kernel field at (h, w, i, j).
-/
import proofs.«108208_j53102975647806_2_alg».proof.Proof.Gen.KernelIdeal.Frame
import proofs.«108208_j53102975647806_2_alg».proof.Proof.KerPad
import proofs.«108208_j53102975647806_2_alg».proof.Proof.KerTap
import Idealize.ShloMosaic.Lib.Pipeline.Value
import Idealize.ShloMosaic.Lib.StableHlo.Run

noncomputable section

namespace Cert.KernelIdeal.Host

open Cert.KernelIdeal Cert.KernelIdeal.Gen Cert.KernelIdeal.Tap Idealize.ShloMosaic Idealize.ShloMosaic.ValueIdx
open Idealize.ShloMosaic.TcCoe Idealize.SL.Sem Idealize.ShloMosaic.StableHlo

variable (m : (ℓ : Loc nD τ sig) → Buf (Elt Ideal) ℓ)

-- the layout functions stay folded while the two sides are compared: the equation never looks inside them, and the
-- casts the typed references put around each operation of the outlined pad are identities the comparison sees through
attribute [local irreducible] concatenate Host.reverse extractStridedSlice shapeCast in
set_option maxRecDepth 8192 in
set_option maxHeartbeats 1000000 in
/-- The padded image the region finds is the pad of the image with its unit axis dropped: the pad function's
    operations composed, its four stages each a concatenation of a reversed block with the stage before. -/
theorem v1_eq (c : Dev nD) :
    (V m c main_v1 : S3x520x520.Idx → EReal)
      = Cert.KernelIdeal.PadValue.padTerm (F := Ideal)
          (shapeCast S3x512x512 (m ((c : Thread nD τ).loc main_arg0)) shapeCasts_S1x3x512x512_S3x512x512) := by
  dsimp only [Gen.V, Gen.V0]
  simp only [Gen.hostOps0, Gen.hostOps0_1, Gen.hostOps0_2, List.flatten_cons, List.flatten_nil, List.append_nil, List.cons_append, List.nil_append]
  after_results
  unfold PadValue.padTerm PadValue.colsLo PadValue.rows PadValue.rowsLo
  rfl

/-- The re-laid kernel field the region finds. -/
theorem v3_eq (c : Dev nD) :
    (V m c main_v3 : S81x512x512.Idx → EReal)
      = transpose S81x512x512 [2, 0, 1]
          (shapeCast S512x512x81 (m ((c : Thread nD τ).loc main_arg1)) shapeCasts_S512x512x9x9_S512x512x81)
          transposes_S512x512x81_S81x512x512_2_0_1 := by
  dsimp only [Gen.V, Gen.V0]
  simp only [Gen.hostOps0, Gen.hostOps0_1, Gen.hostOps0_2, List.flatten_cons, List.flatten_nil, List.append_nil, List.cons_append, List.nil_append]
  after_results
  rfl

/-- The padded image at `(c, a, b)`. -/
theorem v1_apply (c : Dev nD) (cc : Fin 3) (a b : Fin 520) :
    V m c main_v1 (ix3 cc a b) = Cert.Blur.padR (m ((c : Thread nD τ).loc main_arg0)) cc a b := by
  rw [v1_eq, Cert.KernelIdeal.PadValue.padTerm_apply]
  unfold Cert.Blur.padR
  refine shapeCast_apply _ _ _ _ ?_
  refine (Shape.rowMajor_val_four (d := ![1, 3, 512, 512]) _).trans (Eq.trans ?_ (Shape.rowMajor_val_three (d := ![3, 512, 512]) _).symm)
  show ((0 * 3 + cc.val) * 512 + (Cert.Blur.refl a).val) * 512 + (Cert.Blur.refl b).val = (cc.val * 512 + (Cert.Blur.refl a).val) * 512 + (Cert.Blur.refl b).val
  omega

/-- The re-laid kernel field at tap `9·i + j` and pixel `(h, w)`. -/
theorem v3_apply (c : Dev nD) (i j : Fin 9) (h w : Fin 512) :
    V m c main_v3 (ix3 (tIdx (9 * i.val + j.val)) h w) = Cert.Blur.kerR (m ((c : Thread nD τ).loc main_arg1)) h w i j := by
  rw [v3_eq]
  unfold Cert.Blur.kerR
  have ht : (tIdx (9 * i.val + j.val)).val = 9 * i.val + j.val := tIdx_val _ (by have := i.isLt; have := j.isLt; omega)
  rw [transpose_apply [2, 0, 1] _ _ _ (ix3 h w (tIdx (9 * i.val + j.val))) (fun b => by
    match b with
    | ⟨0, _⟩ => rfl
    | ⟨1, _⟩ => rfl
    | ⟨2, _⟩ => rfl)]
  refine shapeCast_apply _ _ _ _ ?_
  refine (Shape.rowMajor_val_four (d := ![512, 512, 9, 9]) _).trans (Eq.trans ?_ (Shape.rowMajor_val_three (d := ![512, 512, 81]) _).symm)
  show ((h.val * 512 + w.val) * 9 + i.val) * 9 + j.val = (h.val * 512 + w.val) * 81 + (tIdx (9 * i.val + j.val)).val
  rw [ht]; omega

end Cert.KernelIdeal.Host

end
-- ==== Proof.KerSpec.lean ====
/-
  The kernel's own output array, before its unit axis is restored: the specification at rank 3.
-/
import proofs.«108208_j53102975647806_2_alg».proof.Proof.Spec

noncomputable section

namespace Cert.Blur

open Idealize.ShloMosaic Idealize.ShloMosaic.ValueIdx

/-- The shape `[3, 512, 512]` of the kernel's output array. -/
abbrev SO : Shape := ⟨3, ![3, 512, 512]⟩

/-- Every pixel's accumulated sum, indexed by channel, row and column. -/
def G3 (x : FVec Ideal SX .f32) (K : FVec Ideal SK .f32) : FVec Ideal SO .f32 :=
  fun idx => blurAt (padR x) (kerR K) (idx 0) (idx 1) (idx 2)

theorem G3_apply (x : FVec Ideal SX .f32) (K : FVec Ideal SK .f32) (c : Fin 3) (h w : Fin 512) :
    G3 x K (ix3 c h w) = blurAt (padR x) (kerR K) c h w := rfl

/-- The result with its unit axis is the rank-3 array at the trailing coordinates. -/
theorem G_eq_G3 (x : FVec Ideal SX .f32) (K : FVec Ideal SK .f32) (b : Fin 1) (c : Fin 3) (h w : Fin 512) :
    G x K (ix4 b c h w) = G3 x K (ix3 c h w) := rfl

end Cert.Blur

end
-- ==== Proof.KerValue.lean ====
/-
  From tiles to the whole output array.

  The grid is 4×4; point (tr, tc) works on the 128×128 tile whose corner is (128·tr, 128·tc), on all three channels. It
  finds the whole padded image in its first buffer, the kernel block of that tile (all 81 taps) in its second, and
  writes back the tile of the output. Each tile is the corresponding block of ONE function of the two arguments — the
  accumulated sum at every pixel — and the sixteen tiles cover the array, so after the run the output array is that
  function.
-/
import proofs.«108208_j53102975647806_2_alg».proof.Proof.KerBody
import proofs.«108208_j53102975647806_2_alg».proof.Proof.KerHost
import proofs.«108208_j53102975647806_2_alg».proof.Proof.KerSpec

set_option maxRecDepth 16384

noncomputable section

namespace Cert.KernelIdeal.Tiles

open Cert.KernelIdeal Cert.KernelIdeal.Gen Cert.KernelIdeal.Tap Idealize.ShloMosaic Idealize.ShloMosaic.ValueIdx
open Idealize.ShloMosaic.TcCoe Idealize.SL.Sem
open Idealize.ShloMosaic.Pipeline (Dat Cfg Window)

variable (m : (ℓ : Loc nD τ sig) → Buf (Elt Ideal) ℓ)

/-- The printed index maps and the body's patch corner, decided over the sixteen grid points: the image window is the
    whole array at every point; the kernel window's block moves with the output's on the two pixel axes and takes all
    taps; the patch's corner is the output tile's corner. -/
theorem idx_facts : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = win0_2.index t (1 : Fin 3)
    ∧ win0_1.index t (2 : Fin 3) = win0_2.index t (2 : Fin 3)
    ∧ win0_2.index t (0 : Fin 3) = 0 ∧ win0_2.index t (1 : Fin 3) ≤ 3 ∧ win0_2.index t (2 : Fin 3) ≤ 3
    ∧ k0_off1 (grid0.coords t) 0 = 0
    ∧ k0_off1 (grid0.coords t) 1 = win0_2.index t (1 : Fin 3) * 128
    ∧ k0_off1 (grid0.coords t) 2 = win0_2.index t (2 : Fin 3) * 128 :=
  (by decide +kernel : ∀ t : Fin grid0.N, _)

/-- Every tile of the 4×4 tiling is some point's. -/
theorem idx_onto : ∀ (q1 q2 : Fin 4), ∃ t : Fin cfg0.N, win0_2.index t = ![0, q1.val, q2.val] :=
  (by decide +kernel : ∀ (q1 q2 : Fin 4), ∃ t : Fin grid0.N, win0_2.index t = ![0, q1.val, q2.val])

/-- The accumulated sum depends on the kernel only through the pixel's own 9×9 kernel. -/
theorem blurAt_congr (P : Fin 3 → Fin 520 → Fin 520 → EReal) (K1 K2 : Fin 512 → Fin 512 → Fin 9 → Fin 9 → EReal)
    (c : Fin 3) (h w : Fin 512) (hK : ∀ a b, K1 h w a b = K2 h w a b) :
    Cert.Blur.blurAt P K1 c h w = Cert.Blur.blurAt P K2 c h w := by
  simp only [Cert.Blur.blurAt, hK]

/-- The image window's block at any point is the whole padded image. -/
theorem iblk0_apply (c : Dev nD) (t : Fin cfg0.N) (cc : Fin 3) (a b : Fin 520) :
    iblk m c 0 t (ix3 cc a b) = Cert.Blur.padR (m ((c : Thread nD τ).loc main_arg0)) cc a b := by
  obtain ⟨e0, e1, e2, -⟩ := idx_facts t
  rw [← Host.v1_apply m c cc a b]
  show V m c main_v1 (((cfg0.win 0).blk t).view.emb (ix3 cc a b)) = V m c main_v1 (ix3 cc a b)
  refine congrArg (V m c main_v1) (funext fun d => Fin.ext ?_)
  match d with
  | ⟨0, _⟩ => show win0_0.index t (0 : Fin 3) * 3 + 1 * cc.val = cc.val; omega
  | ⟨1, _⟩ => show win0_0.index t (1 : Fin 3) * 520 + 1 * a.val = a.val; omega
  | ⟨2, _⟩ => show win0_0.index t (2 : Fin 3) * 520 + 1 * b.val = b.val; omega

/-- The kernel window's block at a point, at tap `9·i + j` and tile coordinate `(y, z)`: the kernel field at the pixel. -/
theorem iblk1_apply (c : Dev nD) (t : Fin cfg0.N) (i j : Fin 9) (y z : Fin 128) (h w : Fin 512)
    (hh : h.val = win0_2.index t (1 : Fin 3) * 128 + y.val) (hw : w.val = win0_2.index t (2 : Fin 3) * 128 + z.val) :
    iblk m c 1 t (ix3 (tIdx (9 * i.val + j.val)) y z) = Cert.Blur.kerR (m ((c : Thread nD τ).loc main_arg1)) h w i j := by
  obtain ⟨-, -, -, e3, e4, e5, -⟩ := idx_facts t
  rw [← Host.v3_apply m c i j h w]
  show V m c main_v3 (((cfg0.win 1).blk t).view.emb (ix3 (tIdx (9 * i.val + j.val)) y z)) = V m c main_v3 (ix3 (tIdx (9 * i.val + j.val)) h w)
  refine congrArg (V m c main_v3) (funext fun d => Fin.ext ?_)
  match d with
  | ⟨0, _⟩ => show win0_1.index t (0 : Fin 3) * 81 + 1 * (tIdx (9 * i.val + j.val)).val = (tIdx (9 * i.val + j.val)).val; omega
  | ⟨1, _⟩ => show win0_1.index t (1 : Fin 3) * 128 + 1 * y.val = h.val; omega
  | ⟨2, _⟩ => show win0_1.index t (2 : Fin 3) * 128 + 1 * z.val = w.val; omega

/-- The pixel under tile coordinate `(y, z)` of point `t`'s tile. -/
def pix (t : Fin cfg0.N) (a : Fin 3) (y : Fin 128) : Fin 512 :=
  ⟨min (win0_2.index t a * 128 + y.val) 511, by omega⟩

theorem pix_val1 (t : Fin cfg0.N) (y : Fin 128) : (pix t 1 y).val = win0_2.index t (1 : Fin 3) * 128 + y.val := by
  obtain ⟨-, -, -, -, -, -, -, e7, -⟩ := idx_facts t
  have := y.isLt; simp only [pix]; omega

theorem pix_val2 (t : Fin cfg0.N) (z : Fin 128) : (pix t 2 z).val = win0_2.index t (2 : Fin 3) * 128 + z.val := by
  obtain ⟨-, -, -, -, -, -, -, -, e8, -⟩ := idx_facts t
  have := z.isLt; simp only [pix]; omega

/-- What the body leaves at tile coordinate `(cc, y, z)` of point `t`'s tile: the accumulated sum at the pixel under it. -/
theorem tile_eq (c : Dev nD) (t : Fin cfg0.N) (cc : Fin 3) (y z : Fin 128) :
    outsAt0 m c t (ix3 cc y z)
      = Cert.Blur.blurAt (Cert.Blur.padR (m ((c : Thread nD τ).loc main_arg0))) (Cert.Blur.kerR (m ((c : Thread nD τ).loc main_arg1)))
          cc (pix t 1 y) (pix t 2 z) := by
  obtain ⟨-, -, -, -, -, -, -, -, -, e9, e10, e11⟩ := idx_facts t
  unfold outsAt0
  refine (Body.tile_at c (grid0.coords t) (ms0_0 t) (hs0_0 t) (ms0_1 t) (hs0_1 t) (ms0_2 t) (hs0_2 t) (iblk m c 0 t) (iblk m c 1 t)
    (Cert.Blur.padR (m ((c : Thread nD τ).loc main_arg0))) (iblk0_apply m c t) e9 cc y z (pix t 1 y) (pix t 2 z)
    ((pix_val1 t y).trans (by rw [e10])) ((pix_val2 t z).trans (by rw [e11]))).trans ?_
  exact blurAt_congr (Cert.Blur.padR (m ((c : Thread nD τ).loc main_arg0))) _ (Cert.Blur.kerR (m ((c : Thread nD τ).loc main_arg1)))
    cc (pix t 1 y) (pix t 2 z) (fun a b => iblk1_apply m c t a b y z (pix t 1 y) (pix t 2 z) (pix_val1 t y) (pix_val2 t z))

/-- Tile coordinate `(cc, y, z)` of point `t`'s tile sits in the output array at the pixel under it. -/
theorem emb_tile (t : Fin cfg0.N) (cc : Fin 3) (y z : Fin 128) :
    ((cfg0.win 2).blk t).view.emb (ix3 cc y z) = ix3 cc (pix t 1 y) (pix t 2 z) := by
  obtain ⟨-, -, -, -, -, -, e6, -⟩ := idx_facts t
  funext d; apply Fin.ext
  match d with
  | ⟨0, _⟩ => show win0_2.index t (0 : Fin 3) * 3 + 1 * cc.val = cc.val; omega
  | ⟨1, _⟩ => show win0_2.index t (1 : Fin 3) * 128 + 1 * y.val = (pix t 1 y).val; rw [pix_val1]; omega
  | ⟨2, _⟩ => show win0_2.index t (2 : Fin 3) * 128 + 1 * z.val = (pix t 2 z).val; rw [pix_val2]; omega

/-- The tile point `t` leaves, coordinate by coordinate, is the accumulated sums read where the tile sits. -/
theorem tile_block (c : Dev nD) (t : Fin cfg0.N) (j : S3x128x128.Idx) :
    outsAt0 m c t j = Cert.Blur.G3 (m ((c : Thread nD τ).loc main_arg0)) (m ((c : Thread nD τ).loc main_arg1))
      (((cfg0.win 2).blk t).view.emb j) := by
  obtain ⟨cc, y, z, rfl⟩ : ∃ (cc : Fin 3) (y z : Fin 128), j = ix3 cc y z := ⟨j 0, j 1, j 2, eq_ix3 j⟩
  rw [emb_tile t cc y z, Cert.Blur.G3_apply]
  exact tile_eq m c t cc y z

/-- WHAT POINT `t` WRITES BACK is tile `t` of the accumulated sums of the two arguments. -/
theorem flushed_eq (c : Dev nD) (t : Fin cfg0.N) :
    (dats m 0 c).flushed 2 t = ((cfg0.win 2).blk t).view.read (Elt Ideal)
      (Cert.Blur.G3 (m ((c : Thread nD τ).loc main_arg0)) (m ((c : Thread nD τ).loc main_arg1))) := by
  show (cfg0.win 2).cut (grid0.coords t) ((dats m 0 c).after 2 t) = _
  rw [after0_2]
  have key := tile_block m c t
  generalize outsAt0 m c t = T at key ⊢
  generalize Cert.Blur.G3 (m ((c : Thread nD τ).loc main_arg0)) (m ((c : Thread nD τ).loc main_arg1)) = G at key ⊢
  funext j
  exact key j

/-- An index of the output array is in point `t`'s tile iff each coordinate is in the tile's range on its axis. -/
theorem mem_blk (t : Fin cfg0.N) (i : S3x512x512.Idx) :
    i ∈ ((cfg0.win 2).blk t).view.set ↔ ∀ a : Fin 3, win0_2.index t a * S3x128x128.size a ≤ (i a).val
      ∧ (i a).val < win0_2.index t a * S3x128x128.size a + S3x128x128.size a := by
  show i ∈ ((View.whole main_v4).slice (win0_2.rect t)).set ↔ _
  rw [View.set_slice_whole, Rect.mem_set_unit]
  exact Iff.rfl

/-- Every index of the output array is in some point's tile: the one at (row / 128, column / 128). -/
theorem cover (i : S3x512x512.Idx) :
    ∃ t : Fin cfg0.N, (cfg0.win 2).flush t = true ∧ i ∈ ((cfg0.win 2).blk t).view.set := by
  have hi0 : (i 0).val < 3 := (i 0).isLt
  have hi1 : (i 1).val < 512 := (i 1).isLt
  have hi2 : (i 2).val < 512 := (i 2).isLt
  obtain ⟨t, ht⟩ := idx_onto ⟨(i 1).val / 128, by omega⟩ ⟨(i 2).val / 128, by omega⟩
  have q0 : win0_2.index t (0 : Fin 3) = 0 := congrFun ht 0
  have q1 : win0_2.index t (1 : Fin 3) = (i 1).val / 128 := congrFun ht 1
  have q2 : win0_2.index t (2 : Fin 3) = (i 2).val / 128 := congrFun ht 2
  refine ⟨t, flush0_2 t, ?_⟩
  rw [mem_blk]
  intro a
  match a with
  | ⟨0, _⟩ => show win0_2.index t (0 : Fin 3) * 3 ≤ (i 0).val ∧ (i 0).val < win0_2.index t (0 : Fin 3) * 3 + 3; omega
  | ⟨1, _⟩ => show win0_2.index t (1 : Fin 3) * 128 ≤ (i 1).val ∧ (i 1).val < win0_2.index t (1 : Fin 3) * 128 + 128; omega
  | ⟨2, _⟩ => show win0_2.index t (2 : Fin 3) * 128 ≤ (i 2).val ∧ (i 2).val < win0_2.index t (2 : Fin 3) * 128 + 128; omega

/-- THE OUTPUT ARRAY after the run: the accumulated sums of the two arguments, at every index. -/
theorem final (c : Dev nD) :
    ((dats m 0 c).arrAt 2 cfg0.N : S3x512x512.Idx → EReal)
      = Cert.Blur.G3 (m ((c : Thread nD τ).loc main_arg0)) (m ((c : Thread nD τ).loc main_arg1)) :=
  (dats m 0 c).arrAt_eq_of_cover 2 _ (fun t _ => flushed_eq m c t) cover

end Cert.KernelIdeal.Tiles

end
-- ==== Proof.KerRun.lean ====
/-
  The kernel program's run read at its result: after the pipelined region the program restores the unit axis of the
  output array by a broadcast, so the result at (0, c, h, w) is the output array at (c, h, w); the two arguments end as
  launched.
-/
import proofs.«108208_j53102975647806_2_alg».proof.Proof.Gen.KernelIdeal.Frame
import proofs.«108208_j53102975647806_2_alg».proof.Proof.KerSpec
import Idealize.ShloMosaic.Lib.Pipeline.Value
import Idealize.ShloMosaic.Lib.StableHlo.Run

noncomputable section

namespace Cert.KernelIdeal.RunValue

open Cert.KernelIdeal Cert.KernelIdeal.Gen Idealize.ShloMosaic Idealize.ShloMosaic.ValueIdx Idealize.ShloMosaic.TcCoe Idealize.SL.Sem

/-- What the lines after the region leave in the result buffer: the broadcast of the output array, which is the
    specification with its unit axis. -/
theorem tail_result (m : (ℓ : Loc nD τ sig) → Buf (Elt Ideal) ℓ) (c : Dev nD)
    (hfinal : ((dats m 0 c).arrAt 2 cfg0.N : S3x512x512.Idx → EReal)
      = Cert.Blur.G3 (m ((c : Thread nD τ).loc main_arg0)) (m ((c : Thread nD τ).loc main_arg1))) :
    Pipeline.afterTail₀ cfgs (dats m) 0 (V0 m) [hostOps1] c main_v5
      = Cert.Blur.G (m ((c : Thread nD τ).loc main_arg0)) (m ((c : Thread nD τ).loc main_arg1)) := by
  unfold Pipeline.afterTail₀
  show StableHlo.after hostOps1 _ (Proc.devRef .tc main_v5) = _
  after_results
  -- the region leaves the output array at what the proof data computes
  have hw : Pipeline.withArrays (cfgs 0).spec c (V0 m c) (fun w => (dats m 0 c).arrAt w (cfgs 0).N) (Proc.devRef .tc main_v4)
      = Cert.Blur.G3 (m ((c : Thread nD τ).loc main_arg0)) (m ((c : Thread nD τ).loc main_arg1)) :=
    (Pipeline.withArrays_arr spec0 launch0.win.arr_inj c _ _ 2).trans hfinal
  rw [hw]
  funext idx
  obtain ⟨b, cc, h, w, rfl⟩ : ∃ (b : Fin 1) (cc : Fin 3) (h w : Fin 512), idx = ix4 b cc h w :=
    ⟨idx 0, idx 1, idx 2, idx 3, eq_ix4 idx⟩
  -- the broadcast over the new leading axis reads the operand at the trailing coordinates
  refine (broadcastInDim_apply _ _ _ _ (ix3 cc h w) (fun a => match a with
    | ⟨0, _⟩ => rfl | ⟨1, _⟩ => rfl | ⟨2, _⟩ => rfl)).trans ?_
  exact (Cert.Blur.G_eq_G3 _ _ b cc h w).symm

/-- Every weakly fair execution of the kernel program terminates with the result buffer at the specification (given
    that the region leaves the output array at the rank-3 specification) and the two arguments as launched. -/
theorem run (m : (ℓ : Loc nD τ sig) → Buf (Elt Ideal) ℓ) (ρ : Dev nD → PrngReg)
    (hfinal : ∀ c : Dev nD, ((dats m 0 c).arrAt 2 cfg0.N : S3x512x512.Idx → EReal)
      = Cert.Blur.G3 (m ((c : Thread nD τ).loc main_arg0)) (m ((c : Thread nD τ).loc main_arg1))) :
    θ_run (defs (F := Ideal)) (onTc (τ := τ) (main (F := Ideal))) ⟨m, fun _ => 0, ρ⟩ fun r => ∀ c : Dev nD,
      r.2.mem ((c.tc : Thread nD τ).loc main_v5)
          = Cert.Blur.G (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_result m c (hfinal c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.RunValue

end
-- ==== Proof.RefOps.lean ====
/-
  The reference program's straight line as LISTS of its host operations: the 571 operation statements of @main in
  order, the call of the outlined reflect-pad replaced by that function's sixteen operations over the call's record
  (twelve of its own and the four one-operation flips it calls), 586 operations in all. The line is cut at every
  boundary of a printed window (after operations 75, 135, …, 555) and at every boundary of a row of nine taps
  (before operations 19, 82, …, 523); the two families of cuts interleave, so the nineteen pieces `pc0 … pc18` give
  both the printed windows (`ops_partK = pc(2K) ++ pc(2K+1)`) and the tap rows (`rowOps i = pc(2i+1) ++ pc(2i+2)`), and
  the two groupings of the whole line differ by the associativity of concatenation only.
-/
import proofs.«108208_j53102975647806_2_alg».proof.Proof.Gen.ReferenceIdeal
import Idealize.ShloMosaic.Lib.StableHlo.Run

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Operations 1 … 19 of 586. -/
abbrev pc0 : List (HloOp τ sig (Elt F)) :=
  [ nullary main_c (constantI S_ 32 0#32),
    TRef.unary (.of main_arg0 : TRef sig ⟨S1x3x512x512, .f32⟩) main_call0.v0 (extractStridedSlice S1x3x1x512 ![0, 0, 0, 0] · slices_S1x3x512x512_S1x3x1x512_0_0_0_0),
    TRef.unary (.of main_arg0 : TRef sig ⟨S1x3x512x512, .f32⟩) main_call0.v1 (extractStridedSlice S1x3x4x512 ![0, 0, 1, 0] · slices_S1x3x512x512_S1x3x4x512_0_0_1_0),
    TRef.unary main_call0.v1 main_call0.call0.v0 (Host.reverse [2]),
    TRef.binary main_call0.call0.v0 (.of main_arg0 : TRef sig ⟨S1x3x512x512, .f32⟩) main_call0.v3 (fun a b => concatenate S1x3x516x512 2 [⟨S1x3x4x512, a⟩, ⟨S1x3x512x512, b⟩] concatenates_S1x3x4x512_S1x3x512x512_S1x3x516x512_d2),
    TRef.unary main_call0.v3 main_call0.v4 (extractStridedSlice S1x3x1x512 ![0, 0, 515, 0] · slices_S1x3x516x512_S1x3x1x512_0_0_515_0),
    TRef.unary main_call0.v3 main_call0.v5 (extractStridedSlice S1x3x4x512 ![0, 0, 511, 0] · slices_S1x3x516x512_S1x3x4x512_0_0_511_0),
    TRef.unary main_call0.v5 main_call0.call1.v0 (Host.reverse [2]),
    TRef.binary main_call0.v3 main_call0.call1.v0 main_call0.v7 (fun a b => concatenate S1x3x520x512 2 [⟨S1x3x516x512, a⟩, ⟨S1x3x4x512, b⟩] concatenates_S1x3x516x512_S1x3x4x512_S1x3x520x512_d2),
    TRef.unary main_call0.v7 main_call0.v8 (extractStridedSlice S1x3x520x1 ![0, 0, 0, 0] · slices_S1x3x520x512_S1x3x520x1_0_0_0_0),
    TRef.unary main_call0.v7 main_call0.v9 (extractStridedSlice S1x3x520x4 ![0, 0, 0, 1] · slices_S1x3x520x512_S1x3x520x4_0_0_0_1),
    TRef.unary main_call0.v9 main_call0.call2.v0 (Host.reverse [3]),
    TRef.binary main_call0.call2.v0 main_call0.v7 main_call0.v11 (fun a b => concatenate S1x3x520x516 3 [⟨S1x3x520x4, a⟩, ⟨S1x3x520x512, b⟩] concatenates_S1x3x520x4_S1x3x520x512_S1x3x520x516_d3),
    TRef.unary main_call0.v11 main_call0.v12 (extractStridedSlice S1x3x520x1 ![0, 0, 0, 515] · slices_S1x3x520x516_S1x3x520x1_0_0_0_515),
    TRef.unary main_call0.v11 main_call0.v13 (extractStridedSlice S1x3x520x4 ![0, 0, 0, 511] · slices_S1x3x520x516_S1x3x520x4_0_0_0_511),
    TRef.unary main_call0.v13 main_call0.call3.v0 (Host.reverse [3]),
    TRef.binary main_call0.v11 main_call0.call3.v0 main_call0.v15 (fun a b => concatenate S1x3x520x520 3 [⟨S1x3x520x516, a⟩, ⟨S1x3x520x4, b⟩] concatenates_S1x3x520x516_S1x3x520x4_S1x3x520x520_d3),
    nullary main_cst (constant S_ .f32 0x00000000#32),
    unary main_cst main_v1 (broadcastInDim S1x3x512x512 ![] bcast_S_S1x3x512x512 : (⟨S_, .f32⟩ : BufTy).Contents (Elt F) → (⟨S1x3x512x512, .f32⟩ : BufTy).Contents (Elt F)) ]

/-- Operations 20 … 75 of 586. -/
abbrev pc1 : List (HloOp τ sig (Elt F)) :=
  [ unary main_v0 main_v2 ((extractStridedSlice S1x3x512x512 ![0, 0, 0, 0] · slices_S1x3x520x520_S1x3x512x512_0_0_0_0) : (⟨S1x3x520x520, .f32⟩ : BufTy).Contents (Elt F) → (⟨S1x3x512x512, .f32⟩ : BufTy).Contents (Elt F)),
    unary main_arg1 main_v3 ((extractStridedSlice S512x512x1x1 ![0, 0, 0, 0] · slices_S512x512x9x9_S512x512x1x1_0_0_0_0) : (⟨S512x512x9x9, .f32⟩ : BufTy).Contents (Elt F) → (⟨S512x512x1x1, .f32⟩ : BufTy).Contents (Elt F)),
    reshape main_v3 main_v4 rfl shapeCasts_S512x512x1x1_S512x512,
    unary main_v4 main_v5 (broadcastInDim S1x1x512x512 ![2, 3] bcast_S512x512_S1x1x512x512_2_3 : (⟨S512x512, .f32⟩ : BufTy).Contents (Elt F) → (⟨S1x1x512x512, .f32⟩ : BufTy).Contents (Elt F)),
    unary main_v5 main_v6 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v2 main_v6 main_v7 (mulf : (⟨S1x3x512x512, .f32⟩ : BufTy).Contents (Elt F) → (⟨S1x3x512x512, .f32⟩ : BufTy).Contents (Elt F) → (⟨S1x3x512x512, .f32⟩ : BufTy).Contents (Elt F)),
    binary main_v1 main_v7 main_v8 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v9 ((extractStridedSlice S1x3x512x512 ![0, 0, 0, 1] · slices_S1x3x520x520_S1x3x512x512_0_0_0_1) : (⟨S1x3x520x520, .f32⟩ : BufTy).Contents (Elt F) → (⟨S1x3x512x512, .f32⟩ : BufTy).Contents (Elt F)),
    unary main_arg1 main_v10 ((extractStridedSlice S512x512x1x1 ![0, 0, 0, 1] · slices_S512x512x9x9_S512x512x1x1_0_0_0_1) : (⟨S512x512x9x9, .f32⟩ : BufTy).Contents (Elt F) → (⟨S512x512x1x1, .f32⟩ : BufTy).Contents (Elt F)),
    reshape main_v10 main_v11 rfl shapeCasts_S512x512x1x1_S512x512,
    unary main_v11 main_v12 (broadcastInDim S1x1x512x512 ![2, 3] bcast_S512x512_S1x1x512x512_2_3 : (⟨S512x512, .f32⟩ : BufTy).Contents (Elt F) → (⟨S1x1x512x512, .f32⟩ : BufTy).Contents (Elt F)),
    unary main_v12 main_v13 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v9 main_v13 main_v14 (mulf : (⟨S1x3x512x512, .f32⟩ : BufTy).Contents (Elt F) → (⟨S1x3x512x512, .f32⟩ : BufTy).Contents (Elt F) → (⟨S1x3x512x512, .f32⟩ : BufTy).Contents (Elt F)),
    binary main_v8 main_v14 main_v15 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v16 ((extractStridedSlice S1x3x512x512 ![0, 0, 0, 2] · slices_S1x3x520x520_S1x3x512x512_0_0_0_2) : (⟨S1x3x520x520, .f32⟩ : BufTy).Contents (Elt F) → (⟨S1x3x512x512, .f32⟩ : BufTy).Contents (Elt F)),
    unary main_arg1 main_v17 ((extractStridedSlice S512x512x1x1 ![0, 0, 0, 2] · slices_S512x512x9x9_S512x512x1x1_0_0_0_2) : (⟨S512x512x9x9, .f32⟩ : BufTy).Contents (Elt F) → (⟨S512x512x1x1, .f32⟩ : BufTy).Contents (Elt F)),
    reshape main_v17 main_v18 rfl shapeCasts_S512x512x1x1_S512x512,
    unary main_v18 main_v19 (broadcastInDim S1x1x512x512 ![2, 3] bcast_S512x512_S1x1x512x512_2_3 : (⟨S512x512, .f32⟩ : BufTy).Contents (Elt F) → (⟨S1x1x512x512, .f32⟩ : BufTy).Contents (Elt F)),
    unary main_v19 main_v20 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v16 main_v20 main_v21 (mulf : (⟨S1x3x512x512, .f32⟩ : BufTy).Contents (Elt F) → (⟨S1x3x512x512, .f32⟩ : BufTy).Contents (Elt F) → (⟨S1x3x512x512, .f32⟩ : BufTy).Contents (Elt F)),
    binary main_v15 main_v21 main_v22 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v23 ((extractStridedSlice S1x3x512x512 ![0, 0, 0, 3] · slices_S1x3x520x520_S1x3x512x512_0_0_0_3) : (⟨S1x3x520x520, .f32⟩ : BufTy).Contents (Elt F) → (⟨S1x3x512x512, .f32⟩ : BufTy).Contents (Elt F)),
    unary main_arg1 main_v24 ((extractStridedSlice S512x512x1x1 ![0, 0, 0, 3] · slices_S512x512x9x9_S512x512x1x1_0_0_0_3) : (⟨S512x512x9x9, .f32⟩ : BufTy).Contents (Elt F) → (⟨S512x512x1x1, .f32⟩ : BufTy).Contents (Elt F)),
    reshape main_v24 main_v25 rfl shapeCasts_S512x512x1x1_S512x512,
    unary main_v25 main_v26 (broadcastInDim S1x1x512x512 ![2, 3] bcast_S512x512_S1x1x512x512_2_3 : (⟨S512x512, .f32⟩ : BufTy).Contents (Elt F) → (⟨S1x1x512x512, .f32⟩ : BufTy).Contents (Elt F)),
    unary main_v26 main_v27 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v23 main_v27 main_v28 (mulf : (⟨S1x3x512x512, .f32⟩ : BufTy).Contents (Elt F) → (⟨S1x3x512x512, .f32⟩ : BufTy).Contents (Elt F) → (⟨S1x3x512x512, .f32⟩ : BufTy).Contents (Elt F)),
    binary main_v22 main_v28 main_v29 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v30 ((extractStridedSlice S1x3x512x512 ![0, 0, 0, 4] · slices_S1x3x520x520_S1x3x512x512_0_0_0_4) : (⟨S1x3x520x520, .f32⟩ : BufTy).Contents (Elt F) → (⟨S1x3x512x512, .f32⟩ : BufTy).Contents (Elt F)),
    unary main_arg1 main_v31 ((extractStridedSlice S512x512x1x1 ![0, 0, 0, 4] · slices_S512x512x9x9_S512x512x1x1_0_0_0_4) : (⟨S512x512x9x9, .f32⟩ : BufTy).Contents (Elt F) → (⟨S512x512x1x1, .f32⟩ : BufTy).Contents (Elt F)),
    reshape main_v31 main_v32 rfl shapeCasts_S512x512x1x1_S512x512,
    unary main_v32 main_v33 (broadcastInDim S1x1x512x512 ![2, 3] bcast_S512x512_S1x1x512x512_2_3 : (⟨S512x512, .f32⟩ : BufTy).Contents (Elt F) → (⟨S1x1x512x512, .f32⟩ : BufTy).Contents (Elt F)),
    unary main_v33 main_v34 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v30 main_v34 main_v35 (mulf : (⟨S1x3x512x512, .f32⟩ : BufTy).Contents (Elt F) → (⟨S1x3x512x512, .f32⟩ : BufTy).Contents (Elt F) → (⟨S1x3x512x512, .f32⟩ : BufTy).Contents (Elt F)),
    binary main_v29 main_v35 main_v36 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v37 ((extractStridedSlice S1x3x512x512 ![0, 0, 0, 5] · slices_S1x3x520x520_S1x3x512x512_0_0_0_5) : (⟨S1x3x520x520, .f32⟩ : BufTy).Contents (Elt F) → (⟨S1x3x512x512, .f32⟩ : BufTy).Contents (Elt F)),
    unary main_arg1 main_v38 ((extractStridedSlice S512x512x1x1 ![0, 0, 0, 5] · slices_S512x512x9x9_S512x512x1x1_0_0_0_5) : (⟨S512x512x9x9, .f32⟩ : BufTy).Contents (Elt F) → (⟨S512x512x1x1, .f32⟩ : BufTy).Contents (Elt F)),
    reshape main_v38 main_v39 rfl shapeCasts_S512x512x1x1_S512x512,
    unary main_v39 main_v40 (broadcastInDim S1x1x512x512 ![2, 3] bcast_S512x512_S1x1x512x512_2_3 : (⟨S512x512, .f32⟩ : BufTy).Contents (Elt F) → (⟨S1x1x512x512, .f32⟩ : BufTy).Contents (Elt F)),
    unary main_v40 main_v41 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v37 main_v41 main_v42 (mulf : (⟨S1x3x512x512, .f32⟩ : BufTy).Contents (Elt F) → (⟨S1x3x512x512, .f32⟩ : BufTy).Contents (Elt F) → (⟨S1x3x512x512, .f32⟩ : BufTy).Contents (Elt F)),
    binary main_v36 main_v42 main_v43 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v44 ((extractStridedSlice S1x3x512x512 ![0, 0, 0, 6] · slices_S1x3x520x520_S1x3x512x512_0_0_0_6) : (⟨S1x3x520x520, .f32⟩ : BufTy).Contents (Elt F) → (⟨S1x3x512x512, .f32⟩ : BufTy).Contents (Elt F)),
    unary main_arg1 main_v45 ((extractStridedSlice S512x512x1x1 ![0, 0, 0, 6] · slices_S512x512x9x9_S512x512x1x1_0_0_0_6) : (⟨S512x512x9x9, .f32⟩ : BufTy).Contents (Elt F) → (⟨S512x512x1x1, .f32⟩ : BufTy).Contents (Elt F)),
    reshape main_v45 main_v46 rfl shapeCasts_S512x512x1x1_S512x512,
    unary main_v46 main_v47 (broadcastInDim S1x1x512x512 ![2, 3] bcast_S512x512_S1x1x512x512_2_3 : (⟨S512x512, .f32⟩ : BufTy).Contents (Elt F) → (⟨S1x1x512x512, .f32⟩ : BufTy).Contents (Elt F)),
    unary main_v47 main_v48 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v44 main_v48 main_v49 (mulf : (⟨S1x3x512x512, .f32⟩ : BufTy).Contents (Elt F) → (⟨S1x3x512x512, .f32⟩ : BufTy).Contents (Elt F) → (⟨S1x3x512x512, .f32⟩ : BufTy).Contents (Elt F)),
    binary main_v43 main_v49 main_v50 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v51 ((extractStridedSlice S1x3x512x512 ![0, 0, 0, 7] · slices_S1x3x520x520_S1x3x512x512_0_0_0_7) : (⟨S1x3x520x520, .f32⟩ : BufTy).Contents (Elt F) → (⟨S1x3x512x512, .f32⟩ : BufTy).Contents (Elt F)),
    unary main_arg1 main_v52 ((extractStridedSlice S512x512x1x1 ![0, 0, 0, 7] · slices_S512x512x9x9_S512x512x1x1_0_0_0_7) : (⟨S512x512x9x9, .f32⟩ : BufTy).Contents (Elt F) → (⟨S512x512x1x1, .f32⟩ : BufTy).Contents (Elt F)),
    reshape main_v52 main_v53 rfl shapeCasts_S512x512x1x1_S512x512,
    unary main_v53 main_v54 (broadcastInDim S1x1x512x512 ![2, 3] bcast_S512x512_S1x1x512x512_2_3 : (⟨S512x512, .f32⟩ : BufTy).Contents (Elt F) → (⟨S1x1x512x512, .f32⟩ : BufTy).Contents (Elt F)),
    unary main_v54 main_v55 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v51 main_v55 main_v56 (mulf : (⟨S1x3x512x512, .f32⟩ : BufTy).Contents (Elt F) → (⟨S1x3x512x512, .f32⟩ : BufTy).Contents (Elt F) → (⟨S1x3x512x512, .f32⟩ : BufTy).Contents (Elt F)),
    binary main_v50 main_v56 main_v57 (addf : (⟨S1x3x512x512, .f32⟩ : BufTy).Contents (Elt F) → (⟨S1x3x512x512, .f32⟩ : BufTy).Contents (Elt F) → (⟨S1x3x512x512, .f32⟩ : BufTy).Contents (Elt F)) ]

/-- Operations 76 … 82 of 586. -/
abbrev pc2 : List (HloOp τ sig (Elt F)) :=
  [ unary main_v0 main_v58 ((extractStridedSlice S1x3x512x512 ![0, 0, 0, 8] · slices_S1x3x520x520_S1x3x512x512_0_0_0_8) : (⟨S1x3x520x520, .f32⟩ : BufTy).Contents (Elt F) → (⟨S1x3x512x512, .f32⟩ : BufTy).Contents (Elt F)),
    unary main_arg1 main_v59 ((extractStridedSlice S512x512x1x1 ![0, 0, 0, 8] · slices_S512x512x9x9_S512x512x1x1_0_0_0_8) : (⟨S512x512x9x9, .f32⟩ : BufTy).Contents (Elt F) → (⟨S512x512x1x1, .f32⟩ : BufTy).Contents (Elt F)),
    reshape main_v59 main_v60 rfl shapeCasts_S512x512x1x1_S512x512,
    unary main_v60 main_v61 (broadcastInDim S1x1x512x512 ![2, 3] bcast_S512x512_S1x1x512x512_2_3 : (⟨S512x512, .f32⟩ : BufTy).Contents (Elt F) → (⟨S1x1x512x512, .f32⟩ : BufTy).Contents (Elt F)),
    unary main_v61 main_v62 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v58 main_v62 main_v63 (mulf : (⟨S1x3x512x512, .f32⟩ : BufTy).Contents (Elt F) → (⟨S1x3x512x512, .f32⟩ : BufTy).Contents (Elt F) → (⟨S1x3x512x512, .f32⟩ : BufTy).Contents (Elt F)),
    binary main_v57 main_v63 main_v64 (addf : (⟨S1x3x512x512, .f32⟩ : BufTy).Contents (Elt F) → (⟨S1x3x512x512, .f32⟩ : BufTy).Contents (Elt F) → (⟨S1x3x512x512, .f32⟩ : BufTy).Contents (Elt F)) ]

/-- Operations 83 … 135 of 586. -/
abbrev pc3 : List (HloOp τ sig (Elt F)) :=
  [ unary main_v0 main_v65 ((extractStridedSlice S1x3x512x512 ![0, 0, 1, 0] · slices_S1x3x520x520_S1x3x512x512_0_0_1_0) : (⟨S1x3x520x520, .f32⟩ : BufTy).Contents (Elt F) → (⟨S1x3x512x512, .f32⟩ : BufTy).Contents (Elt F)),
    unary main_arg1 main_v66 ((extractStridedSlice S512x512x1x1 ![0, 0, 1, 0] · slices_S512x512x9x9_S512x512x1x1_0_0_1_0) : (⟨S512x512x9x9, .f32⟩ : BufTy).Contents (Elt F) → (⟨S512x512x1x1, .f32⟩ : BufTy).Contents (Elt F)),
    reshape main_v66 main_v67 rfl shapeCasts_S512x512x1x1_S512x512,
    unary main_v67 main_v68 (broadcastInDim S1x1x512x512 ![2, 3] bcast_S512x512_S1x1x512x512_2_3 : (⟨S512x512, .f32⟩ : BufTy).Contents (Elt F) → (⟨S1x1x512x512, .f32⟩ : BufTy).Contents (Elt F)),
    unary main_v68 main_v69 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v65 main_v69 main_v70 (mulf : (⟨S1x3x512x512, .f32⟩ : BufTy).Contents (Elt F) → (⟨S1x3x512x512, .f32⟩ : BufTy).Contents (Elt F) → (⟨S1x3x512x512, .f32⟩ : BufTy).Contents (Elt F)),
    binary main_v64 main_v70 main_v71 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v72 ((extractStridedSlice S1x3x512x512 ![0, 0, 1, 1] · slices_S1x3x520x520_S1x3x512x512_0_0_1_1) : (⟨S1x3x520x520, .f32⟩ : BufTy).Contents (Elt F) → (⟨S1x3x512x512, .f32⟩ : BufTy).Contents (Elt F)),
    unary main_arg1 main_v73 ((extractStridedSlice S512x512x1x1 ![0, 0, 1, 1] · slices_S512x512x9x9_S512x512x1x1_0_0_1_1) : (⟨S512x512x9x9, .f32⟩ : BufTy).Contents (Elt F) → (⟨S512x512x1x1, .f32⟩ : BufTy).Contents (Elt F)),
    reshape main_v73 main_v74 rfl shapeCasts_S512x512x1x1_S512x512,
    unary main_v74 main_v75 (broadcastInDim S1x1x512x512 ![2, 3] bcast_S512x512_S1x1x512x512_2_3 : (⟨S512x512, .f32⟩ : BufTy).Contents (Elt F) → (⟨S1x1x512x512, .f32⟩ : BufTy).Contents (Elt F)),
    unary main_v75 main_v76 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v72 main_v76 main_v77 (mulf : (⟨S1x3x512x512, .f32⟩ : BufTy).Contents (Elt F) → (⟨S1x3x512x512, .f32⟩ : BufTy).Contents (Elt F) → (⟨S1x3x512x512, .f32⟩ : BufTy).Contents (Elt F)),
    binary main_v71 main_v77 main_v78 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v79 ((extractStridedSlice S1x3x512x512 ![0, 0, 1, 2] · slices_S1x3x520x520_S1x3x512x512_0_0_1_2) : (⟨S1x3x520x520, .f32⟩ : BufTy).Contents (Elt F) → (⟨S1x3x512x512, .f32⟩ : BufTy).Contents (Elt F)),
    unary main_arg1 main_v80 ((extractStridedSlice S512x512x1x1 ![0, 0, 1, 2] · slices_S512x512x9x9_S512x512x1x1_0_0_1_2) : (⟨S512x512x9x9, .f32⟩ : BufTy).Contents (Elt F) → (⟨S512x512x1x1, .f32⟩ : BufTy).Contents (Elt F)),
    reshape main_v80 main_v81 rfl shapeCasts_S512x512x1x1_S512x512,
    unary main_v81 main_v82 (broadcastInDim S1x1x512x512 ![2, 3] bcast_S512x512_S1x1x512x512_2_3 : (⟨S512x512, .f32⟩ : BufTy).Contents (Elt F) → (⟨S1x1x512x512, .f32⟩ : BufTy).Contents (Elt F)),
    unary main_v82 main_v83 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v79 main_v83 main_v84 (mulf : (⟨S1x3x512x512, .f32⟩ : BufTy).Contents (Elt F) → (⟨S1x3x512x512, .f32⟩ : BufTy).Contents (Elt F) → (⟨S1x3x512x512, .f32⟩ : BufTy).Contents (Elt F)),
    binary main_v78 main_v84 main_v85 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v86 ((extractStridedSlice S1x3x512x512 ![0, 0, 1, 3] · slices_S1x3x520x520_S1x3x512x512_0_0_1_3) : (⟨S1x3x520x520, .f32⟩ : BufTy).Contents (Elt F) → (⟨S1x3x512x512, .f32⟩ : BufTy).Contents (Elt F)),
    unary main_arg1 main_v87 ((extractStridedSlice S512x512x1x1 ![0, 0, 1, 3] · slices_S512x512x9x9_S512x512x1x1_0_0_1_3) : (⟨S512x512x9x9, .f32⟩ : BufTy).Contents (Elt F) → (⟨S512x512x1x1, .f32⟩ : BufTy).Contents (Elt F)),
    reshape main_v87 main_v88 rfl shapeCasts_S512x512x1x1_S512x512,
    unary main_v88 main_v89 (broadcastInDim S1x1x512x512 ![2, 3] bcast_S512x512_S1x1x512x512_2_3 : (⟨S512x512, .f32⟩ : BufTy).Contents (Elt F) → (⟨S1x1x512x512, .f32⟩ : BufTy).Contents (Elt F)),
    unary main_v89 main_v90 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v86 main_v90 main_v91 (mulf : (⟨S1x3x512x512, .f32⟩ : BufTy).Contents (Elt F) → (⟨S1x3x512x512, .f32⟩ : BufTy).Contents (Elt F) → (⟨S1x3x512x512, .f32⟩ : BufTy).Contents (Elt F)),
    binary main_v85 main_v91 main_v92 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v93 ((extractStridedSlice S1x3x512x512 ![0, 0, 1, 4] · slices_S1x3x520x520_S1x3x512x512_0_0_1_4) : (⟨S1x3x520x520, .f32⟩ : BufTy).Contents (Elt F) → (⟨S1x3x512x512, .f32⟩ : BufTy).Contents (Elt F)),
    unary main_arg1 main_v94 ((extractStridedSlice S512x512x1x1 ![0, 0, 1, 4] · slices_S512x512x9x9_S512x512x1x1_0_0_1_4) : (⟨S512x512x9x9, .f32⟩ : BufTy).Contents (Elt F) → (⟨S512x512x1x1, .f32⟩ : BufTy).Contents (Elt F)),
    reshape main_v94 main_v95 rfl shapeCasts_S512x512x1x1_S512x512,
    unary main_v95 main_v96 (broadcastInDim S1x1x512x512 ![2, 3] bcast_S512x512_S1x1x512x512_2_3 : (⟨S512x512, .f32⟩ : BufTy).Contents (Elt F) → (⟨S1x1x512x512, .f32⟩ : BufTy).Contents (Elt F)),
    unary main_v96 main_v97 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v93 main_v97 main_v98 (mulf : (⟨S1x3x512x512, .f32⟩ : BufTy).Contents (Elt F) → (⟨S1x3x512x512, .f32⟩ : BufTy).Contents (Elt F) → (⟨S1x3x512x512, .f32⟩ : BufTy).Contents (Elt F)),
    binary main_v92 main_v98 main_v99 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v100 ((extractStridedSlice S1x3x512x512 ![0, 0, 1, 5] · slices_S1x3x520x520_S1x3x512x512_0_0_1_5) : (⟨S1x3x520x520, .f32⟩ : BufTy).Contents (Elt F) → (⟨S1x3x512x512, .f32⟩ : BufTy).Contents (Elt F)),
    unary main_arg1 main_v101 ((extractStridedSlice S512x512x1x1 ![0, 0, 1, 5] · slices_S512x512x9x9_S512x512x1x1_0_0_1_5) : (⟨S512x512x9x9, .f32⟩ : BufTy).Contents (Elt F) → (⟨S512x512x1x1, .f32⟩ : BufTy).Contents (Elt F)),
    reshape main_v101 main_v102 rfl shapeCasts_S512x512x1x1_S512x512,
    unary main_v102 main_v103 (broadcastInDim S1x1x512x512 ![2, 3] bcast_S512x512_S1x1x512x512_2_3 : (⟨S512x512, .f32⟩ : BufTy).Contents (Elt F) → (⟨S1x1x512x512, .f32⟩ : BufTy).Contents (Elt F)),
    unary main_v103 main_v104 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v100 main_v104 main_v105 (mulf : (⟨S1x3x512x512, .f32⟩ : BufTy).Contents (Elt F) → (⟨S1x3x512x512, .f32⟩ : BufTy).Contents (Elt F) → (⟨S1x3x512x512, .f32⟩ : BufTy).Contents (Elt F)),
    binary main_v99 main_v105 main_v106 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v107 ((extractStridedSlice S1x3x512x512 ![0, 0, 1, 6] · slices_S1x3x520x520_S1x3x512x512_0_0_1_6) : (⟨S1x3x520x520, .f32⟩ : BufTy).Contents (Elt F) → (⟨S1x3x512x512, .f32⟩ : BufTy).Contents (Elt F)),
    unary main_arg1 main_v108 ((extractStridedSlice S512x512x1x1 ![0, 0, 1, 6] · slices_S512x512x9x9_S512x512x1x1_0_0_1_6) : (⟨S512x512x9x9, .f32⟩ : BufTy).Contents (Elt F) → (⟨S512x512x1x1, .f32⟩ : BufTy).Contents (Elt F)),
    reshape main_v108 main_v109 rfl shapeCasts_S512x512x1x1_S512x512,
    unary main_v109 main_v110 (broadcastInDim S1x1x512x512 ![2, 3] bcast_S512x512_S1x1x512x512_2_3 : (⟨S512x512, .f32⟩ : BufTy).Contents (Elt F) → (⟨S1x1x512x512, .f32⟩ : BufTy).Contents (Elt F)),
    unary main_v110 main_v111 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v107 main_v111 main_v112 (mulf : (⟨S1x3x512x512, .f32⟩ : BufTy).Contents (Elt F) → (⟨S1x3x512x512, .f32⟩ : BufTy).Contents (Elt F) → (⟨S1x3x512x512, .f32⟩ : BufTy).Contents (Elt F)),
    binary main_v106 main_v112 main_v113 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v114 ((extractStridedSlice S1x3x512x512 ![0, 0, 1, 7] · slices_S1x3x520x520_S1x3x512x512_0_0_1_7) : (⟨S1x3x520x520, .f32⟩ : BufTy).Contents (Elt F) → (⟨S1x3x512x512, .f32⟩ : BufTy).Contents (Elt F)),
    unary main_arg1 main_v115 ((extractStridedSlice S512x512x1x1 ![0, 0, 1, 7] · slices_S512x512x9x9_S512x512x1x1_0_0_1_7) : (⟨S512x512x9x9, .f32⟩ : BufTy).Contents (Elt F) → (⟨S512x512x1x1, .f32⟩ : BufTy).Contents (Elt F)),
    reshape main_v115 main_v116 rfl shapeCasts_S512x512x1x1_S512x512,
    unary main_v116 main_v117 (broadcastInDim S1x1x512x512 ![2, 3] bcast_S512x512_S1x1x512x512_2_3 : (⟨S512x512, .f32⟩ : BufTy).Contents (Elt F) → (⟨S1x1x512x512, .f32⟩ : BufTy).Contents (Elt F)) ]

/-- Operations 136 … 145 of 586. -/
abbrev pc4 : List (HloOp τ sig (Elt F)) :=
  [ unary main_v117 main_v118 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v114 main_v118 main_v119 (mulf : (⟨S1x3x512x512, .f32⟩ : BufTy).Contents (Elt F) → (⟨S1x3x512x512, .f32⟩ : BufTy).Contents (Elt F) → (⟨S1x3x512x512, .f32⟩ : BufTy).Contents (Elt F)),
    binary main_v113 main_v119 main_v120 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v121 ((extractStridedSlice S1x3x512x512 ![0, 0, 1, 8] · slices_S1x3x520x520_S1x3x512x512_0_0_1_8) : (⟨S1x3x520x520, .f32⟩ : BufTy).Contents (Elt F) → (⟨S1x3x512x512, .f32⟩ : BufTy).Contents (Elt F)),
    unary main_arg1 main_v122 ((extractStridedSlice S512x512x1x1 ![0, 0, 1, 8] · slices_S512x512x9x9_S512x512x1x1_0_0_1_8) : (⟨S512x512x9x9, .f32⟩ : BufTy).Contents (Elt F) → (⟨S512x512x1x1, .f32⟩ : BufTy).Contents (Elt F)),
    reshape main_v122 main_v123 rfl shapeCasts_S512x512x1x1_S512x512,
    unary main_v123 main_v124 (broadcastInDim S1x1x512x512 ![2, 3] bcast_S512x512_S1x1x512x512_2_3 : (⟨S512x512, .f32⟩ : BufTy).Contents (Elt F) → (⟨S1x1x512x512, .f32⟩ : BufTy).Contents (Elt F)),
    unary main_v124 main_v125 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v121 main_v125 main_v126 (mulf : (⟨S1x3x512x512, .f32⟩ : BufTy).Contents (Elt F) → (⟨S1x3x512x512, .f32⟩ : BufTy).Contents (Elt F) → (⟨S1x3x512x512, .f32⟩ : BufTy).Contents (Elt F)),
    binary main_v120 main_v126 main_v127 (addf : (⟨S1x3x512x512, .f32⟩ : BufTy).Contents (Elt F) → (⟨S1x3x512x512, .f32⟩ : BufTy).Contents (Elt F) → (⟨S1x3x512x512, .f32⟩ : BufTy).Contents (Elt F)) ]

/-- Operations 146 … 195 of 586. -/
abbrev pc5 : List (HloOp τ sig (Elt F)) :=
  [ unary main_v0 main_v128 ((extractStridedSlice S1x3x512x512 ![0, 0, 2, 0] · slices_S1x3x520x520_S1x3x512x512_0_0_2_0) : (⟨S1x3x520x520, .f32⟩ : BufTy).Contents (Elt F) → (⟨S1x3x512x512, .f32⟩ : BufTy).Contents (Elt F)),
    unary main_arg1 main_v129 ((extractStridedSlice S512x512x1x1 ![0, 0, 2, 0] · slices_S512x512x9x9_S512x512x1x1_0_0_2_0) : (⟨S512x512x9x9, .f32⟩ : BufTy).Contents (Elt F) → (⟨S512x512x1x1, .f32⟩ : BufTy).Contents (Elt F)),
    reshape main_v129 main_v130 rfl shapeCasts_S512x512x1x1_S512x512,
    unary main_v130 main_v131 (broadcastInDim S1x1x512x512 ![2, 3] bcast_S512x512_S1x1x512x512_2_3 : (⟨S512x512, .f32⟩ : BufTy).Contents (Elt F) → (⟨S1x1x512x512, .f32⟩ : BufTy).Contents (Elt F)),
    unary main_v131 main_v132 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v128 main_v132 main_v133 (mulf : (⟨S1x3x512x512, .f32⟩ : BufTy).Contents (Elt F) → (⟨S1x3x512x512, .f32⟩ : BufTy).Contents (Elt F) → (⟨S1x3x512x512, .f32⟩ : BufTy).Contents (Elt F)),
    binary main_v127 main_v133 main_v134 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v135 ((extractStridedSlice S1x3x512x512 ![0, 0, 2, 1] · slices_S1x3x520x520_S1x3x512x512_0_0_2_1) : (⟨S1x3x520x520, .f32⟩ : BufTy).Contents (Elt F) → (⟨S1x3x512x512, .f32⟩ : BufTy).Contents (Elt F)),
    unary main_arg1 main_v136 ((extractStridedSlice S512x512x1x1 ![0, 0, 2, 1] · slices_S512x512x9x9_S512x512x1x1_0_0_2_1) : (⟨S512x512x9x9, .f32⟩ : BufTy).Contents (Elt F) → (⟨S512x512x1x1, .f32⟩ : BufTy).Contents (Elt F)),
    reshape main_v136 main_v137 rfl shapeCasts_S512x512x1x1_S512x512,
    unary main_v137 main_v138 (broadcastInDim S1x1x512x512 ![2, 3] bcast_S512x512_S1x1x512x512_2_3 : (⟨S512x512, .f32⟩ : BufTy).Contents (Elt F) → (⟨S1x1x512x512, .f32⟩ : BufTy).Contents (Elt F)),
    unary main_v138 main_v139 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v135 main_v139 main_v140 (mulf : (⟨S1x3x512x512, .f32⟩ : BufTy).Contents (Elt F) → (⟨S1x3x512x512, .f32⟩ : BufTy).Contents (Elt F) → (⟨S1x3x512x512, .f32⟩ : BufTy).Contents (Elt F)),
    binary main_v134 main_v140 main_v141 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v142 ((extractStridedSlice S1x3x512x512 ![0, 0, 2, 2] · slices_S1x3x520x520_S1x3x512x512_0_0_2_2) : (⟨S1x3x520x520, .f32⟩ : BufTy).Contents (Elt F) → (⟨S1x3x512x512, .f32⟩ : BufTy).Contents (Elt F)),
    unary main_arg1 main_v143 ((extractStridedSlice S512x512x1x1 ![0, 0, 2, 2] · slices_S512x512x9x9_S512x512x1x1_0_0_2_2) : (⟨S512x512x9x9, .f32⟩ : BufTy).Contents (Elt F) → (⟨S512x512x1x1, .f32⟩ : BufTy).Contents (Elt F)),
    reshape main_v143 main_v144 rfl shapeCasts_S512x512x1x1_S512x512,
    unary main_v144 main_v145 (broadcastInDim S1x1x512x512 ![2, 3] bcast_S512x512_S1x1x512x512_2_3 : (⟨S512x512, .f32⟩ : BufTy).Contents (Elt F) → (⟨S1x1x512x512, .f32⟩ : BufTy).Contents (Elt F)),
    unary main_v145 main_v146 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v142 main_v146 main_v147 (mulf : (⟨S1x3x512x512, .f32⟩ : BufTy).Contents (Elt F) → (⟨S1x3x512x512, .f32⟩ : BufTy).Contents (Elt F) → (⟨S1x3x512x512, .f32⟩ : BufTy).Contents (Elt F)),
    binary main_v141 main_v147 main_v148 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v149 ((extractStridedSlice S1x3x512x512 ![0, 0, 2, 3] · slices_S1x3x520x520_S1x3x512x512_0_0_2_3) : (⟨S1x3x520x520, .f32⟩ : BufTy).Contents (Elt F) → (⟨S1x3x512x512, .f32⟩ : BufTy).Contents (Elt F)),
    unary main_arg1 main_v150 ((extractStridedSlice S512x512x1x1 ![0, 0, 2, 3] · slices_S512x512x9x9_S512x512x1x1_0_0_2_3) : (⟨S512x512x9x9, .f32⟩ : BufTy).Contents (Elt F) → (⟨S512x512x1x1, .f32⟩ : BufTy).Contents (Elt F)),
    reshape main_v150 main_v151 rfl shapeCasts_S512x512x1x1_S512x512,
    unary main_v151 main_v152 (broadcastInDim S1x1x512x512 ![2, 3] bcast_S512x512_S1x1x512x512_2_3 : (⟨S512x512, .f32⟩ : BufTy).Contents (Elt F) → (⟨S1x1x512x512, .f32⟩ : BufTy).Contents (Elt F)),
    unary main_v152 main_v153 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v149 main_v153 main_v154 (mulf : (⟨S1x3x512x512, .f32⟩ : BufTy).Contents (Elt F) → (⟨S1x3x512x512, .f32⟩ : BufTy).Contents (Elt F) → (⟨S1x3x512x512, .f32⟩ : BufTy).Contents (Elt F)),
    binary main_v148 main_v154 main_v155 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v156 ((extractStridedSlice S1x3x512x512 ![0, 0, 2, 4] · slices_S1x3x520x520_S1x3x512x512_0_0_2_4) : (⟨S1x3x520x520, .f32⟩ : BufTy).Contents (Elt F) → (⟨S1x3x512x512, .f32⟩ : BufTy).Contents (Elt F)),
    unary main_arg1 main_v157 ((extractStridedSlice S512x512x1x1 ![0, 0, 2, 4] · slices_S512x512x9x9_S512x512x1x1_0_0_2_4) : (⟨S512x512x9x9, .f32⟩ : BufTy).Contents (Elt F) → (⟨S512x512x1x1, .f32⟩ : BufTy).Contents (Elt F)),
    reshape main_v157 main_v158 rfl shapeCasts_S512x512x1x1_S512x512,
    unary main_v158 main_v159 (broadcastInDim S1x1x512x512 ![2, 3] bcast_S512x512_S1x1x512x512_2_3 : (⟨S512x512, .f32⟩ : BufTy).Contents (Elt F) → (⟨S1x1x512x512, .f32⟩ : BufTy).Contents (Elt F)),
    unary main_v159 main_v160 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v156 main_v160 main_v161 (mulf : (⟨S1x3x512x512, .f32⟩ : BufTy).Contents (Elt F) → (⟨S1x3x512x512, .f32⟩ : BufTy).Contents (Elt F) → (⟨S1x3x512x512, .f32⟩ : BufTy).Contents (Elt F)),
    binary main_v155 main_v161 main_v162 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v163 ((extractStridedSlice S1x3x512x512 ![0, 0, 2, 5] · slices_S1x3x520x520_S1x3x512x512_0_0_2_5) : (⟨S1x3x520x520, .f32⟩ : BufTy).Contents (Elt F) → (⟨S1x3x512x512, .f32⟩ : BufTy).Contents (Elt F)),
    unary main_arg1 main_v164 ((extractStridedSlice S512x512x1x1 ![0, 0, 2, 5] · slices_S512x512x9x9_S512x512x1x1_0_0_2_5) : (⟨S512x512x9x9, .f32⟩ : BufTy).Contents (Elt F) → (⟨S512x512x1x1, .f32⟩ : BufTy).Contents (Elt F)),
    reshape main_v164 main_v165 rfl shapeCasts_S512x512x1x1_S512x512,
    unary main_v165 main_v166 (broadcastInDim S1x1x512x512 ![2, 3] bcast_S512x512_S1x1x512x512_2_3 : (⟨S512x512, .f32⟩ : BufTy).Contents (Elt F) → (⟨S1x1x512x512, .f32⟩ : BufTy).Contents (Elt F)),
    unary main_v166 main_v167 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v163 main_v167 main_v168 (mulf : (⟨S1x3x512x512, .f32⟩ : BufTy).Contents (Elt F) → (⟨S1x3x512x512, .f32⟩ : BufTy).Contents (Elt F) → (⟨S1x3x512x512, .f32⟩ : BufTy).Contents (Elt F)),
    binary main_v162 main_v168 main_v169 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v170 ((extractStridedSlice S1x3x512x512 ![0, 0, 2, 6] · slices_S1x3x520x520_S1x3x512x512_0_0_2_6) : (⟨S1x3x520x520, .f32⟩ : BufTy).Contents (Elt F) → (⟨S1x3x512x512, .f32⟩ : BufTy).Contents (Elt F)),
    unary main_arg1 main_v171 ((extractStridedSlice S512x512x1x1 ![0, 0, 2, 6] · slices_S512x512x9x9_S512x512x1x1_0_0_2_6) : (⟨S512x512x9x9, .f32⟩ : BufTy).Contents (Elt F) → (⟨S512x512x1x1, .f32⟩ : BufTy).Contents (Elt F)),
    reshape main_v171 main_v172 rfl shapeCasts_S512x512x1x1_S512x512,
    unary main_v172 main_v173 (broadcastInDim S1x1x512x512 ![2, 3] bcast_S512x512_S1x1x512x512_2_3 : (⟨S512x512, .f32⟩ : BufTy).Contents (Elt F) → (⟨S1x1x512x512, .f32⟩ : BufTy).Contents (Elt F)),
    unary main_v173 main_v174 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v170 main_v174 main_v175 (mulf : (⟨S1x3x512x512, .f32⟩ : BufTy).Contents (Elt F) → (⟨S1x3x512x512, .f32⟩ : BufTy).Contents (Elt F) → (⟨S1x3x512x512, .f32⟩ : BufTy).Contents (Elt F)),
    binary main_v169 main_v175 main_v176 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v177 ((extractStridedSlice S1x3x512x512 ![0, 0, 2, 7] · slices_S1x3x520x520_S1x3x512x512_0_0_2_7) : (⟨S1x3x520x520, .f32⟩ : BufTy).Contents (Elt F) → (⟨S1x3x512x512, .f32⟩ : BufTy).Contents (Elt F)) ]

/-- Operations 196 … 208 of 586. -/
abbrev pc6 : List (HloOp τ sig (Elt F)) :=
  [ unary main_arg1 main_v178 ((extractStridedSlice S512x512x1x1 ![0, 0, 2, 7] · slices_S512x512x9x9_S512x512x1x1_0_0_2_7) : (⟨S512x512x9x9, .f32⟩ : BufTy).Contents (Elt F) → (⟨S512x512x1x1, .f32⟩ : BufTy).Contents (Elt F)),
    reshape main_v178 main_v179 rfl shapeCasts_S512x512x1x1_S512x512,
    unary main_v179 main_v180 (broadcastInDim S1x1x512x512 ![2, 3] bcast_S512x512_S1x1x512x512_2_3 : (⟨S512x512, .f32⟩ : BufTy).Contents (Elt F) → (⟨S1x1x512x512, .f32⟩ : BufTy).Contents (Elt F)),
    unary main_v180 main_v181 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v177 main_v181 main_v182 (mulf : (⟨S1x3x512x512, .f32⟩ : BufTy).Contents (Elt F) → (⟨S1x3x512x512, .f32⟩ : BufTy).Contents (Elt F) → (⟨S1x3x512x512, .f32⟩ : BufTy).Contents (Elt F)),
    binary main_v176 main_v182 main_v183 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v184 ((extractStridedSlice S1x3x512x512 ![0, 0, 2, 8] · slices_S1x3x520x520_S1x3x512x512_0_0_2_8) : (⟨S1x3x520x520, .f32⟩ : BufTy).Contents (Elt F) → (⟨S1x3x512x512, .f32⟩ : BufTy).Contents (Elt F)),
    unary main_arg1 main_v185 ((extractStridedSlice S512x512x1x1 ![0, 0, 2, 8] · slices_S512x512x9x9_S512x512x1x1_0_0_2_8) : (⟨S512x512x9x9, .f32⟩ : BufTy).Contents (Elt F) → (⟨S512x512x1x1, .f32⟩ : BufTy).Contents (Elt F)),
    reshape main_v185 main_v186 rfl shapeCasts_S512x512x1x1_S512x512,
    unary main_v186 main_v187 (broadcastInDim S1x1x512x512 ![2, 3] bcast_S512x512_S1x1x512x512_2_3 : (⟨S512x512, .f32⟩ : BufTy).Contents (Elt F) → (⟨S1x1x512x512, .f32⟩ : BufTy).Contents (Elt F)),
    unary main_v187 main_v188 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v184 main_v188 main_v189 (mulf : (⟨S1x3x512x512, .f32⟩ : BufTy).Contents (Elt F) → (⟨S1x3x512x512, .f32⟩ : BufTy).Contents (Elt F) → (⟨S1x3x512x512, .f32⟩ : BufTy).Contents (Elt F)),
    binary main_v183 main_v189 main_v190 (addf : (⟨S1x3x512x512, .f32⟩ : BufTy).Contents (Elt F) → (⟨S1x3x512x512, .f32⟩ : BufTy).Contents (Elt F) → (⟨S1x3x512x512, .f32⟩ : BufTy).Contents (Elt F)) ]

/-- Operations 209 … 255 of 586. -/
abbrev pc7 : List (HloOp τ sig (Elt F)) :=
  [ unary main_v0 main_v191 ((extractStridedSlice S1x3x512x512 ![0, 0, 3, 0] · slices_S1x3x520x520_S1x3x512x512_0_0_3_0) : (⟨S1x3x520x520, .f32⟩ : BufTy).Contents (Elt F) → (⟨S1x3x512x512, .f32⟩ : BufTy).Contents (Elt F)),
    unary main_arg1 main_v192 ((extractStridedSlice S512x512x1x1 ![0, 0, 3, 0] · slices_S512x512x9x9_S512x512x1x1_0_0_3_0) : (⟨S512x512x9x9, .f32⟩ : BufTy).Contents (Elt F) → (⟨S512x512x1x1, .f32⟩ : BufTy).Contents (Elt F)),
    reshape main_v192 main_v193 rfl shapeCasts_S512x512x1x1_S512x512,
    unary main_v193 main_v194 (broadcastInDim S1x1x512x512 ![2, 3] bcast_S512x512_S1x1x512x512_2_3 : (⟨S512x512, .f32⟩ : BufTy).Contents (Elt F) → (⟨S1x1x512x512, .f32⟩ : BufTy).Contents (Elt F)),
    unary main_v194 main_v195 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v191 main_v195 main_v196 (mulf : (⟨S1x3x512x512, .f32⟩ : BufTy).Contents (Elt F) → (⟨S1x3x512x512, .f32⟩ : BufTy).Contents (Elt F) → (⟨S1x3x512x512, .f32⟩ : BufTy).Contents (Elt F)),
    binary main_v190 main_v196 main_v197 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v198 ((extractStridedSlice S1x3x512x512 ![0, 0, 3, 1] · slices_S1x3x520x520_S1x3x512x512_0_0_3_1) : (⟨S1x3x520x520, .f32⟩ : BufTy).Contents (Elt F) → (⟨S1x3x512x512, .f32⟩ : BufTy).Contents (Elt F)),
    unary main_arg1 main_v199 ((extractStridedSlice S512x512x1x1 ![0, 0, 3, 1] · slices_S512x512x9x9_S512x512x1x1_0_0_3_1) : (⟨S512x512x9x9, .f32⟩ : BufTy).Contents (Elt F) → (⟨S512x512x1x1, .f32⟩ : BufTy).Contents (Elt F)),
    reshape main_v199 main_v200 rfl shapeCasts_S512x512x1x1_S512x512,
    unary main_v200 main_v201 (broadcastInDim S1x1x512x512 ![2, 3] bcast_S512x512_S1x1x512x512_2_3 : (⟨S512x512, .f32⟩ : BufTy).Contents (Elt F) → (⟨S1x1x512x512, .f32⟩ : BufTy).Contents (Elt F)),
    unary main_v201 main_v202 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v198 main_v202 main_v203 (mulf : (⟨S1x3x512x512, .f32⟩ : BufTy).Contents (Elt F) → (⟨S1x3x512x512, .f32⟩ : BufTy).Contents (Elt F) → (⟨S1x3x512x512, .f32⟩ : BufTy).Contents (Elt F)),
    binary main_v197 main_v203 main_v204 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v205 ((extractStridedSlice S1x3x512x512 ![0, 0, 3, 2] · slices_S1x3x520x520_S1x3x512x512_0_0_3_2) : (⟨S1x3x520x520, .f32⟩ : BufTy).Contents (Elt F) → (⟨S1x3x512x512, .f32⟩ : BufTy).Contents (Elt F)),
    unary main_arg1 main_v206 ((extractStridedSlice S512x512x1x1 ![0, 0, 3, 2] · slices_S512x512x9x9_S512x512x1x1_0_0_3_2) : (⟨S512x512x9x9, .f32⟩ : BufTy).Contents (Elt F) → (⟨S512x512x1x1, .f32⟩ : BufTy).Contents (Elt F)),
    reshape main_v206 main_v207 rfl shapeCasts_S512x512x1x1_S512x512,
    unary main_v207 main_v208 (broadcastInDim S1x1x512x512 ![2, 3] bcast_S512x512_S1x1x512x512_2_3 : (⟨S512x512, .f32⟩ : BufTy).Contents (Elt F) → (⟨S1x1x512x512, .f32⟩ : BufTy).Contents (Elt F)),
    unary main_v208 main_v209 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v205 main_v209 main_v210 (mulf : (⟨S1x3x512x512, .f32⟩ : BufTy).Contents (Elt F) → (⟨S1x3x512x512, .f32⟩ : BufTy).Contents (Elt F) → (⟨S1x3x512x512, .f32⟩ : BufTy).Contents (Elt F)),
    binary main_v204 main_v210 main_v211 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v212 ((extractStridedSlice S1x3x512x512 ![0, 0, 3, 3] · slices_S1x3x520x520_S1x3x512x512_0_0_3_3) : (⟨S1x3x520x520, .f32⟩ : BufTy).Contents (Elt F) → (⟨S1x3x512x512, .f32⟩ : BufTy).Contents (Elt F)),
    unary main_arg1 main_v213 ((extractStridedSlice S512x512x1x1 ![0, 0, 3, 3] · slices_S512x512x9x9_S512x512x1x1_0_0_3_3) : (⟨S512x512x9x9, .f32⟩ : BufTy).Contents (Elt F) → (⟨S512x512x1x1, .f32⟩ : BufTy).Contents (Elt F)),
    reshape main_v213 main_v214 rfl shapeCasts_S512x512x1x1_S512x512,
    unary main_v214 main_v215 (broadcastInDim S1x1x512x512 ![2, 3] bcast_S512x512_S1x1x512x512_2_3 : (⟨S512x512, .f32⟩ : BufTy).Contents (Elt F) → (⟨S1x1x512x512, .f32⟩ : BufTy).Contents (Elt F)),
    unary main_v215 main_v216 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v212 main_v216 main_v217 (mulf : (⟨S1x3x512x512, .f32⟩ : BufTy).Contents (Elt F) → (⟨S1x3x512x512, .f32⟩ : BufTy).Contents (Elt F) → (⟨S1x3x512x512, .f32⟩ : BufTy).Contents (Elt F)),
    binary main_v211 main_v217 main_v218 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v219 ((extractStridedSlice S1x3x512x512 ![0, 0, 3, 4] · slices_S1x3x520x520_S1x3x512x512_0_0_3_4) : (⟨S1x3x520x520, .f32⟩ : BufTy).Contents (Elt F) → (⟨S1x3x512x512, .f32⟩ : BufTy).Contents (Elt F)),
    unary main_arg1 main_v220 ((extractStridedSlice S512x512x1x1 ![0, 0, 3, 4] · slices_S512x512x9x9_S512x512x1x1_0_0_3_4) : (⟨S512x512x9x9, .f32⟩ : BufTy).Contents (Elt F) → (⟨S512x512x1x1, .f32⟩ : BufTy).Contents (Elt F)),
    reshape main_v220 main_v221 rfl shapeCasts_S512x512x1x1_S512x512,
    unary main_v221 main_v222 (broadcastInDim S1x1x512x512 ![2, 3] bcast_S512x512_S1x1x512x512_2_3 : (⟨S512x512, .f32⟩ : BufTy).Contents (Elt F) → (⟨S1x1x512x512, .f32⟩ : BufTy).Contents (Elt F)),
    unary main_v222 main_v223 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v219 main_v223 main_v224 (mulf : (⟨S1x3x512x512, .f32⟩ : BufTy).Contents (Elt F) → (⟨S1x3x512x512, .f32⟩ : BufTy).Contents (Elt F) → (⟨S1x3x512x512, .f32⟩ : BufTy).Contents (Elt F)),
    binary main_v218 main_v224 main_v225 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v226 ((extractStridedSlice S1x3x512x512 ![0, 0, 3, 5] · slices_S1x3x520x520_S1x3x512x512_0_0_3_5) : (⟨S1x3x520x520, .f32⟩ : BufTy).Contents (Elt F) → (⟨S1x3x512x512, .f32⟩ : BufTy).Contents (Elt F)),
    unary main_arg1 main_v227 ((extractStridedSlice S512x512x1x1 ![0, 0, 3, 5] · slices_S512x512x9x9_S512x512x1x1_0_0_3_5) : (⟨S512x512x9x9, .f32⟩ : BufTy).Contents (Elt F) → (⟨S512x512x1x1, .f32⟩ : BufTy).Contents (Elt F)),
    reshape main_v227 main_v228 rfl shapeCasts_S512x512x1x1_S512x512,
    unary main_v228 main_v229 (broadcastInDim S1x1x512x512 ![2, 3] bcast_S512x512_S1x1x512x512_2_3 : (⟨S512x512, .f32⟩ : BufTy).Contents (Elt F) → (⟨S1x1x512x512, .f32⟩ : BufTy).Contents (Elt F)),
    unary main_v229 main_v230 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v226 main_v230 main_v231 (mulf : (⟨S1x3x512x512, .f32⟩ : BufTy).Contents (Elt F) → (⟨S1x3x512x512, .f32⟩ : BufTy).Contents (Elt F) → (⟨S1x3x512x512, .f32⟩ : BufTy).Contents (Elt F)),
    binary main_v225 main_v231 main_v232 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v233 ((extractStridedSlice S1x3x512x512 ![0, 0, 3, 6] · slices_S1x3x520x520_S1x3x512x512_0_0_3_6) : (⟨S1x3x520x520, .f32⟩ : BufTy).Contents (Elt F) → (⟨S1x3x512x512, .f32⟩ : BufTy).Contents (Elt F)),
    unary main_arg1 main_v234 ((extractStridedSlice S512x512x1x1 ![0, 0, 3, 6] · slices_S512x512x9x9_S512x512x1x1_0_0_3_6) : (⟨S512x512x9x9, .f32⟩ : BufTy).Contents (Elt F) → (⟨S512x512x1x1, .f32⟩ : BufTy).Contents (Elt F)),
    reshape main_v234 main_v235 rfl shapeCasts_S512x512x1x1_S512x512,
    unary main_v235 main_v236 (broadcastInDim S1x1x512x512 ![2, 3] bcast_S512x512_S1x1x512x512_2_3 : (⟨S512x512, .f32⟩ : BufTy).Contents (Elt F) → (⟨S1x1x512x512, .f32⟩ : BufTy).Contents (Elt F)),
    unary main_v236 main_v237 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)) ]

/-- Operations 256 … 271 of 586. -/
abbrev pc8 : List (HloOp τ sig (Elt F)) :=
  [ binary main_v233 main_v237 main_v238 (mulf : (⟨S1x3x512x512, .f32⟩ : BufTy).Contents (Elt F) → (⟨S1x3x512x512, .f32⟩ : BufTy).Contents (Elt F) → (⟨S1x3x512x512, .f32⟩ : BufTy).Contents (Elt F)),
    binary main_v232 main_v238 main_v239 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v240 ((extractStridedSlice S1x3x512x512 ![0, 0, 3, 7] · slices_S1x3x520x520_S1x3x512x512_0_0_3_7) : (⟨S1x3x520x520, .f32⟩ : BufTy).Contents (Elt F) → (⟨S1x3x512x512, .f32⟩ : BufTy).Contents (Elt F)),
    unary main_arg1 main_v241 ((extractStridedSlice S512x512x1x1 ![0, 0, 3, 7] · slices_S512x512x9x9_S512x512x1x1_0_0_3_7) : (⟨S512x512x9x9, .f32⟩ : BufTy).Contents (Elt F) → (⟨S512x512x1x1, .f32⟩ : BufTy).Contents (Elt F)),
    reshape main_v241 main_v242 rfl shapeCasts_S512x512x1x1_S512x512,
    unary main_v242 main_v243 (broadcastInDim S1x1x512x512 ![2, 3] bcast_S512x512_S1x1x512x512_2_3 : (⟨S512x512, .f32⟩ : BufTy).Contents (Elt F) → (⟨S1x1x512x512, .f32⟩ : BufTy).Contents (Elt F)),
    unary main_v243 main_v244 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v240 main_v244 main_v245 (mulf : (⟨S1x3x512x512, .f32⟩ : BufTy).Contents (Elt F) → (⟨S1x3x512x512, .f32⟩ : BufTy).Contents (Elt F) → (⟨S1x3x512x512, .f32⟩ : BufTy).Contents (Elt F)),
    binary main_v239 main_v245 main_v246 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v247 ((extractStridedSlice S1x3x512x512 ![0, 0, 3, 8] · slices_S1x3x520x520_S1x3x512x512_0_0_3_8) : (⟨S1x3x520x520, .f32⟩ : BufTy).Contents (Elt F) → (⟨S1x3x512x512, .f32⟩ : BufTy).Contents (Elt F)),
    unary main_arg1 main_v248 ((extractStridedSlice S512x512x1x1 ![0, 0, 3, 8] · slices_S512x512x9x9_S512x512x1x1_0_0_3_8) : (⟨S512x512x9x9, .f32⟩ : BufTy).Contents (Elt F) → (⟨S512x512x1x1, .f32⟩ : BufTy).Contents (Elt F)),
    reshape main_v248 main_v249 rfl shapeCasts_S512x512x1x1_S512x512,
    unary main_v249 main_v250 (broadcastInDim S1x1x512x512 ![2, 3] bcast_S512x512_S1x1x512x512_2_3 : (⟨S512x512, .f32⟩ : BufTy).Contents (Elt F) → (⟨S1x1x512x512, .f32⟩ : BufTy).Contents (Elt F)),
    unary main_v250 main_v251 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v247 main_v251 main_v252 (mulf : (⟨S1x3x512x512, .f32⟩ : BufTy).Contents (Elt F) → (⟨S1x3x512x512, .f32⟩ : BufTy).Contents (Elt F) → (⟨S1x3x512x512, .f32⟩ : BufTy).Contents (Elt F)),
    binary main_v246 main_v252 main_v253 (addf : (⟨S1x3x512x512, .f32⟩ : BufTy).Contents (Elt F) → (⟨S1x3x512x512, .f32⟩ : BufTy).Contents (Elt F) → (⟨S1x3x512x512, .f32⟩ : BufTy).Contents (Elt F)) ]

/-- Operations 272 … 315 of 586. -/
abbrev pc9 : List (HloOp τ sig (Elt F)) :=
  [ unary main_v0 main_v254 ((extractStridedSlice S1x3x512x512 ![0, 0, 4, 0] · slices_S1x3x520x520_S1x3x512x512_0_0_4_0) : (⟨S1x3x520x520, .f32⟩ : BufTy).Contents (Elt F) → (⟨S1x3x512x512, .f32⟩ : BufTy).Contents (Elt F)),
    unary main_arg1 main_v255 ((extractStridedSlice S512x512x1x1 ![0, 0, 4, 0] · slices_S512x512x9x9_S512x512x1x1_0_0_4_0) : (⟨S512x512x9x9, .f32⟩ : BufTy).Contents (Elt F) → (⟨S512x512x1x1, .f32⟩ : BufTy).Contents (Elt F)),
    reshape main_v255 main_v256 rfl shapeCasts_S512x512x1x1_S512x512,
    unary main_v256 main_v257 (broadcastInDim S1x1x512x512 ![2, 3] bcast_S512x512_S1x1x512x512_2_3 : (⟨S512x512, .f32⟩ : BufTy).Contents (Elt F) → (⟨S1x1x512x512, .f32⟩ : BufTy).Contents (Elt F)),
    unary main_v257 main_v258 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v254 main_v258 main_v259 (mulf : (⟨S1x3x512x512, .f32⟩ : BufTy).Contents (Elt F) → (⟨S1x3x512x512, .f32⟩ : BufTy).Contents (Elt F) → (⟨S1x3x512x512, .f32⟩ : BufTy).Contents (Elt F)),
    binary main_v253 main_v259 main_v260 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v261 ((extractStridedSlice S1x3x512x512 ![0, 0, 4, 1] · slices_S1x3x520x520_S1x3x512x512_0_0_4_1) : (⟨S1x3x520x520, .f32⟩ : BufTy).Contents (Elt F) → (⟨S1x3x512x512, .f32⟩ : BufTy).Contents (Elt F)),
    unary main_arg1 main_v262 ((extractStridedSlice S512x512x1x1 ![0, 0, 4, 1] · slices_S512x512x9x9_S512x512x1x1_0_0_4_1) : (⟨S512x512x9x9, .f32⟩ : BufTy).Contents (Elt F) → (⟨S512x512x1x1, .f32⟩ : BufTy).Contents (Elt F)),
    reshape main_v262 main_v263 rfl shapeCasts_S512x512x1x1_S512x512,
    unary main_v263 main_v264 (broadcastInDim S1x1x512x512 ![2, 3] bcast_S512x512_S1x1x512x512_2_3 : (⟨S512x512, .f32⟩ : BufTy).Contents (Elt F) → (⟨S1x1x512x512, .f32⟩ : BufTy).Contents (Elt F)),
    unary main_v264 main_v265 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v261 main_v265 main_v266 (mulf : (⟨S1x3x512x512, .f32⟩ : BufTy).Contents (Elt F) → (⟨S1x3x512x512, .f32⟩ : BufTy).Contents (Elt F) → (⟨S1x3x512x512, .f32⟩ : BufTy).Contents (Elt F)),
    binary main_v260 main_v266 main_v267 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v268 ((extractStridedSlice S1x3x512x512 ![0, 0, 4, 2] · slices_S1x3x520x520_S1x3x512x512_0_0_4_2) : (⟨S1x3x520x520, .f32⟩ : BufTy).Contents (Elt F) → (⟨S1x3x512x512, .f32⟩ : BufTy).Contents (Elt F)),
    unary main_arg1 main_v269 ((extractStridedSlice S512x512x1x1 ![0, 0, 4, 2] · slices_S512x512x9x9_S512x512x1x1_0_0_4_2) : (⟨S512x512x9x9, .f32⟩ : BufTy).Contents (Elt F) → (⟨S512x512x1x1, .f32⟩ : BufTy).Contents (Elt F)),
    reshape main_v269 main_v270 rfl shapeCasts_S512x512x1x1_S512x512,
    unary main_v270 main_v271 (broadcastInDim S1x1x512x512 ![2, 3] bcast_S512x512_S1x1x512x512_2_3 : (⟨S512x512, .f32⟩ : BufTy).Contents (Elt F) → (⟨S1x1x512x512, .f32⟩ : BufTy).Contents (Elt F)),
    unary main_v271 main_v272 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v268 main_v272 main_v273 (mulf : (⟨S1x3x512x512, .f32⟩ : BufTy).Contents (Elt F) → (⟨S1x3x512x512, .f32⟩ : BufTy).Contents (Elt F) → (⟨S1x3x512x512, .f32⟩ : BufTy).Contents (Elt F)),
    binary main_v267 main_v273 main_v274 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v275 ((extractStridedSlice S1x3x512x512 ![0, 0, 4, 3] · slices_S1x3x520x520_S1x3x512x512_0_0_4_3) : (⟨S1x3x520x520, .f32⟩ : BufTy).Contents (Elt F) → (⟨S1x3x512x512, .f32⟩ : BufTy).Contents (Elt F)),
    unary main_arg1 main_v276 ((extractStridedSlice S512x512x1x1 ![0, 0, 4, 3] · slices_S512x512x9x9_S512x512x1x1_0_0_4_3) : (⟨S512x512x9x9, .f32⟩ : BufTy).Contents (Elt F) → (⟨S512x512x1x1, .f32⟩ : BufTy).Contents (Elt F)),
    reshape main_v276 main_v277 rfl shapeCasts_S512x512x1x1_S512x512,
    unary main_v277 main_v278 (broadcastInDim S1x1x512x512 ![2, 3] bcast_S512x512_S1x1x512x512_2_3 : (⟨S512x512, .f32⟩ : BufTy).Contents (Elt F) → (⟨S1x1x512x512, .f32⟩ : BufTy).Contents (Elt F)),
    unary main_v278 main_v279 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v275 main_v279 main_v280 (mulf : (⟨S1x3x512x512, .f32⟩ : BufTy).Contents (Elt F) → (⟨S1x3x512x512, .f32⟩ : BufTy).Contents (Elt F) → (⟨S1x3x512x512, .f32⟩ : BufTy).Contents (Elt F)),
    binary main_v274 main_v280 main_v281 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v282 ((extractStridedSlice S1x3x512x512 ![0, 0, 4, 4] · slices_S1x3x520x520_S1x3x512x512_0_0_4_4) : (⟨S1x3x520x520, .f32⟩ : BufTy).Contents (Elt F) → (⟨S1x3x512x512, .f32⟩ : BufTy).Contents (Elt F)),
    unary main_arg1 main_v283 ((extractStridedSlice S512x512x1x1 ![0, 0, 4, 4] · slices_S512x512x9x9_S512x512x1x1_0_0_4_4) : (⟨S512x512x9x9, .f32⟩ : BufTy).Contents (Elt F) → (⟨S512x512x1x1, .f32⟩ : BufTy).Contents (Elt F)),
    reshape main_v283 main_v284 rfl shapeCasts_S512x512x1x1_S512x512,
    unary main_v284 main_v285 (broadcastInDim S1x1x512x512 ![2, 3] bcast_S512x512_S1x1x512x512_2_3 : (⟨S512x512, .f32⟩ : BufTy).Contents (Elt F) → (⟨S1x1x512x512, .f32⟩ : BufTy).Contents (Elt F)),
    unary main_v285 main_v286 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v282 main_v286 main_v287 (mulf : (⟨S1x3x512x512, .f32⟩ : BufTy).Contents (Elt F) → (⟨S1x3x512x512, .f32⟩ : BufTy).Contents (Elt F) → (⟨S1x3x512x512, .f32⟩ : BufTy).Contents (Elt F)),
    binary main_v281 main_v287 main_v288 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v289 ((extractStridedSlice S1x3x512x512 ![0, 0, 4, 5] · slices_S1x3x520x520_S1x3x512x512_0_0_4_5) : (⟨S1x3x520x520, .f32⟩ : BufTy).Contents (Elt F) → (⟨S1x3x512x512, .f32⟩ : BufTy).Contents (Elt F)),
    unary main_arg1 main_v290 ((extractStridedSlice S512x512x1x1 ![0, 0, 4, 5] · slices_S512x512x9x9_S512x512x1x1_0_0_4_5) : (⟨S512x512x9x9, .f32⟩ : BufTy).Contents (Elt F) → (⟨S512x512x1x1, .f32⟩ : BufTy).Contents (Elt F)),
    reshape main_v290 main_v291 rfl shapeCasts_S512x512x1x1_S512x512,
    unary main_v291 main_v292 (broadcastInDim S1x1x512x512 ![2, 3] bcast_S512x512_S1x1x512x512_2_3 : (⟨S512x512, .f32⟩ : BufTy).Contents (Elt F) → (⟨S1x1x512x512, .f32⟩ : BufTy).Contents (Elt F)),
    unary main_v292 main_v293 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v289 main_v293 main_v294 (mulf : (⟨S1x3x512x512, .f32⟩ : BufTy).Contents (Elt F) → (⟨S1x3x512x512, .f32⟩ : BufTy).Contents (Elt F) → (⟨S1x3x512x512, .f32⟩ : BufTy).Contents (Elt F)),
    binary main_v288 main_v294 main_v295 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v296 ((extractStridedSlice S1x3x512x512 ![0, 0, 4, 6] · slices_S1x3x520x520_S1x3x512x512_0_0_4_6) : (⟨S1x3x520x520, .f32⟩ : BufTy).Contents (Elt F) → (⟨S1x3x512x512, .f32⟩ : BufTy).Contents (Elt F)),
    unary main_arg1 main_v297 ((extractStridedSlice S512x512x1x1 ![0, 0, 4, 6] · slices_S512x512x9x9_S512x512x1x1_0_0_4_6) : (⟨S512x512x9x9, .f32⟩ : BufTy).Contents (Elt F) → (⟨S512x512x1x1, .f32⟩ : BufTy).Contents (Elt F)) ]

/-- Operations 316 … 334 of 586. -/
abbrev pc10 : List (HloOp τ sig (Elt F)) :=
  [ reshape main_v297 main_v298 rfl shapeCasts_S512x512x1x1_S512x512,
    unary main_v298 main_v299 (broadcastInDim S1x1x512x512 ![2, 3] bcast_S512x512_S1x1x512x512_2_3 : (⟨S512x512, .f32⟩ : BufTy).Contents (Elt F) → (⟨S1x1x512x512, .f32⟩ : BufTy).Contents (Elt F)),
    unary main_v299 main_v300 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v296 main_v300 main_v301 (mulf : (⟨S1x3x512x512, .f32⟩ : BufTy).Contents (Elt F) → (⟨S1x3x512x512, .f32⟩ : BufTy).Contents (Elt F) → (⟨S1x3x512x512, .f32⟩ : BufTy).Contents (Elt F)),
    binary main_v295 main_v301 main_v302 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v303 ((extractStridedSlice S1x3x512x512 ![0, 0, 4, 7] · slices_S1x3x520x520_S1x3x512x512_0_0_4_7) : (⟨S1x3x520x520, .f32⟩ : BufTy).Contents (Elt F) → (⟨S1x3x512x512, .f32⟩ : BufTy).Contents (Elt F)),
    unary main_arg1 main_v304 ((extractStridedSlice S512x512x1x1 ![0, 0, 4, 7] · slices_S512x512x9x9_S512x512x1x1_0_0_4_7) : (⟨S512x512x9x9, .f32⟩ : BufTy).Contents (Elt F) → (⟨S512x512x1x1, .f32⟩ : BufTy).Contents (Elt F)),
    reshape main_v304 main_v305 rfl shapeCasts_S512x512x1x1_S512x512,
    unary main_v305 main_v306 (broadcastInDim S1x1x512x512 ![2, 3] bcast_S512x512_S1x1x512x512_2_3 : (⟨S512x512, .f32⟩ : BufTy).Contents (Elt F) → (⟨S1x1x512x512, .f32⟩ : BufTy).Contents (Elt F)),
    unary main_v306 main_v307 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v303 main_v307 main_v308 (mulf : (⟨S1x3x512x512, .f32⟩ : BufTy).Contents (Elt F) → (⟨S1x3x512x512, .f32⟩ : BufTy).Contents (Elt F) → (⟨S1x3x512x512, .f32⟩ : BufTy).Contents (Elt F)),
    binary main_v302 main_v308 main_v309 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v310 ((extractStridedSlice S1x3x512x512 ![0, 0, 4, 8] · slices_S1x3x520x520_S1x3x512x512_0_0_4_8) : (⟨S1x3x520x520, .f32⟩ : BufTy).Contents (Elt F) → (⟨S1x3x512x512, .f32⟩ : BufTy).Contents (Elt F)),
    unary main_arg1 main_v311 ((extractStridedSlice S512x512x1x1 ![0, 0, 4, 8] · slices_S512x512x9x9_S512x512x1x1_0_0_4_8) : (⟨S512x512x9x9, .f32⟩ : BufTy).Contents (Elt F) → (⟨S512x512x1x1, .f32⟩ : BufTy).Contents (Elt F)),
    reshape main_v311 main_v312 rfl shapeCasts_S512x512x1x1_S512x512,
    unary main_v312 main_v313 (broadcastInDim S1x1x512x512 ![2, 3] bcast_S512x512_S1x1x512x512_2_3 : (⟨S512x512, .f32⟩ : BufTy).Contents (Elt F) → (⟨S1x1x512x512, .f32⟩ : BufTy).Contents (Elt F)),
    unary main_v313 main_v314 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v310 main_v314 main_v315 (mulf : (⟨S1x3x512x512, .f32⟩ : BufTy).Contents (Elt F) → (⟨S1x3x512x512, .f32⟩ : BufTy).Contents (Elt F) → (⟨S1x3x512x512, .f32⟩ : BufTy).Contents (Elt F)),
    binary main_v309 main_v315 main_v316 (addf : (⟨S1x3x512x512, .f32⟩ : BufTy).Contents (Elt F) → (⟨S1x3x512x512, .f32⟩ : BufTy).Contents (Elt F) → (⟨S1x3x512x512, .f32⟩ : BufTy).Contents (Elt F)) ]

/-- Operations 335 … 375 of 586. -/
abbrev pc11 : List (HloOp τ sig (Elt F)) :=
  [ unary main_v0 main_v317 ((extractStridedSlice S1x3x512x512 ![0, 0, 5, 0] · slices_S1x3x520x520_S1x3x512x512_0_0_5_0) : (⟨S1x3x520x520, .f32⟩ : BufTy).Contents (Elt F) → (⟨S1x3x512x512, .f32⟩ : BufTy).Contents (Elt F)),
    unary main_arg1 main_v318 ((extractStridedSlice S512x512x1x1 ![0, 0, 5, 0] · slices_S512x512x9x9_S512x512x1x1_0_0_5_0) : (⟨S512x512x9x9, .f32⟩ : BufTy).Contents (Elt F) → (⟨S512x512x1x1, .f32⟩ : BufTy).Contents (Elt F)),
    reshape main_v318 main_v319 rfl shapeCasts_S512x512x1x1_S512x512,
    unary main_v319 main_v320 (broadcastInDim S1x1x512x512 ![2, 3] bcast_S512x512_S1x1x512x512_2_3 : (⟨S512x512, .f32⟩ : BufTy).Contents (Elt F) → (⟨S1x1x512x512, .f32⟩ : BufTy).Contents (Elt F)),
    unary main_v320 main_v321 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v317 main_v321 main_v322 (mulf : (⟨S1x3x512x512, .f32⟩ : BufTy).Contents (Elt F) → (⟨S1x3x512x512, .f32⟩ : BufTy).Contents (Elt F) → (⟨S1x3x512x512, .f32⟩ : BufTy).Contents (Elt F)),
    binary main_v316 main_v322 main_v323 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v324 ((extractStridedSlice S1x3x512x512 ![0, 0, 5, 1] · slices_S1x3x520x520_S1x3x512x512_0_0_5_1) : (⟨S1x3x520x520, .f32⟩ : BufTy).Contents (Elt F) → (⟨S1x3x512x512, .f32⟩ : BufTy).Contents (Elt F)),
    unary main_arg1 main_v325 ((extractStridedSlice S512x512x1x1 ![0, 0, 5, 1] · slices_S512x512x9x9_S512x512x1x1_0_0_5_1) : (⟨S512x512x9x9, .f32⟩ : BufTy).Contents (Elt F) → (⟨S512x512x1x1, .f32⟩ : BufTy).Contents (Elt F)),
    reshape main_v325 main_v326 rfl shapeCasts_S512x512x1x1_S512x512,
    unary main_v326 main_v327 (broadcastInDim S1x1x512x512 ![2, 3] bcast_S512x512_S1x1x512x512_2_3 : (⟨S512x512, .f32⟩ : BufTy).Contents (Elt F) → (⟨S1x1x512x512, .f32⟩ : BufTy).Contents (Elt F)),
    unary main_v327 main_v328 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v324 main_v328 main_v329 (mulf : (⟨S1x3x512x512, .f32⟩ : BufTy).Contents (Elt F) → (⟨S1x3x512x512, .f32⟩ : BufTy).Contents (Elt F) → (⟨S1x3x512x512, .f32⟩ : BufTy).Contents (Elt F)),
    binary main_v323 main_v329 main_v330 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v331 ((extractStridedSlice S1x3x512x512 ![0, 0, 5, 2] · slices_S1x3x520x520_S1x3x512x512_0_0_5_2) : (⟨S1x3x520x520, .f32⟩ : BufTy).Contents (Elt F) → (⟨S1x3x512x512, .f32⟩ : BufTy).Contents (Elt F)),
    unary main_arg1 main_v332 ((extractStridedSlice S512x512x1x1 ![0, 0, 5, 2] · slices_S512x512x9x9_S512x512x1x1_0_0_5_2) : (⟨S512x512x9x9, .f32⟩ : BufTy).Contents (Elt F) → (⟨S512x512x1x1, .f32⟩ : BufTy).Contents (Elt F)),
    reshape main_v332 main_v333 rfl shapeCasts_S512x512x1x1_S512x512,
    unary main_v333 main_v334 (broadcastInDim S1x1x512x512 ![2, 3] bcast_S512x512_S1x1x512x512_2_3 : (⟨S512x512, .f32⟩ : BufTy).Contents (Elt F) → (⟨S1x1x512x512, .f32⟩ : BufTy).Contents (Elt F)),
    unary main_v334 main_v335 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v331 main_v335 main_v336 (mulf : (⟨S1x3x512x512, .f32⟩ : BufTy).Contents (Elt F) → (⟨S1x3x512x512, .f32⟩ : BufTy).Contents (Elt F) → (⟨S1x3x512x512, .f32⟩ : BufTy).Contents (Elt F)),
    binary main_v330 main_v336 main_v337 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v338 ((extractStridedSlice S1x3x512x512 ![0, 0, 5, 3] · slices_S1x3x520x520_S1x3x512x512_0_0_5_3) : (⟨S1x3x520x520, .f32⟩ : BufTy).Contents (Elt F) → (⟨S1x3x512x512, .f32⟩ : BufTy).Contents (Elt F)),
    unary main_arg1 main_v339 ((extractStridedSlice S512x512x1x1 ![0, 0, 5, 3] · slices_S512x512x9x9_S512x512x1x1_0_0_5_3) : (⟨S512x512x9x9, .f32⟩ : BufTy).Contents (Elt F) → (⟨S512x512x1x1, .f32⟩ : BufTy).Contents (Elt F)),
    reshape main_v339 main_v340 rfl shapeCasts_S512x512x1x1_S512x512,
    unary main_v340 main_v341 (broadcastInDim S1x1x512x512 ![2, 3] bcast_S512x512_S1x1x512x512_2_3 : (⟨S512x512, .f32⟩ : BufTy).Contents (Elt F) → (⟨S1x1x512x512, .f32⟩ : BufTy).Contents (Elt F)),
    unary main_v341 main_v342 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v338 main_v342 main_v343 (mulf : (⟨S1x3x512x512, .f32⟩ : BufTy).Contents (Elt F) → (⟨S1x3x512x512, .f32⟩ : BufTy).Contents (Elt F) → (⟨S1x3x512x512, .f32⟩ : BufTy).Contents (Elt F)),
    binary main_v337 main_v343 main_v344 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v345 ((extractStridedSlice S1x3x512x512 ![0, 0, 5, 4] · slices_S1x3x520x520_S1x3x512x512_0_0_5_4) : (⟨S1x3x520x520, .f32⟩ : BufTy).Contents (Elt F) → (⟨S1x3x512x512, .f32⟩ : BufTy).Contents (Elt F)),
    unary main_arg1 main_v346 ((extractStridedSlice S512x512x1x1 ![0, 0, 5, 4] · slices_S512x512x9x9_S512x512x1x1_0_0_5_4) : (⟨S512x512x9x9, .f32⟩ : BufTy).Contents (Elt F) → (⟨S512x512x1x1, .f32⟩ : BufTy).Contents (Elt F)),
    reshape main_v346 main_v347 rfl shapeCasts_S512x512x1x1_S512x512,
    unary main_v347 main_v348 (broadcastInDim S1x1x512x512 ![2, 3] bcast_S512x512_S1x1x512x512_2_3 : (⟨S512x512, .f32⟩ : BufTy).Contents (Elt F) → (⟨S1x1x512x512, .f32⟩ : BufTy).Contents (Elt F)),
    unary main_v348 main_v349 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v345 main_v349 main_v350 (mulf : (⟨S1x3x512x512, .f32⟩ : BufTy).Contents (Elt F) → (⟨S1x3x512x512, .f32⟩ : BufTy).Contents (Elt F) → (⟨S1x3x512x512, .f32⟩ : BufTy).Contents (Elt F)),
    binary main_v344 main_v350 main_v351 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v352 ((extractStridedSlice S1x3x512x512 ![0, 0, 5, 5] · slices_S1x3x520x520_S1x3x512x512_0_0_5_5) : (⟨S1x3x520x520, .f32⟩ : BufTy).Contents (Elt F) → (⟨S1x3x512x512, .f32⟩ : BufTy).Contents (Elt F)),
    unary main_arg1 main_v353 ((extractStridedSlice S512x512x1x1 ![0, 0, 5, 5] · slices_S512x512x9x9_S512x512x1x1_0_0_5_5) : (⟨S512x512x9x9, .f32⟩ : BufTy).Contents (Elt F) → (⟨S512x512x1x1, .f32⟩ : BufTy).Contents (Elt F)),
    reshape main_v353 main_v354 rfl shapeCasts_S512x512x1x1_S512x512,
    unary main_v354 main_v355 (broadcastInDim S1x1x512x512 ![2, 3] bcast_S512x512_S1x1x512x512_2_3 : (⟨S512x512, .f32⟩ : BufTy).Contents (Elt F) → (⟨S1x1x512x512, .f32⟩ : BufTy).Contents (Elt F)),
    unary main_v355 main_v356 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v352 main_v356 main_v357 (mulf : (⟨S1x3x512x512, .f32⟩ : BufTy).Contents (Elt F) → (⟨S1x3x512x512, .f32⟩ : BufTy).Contents (Elt F) → (⟨S1x3x512x512, .f32⟩ : BufTy).Contents (Elt F)) ]

/-- Operations 376 … 397 of 586. -/
abbrev pc12 : List (HloOp τ sig (Elt F)) :=
  [ binary main_v351 main_v357 main_v358 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v359 ((extractStridedSlice S1x3x512x512 ![0, 0, 5, 6] · slices_S1x3x520x520_S1x3x512x512_0_0_5_6) : (⟨S1x3x520x520, .f32⟩ : BufTy).Contents (Elt F) → (⟨S1x3x512x512, .f32⟩ : BufTy).Contents (Elt F)),
    unary main_arg1 main_v360 ((extractStridedSlice S512x512x1x1 ![0, 0, 5, 6] · slices_S512x512x9x9_S512x512x1x1_0_0_5_6) : (⟨S512x512x9x9, .f32⟩ : BufTy).Contents (Elt F) → (⟨S512x512x1x1, .f32⟩ : BufTy).Contents (Elt F)),
    reshape main_v360 main_v361 rfl shapeCasts_S512x512x1x1_S512x512,
    unary main_v361 main_v362 (broadcastInDim S1x1x512x512 ![2, 3] bcast_S512x512_S1x1x512x512_2_3 : (⟨S512x512, .f32⟩ : BufTy).Contents (Elt F) → (⟨S1x1x512x512, .f32⟩ : BufTy).Contents (Elt F)),
    unary main_v362 main_v363 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v359 main_v363 main_v364 (mulf : (⟨S1x3x512x512, .f32⟩ : BufTy).Contents (Elt F) → (⟨S1x3x512x512, .f32⟩ : BufTy).Contents (Elt F) → (⟨S1x3x512x512, .f32⟩ : BufTy).Contents (Elt F)),
    binary main_v358 main_v364 main_v365 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v366 ((extractStridedSlice S1x3x512x512 ![0, 0, 5, 7] · slices_S1x3x520x520_S1x3x512x512_0_0_5_7) : (⟨S1x3x520x520, .f32⟩ : BufTy).Contents (Elt F) → (⟨S1x3x512x512, .f32⟩ : BufTy).Contents (Elt F)),
    unary main_arg1 main_v367 ((extractStridedSlice S512x512x1x1 ![0, 0, 5, 7] · slices_S512x512x9x9_S512x512x1x1_0_0_5_7) : (⟨S512x512x9x9, .f32⟩ : BufTy).Contents (Elt F) → (⟨S512x512x1x1, .f32⟩ : BufTy).Contents (Elt F)),
    reshape main_v367 main_v368 rfl shapeCasts_S512x512x1x1_S512x512,
    unary main_v368 main_v369 (broadcastInDim S1x1x512x512 ![2, 3] bcast_S512x512_S1x1x512x512_2_3 : (⟨S512x512, .f32⟩ : BufTy).Contents (Elt F) → (⟨S1x1x512x512, .f32⟩ : BufTy).Contents (Elt F)),
    unary main_v369 main_v370 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v366 main_v370 main_v371 (mulf : (⟨S1x3x512x512, .f32⟩ : BufTy).Contents (Elt F) → (⟨S1x3x512x512, .f32⟩ : BufTy).Contents (Elt F) → (⟨S1x3x512x512, .f32⟩ : BufTy).Contents (Elt F)),
    binary main_v365 main_v371 main_v372 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v373 ((extractStridedSlice S1x3x512x512 ![0, 0, 5, 8] · slices_S1x3x520x520_S1x3x512x512_0_0_5_8) : (⟨S1x3x520x520, .f32⟩ : BufTy).Contents (Elt F) → (⟨S1x3x512x512, .f32⟩ : BufTy).Contents (Elt F)),
    unary main_arg1 main_v374 ((extractStridedSlice S512x512x1x1 ![0, 0, 5, 8] · slices_S512x512x9x9_S512x512x1x1_0_0_5_8) : (⟨S512x512x9x9, .f32⟩ : BufTy).Contents (Elt F) → (⟨S512x512x1x1, .f32⟩ : BufTy).Contents (Elt F)),
    reshape main_v374 main_v375 rfl shapeCasts_S512x512x1x1_S512x512,
    unary main_v375 main_v376 (broadcastInDim S1x1x512x512 ![2, 3] bcast_S512x512_S1x1x512x512_2_3 : (⟨S512x512, .f32⟩ : BufTy).Contents (Elt F) → (⟨S1x1x512x512, .f32⟩ : BufTy).Contents (Elt F)),
    unary main_v376 main_v377 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v373 main_v377 main_v378 (mulf : (⟨S1x3x512x512, .f32⟩ : BufTy).Contents (Elt F) → (⟨S1x3x512x512, .f32⟩ : BufTy).Contents (Elt F) → (⟨S1x3x512x512, .f32⟩ : BufTy).Contents (Elt F)),
    binary main_v372 main_v378 main_v379 (addf : (⟨S1x3x512x512, .f32⟩ : BufTy).Contents (Elt F) → (⟨S1x3x512x512, .f32⟩ : BufTy).Contents (Elt F) → (⟨S1x3x512x512, .f32⟩ : BufTy).Contents (Elt F)) ]

/-- Operations 398 … 435 of 586. -/
abbrev pc13 : List (HloOp τ sig (Elt F)) :=
  [ unary main_v0 main_v380 ((extractStridedSlice S1x3x512x512 ![0, 0, 6, 0] · slices_S1x3x520x520_S1x3x512x512_0_0_6_0) : (⟨S1x3x520x520, .f32⟩ : BufTy).Contents (Elt F) → (⟨S1x3x512x512, .f32⟩ : BufTy).Contents (Elt F)),
    unary main_arg1 main_v381 ((extractStridedSlice S512x512x1x1 ![0, 0, 6, 0] · slices_S512x512x9x9_S512x512x1x1_0_0_6_0) : (⟨S512x512x9x9, .f32⟩ : BufTy).Contents (Elt F) → (⟨S512x512x1x1, .f32⟩ : BufTy).Contents (Elt F)),
    reshape main_v381 main_v382 rfl shapeCasts_S512x512x1x1_S512x512,
    unary main_v382 main_v383 (broadcastInDim S1x1x512x512 ![2, 3] bcast_S512x512_S1x1x512x512_2_3 : (⟨S512x512, .f32⟩ : BufTy).Contents (Elt F) → (⟨S1x1x512x512, .f32⟩ : BufTy).Contents (Elt F)),
    unary main_v383 main_v384 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v380 main_v384 main_v385 (mulf : (⟨S1x3x512x512, .f32⟩ : BufTy).Contents (Elt F) → (⟨S1x3x512x512, .f32⟩ : BufTy).Contents (Elt F) → (⟨S1x3x512x512, .f32⟩ : BufTy).Contents (Elt F)),
    binary main_v379 main_v385 main_v386 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v387 ((extractStridedSlice S1x3x512x512 ![0, 0, 6, 1] · slices_S1x3x520x520_S1x3x512x512_0_0_6_1) : (⟨S1x3x520x520, .f32⟩ : BufTy).Contents (Elt F) → (⟨S1x3x512x512, .f32⟩ : BufTy).Contents (Elt F)),
    unary main_arg1 main_v388 ((extractStridedSlice S512x512x1x1 ![0, 0, 6, 1] · slices_S512x512x9x9_S512x512x1x1_0_0_6_1) : (⟨S512x512x9x9, .f32⟩ : BufTy).Contents (Elt F) → (⟨S512x512x1x1, .f32⟩ : BufTy).Contents (Elt F)),
    reshape main_v388 main_v389 rfl shapeCasts_S512x512x1x1_S512x512,
    unary main_v389 main_v390 (broadcastInDim S1x1x512x512 ![2, 3] bcast_S512x512_S1x1x512x512_2_3 : (⟨S512x512, .f32⟩ : BufTy).Contents (Elt F) → (⟨S1x1x512x512, .f32⟩ : BufTy).Contents (Elt F)),
    unary main_v390 main_v391 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v387 main_v391 main_v392 (mulf : (⟨S1x3x512x512, .f32⟩ : BufTy).Contents (Elt F) → (⟨S1x3x512x512, .f32⟩ : BufTy).Contents (Elt F) → (⟨S1x3x512x512, .f32⟩ : BufTy).Contents (Elt F)),
    binary main_v386 main_v392 main_v393 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v394 ((extractStridedSlice S1x3x512x512 ![0, 0, 6, 2] · slices_S1x3x520x520_S1x3x512x512_0_0_6_2) : (⟨S1x3x520x520, .f32⟩ : BufTy).Contents (Elt F) → (⟨S1x3x512x512, .f32⟩ : BufTy).Contents (Elt F)),
    unary main_arg1 main_v395 ((extractStridedSlice S512x512x1x1 ![0, 0, 6, 2] · slices_S512x512x9x9_S512x512x1x1_0_0_6_2) : (⟨S512x512x9x9, .f32⟩ : BufTy).Contents (Elt F) → (⟨S512x512x1x1, .f32⟩ : BufTy).Contents (Elt F)),
    reshape main_v395 main_v396 rfl shapeCasts_S512x512x1x1_S512x512,
    unary main_v396 main_v397 (broadcastInDim S1x1x512x512 ![2, 3] bcast_S512x512_S1x1x512x512_2_3 : (⟨S512x512, .f32⟩ : BufTy).Contents (Elt F) → (⟨S1x1x512x512, .f32⟩ : BufTy).Contents (Elt F)),
    unary main_v397 main_v398 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v394 main_v398 main_v399 (mulf : (⟨S1x3x512x512, .f32⟩ : BufTy).Contents (Elt F) → (⟨S1x3x512x512, .f32⟩ : BufTy).Contents (Elt F) → (⟨S1x3x512x512, .f32⟩ : BufTy).Contents (Elt F)),
    binary main_v393 main_v399 main_v400 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v401 ((extractStridedSlice S1x3x512x512 ![0, 0, 6, 3] · slices_S1x3x520x520_S1x3x512x512_0_0_6_3) : (⟨S1x3x520x520, .f32⟩ : BufTy).Contents (Elt F) → (⟨S1x3x512x512, .f32⟩ : BufTy).Contents (Elt F)),
    unary main_arg1 main_v402 ((extractStridedSlice S512x512x1x1 ![0, 0, 6, 3] · slices_S512x512x9x9_S512x512x1x1_0_0_6_3) : (⟨S512x512x9x9, .f32⟩ : BufTy).Contents (Elt F) → (⟨S512x512x1x1, .f32⟩ : BufTy).Contents (Elt F)),
    reshape main_v402 main_v403 rfl shapeCasts_S512x512x1x1_S512x512,
    unary main_v403 main_v404 (broadcastInDim S1x1x512x512 ![2, 3] bcast_S512x512_S1x1x512x512_2_3 : (⟨S512x512, .f32⟩ : BufTy).Contents (Elt F) → (⟨S1x1x512x512, .f32⟩ : BufTy).Contents (Elt F)),
    unary main_v404 main_v405 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v401 main_v405 main_v406 (mulf : (⟨S1x3x512x512, .f32⟩ : BufTy).Contents (Elt F) → (⟨S1x3x512x512, .f32⟩ : BufTy).Contents (Elt F) → (⟨S1x3x512x512, .f32⟩ : BufTy).Contents (Elt F)),
    binary main_v400 main_v406 main_v407 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v408 ((extractStridedSlice S1x3x512x512 ![0, 0, 6, 4] · slices_S1x3x520x520_S1x3x512x512_0_0_6_4) : (⟨S1x3x520x520, .f32⟩ : BufTy).Contents (Elt F) → (⟨S1x3x512x512, .f32⟩ : BufTy).Contents (Elt F)),
    unary main_arg1 main_v409 ((extractStridedSlice S512x512x1x1 ![0, 0, 6, 4] · slices_S512x512x9x9_S512x512x1x1_0_0_6_4) : (⟨S512x512x9x9, .f32⟩ : BufTy).Contents (Elt F) → (⟨S512x512x1x1, .f32⟩ : BufTy).Contents (Elt F)),
    reshape main_v409 main_v410 rfl shapeCasts_S512x512x1x1_S512x512,
    unary main_v410 main_v411 (broadcastInDim S1x1x512x512 ![2, 3] bcast_S512x512_S1x1x512x512_2_3 : (⟨S512x512, .f32⟩ : BufTy).Contents (Elt F) → (⟨S1x1x512x512, .f32⟩ : BufTy).Contents (Elt F)),
    unary main_v411 main_v412 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v408 main_v412 main_v413 (mulf : (⟨S1x3x512x512, .f32⟩ : BufTy).Contents (Elt F) → (⟨S1x3x512x512, .f32⟩ : BufTy).Contents (Elt F) → (⟨S1x3x512x512, .f32⟩ : BufTy).Contents (Elt F)),
    binary main_v407 main_v413 main_v414 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v415 ((extractStridedSlice S1x3x512x512 ![0, 0, 6, 5] · slices_S1x3x520x520_S1x3x512x512_0_0_6_5) : (⟨S1x3x520x520, .f32⟩ : BufTy).Contents (Elt F) → (⟨S1x3x512x512, .f32⟩ : BufTy).Contents (Elt F)),
    unary main_arg1 main_v416 ((extractStridedSlice S512x512x1x1 ![0, 0, 6, 5] · slices_S512x512x9x9_S512x512x1x1_0_0_6_5) : (⟨S512x512x9x9, .f32⟩ : BufTy).Contents (Elt F) → (⟨S512x512x1x1, .f32⟩ : BufTy).Contents (Elt F)),
    reshape main_v416 main_v417 rfl shapeCasts_S512x512x1x1_S512x512 ]

/-- Operations 436 … 460 of 586. -/
abbrev pc14 : List (HloOp τ sig (Elt F)) :=
  [ unary main_v417 main_v418 (broadcastInDim S1x1x512x512 ![2, 3] bcast_S512x512_S1x1x512x512_2_3 : (⟨S512x512, .f32⟩ : BufTy).Contents (Elt F) → (⟨S1x1x512x512, .f32⟩ : BufTy).Contents (Elt F)),
    unary main_v418 main_v419 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v415 main_v419 main_v420 (mulf : (⟨S1x3x512x512, .f32⟩ : BufTy).Contents (Elt F) → (⟨S1x3x512x512, .f32⟩ : BufTy).Contents (Elt F) → (⟨S1x3x512x512, .f32⟩ : BufTy).Contents (Elt F)),
    binary main_v414 main_v420 main_v421 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v422 ((extractStridedSlice S1x3x512x512 ![0, 0, 6, 6] · slices_S1x3x520x520_S1x3x512x512_0_0_6_6) : (⟨S1x3x520x520, .f32⟩ : BufTy).Contents (Elt F) → (⟨S1x3x512x512, .f32⟩ : BufTy).Contents (Elt F)),
    unary main_arg1 main_v423 ((extractStridedSlice S512x512x1x1 ![0, 0, 6, 6] · slices_S512x512x9x9_S512x512x1x1_0_0_6_6) : (⟨S512x512x9x9, .f32⟩ : BufTy).Contents (Elt F) → (⟨S512x512x1x1, .f32⟩ : BufTy).Contents (Elt F)),
    reshape main_v423 main_v424 rfl shapeCasts_S512x512x1x1_S512x512,
    unary main_v424 main_v425 (broadcastInDim S1x1x512x512 ![2, 3] bcast_S512x512_S1x1x512x512_2_3 : (⟨S512x512, .f32⟩ : BufTy).Contents (Elt F) → (⟨S1x1x512x512, .f32⟩ : BufTy).Contents (Elt F)),
    unary main_v425 main_v426 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v422 main_v426 main_v427 (mulf : (⟨S1x3x512x512, .f32⟩ : BufTy).Contents (Elt F) → (⟨S1x3x512x512, .f32⟩ : BufTy).Contents (Elt F) → (⟨S1x3x512x512, .f32⟩ : BufTy).Contents (Elt F)),
    binary main_v421 main_v427 main_v428 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v429 ((extractStridedSlice S1x3x512x512 ![0, 0, 6, 7] · slices_S1x3x520x520_S1x3x512x512_0_0_6_7) : (⟨S1x3x520x520, .f32⟩ : BufTy).Contents (Elt F) → (⟨S1x3x512x512, .f32⟩ : BufTy).Contents (Elt F)),
    unary main_arg1 main_v430 ((extractStridedSlice S512x512x1x1 ![0, 0, 6, 7] · slices_S512x512x9x9_S512x512x1x1_0_0_6_7) : (⟨S512x512x9x9, .f32⟩ : BufTy).Contents (Elt F) → (⟨S512x512x1x1, .f32⟩ : BufTy).Contents (Elt F)),
    reshape main_v430 main_v431 rfl shapeCasts_S512x512x1x1_S512x512,
    unary main_v431 main_v432 (broadcastInDim S1x1x512x512 ![2, 3] bcast_S512x512_S1x1x512x512_2_3 : (⟨S512x512, .f32⟩ : BufTy).Contents (Elt F) → (⟨S1x1x512x512, .f32⟩ : BufTy).Contents (Elt F)),
    unary main_v432 main_v433 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v429 main_v433 main_v434 (mulf : (⟨S1x3x512x512, .f32⟩ : BufTy).Contents (Elt F) → (⟨S1x3x512x512, .f32⟩ : BufTy).Contents (Elt F) → (⟨S1x3x512x512, .f32⟩ : BufTy).Contents (Elt F)),
    binary main_v428 main_v434 main_v435 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v436 ((extractStridedSlice S1x3x512x512 ![0, 0, 6, 8] · slices_S1x3x520x520_S1x3x512x512_0_0_6_8) : (⟨S1x3x520x520, .f32⟩ : BufTy).Contents (Elt F) → (⟨S1x3x512x512, .f32⟩ : BufTy).Contents (Elt F)),
    unary main_arg1 main_v437 ((extractStridedSlice S512x512x1x1 ![0, 0, 6, 8] · slices_S512x512x9x9_S512x512x1x1_0_0_6_8) : (⟨S512x512x9x9, .f32⟩ : BufTy).Contents (Elt F) → (⟨S512x512x1x1, .f32⟩ : BufTy).Contents (Elt F)),
    reshape main_v437 main_v438 rfl shapeCasts_S512x512x1x1_S512x512,
    unary main_v438 main_v439 (broadcastInDim S1x1x512x512 ![2, 3] bcast_S512x512_S1x1x512x512_2_3 : (⟨S512x512, .f32⟩ : BufTy).Contents (Elt F) → (⟨S1x1x512x512, .f32⟩ : BufTy).Contents (Elt F)),
    unary main_v439 main_v440 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v436 main_v440 main_v441 (mulf : (⟨S1x3x512x512, .f32⟩ : BufTy).Contents (Elt F) → (⟨S1x3x512x512, .f32⟩ : BufTy).Contents (Elt F) → (⟨S1x3x512x512, .f32⟩ : BufTy).Contents (Elt F)),
    binary main_v435 main_v441 main_v442 (addf : (⟨S1x3x512x512, .f32⟩ : BufTy).Contents (Elt F) → (⟨S1x3x512x512, .f32⟩ : BufTy).Contents (Elt F) → (⟨S1x3x512x512, .f32⟩ : BufTy).Contents (Elt F)) ]

/-- Operations 461 … 495 of 586. -/
abbrev pc15 : List (HloOp τ sig (Elt F)) :=
  [ unary main_v0 main_v443 ((extractStridedSlice S1x3x512x512 ![0, 0, 7, 0] · slices_S1x3x520x520_S1x3x512x512_0_0_7_0) : (⟨S1x3x520x520, .f32⟩ : BufTy).Contents (Elt F) → (⟨S1x3x512x512, .f32⟩ : BufTy).Contents (Elt F)),
    unary main_arg1 main_v444 ((extractStridedSlice S512x512x1x1 ![0, 0, 7, 0] · slices_S512x512x9x9_S512x512x1x1_0_0_7_0) : (⟨S512x512x9x9, .f32⟩ : BufTy).Contents (Elt F) → (⟨S512x512x1x1, .f32⟩ : BufTy).Contents (Elt F)),
    reshape main_v444 main_v445 rfl shapeCasts_S512x512x1x1_S512x512,
    unary main_v445 main_v446 (broadcastInDim S1x1x512x512 ![2, 3] bcast_S512x512_S1x1x512x512_2_3 : (⟨S512x512, .f32⟩ : BufTy).Contents (Elt F) → (⟨S1x1x512x512, .f32⟩ : BufTy).Contents (Elt F)),
    unary main_v446 main_v447 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v443 main_v447 main_v448 (mulf : (⟨S1x3x512x512, .f32⟩ : BufTy).Contents (Elt F) → (⟨S1x3x512x512, .f32⟩ : BufTy).Contents (Elt F) → (⟨S1x3x512x512, .f32⟩ : BufTy).Contents (Elt F)),
    binary main_v442 main_v448 main_v449 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v450 ((extractStridedSlice S1x3x512x512 ![0, 0, 7, 1] · slices_S1x3x520x520_S1x3x512x512_0_0_7_1) : (⟨S1x3x520x520, .f32⟩ : BufTy).Contents (Elt F) → (⟨S1x3x512x512, .f32⟩ : BufTy).Contents (Elt F)),
    unary main_arg1 main_v451 ((extractStridedSlice S512x512x1x1 ![0, 0, 7, 1] · slices_S512x512x9x9_S512x512x1x1_0_0_7_1) : (⟨S512x512x9x9, .f32⟩ : BufTy).Contents (Elt F) → (⟨S512x512x1x1, .f32⟩ : BufTy).Contents (Elt F)),
    reshape main_v451 main_v452 rfl shapeCasts_S512x512x1x1_S512x512,
    unary main_v452 main_v453 (broadcastInDim S1x1x512x512 ![2, 3] bcast_S512x512_S1x1x512x512_2_3 : (⟨S512x512, .f32⟩ : BufTy).Contents (Elt F) → (⟨S1x1x512x512, .f32⟩ : BufTy).Contents (Elt F)),
    unary main_v453 main_v454 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v450 main_v454 main_v455 (mulf : (⟨S1x3x512x512, .f32⟩ : BufTy).Contents (Elt F) → (⟨S1x3x512x512, .f32⟩ : BufTy).Contents (Elt F) → (⟨S1x3x512x512, .f32⟩ : BufTy).Contents (Elt F)),
    binary main_v449 main_v455 main_v456 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v457 ((extractStridedSlice S1x3x512x512 ![0, 0, 7, 2] · slices_S1x3x520x520_S1x3x512x512_0_0_7_2) : (⟨S1x3x520x520, .f32⟩ : BufTy).Contents (Elt F) → (⟨S1x3x512x512, .f32⟩ : BufTy).Contents (Elt F)),
    unary main_arg1 main_v458 ((extractStridedSlice S512x512x1x1 ![0, 0, 7, 2] · slices_S512x512x9x9_S512x512x1x1_0_0_7_2) : (⟨S512x512x9x9, .f32⟩ : BufTy).Contents (Elt F) → (⟨S512x512x1x1, .f32⟩ : BufTy).Contents (Elt F)),
    reshape main_v458 main_v459 rfl shapeCasts_S512x512x1x1_S512x512,
    unary main_v459 main_v460 (broadcastInDim S1x1x512x512 ![2, 3] bcast_S512x512_S1x1x512x512_2_3 : (⟨S512x512, .f32⟩ : BufTy).Contents (Elt F) → (⟨S1x1x512x512, .f32⟩ : BufTy).Contents (Elt F)),
    unary main_v460 main_v461 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v457 main_v461 main_v462 (mulf : (⟨S1x3x512x512, .f32⟩ : BufTy).Contents (Elt F) → (⟨S1x3x512x512, .f32⟩ : BufTy).Contents (Elt F) → (⟨S1x3x512x512, .f32⟩ : BufTy).Contents (Elt F)),
    binary main_v456 main_v462 main_v463 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v464 ((extractStridedSlice S1x3x512x512 ![0, 0, 7, 3] · slices_S1x3x520x520_S1x3x512x512_0_0_7_3) : (⟨S1x3x520x520, .f32⟩ : BufTy).Contents (Elt F) → (⟨S1x3x512x512, .f32⟩ : BufTy).Contents (Elt F)),
    unary main_arg1 main_v465 ((extractStridedSlice S512x512x1x1 ![0, 0, 7, 3] · slices_S512x512x9x9_S512x512x1x1_0_0_7_3) : (⟨S512x512x9x9, .f32⟩ : BufTy).Contents (Elt F) → (⟨S512x512x1x1, .f32⟩ : BufTy).Contents (Elt F)),
    reshape main_v465 main_v466 rfl shapeCasts_S512x512x1x1_S512x512,
    unary main_v466 main_v467 (broadcastInDim S1x1x512x512 ![2, 3] bcast_S512x512_S1x1x512x512_2_3 : (⟨S512x512, .f32⟩ : BufTy).Contents (Elt F) → (⟨S1x1x512x512, .f32⟩ : BufTy).Contents (Elt F)),
    unary main_v467 main_v468 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v464 main_v468 main_v469 (mulf : (⟨S1x3x512x512, .f32⟩ : BufTy).Contents (Elt F) → (⟨S1x3x512x512, .f32⟩ : BufTy).Contents (Elt F) → (⟨S1x3x512x512, .f32⟩ : BufTy).Contents (Elt F)),
    binary main_v463 main_v469 main_v470 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v471 ((extractStridedSlice S1x3x512x512 ![0, 0, 7, 4] · slices_S1x3x520x520_S1x3x512x512_0_0_7_4) : (⟨S1x3x520x520, .f32⟩ : BufTy).Contents (Elt F) → (⟨S1x3x512x512, .f32⟩ : BufTy).Contents (Elt F)),
    unary main_arg1 main_v472 ((extractStridedSlice S512x512x1x1 ![0, 0, 7, 4] · slices_S512x512x9x9_S512x512x1x1_0_0_7_4) : (⟨S512x512x9x9, .f32⟩ : BufTy).Contents (Elt F) → (⟨S512x512x1x1, .f32⟩ : BufTy).Contents (Elt F)),
    reshape main_v472 main_v473 rfl shapeCasts_S512x512x1x1_S512x512,
    unary main_v473 main_v474 (broadcastInDim S1x1x512x512 ![2, 3] bcast_S512x512_S1x1x512x512_2_3 : (⟨S512x512, .f32⟩ : BufTy).Contents (Elt F) → (⟨S1x1x512x512, .f32⟩ : BufTy).Contents (Elt F)),
    unary main_v474 main_v475 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v471 main_v475 main_v476 (mulf : (⟨S1x3x512x512, .f32⟩ : BufTy).Contents (Elt F) → (⟨S1x3x512x512, .f32⟩ : BufTy).Contents (Elt F) → (⟨S1x3x512x512, .f32⟩ : BufTy).Contents (Elt F)),
    binary main_v470 main_v476 main_v477 (addf : (⟨S1x3x512x512, .f32⟩ : BufTy).Contents (Elt F) → (⟨S1x3x512x512, .f32⟩ : BufTy).Contents (Elt F) → (⟨S1x3x512x512, .f32⟩ : BufTy).Contents (Elt F)) ]

/-- Operations 496 … 523 of 586. -/
abbrev pc16 : List (HloOp τ sig (Elt F)) :=
  [ unary main_v0 main_v478 ((extractStridedSlice S1x3x512x512 ![0, 0, 7, 5] · slices_S1x3x520x520_S1x3x512x512_0_0_7_5) : (⟨S1x3x520x520, .f32⟩ : BufTy).Contents (Elt F) → (⟨S1x3x512x512, .f32⟩ : BufTy).Contents (Elt F)),
    unary main_arg1 main_v479 ((extractStridedSlice S512x512x1x1 ![0, 0, 7, 5] · slices_S512x512x9x9_S512x512x1x1_0_0_7_5) : (⟨S512x512x9x9, .f32⟩ : BufTy).Contents (Elt F) → (⟨S512x512x1x1, .f32⟩ : BufTy).Contents (Elt F)),
    reshape main_v479 main_v480 rfl shapeCasts_S512x512x1x1_S512x512,
    unary main_v480 main_v481 (broadcastInDim S1x1x512x512 ![2, 3] bcast_S512x512_S1x1x512x512_2_3 : (⟨S512x512, .f32⟩ : BufTy).Contents (Elt F) → (⟨S1x1x512x512, .f32⟩ : BufTy).Contents (Elt F)),
    unary main_v481 main_v482 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v478 main_v482 main_v483 (mulf : (⟨S1x3x512x512, .f32⟩ : BufTy).Contents (Elt F) → (⟨S1x3x512x512, .f32⟩ : BufTy).Contents (Elt F) → (⟨S1x3x512x512, .f32⟩ : BufTy).Contents (Elt F)),
    binary main_v477 main_v483 main_v484 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v485 ((extractStridedSlice S1x3x512x512 ![0, 0, 7, 6] · slices_S1x3x520x520_S1x3x512x512_0_0_7_6) : (⟨S1x3x520x520, .f32⟩ : BufTy).Contents (Elt F) → (⟨S1x3x512x512, .f32⟩ : BufTy).Contents (Elt F)),
    unary main_arg1 main_v486 ((extractStridedSlice S512x512x1x1 ![0, 0, 7, 6] · slices_S512x512x9x9_S512x512x1x1_0_0_7_6) : (⟨S512x512x9x9, .f32⟩ : BufTy).Contents (Elt F) → (⟨S512x512x1x1, .f32⟩ : BufTy).Contents (Elt F)),
    reshape main_v486 main_v487 rfl shapeCasts_S512x512x1x1_S512x512,
    unary main_v487 main_v488 (broadcastInDim S1x1x512x512 ![2, 3] bcast_S512x512_S1x1x512x512_2_3 : (⟨S512x512, .f32⟩ : BufTy).Contents (Elt F) → (⟨S1x1x512x512, .f32⟩ : BufTy).Contents (Elt F)),
    unary main_v488 main_v489 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v485 main_v489 main_v490 (mulf : (⟨S1x3x512x512, .f32⟩ : BufTy).Contents (Elt F) → (⟨S1x3x512x512, .f32⟩ : BufTy).Contents (Elt F) → (⟨S1x3x512x512, .f32⟩ : BufTy).Contents (Elt F)),
    binary main_v484 main_v490 main_v491 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v492 ((extractStridedSlice S1x3x512x512 ![0, 0, 7, 7] · slices_S1x3x520x520_S1x3x512x512_0_0_7_7) : (⟨S1x3x520x520, .f32⟩ : BufTy).Contents (Elt F) → (⟨S1x3x512x512, .f32⟩ : BufTy).Contents (Elt F)),
    unary main_arg1 main_v493 ((extractStridedSlice S512x512x1x1 ![0, 0, 7, 7] · slices_S512x512x9x9_S512x512x1x1_0_0_7_7) : (⟨S512x512x9x9, .f32⟩ : BufTy).Contents (Elt F) → (⟨S512x512x1x1, .f32⟩ : BufTy).Contents (Elt F)),
    reshape main_v493 main_v494 rfl shapeCasts_S512x512x1x1_S512x512,
    unary main_v494 main_v495 (broadcastInDim S1x1x512x512 ![2, 3] bcast_S512x512_S1x1x512x512_2_3 : (⟨S512x512, .f32⟩ : BufTy).Contents (Elt F) → (⟨S1x1x512x512, .f32⟩ : BufTy).Contents (Elt F)),
    unary main_v495 main_v496 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v492 main_v496 main_v497 (mulf : (⟨S1x3x512x512, .f32⟩ : BufTy).Contents (Elt F) → (⟨S1x3x512x512, .f32⟩ : BufTy).Contents (Elt F) → (⟨S1x3x512x512, .f32⟩ : BufTy).Contents (Elt F)),
    binary main_v491 main_v497 main_v498 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v499 ((extractStridedSlice S1x3x512x512 ![0, 0, 7, 8] · slices_S1x3x520x520_S1x3x512x512_0_0_7_8) : (⟨S1x3x520x520, .f32⟩ : BufTy).Contents (Elt F) → (⟨S1x3x512x512, .f32⟩ : BufTy).Contents (Elt F)),
    unary main_arg1 main_v500 ((extractStridedSlice S512x512x1x1 ![0, 0, 7, 8] · slices_S512x512x9x9_S512x512x1x1_0_0_7_8) : (⟨S512x512x9x9, .f32⟩ : BufTy).Contents (Elt F) → (⟨S512x512x1x1, .f32⟩ : BufTy).Contents (Elt F)),
    reshape main_v500 main_v501 rfl shapeCasts_S512x512x1x1_S512x512,
    unary main_v501 main_v502 (broadcastInDim S1x1x512x512 ![2, 3] bcast_S512x512_S1x1x512x512_2_3 : (⟨S512x512, .f32⟩ : BufTy).Contents (Elt F) → (⟨S1x1x512x512, .f32⟩ : BufTy).Contents (Elt F)),
    unary main_v502 main_v503 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v499 main_v503 main_v504 (mulf : (⟨S1x3x512x512, .f32⟩ : BufTy).Contents (Elt F) → (⟨S1x3x512x512, .f32⟩ : BufTy).Contents (Elt F) → (⟨S1x3x512x512, .f32⟩ : BufTy).Contents (Elt F)),
    binary main_v498 main_v504 main_v505 (addf : (⟨S1x3x512x512, .f32⟩ : BufTy).Contents (Elt F) → (⟨S1x3x512x512, .f32⟩ : BufTy).Contents (Elt F) → (⟨S1x3x512x512, .f32⟩ : BufTy).Contents (Elt F)) ]

/-- Operations 524 … 555 of 586. -/
abbrev pc17 : List (HloOp τ sig (Elt F)) :=
  [ unary main_v0 main_v506 ((extractStridedSlice S1x3x512x512 ![0, 0, 8, 0] · slices_S1x3x520x520_S1x3x512x512_0_0_8_0) : (⟨S1x3x520x520, .f32⟩ : BufTy).Contents (Elt F) → (⟨S1x3x512x512, .f32⟩ : BufTy).Contents (Elt F)),
    unary main_arg1 main_v507 ((extractStridedSlice S512x512x1x1 ![0, 0, 8, 0] · slices_S512x512x9x9_S512x512x1x1_0_0_8_0) : (⟨S512x512x9x9, .f32⟩ : BufTy).Contents (Elt F) → (⟨S512x512x1x1, .f32⟩ : BufTy).Contents (Elt F)),
    reshape main_v507 main_v508 rfl shapeCasts_S512x512x1x1_S512x512,
    unary main_v508 main_v509 (broadcastInDim S1x1x512x512 ![2, 3] bcast_S512x512_S1x1x512x512_2_3 : (⟨S512x512, .f32⟩ : BufTy).Contents (Elt F) → (⟨S1x1x512x512, .f32⟩ : BufTy).Contents (Elt F)),
    unary main_v509 main_v510 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v506 main_v510 main_v511 (mulf : (⟨S1x3x512x512, .f32⟩ : BufTy).Contents (Elt F) → (⟨S1x3x512x512, .f32⟩ : BufTy).Contents (Elt F) → (⟨S1x3x512x512, .f32⟩ : BufTy).Contents (Elt F)),
    binary main_v505 main_v511 main_v512 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v513 ((extractStridedSlice S1x3x512x512 ![0, 0, 8, 1] · slices_S1x3x520x520_S1x3x512x512_0_0_8_1) : (⟨S1x3x520x520, .f32⟩ : BufTy).Contents (Elt F) → (⟨S1x3x512x512, .f32⟩ : BufTy).Contents (Elt F)),
    unary main_arg1 main_v514 ((extractStridedSlice S512x512x1x1 ![0, 0, 8, 1] · slices_S512x512x9x9_S512x512x1x1_0_0_8_1) : (⟨S512x512x9x9, .f32⟩ : BufTy).Contents (Elt F) → (⟨S512x512x1x1, .f32⟩ : BufTy).Contents (Elt F)),
    reshape main_v514 main_v515 rfl shapeCasts_S512x512x1x1_S512x512,
    unary main_v515 main_v516 (broadcastInDim S1x1x512x512 ![2, 3] bcast_S512x512_S1x1x512x512_2_3 : (⟨S512x512, .f32⟩ : BufTy).Contents (Elt F) → (⟨S1x1x512x512, .f32⟩ : BufTy).Contents (Elt F)),
    unary main_v516 main_v517 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v513 main_v517 main_v518 (mulf : (⟨S1x3x512x512, .f32⟩ : BufTy).Contents (Elt F) → (⟨S1x3x512x512, .f32⟩ : BufTy).Contents (Elt F) → (⟨S1x3x512x512, .f32⟩ : BufTy).Contents (Elt F)),
    binary main_v512 main_v518 main_v519 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v520 ((extractStridedSlice S1x3x512x512 ![0, 0, 8, 2] · slices_S1x3x520x520_S1x3x512x512_0_0_8_2) : (⟨S1x3x520x520, .f32⟩ : BufTy).Contents (Elt F) → (⟨S1x3x512x512, .f32⟩ : BufTy).Contents (Elt F)),
    unary main_arg1 main_v521 ((extractStridedSlice S512x512x1x1 ![0, 0, 8, 2] · slices_S512x512x9x9_S512x512x1x1_0_0_8_2) : (⟨S512x512x9x9, .f32⟩ : BufTy).Contents (Elt F) → (⟨S512x512x1x1, .f32⟩ : BufTy).Contents (Elt F)),
    reshape main_v521 main_v522 rfl shapeCasts_S512x512x1x1_S512x512,
    unary main_v522 main_v523 (broadcastInDim S1x1x512x512 ![2, 3] bcast_S512x512_S1x1x512x512_2_3 : (⟨S512x512, .f32⟩ : BufTy).Contents (Elt F) → (⟨S1x1x512x512, .f32⟩ : BufTy).Contents (Elt F)),
    unary main_v523 main_v524 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v520 main_v524 main_v525 (mulf : (⟨S1x3x512x512, .f32⟩ : BufTy).Contents (Elt F) → (⟨S1x3x512x512, .f32⟩ : BufTy).Contents (Elt F) → (⟨S1x3x512x512, .f32⟩ : BufTy).Contents (Elt F)),
    binary main_v519 main_v525 main_v526 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v527 ((extractStridedSlice S1x3x512x512 ![0, 0, 8, 3] · slices_S1x3x520x520_S1x3x512x512_0_0_8_3) : (⟨S1x3x520x520, .f32⟩ : BufTy).Contents (Elt F) → (⟨S1x3x512x512, .f32⟩ : BufTy).Contents (Elt F)),
    unary main_arg1 main_v528 ((extractStridedSlice S512x512x1x1 ![0, 0, 8, 3] · slices_S512x512x9x9_S512x512x1x1_0_0_8_3) : (⟨S512x512x9x9, .f32⟩ : BufTy).Contents (Elt F) → (⟨S512x512x1x1, .f32⟩ : BufTy).Contents (Elt F)),
    reshape main_v528 main_v529 rfl shapeCasts_S512x512x1x1_S512x512,
    unary main_v529 main_v530 (broadcastInDim S1x1x512x512 ![2, 3] bcast_S512x512_S1x1x512x512_2_3 : (⟨S512x512, .f32⟩ : BufTy).Contents (Elt F) → (⟨S1x1x512x512, .f32⟩ : BufTy).Contents (Elt F)),
    unary main_v530 main_v531 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v527 main_v531 main_v532 (mulf : (⟨S1x3x512x512, .f32⟩ : BufTy).Contents (Elt F) → (⟨S1x3x512x512, .f32⟩ : BufTy).Contents (Elt F) → (⟨S1x3x512x512, .f32⟩ : BufTy).Contents (Elt F)),
    binary main_v526 main_v532 main_v533 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v534 ((extractStridedSlice S1x3x512x512 ![0, 0, 8, 4] · slices_S1x3x520x520_S1x3x512x512_0_0_8_4) : (⟨S1x3x520x520, .f32⟩ : BufTy).Contents (Elt F) → (⟨S1x3x512x512, .f32⟩ : BufTy).Contents (Elt F)),
    unary main_arg1 main_v535 ((extractStridedSlice S512x512x1x1 ![0, 0, 8, 4] · slices_S512x512x9x9_S512x512x1x1_0_0_8_4) : (⟨S512x512x9x9, .f32⟩ : BufTy).Contents (Elt F) → (⟨S512x512x1x1, .f32⟩ : BufTy).Contents (Elt F)),
    reshape main_v535 main_v536 rfl shapeCasts_S512x512x1x1_S512x512,
    unary main_v536 main_v537 (broadcastInDim S1x1x512x512 ![2, 3] bcast_S512x512_S1x1x512x512_2_3 : (⟨S512x512, .f32⟩ : BufTy).Contents (Elt F) → (⟨S1x1x512x512, .f32⟩ : BufTy).Contents (Elt F)) ]

/-- Operations 556 … 586 of 586. -/
abbrev pc18 : List (HloOp τ sig (Elt F)) :=
  [ unary main_v537 main_v538 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v534 main_v538 main_v539 (mulf : (⟨S1x3x512x512, .f32⟩ : BufTy).Contents (Elt F) → (⟨S1x3x512x512, .f32⟩ : BufTy).Contents (Elt F) → (⟨S1x3x512x512, .f32⟩ : BufTy).Contents (Elt F)),
    binary main_v533 main_v539 main_v540 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v541 ((extractStridedSlice S1x3x512x512 ![0, 0, 8, 5] · slices_S1x3x520x520_S1x3x512x512_0_0_8_5) : (⟨S1x3x520x520, .f32⟩ : BufTy).Contents (Elt F) → (⟨S1x3x512x512, .f32⟩ : BufTy).Contents (Elt F)),
    unary main_arg1 main_v542 ((extractStridedSlice S512x512x1x1 ![0, 0, 8, 5] · slices_S512x512x9x9_S512x512x1x1_0_0_8_5) : (⟨S512x512x9x9, .f32⟩ : BufTy).Contents (Elt F) → (⟨S512x512x1x1, .f32⟩ : BufTy).Contents (Elt F)),
    reshape main_v542 main_v543 rfl shapeCasts_S512x512x1x1_S512x512,
    unary main_v543 main_v544 (broadcastInDim S1x1x512x512 ![2, 3] bcast_S512x512_S1x1x512x512_2_3 : (⟨S512x512, .f32⟩ : BufTy).Contents (Elt F) → (⟨S1x1x512x512, .f32⟩ : BufTy).Contents (Elt F)),
    unary main_v544 main_v545 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v541 main_v545 main_v546 (mulf : (⟨S1x3x512x512, .f32⟩ : BufTy).Contents (Elt F) → (⟨S1x3x512x512, .f32⟩ : BufTy).Contents (Elt F) → (⟨S1x3x512x512, .f32⟩ : BufTy).Contents (Elt F)),
    binary main_v540 main_v546 main_v547 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v548 ((extractStridedSlice S1x3x512x512 ![0, 0, 8, 6] · slices_S1x3x520x520_S1x3x512x512_0_0_8_6) : (⟨S1x3x520x520, .f32⟩ : BufTy).Contents (Elt F) → (⟨S1x3x512x512, .f32⟩ : BufTy).Contents (Elt F)),
    unary main_arg1 main_v549 ((extractStridedSlice S512x512x1x1 ![0, 0, 8, 6] · slices_S512x512x9x9_S512x512x1x1_0_0_8_6) : (⟨S512x512x9x9, .f32⟩ : BufTy).Contents (Elt F) → (⟨S512x512x1x1, .f32⟩ : BufTy).Contents (Elt F)),
    reshape main_v549 main_v550 rfl shapeCasts_S512x512x1x1_S512x512,
    unary main_v550 main_v551 (broadcastInDim S1x1x512x512 ![2, 3] bcast_S512x512_S1x1x512x512_2_3 : (⟨S512x512, .f32⟩ : BufTy).Contents (Elt F) → (⟨S1x1x512x512, .f32⟩ : BufTy).Contents (Elt F)),
    unary main_v551 main_v552 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v548 main_v552 main_v553 (mulf : (⟨S1x3x512x512, .f32⟩ : BufTy).Contents (Elt F) → (⟨S1x3x512x512, .f32⟩ : BufTy).Contents (Elt F) → (⟨S1x3x512x512, .f32⟩ : BufTy).Contents (Elt F)),
    binary main_v547 main_v553 main_v554 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v555 ((extractStridedSlice S1x3x512x512 ![0, 0, 8, 7] · slices_S1x3x520x520_S1x3x512x512_0_0_8_7) : (⟨S1x3x520x520, .f32⟩ : BufTy).Contents (Elt F) → (⟨S1x3x512x512, .f32⟩ : BufTy).Contents (Elt F)),
    unary main_arg1 main_v556 ((extractStridedSlice S512x512x1x1 ![0, 0, 8, 7] · slices_S512x512x9x9_S512x512x1x1_0_0_8_7) : (⟨S512x512x9x9, .f32⟩ : BufTy).Contents (Elt F) → (⟨S512x512x1x1, .f32⟩ : BufTy).Contents (Elt F)),
    reshape main_v556 main_v557 rfl shapeCasts_S512x512x1x1_S512x512,
    unary main_v557 main_v558 (broadcastInDim S1x1x512x512 ![2, 3] bcast_S512x512_S1x1x512x512_2_3 : (⟨S512x512, .f32⟩ : BufTy).Contents (Elt F) → (⟨S1x1x512x512, .f32⟩ : BufTy).Contents (Elt F)),
    unary main_v558 main_v559 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v555 main_v559 main_v560 (mulf : (⟨S1x3x512x512, .f32⟩ : BufTy).Contents (Elt F) → (⟨S1x3x512x512, .f32⟩ : BufTy).Contents (Elt F) → (⟨S1x3x512x512, .f32⟩ : BufTy).Contents (Elt F)),
    binary main_v554 main_v560 main_v561 (addf : (⟨S1x3x512x512, .f32⟩ : BufTy).Contents (Elt F) → (⟨S1x3x512x512, .f32⟩ : BufTy).Contents (Elt F) → (⟨S1x3x512x512, .f32⟩ : BufTy).Contents (Elt F)),
    unary main_v0 main_v562 ((extractStridedSlice S1x3x512x512 ![0, 0, 8, 8] · slices_S1x3x520x520_S1x3x512x512_0_0_8_8) : (⟨S1x3x520x520, .f32⟩ : BufTy).Contents (Elt F) → (⟨S1x3x512x512, .f32⟩ : BufTy).Contents (Elt F)),
    unary main_arg1 main_v563 ((extractStridedSlice S512x512x1x1 ![0, 0, 8, 8] · slices_S512x512x9x9_S512x512x1x1_0_0_8_8) : (⟨S512x512x9x9, .f32⟩ : BufTy).Contents (Elt F) → (⟨S512x512x1x1, .f32⟩ : BufTy).Contents (Elt F)),
    reshape main_v563 main_v564 rfl shapeCasts_S512x512x1x1_S512x512,
    unary main_v564 main_v565 (broadcastInDim S1x1x512x512 ![2, 3] bcast_S512x512_S1x1x512x512_2_3 : (⟨S512x512, .f32⟩ : BufTy).Contents (Elt F) → (⟨S1x1x512x512, .f32⟩ : BufTy).Contents (Elt F)),
    unary main_v565 main_v566 (broadcastInDim S1x3x512x512 ![0, 1, 2, 3] bcast_S1x1x512x512_S1x3x512x512_0_1_2_3 : (⟨S1x1x512x512, .f32⟩ : BufTy).Contents (Elt F) → (⟨S1x3x512x512, .f32⟩ : BufTy).Contents (Elt F)),
    binary main_v562 main_v566 main_v567 (mulf : (⟨S1x3x512x512, .f32⟩ : BufTy).Contents (Elt F) → (⟨S1x3x512x512, .f32⟩ : BufTy).Contents (Elt F) → (⟨S1x3x512x512, .f32⟩ : BufTy).Contents (Elt F)),
    binary main_v561 main_v567 main_v568 (addf : (⟨S1x3x512x512, .f32⟩ : BufTy).Contents (Elt F) → (⟨S1x3x512x512, .f32⟩ : BufTy).Contents (Elt F) → (⟨S1x3x512x512, .f32⟩ : BufTy).Contents (Elt F)) ]

/-- The operations of the printed window `main_part0`. -/
abbrev ops_part0 : List (HloOp τ sig (Elt F)) := pc0 ++ pc1
/-- The operations of the printed window `main_part1`. -/
abbrev ops_part1 : List (HloOp τ sig (Elt F)) := pc2 ++ pc3
/-- The operations of the printed window `main_part2`. -/
abbrev ops_part2 : List (HloOp τ sig (Elt F)) := pc4 ++ pc5
/-- The operations of the printed window `main_part3`. -/
abbrev ops_part3 : List (HloOp τ sig (Elt F)) := pc6 ++ pc7
/-- The operations of the printed window `main_part4`. -/
abbrev ops_part4 : List (HloOp τ sig (Elt F)) := pc8 ++ pc9
/-- The operations of the printed window `main_part5`. -/
abbrev ops_part5 : List (HloOp τ sig (Elt F)) := pc10 ++ pc11
/-- The operations of the printed window `main_part6`. -/
abbrev ops_part6 : List (HloOp τ sig (Elt F)) := pc12 ++ pc13
/-- The operations of the printed window `main_part7`. -/
abbrev ops_part7 : List (HloOp τ sig (Elt F)) := pc14 ++ pc15
/-- The operations of the printed window `main_part8`. -/
abbrev ops_part8 : List (HloOp τ sig (Elt F)) := pc16 ++ pc17
/-- The operations of the printed window `main_part9`. -/
abbrev ops_part9 : List (HloOp τ sig (Elt F)) := pc18

/-- @main's 586 operations, in order, grouped by printed window. -/
abbrev ops : List (HloOp τ sig (Elt F)) :=
  ops_part0 ++ (ops_part1 ++ (ops_part2 ++ (ops_part3 ++ (ops_part4 ++ (ops_part5 ++ (ops_part6 ++ (ops_part7 ++ (ops_part8 ++ (ops_part9)))))))))

/-- What precedes the taps: the unused integer constant, the reflect-pad's sixteen operations, the zero and its broadcast. -/
abbrev headOps : List (HloOp τ sig (Elt F)) := pc0
/-- The nine taps `(0, 0) … (0, 8)`, seven operations each. -/
abbrev rowOps0 : List (HloOp τ sig (Elt F)) := pc1 ++ pc2
/-- The nine taps `(1, 0) … (1, 8)`, seven operations each. -/
abbrev rowOps1 : List (HloOp τ sig (Elt F)) := pc3 ++ pc4
/-- The nine taps `(2, 0) … (2, 8)`, seven operations each. -/
abbrev rowOps2 : List (HloOp τ sig (Elt F)) := pc5 ++ pc6
/-- The nine taps `(3, 0) … (3, 8)`, seven operations each. -/
abbrev rowOps3 : List (HloOp τ sig (Elt F)) := pc7 ++ pc8
/-- The nine taps `(4, 0) … (4, 8)`, seven operations each. -/
abbrev rowOps4 : List (HloOp τ sig (Elt F)) := pc9 ++ pc10
/-- The nine taps `(5, 0) … (5, 8)`, seven operations each. -/
abbrev rowOps5 : List (HloOp τ sig (Elt F)) := pc11 ++ pc12
/-- The nine taps `(6, 0) … (6, 8)`, seven operations each. -/
abbrev rowOps6 : List (HloOp τ sig (Elt F)) := pc13 ++ pc14
/-- The nine taps `(7, 0) … (7, 8)`, seven operations each. -/
abbrev rowOps7 : List (HloOp τ sig (Elt F)) := pc15 ++ pc16
/-- The nine taps `(8, 0) … (8, 8)`, seven operations each. -/
abbrev rowOps8 : List (HloOp τ sig (Elt F)) := pc17 ++ pc18

/-- The same 586 operations grouped by tap row. -/
abbrev opsByRow : List (HloOp τ sig (Elt F)) :=
  headOps ++ (rowOps0 ++ (rowOps1 ++ (rowOps2 ++ (rowOps3 ++ (rowOps4 ++ (rowOps5 ++ (rowOps6 ++ (rowOps7 ++ (rowOps8)))))))))

/-- The two groupings are one list: concatenation is associative. -/
theorem ops_eq_opsByRow : (ops : List (HloOp τ sig (Elt F))) = opsByRow := by
  simp only [ops, opsByRow, headOps, ops_part0, ops_part1, ops_part2, ops_part3, ops_part4, ops_part5, ops_part6, ops_part7, ops_part8, ops_part9, rowOps0, rowOps1, rowOps2, rowOps3, rowOps4, rowOps5, rowOps6, rowOps7, rowOps8, List.append_assoc]

end Cert.ReferenceIdeal.RefValue

end
-- ==== Proof.RefMain.lean ====
/-
  @main is the straight line of its 586 operations: window by window (each printed window is its two pieces run one
  after the other; in the first the outlined reflect-pad and the flips it calls are unfolded at the call), joined by
  the fact that two lines run in turn are their concatenation run as one. With it, the side facts the run theorem
  asks of the list: every operation names TensorCore buffers only, and none allocates.
-/
import proofs.«108208_j53102975647806_2_alg».proof.Proof.RefOps

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
set_option maxHeartbeats 4000000 in
/-- The first window: the pad function's body and the two flips' unfolded at their calls, sequencing reassociated. -/
theorem main_part0_eq (c : Dev nD) : main_part0 (F := F) c = seq ops_part0 := by
  simp only [main_part0, fn_pad.body, fn_flip.body, fn_flip_0.body, bind_assoc, pure_bind]
  rfl

set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
set_option maxHeartbeats 4000000 in
theorem main_part4_eq (c : Dev nD) : main_part4 (F := F) c = seq ops_part4 := rfl
set_option maxRecDepth 8192 in
set_option maxHeartbeats 4000000 in
theorem main_part5_eq (c : Dev nD) : main_part5 (F := F) c = seq ops_part5 := rfl
set_option maxRecDepth 8192 in
set_option maxHeartbeats 4000000 in
theorem main_part6_eq (c : Dev nD) : main_part6 (F := F) c = seq ops_part6 := rfl
set_option maxRecDepth 8192 in
set_option maxHeartbeats 4000000 in
theorem main_part7_eq (c : Dev nD) : main_part7 (F := F) c = seq ops_part7 := rfl
set_option maxRecDepth 8192 in
set_option maxHeartbeats 4000000 in
theorem main_part8_eq (c : Dev nD) : main_part8 (F := F) c = seq ops_part8 := rfl
set_option maxRecDepth 8192 in
set_option maxHeartbeats 4000000 in
theorem main_part9_eq (c : Dev nD) : main_part9 (F := F) c = seq ops_part9 := rfl

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem pc0_sub : (pc0 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub ..⟩
set_option maxRecDepth 8192 in
theorem pc0_fresh : ∀ op ∈ (pc0 : List (HloOp τ sig (Elt F))), op.fresh = ∅ := by
  intro _ h; (repeat (cases h with | head => rfl | tail _ h => ?_)); exact nomatch h
set_option maxRecDepth 8192 in
theorem pc1_sub : (pc1 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩
set_option maxRecDepth 8192 in
theorem pc1_fresh : ∀ op ∈ (pc1 : List (HloOp τ sig (Elt F))), op.fresh = ∅ := by
  intro _ h; (repeat (cases h with | head => rfl | tail _ h => ?_)); exact nomatch h
set_option maxRecDepth 8192 in
theorem pc2_sub : (pc2 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub ..⟩
set_option maxRecDepth 8192 in
theorem pc2_fresh : ∀ op ∈ (pc2 : List (HloOp τ sig (Elt F))), op.fresh = ∅ := by
  intro _ h; (repeat (cases h with | head => rfl | tail _ h => ?_)); exact nomatch h
set_option maxRecDepth 8192 in
theorem pc3_sub : (pc3 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub ..⟩
set_option maxRecDepth 8192 in
theorem pc3_fresh : ∀ op ∈ (pc3 : List (HloOp τ sig (Elt F))), op.fresh = ∅ := by
  intro _ h; (repeat (cases h with | head => rfl | tail _ h => ?_)); exact nomatch h
set_option maxRecDepth 8192 in
theorem pc4_sub : (pc4 : List (HloOp τ sig (Elt F))).Forall fun op => op.bufs ⊆ tcRefs τ sig :=
  ⟨unary_bufs_sub .., binary_bufs_sub .., binary_bufs_sub .., unary_bufs_sub .., unary_bufs_sub .., reshape_bufs_sub .., unary_bufs_sub .., unary_bufs_sub .., binary_bufs_sub .., binary_bufs_sub ..⟩
set_option maxRecDepth 8192 in
theorem pc4_fresh : ∀ op ∈ (pc4 : List (HloOp τ sig (Elt F))), op.fresh = ∅ := by
  intro _ h; (repeat (cases h with | head => rfl | tail _ h => ?_)); exact nomatch h
set_option maxRecDepth 8192 in
theorem pc5_sub : (pc5 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub ..⟩
set_option maxRecDepth 8192 in
theorem pc5_fresh : ∀ op ∈ (pc5 : List (HloOp τ sig (Elt F))), op.fresh = ∅ := by
  intro _ h; (repeat (cases h with | head => rfl | tail _ h => ?_)); exact nomatch h
set_option maxRecDepth 8192 in
theorem pc6_sub : (pc6 : List (HloOp τ sig (Elt F))).Forall fun op => op.bufs ⊆ tcRefs τ sig :=
  ⟨unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩
set_option maxRecDepth 8192 in
theorem pc6_fresh : ∀ op ∈ (pc6 : List (HloOp τ sig (Elt F))), op.fresh = ∅ := by
  intro _ h; (repeat (cases h with | head => rfl | tail _ h => ?_)); exact nomatch h
set_option maxRecDepth 8192 in
theorem pc7_sub : (pc7 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub ..⟩
set_option maxRecDepth 8192 in
theorem pc7_fresh : ∀ op ∈ (pc7 : List (HloOp τ sig (Elt F))), op.fresh = ∅ := by
  intro _ h; (repeat (cases h with | head => rfl | tail _ h => ?_)); exact nomatch h
set_option maxRecDepth 8192 in
theorem pc8_sub : (pc8 : List (HloOp τ sig (Elt F))).Forall fun op => op.bufs ⊆ tcRefs τ sig :=
  ⟨binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩
set_option maxRecDepth 8192 in
theorem pc8_fresh : ∀ op ∈ (pc8 : List (HloOp τ sig (Elt F))), op.fresh = ∅ := by
  intro _ h; (repeat (cases h with | head => rfl | tail _ h => ?_)); exact nomatch h
set_option maxRecDepth 8192 in
theorem pc9_sub : (pc9 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub ..⟩
set_option maxRecDepth 8192 in
theorem pc9_fresh : ∀ op ∈ (pc9 : List (HloOp τ sig (Elt F))), op.fresh = ∅ := by
  intro _ h; (repeat (cases h with | head => rfl | tail _ h => ?_)); exact nomatch h
set_option maxRecDepth 8192 in
theorem pc10_sub : (pc10 : List (HloOp τ sig (Elt F))).Forall fun op => op.bufs ⊆ tcRefs τ sig :=
  ⟨reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩
set_option maxRecDepth 8192 in
theorem pc10_fresh : ∀ op ∈ (pc10 : List (HloOp τ sig (Elt F))), op.fresh = ∅ := by
  intro _ h; (repeat (cases h with | head => rfl | tail _ h => ?_)); exact nomatch h
set_option maxRecDepth 8192 in
theorem pc11_sub : (pc11 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub ..⟩
set_option maxRecDepth 8192 in
theorem pc11_fresh : ∀ op ∈ (pc11 : List (HloOp τ sig (Elt F))), op.fresh = ∅ := by
  intro _ h; (repeat (cases h with | head => rfl | tail _ h => ?_)); exact nomatch h
set_option maxRecDepth 8192 in
theorem pc12_sub : (pc12 : List (HloOp τ sig (Elt F))).Forall fun op => op.bufs ⊆ tcRefs τ sig :=
  ⟨binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩
set_option maxRecDepth 8192 in
theorem pc12_fresh : ∀ op ∈ (pc12 : List (HloOp τ sig (Elt F))), op.fresh = ∅ := by
  intro _ h; (repeat (cases h with | head => rfl | tail _ h => ?_)); exact nomatch h
set_option maxRecDepth 8192 in
theorem pc13_sub : (pc13 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub ..⟩
set_option maxRecDepth 8192 in
theorem pc13_fresh : ∀ op ∈ (pc13 : List (HloOp τ sig (Elt F))), op.fresh = ∅ := by
  intro _ h; (repeat (cases h with | head => rfl | tail _ h => ?_)); exact nomatch h
set_option maxRecDepth 8192 in
theorem pc14_sub : (pc14 : List (HloOp τ sig (Elt F))).Forall fun op => op.bufs ⊆ tcRefs τ sig :=
  ⟨unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩
set_option maxRecDepth 8192 in
theorem pc14_fresh : ∀ op ∈ (pc14 : List (HloOp τ sig (Elt F))), op.fresh = ∅ := by
  intro _ h; (repeat (cases h with | head => rfl | tail _ h => ?_)); exact nomatch h
set_option maxRecDepth 8192 in
theorem pc15_sub : (pc15 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩
set_option maxRecDepth 8192 in
theorem pc15_fresh : ∀ op ∈ (pc15 : List (HloOp τ sig (Elt F))), op.fresh = ∅ := by
  intro _ h; (repeat (cases h with | head => rfl | tail _ h => ?_)); exact nomatch h
set_option maxRecDepth 8192 in
theorem pc16_sub : (pc16 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩
set_option maxRecDepth 8192 in
theorem pc16_fresh : ∀ op ∈ (pc16 : List (HloOp τ sig (Elt F))), op.fresh = ∅ := by
  intro _ h; (repeat (cases h with | head => rfl | tail _ h => ?_)); exact nomatch h
set_option maxRecDepth 8192 in
theorem pc17_sub : (pc17 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub ..⟩
set_option maxRecDepth 8192 in
theorem pc17_fresh : ∀ op ∈ (pc17 : List (HloOp τ sig (Elt F))), op.fresh = ∅ := by
  intro _ h; (repeat (cases h with | head => rfl | tail _ h => ?_)); exact nomatch h
set_option maxRecDepth 8192 in
theorem pc18_sub : (pc18 : List (HloOp τ sig (Elt F))).Forall fun op => op.bufs ⊆ tcRefs τ sig :=
  ⟨unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩
set_option maxRecDepth 8192 in
theorem pc18_fresh : ∀ op ∈ (pc18 : List (HloOp τ sig (Elt F))), op.fresh = ∅ := by
  intro _ h; (repeat (cases h with | head => rfl | tail _ h => ?_)); exact nomatch h
/-- Membership in the whole line is membership in one of the nineteen pieces. -/
theorem mem_ops {op : HloOp τ sig (Elt F)} (h : op ∈ (ops : List (HloOp τ sig (Elt F)))) :
    op ∈ (pc0 : List (HloOp τ sig (Elt F))) ∨ op ∈ (pc1 : List (HloOp τ sig (Elt F))) ∨ op ∈ (pc2 : List (HloOp τ sig (Elt F))) ∨ op ∈ (pc3 : List (HloOp τ sig (Elt F))) ∨ op ∈ (pc4 : List (HloOp τ sig (Elt F))) ∨ op ∈ (pc5 : List (HloOp τ sig (Elt F))) ∨ op ∈ (pc6 : List (HloOp τ sig (Elt F))) ∨ op ∈ (pc7 : List (HloOp τ sig (Elt F))) ∨ op ∈ (pc8 : List (HloOp τ sig (Elt F))) ∨ op ∈ (pc9 : List (HloOp τ sig (Elt F))) ∨ op ∈ (pc10 : List (HloOp τ sig (Elt F))) ∨ op ∈ (pc11 : List (HloOp τ sig (Elt F))) ∨ op ∈ (pc12 : List (HloOp τ sig (Elt F))) ∨ op ∈ (pc13 : List (HloOp τ sig (Elt F))) ∨ op ∈ (pc14 : List (HloOp τ sig (Elt F))) ∨ op ∈ (pc15 : List (HloOp τ sig (Elt F))) ∨ op ∈ (pc16 : List (HloOp τ sig (Elt F))) ∨ op ∈ (pc17 : List (HloOp τ sig (Elt F))) ∨ op ∈ (pc18 : List (HloOp τ sig (Elt F))) := by
  simpa only [ops, ops_part0, ops_part1, ops_part2, ops_part3, ops_part4, ops_part5, ops_part6, ops_part7, ops_part8, ops_part9, List.mem_append, or_assoc] using h

theorem ops_sub : (ops : List (HloOp τ sig (Elt F))).Forall fun op => op.bufs ⊆ tcRefs τ sig :=
  List.forall_iff_forall_mem.mpr fun op h => by
    rcases mem_ops h with h | h | h | h | h | h | h | h | h | h | h | h | h | h | h | h | h | h | h
    exacts [List.forall_iff_forall_mem.mp pc0_sub op h, List.forall_iff_forall_mem.mp pc1_sub op h, List.forall_iff_forall_mem.mp pc2_sub op h, List.forall_iff_forall_mem.mp pc3_sub op h, List.forall_iff_forall_mem.mp pc4_sub op h, List.forall_iff_forall_mem.mp pc5_sub op h, List.forall_iff_forall_mem.mp pc6_sub op h, List.forall_iff_forall_mem.mp pc7_sub op h, List.forall_iff_forall_mem.mp pc8_sub op h, List.forall_iff_forall_mem.mp pc9_sub op h, List.forall_iff_forall_mem.mp pc10_sub op h, List.forall_iff_forall_mem.mp pc11_sub op h, List.forall_iff_forall_mem.mp pc12_sub op h, List.forall_iff_forall_mem.mp pc13_sub op h, List.forall_iff_forall_mem.mp pc14_sub op h, List.forall_iff_forall_mem.mp pc15_sub op h, List.forall_iff_forall_mem.mp pc16_sub op h, List.forall_iff_forall_mem.mp pc17_sub op h, List.forall_iff_forall_mem.mp pc18_sub op h]

theorem ops_fresh : ∀ op ∈ (ops : List (HloOp τ sig (Elt F))), op.fresh = ∅ := fun op h => by
  rcases mem_ops h with h | h | h | h | h | h | h | h | h | h | h | h | h | h | h | h | h | h | h
  exacts [pc0_fresh op h, pc1_fresh op h, pc2_fresh op h, pc3_fresh op h, pc4_fresh op h, pc5_fresh op h, pc6_fresh op h, pc7_fresh op h, pc8_fresh op h, pc9_fresh op h, pc10_fresh op h, pc11_fresh op h, pc12_fresh op h, pc13_fresh op h, pc14_fresh op h, pc15_fresh op h, pc16_fresh op h, pc17_fresh op h, pc18_fresh op h]

end Cert.ReferenceIdeal.RefValue

end
-- ==== Proof.RefTap.lean ====
/-
  One tap of the reference's sum, and one row of nine taps, read at an index.

  Tap `(i, j)` multiplies the padded image moved by `(i, j)` — the block of `P` at offsets `[0, 0, i, j]` — by the
  kernel field's plane `K[·, ·, i, j]`, which the program forms as a one-element block of `K` at offsets `[0, 0, i, j]`,
  recast to `[512, 512]` and broadcast over the batch and channel axes. At output pixel `(c, h, w)` that product is
  `P[c, h + i, w + j] · K[h, w, i, j]`. The offsets are natural-number VARIABLES (bounded by 8), so that one lemma
  serves all 81 taps; the side conditions of the blocks are propositions, so any proof of them is as good as the
  program's own.
-/
import proofs.«108208_j53102975647806_2_alg».proof.Proof.Spec
import proofs.«108208_j53102975647806_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The `[1, 3, 512, 512]` block of the padded image at spatial offsets `(i, j)` lies inside it when `i, j ≤ 8`. -/
theorem slicesP (i j : ℕ) (hi : i ≤ 8) (hj : j ≤ 8) : S1x3x520x520.Slices ![0, 0, i, j] S1x3x512x512 :=
  ⟨rfl, fun a => by
    fin_cases a
    · show 0 + 1 ≤ 1; omega
    · show 0 + 3 ≤ 3; omega
    · show i + 512 ≤ 520; omega
    · show j + 512 ≤ 520; omega⟩

/-- The one-tap block `[512, 512, 1, 1]` of the kernel field at tap offsets `(i, j)` lies inside it when `i, j ≤ 8`. -/
theorem slicesK (i j : ℕ) (hi : i ≤ 8) (hj : j ≤ 8) : S512x512x9x9.Slices ![0, 0, i, j] S512x512x1x1 :=
  ⟨rfl, fun a => by
    fin_cases a
    · show 0 + 512 ≤ 512; omega
    · show 0 + 512 ≤ 512; omega
    · show i + 1 ≤ 9; omega
    · show j + 1 ≤ 9; omega⟩

/-- The moved image at a pixel: `P[c, h + i, w + j]`. -/
theorem sliceP_apply (i j : ℕ) (hi : i ≤ 8) (hj : j ≤ 8) (P : FVec Ideal S1x3x520x520 .f32)
    (hs : S1x3x520x520.Slices ![0, 0, i, j] S1x3x512x512) (c : Fin 3) (h w : Fin 512) :
    extractStridedSlice S1x3x512x512 ![0, 0, i, j] P hs (ix4 (0 : Fin 1) c h w)
      = P (ix4 (0 : Fin 1) c (Cert.Blur.sh h i) (Cert.Blur.sh w j)) := by
  refine extractStridedSlice_apply _ P hs _ _ fun a => ?_
  fin_cases a
  · show (0 : ℕ) = 0 + 0; rfl
  · show c.val = 0 + c.val; omega
  · show (Cert.Blur.sh h i).val = i + h.val; rw [Cert.Blur.sh_val h i hi]; omega
  · show (Cert.Blur.sh w j).val = j + w.val; rw [Cert.Blur.sh_val w j hj]; omega

/-- The kernel field's plane of tap `(i, j)`, broadcast over batch and channel, at a pixel: `K[h, w, i, j]`. The block
    `[512, 512, 1, 1]` at offsets `[0, 0, i, j]` read at `(h, w, 0, 0)`; its recast to `[512, 512]` keeps the row-major
    position `512 h + w`; the two broadcasts read the operand at the pixel's `(h, w)`, zero on the unit axes. -/
theorem kField_apply (i j : ℕ) (hi : i ≤ 8) (hj : j ≤ 8) (K : FVec Ideal S512x512x9x9 .f32)
    (hs : S512x512x9x9.Slices ![0, 0, i, j] S512x512x1x1) (hc : S512x512x1x1.ShapeCasts S512x512)
    (hb1 : S512x512.BroadcastsInDim S1x1x512x512 (![2, 3] : Fin 2 → Fin S1x1x512x512.rank))
    (hb2 : S1x1x512x512.BroadcastsInDim S1x3x512x512 (![0, 1, 2, 3] : Fin 4 → Fin S1x3x512x512.rank))
    (c : Fin 3) (h w : Fin 512) :
    broadcastInDim S1x3x512x512 ![0, 1, 2, 3] hb2
        (broadcastInDim S1x1x512x512 ![2, 3] hb1
          (shapeCast S512x512 (extractStridedSlice S512x512x1x1 ![0, 0, i, j] K hs) hc)) (ix4 (0 : Fin 1) c h w)
      = K (ix4 h w (Cert.Blur.tap i) (Cert.Blur.tap j)) := by
  rw [broadcastInDim_apply _ hb2 _ _ (ix4 (0 : Fin 1) (0 : Fin 1) h w) (fun a => by fin_cases a <;> rfl),
    broadcastInDim_apply _ hb1 _ _ (ix2 h w) (fun a => by fin_cases a <;> rfl),
    shapeCast_apply _ hc _ (ix4 h w (0 : Fin 1) (0 : Fin 1)) (by
      rw [Shape.rowMajor_val_four, Shape.rowMajor_val_two]
      show ((h.val * 512 + w.val) * 1 + 0) * 1 + 0 = h.val * 512 + w.val
      omega)]
  refine extractStridedSlice_apply _ K hs _ _ fun a => ?_
  fin_cases a
  · show h.val = 0 + h.val; omega
  · show w.val = 0 + w.val; omega
  · show (Cert.Blur.tap i).val = i + 0; rw [Cert.Blur.tap_val i hi]; omega
  · show (Cert.Blur.tap j).val = j + 0; rw [Cert.Blur.tap_val j hj]; omega

/-- One tap's product as the program forms it: the moved image times the broadcast kernel plane. -/
def tapProd (i j : ℕ) (hi : i ≤ 8) (hj : j ≤ 8) (P : FVec Ideal S1x3x520x520 .f32) (K : FVec Ideal S512x512x9x9 .f32) :
    FVec Ideal S1x3x512x512 .f32 :=
  mulf (extractStridedSlice S1x3x512x512 ![0, 0, i, j] P (slicesP i j hi hj))
    (broadcastInDim S1x3x512x512 ![0, 1, 2, 3] bcast_S1x1x512x512_S1x3x512x512_0_1_2_3
      (broadcastInDim S1x1x512x512 ![2, 3] bcast_S512x512_S1x1x512x512_2_3
        (shapeCast S512x512 (extractStridedSlice S512x512x1x1 ![0, 0, i, j] K (slicesK i j hi hj))
          shapeCasts_S512x512x1x1_S512x512)))

theorem tapProd_apply (i j : ℕ) (hi : i ≤ 8) (hj : j ≤ 8) (P : FVec Ideal S1x3x520x520 .f32)
    (K : FVec Ideal S512x512x9x9 .f32) (c : Fin 3) (h w : Fin 512) :
    tapProd i j hi hj P K (ix4 (0 : Fin 1) c h w)
      = P (ix4 (0 : Fin 1) c (Cert.Blur.sh h i) (Cert.Blur.sh w j)) * K (ix4 h w (Cert.Blur.tap i) (Cert.Blur.tap j)) := by
  unfold tapProd
  rw [mulf_apply, sliceP_apply i j hi hj, kField_apply i j hi hj]

/-- A row of nine taps `(i, 0) … (i, 8)` added one after the other, each on the right, to an accumulator `A`. -/
def rowTerm (i : ℕ) (hi : i ≤ 8) (P : FVec Ideal S1x3x520x520 .f32) (K : FVec Ideal S512x512x9x9 .f32)
    (A : FVec Ideal S1x3x512x512 .f32) : FVec Ideal S1x3x512x512 .f32 :=
  addf (addf (addf (addf (addf (addf (addf (addf (addf A
    (tapProd i 0 hi (by omega) P K)) (tapProd i 1 hi (by omega) P K)) (tapProd i 2 hi (by omega) P K))
    (tapProd i 3 hi (by omega) P K)) (tapProd i 4 hi (by omega) P K)) (tapProd i 5 hi (by omega) P K))
    (tapProd i 6 hi (by omega) P K)) (tapProd i 7 hi (by omega) P K)) (tapProd i 8 hi (by omega) P K)

/-- One step of the specification's fold: the accumulator plus tap `(i, j)`'s product at pixel `(c, h, w)`. -/
abbrev stepAt (P : FVec Ideal S1x3x520x520 .f32) (K : FVec Ideal S512x512x9x9 .f32) (c : Fin 3) (h w : Fin 512)
    (acc : EReal) (i j : ℕ) : EReal :=
  acc + P (ix4 (0 : Fin 1) c (Cert.Blur.sh h i) (Cert.Blur.sh w j)) * K (ix4 h w (Cert.Blur.tap i) (Cert.Blur.tap j))

theorem rowTerm_apply (i : ℕ) (hi : i ≤ 8) (P : FVec Ideal S1x3x520x520 .f32) (K : FVec Ideal S512x512x9x9 .f32)
    (A : FVec Ideal S1x3x512x512 .f32) (c : Fin 3) (h w : Fin 512) :
    rowTerm i hi P K A (ix4 (0 : Fin 1) c h w)
      = stepAt P K c h w (stepAt P K c h w (stepAt P K c h w (stepAt P K c h w (stepAt P K c h w (stepAt P K c h w
          (stepAt P K c h w (stepAt P K c h w (stepAt P K c h w (A (ix4 (0 : Fin 1) c h w)) i 0) i 1) i 2) i 3) i 4) i 5)
          i 6) i 7) i 8 := by
  unfold rowTerm
  simp only [addf_apply, tapProd_apply]

/-- The accumulator's start: the constant zero broadcast to the image's shape is zero at every pixel. -/
theorem zero_apply (hb : S_.BroadcastsInDim S1x3x512x512 (![] : Fin 0 → Fin S1x3x512x512.rank)) (idx : S1x3x512x512.Idx) :
    broadcastInDim S1x3x512x512 ![] hb (constant (F := Ideal) S_ .f32 0x00000000#32) idx = 0 := by
  rw [broadcastInDim_apply _ hb _ _ ix0 (fun a => a.elim0), constant_apply, Ideal.ofBits_zero_f32]

end Cert.ReferenceIdeal.RefValue

end
-- ==== Proof.RefPad.lean ====
/-
  Reflection padding of the image by 4 on its two spatial axes, as the reference program's padding function composes it:
  along an axis of extent 512, the four samples after the edge are reversed and put before the image (extent 516),
  then the four samples before the far edge of that are reversed and put after it (extent 520); first along the rows,
  then along the columns of the result. Read at a padded coordinate this is the image at the reflected coordinate.
-/
import proofs.«108208_j53102975647806_2_alg».proof.ReferenceIdeal
import proofs.«108208_j53102975647806_2_alg».proof.Proof.Spec
import Idealize.ShloMosaic.Lib.Pipeline.Value
import Idealize.ShloMosaic.Lib.ValueIdx

noncomputable section

namespace Cert.ReferenceIdeal.PadValue

open Cert.ReferenceIdeal Idealize.ShloMosaic

variable {F : FTy → Type} [FloatOps F] [Facts₀]
open Facts₀

/-- Rows, first step: the reversed rows 1…4 before the image; extent 516 along the rows. -/
def rowsLo (x : FVec F S1x3x512x512 .f32) : FVec F S1x3x516x512 .f32 :=
  concatenate S1x3x516x512 2
    [⟨S1x3x4x512, Host.reverse [2] (extractStridedSlice S1x3x4x512 ![0, 0, 1, 0] x slices_S1x3x512x512_S1x3x4x512_0_0_1_0)⟩,
     ⟨S1x3x512x512, x⟩]
    concatenates_S1x3x4x512_S1x3x512x512_S1x3x516x512_d2

/-- Rows, second step: the reversed rows 511…514 of the first step after it; extent 520 along the rows. -/
def rows (x : FVec F S1x3x512x512 .f32) : FVec F S1x3x520x512 .f32 :=
  concatenate S1x3x520x512 2
    [⟨S1x3x516x512, rowsLo x⟩,
     ⟨S1x3x4x512, Host.reverse [2] (extractStridedSlice S1x3x4x512 ![0, 0, 511, 0] (rowsLo x) slices_S1x3x516x512_S1x3x4x512_0_0_511_0)⟩]
    concatenates_S1x3x516x512_S1x3x4x512_S1x3x520x512_d2

/-- Columns, first step: the reversed columns 1…4 of the row-padded image before it; extent 516 along the columns. -/
def colsLo (x : FVec F S1x3x512x512 .f32) : FVec F S1x3x520x516 .f32 :=
  concatenate S1x3x520x516 3
    [⟨S1x3x520x4, Host.reverse [3] (extractStridedSlice S1x3x520x4 ![0, 0, 0, 1] (rows x) slices_S1x3x520x512_S1x3x520x4_0_0_0_1)⟩,
     ⟨S1x3x520x512, rows x⟩]
    concatenates_S1x3x520x4_S1x3x520x512_S1x3x520x516_d3

/-- the padded image as the composition of the padding function's operations -/
def padTerm (x : FVec F S1x3x512x512 .f32) : FVec F S1x3x520x520 .f32 :=
  concatenate S1x3x520x520 3
    [⟨S1x3x520x516, colsLo x⟩,
     ⟨S1x3x520x4, Host.reverse [3] (extractStridedSlice S1x3x520x4 ![0, 0, 0, 511] (colsLo x) slices_S1x3x520x516_S1x3x520x4_0_0_0_511)⟩]
    concatenates_S1x3x520x516_S1x3x520x4_S1x3x520x520_d3

/-! ## One operation read at an index -/

section Reverse
variable {α : Type}

/-- Reversal along axis 2 of a rank-4 array reads the operand at the mirrored coordinate on that axis. -/
theorem reverse2_apply {n0 n1 n2 n3 : Nat} (v : (⟨4, ![n0, n1, n2, n3]⟩ : Shape).Idx → α)
    (i0 : Fin n0) (i1 : Fin n1) (i2 : Fin n2) (i3 : Fin n3) :
    Host.reverse [2] v (ValueIdx.ix4 i0 i1 i2 i3) = v (ValueIdx.ix4 i0 i1 i2.rev i3) := by
  unfold Host.reverse
  refine congrArg v (funext fun d => ?_)
  match d with
  | ⟨0, _⟩ => rfl
  | ⟨1, _⟩ => rfl
  | ⟨2, _⟩ => rfl
  | ⟨3, _⟩ => rfl

/-- Reversal along axis 3 of a rank-4 array reads the operand at the mirrored coordinate on that axis. -/
theorem reverse3_apply {n0 n1 n2 n3 : Nat} (v : (⟨4, ![n0, n1, n2, n3]⟩ : Shape).Idx → α)
    (i0 : Fin n0) (i1 : Fin n1) (i2 : Fin n2) (i3 : Fin n3) :
    Host.reverse [3] v (ValueIdx.ix4 i0 i1 i2 i3) = v (ValueIdx.ix4 i0 i1 i2 i3.rev) := by
  unfold Host.reverse
  refine congrArg v (funext fun d => ?_)
  match d with
  | ⟨0, _⟩ => rfl
  | ⟨1, _⟩ => rfl
  | ⟨2, _⟩ => rfl
  | ⟨3, _⟩ => rfl

end Reverse

/-! ## The four steps read at an index -/

section Steps
variable (x : FVec F S1x3x512x512 .f32)

/-- Rows, first step, below the image: row `a < 4` is the image's row `4 - a`. -/
theorem rowsLo_lo (c : Fin 3) (a : Fin 516) (b : Fin 512) (h : a.val < 4) :
    rowsLo x (ValueIdx.ix4 (0 : Fin 1) c a b) = x (ValueIdx.ix4 (0 : Fin 1) c (⟨4 - a.val, by omega⟩ : Fin 512) b) := by
  unfold rowsLo
  refine (concatenate_pair_apply_left (t := S1x3x516x512) (s₁ := S1x3x4x512) (s₂ := S1x3x512x512) (2 : Fin 4) _ _ _
    (ValueIdx.ix4 (0 : Fin 1) c a b) rfl (ValueIdx.ix4 (0 : Fin 1) c (⟨a.val, h⟩ : Fin 4) b)
    (fun d => match d with | ⟨0, _⟩ => rfl | ⟨1, _⟩ => rfl | ⟨2, _⟩ => rfl | ⟨3, _⟩ => rfl)).trans ?_
  refine (reverse2_apply _ _ _ _ _).trans ?_
  exact extractStridedSlice_apply _ _ _ _ _ (fun d => match d with
    | ⟨0, _⟩ => by show (0 : ℕ) = 0 + 0; omega
    | ⟨1, _⟩ => by show c.val = 0 + c.val; omega
    | ⟨2, _⟩ => by show 4 - a.val = 1 + (4 - (a.val + 1)); omega
    | ⟨3, _⟩ => by show b.val = 0 + b.val; omega)

/-- Rows, first step, from the image on: row `a ≥ 4` is the image's row `a - 4`. -/
theorem rowsLo_hi (c : Fin 3) (a : Fin 516) (b : Fin 512) (h : 4 ≤ a.val) :
    rowsLo x (ValueIdx.ix4 (0 : Fin 1) c a b) = x (ValueIdx.ix4 (0 : Fin 1) c (⟨a.val - 4, by omega⟩ : Fin 512) b) := by
  unfold rowsLo
  exact concatenate_pair_apply_right (t := S1x3x516x512) (s₁ := S1x3x4x512) (s₂ := S1x3x512x512) (2 : Fin 4) _ _ _
    (ValueIdx.ix4 (0 : Fin 1) c a b) rfl rfl (ValueIdx.ix4 (0 : Fin 1) c (⟨a.val - 4, by omega⟩ : Fin 512) b)
    (fun d hd => match d with
      | ⟨0, _⟩ => rfl | ⟨1, _⟩ => rfl | ⟨2, _⟩ => absurd rfl hd | ⟨3, _⟩ => rfl)
    (by show a.val - 4 + 4 = a.val; omega)

end Steps

section Steps2
variable (x : FVec F S1x3x512x512 .f32)

/-- Rows, second step, inside the first step: row `a < 516` is the first step's row `a`. -/
theorem rows_lo (c : Fin 3) (a : Fin 520) (b : Fin 512) (h : a.val < 516) :
    rows x (ValueIdx.ix4 (0 : Fin 1) c a b) = rowsLo x (ValueIdx.ix4 (0 : Fin 1) c (⟨a.val, h⟩ : Fin 516) b) := by
  unfold rows
  exact concatenate_pair_apply_left (t := S1x3x520x512) (s₁ := S1x3x516x512) (s₂ := S1x3x4x512) (2 : Fin 4) _ _ _
    (ValueIdx.ix4 (0 : Fin 1) c a b) rfl (ValueIdx.ix4 (0 : Fin 1) c (⟨a.val, h⟩ : Fin 516) b)
    (fun d => match d with | ⟨0, _⟩ => rfl | ⟨1, _⟩ => rfl | ⟨2, _⟩ => rfl | ⟨3, _⟩ => rfl)

/-- Rows, second step, past the first step: row `a ≥ 516` is the first step's row `1030 - a`. -/
theorem rows_hi (c : Fin 3) (a : Fin 520) (b : Fin 512) (h : 516 ≤ a.val) :
    rows x (ValueIdx.ix4 (0 : Fin 1) c a b)
      = rowsLo x (ValueIdx.ix4 (0 : Fin 1) c (⟨1030 - a.val, by have := a.isLt; omega⟩ : Fin 516) b) := by
  have ha := a.isLt
  unfold rows
  refine (concatenate_pair_apply_right (t := S1x3x520x512) (s₁ := S1x3x516x512) (s₂ := S1x3x4x512) (2 : Fin 4) _ _ _
    (ValueIdx.ix4 (0 : Fin 1) c a b) rfl rfl (ValueIdx.ix4 (0 : Fin 1) c (⟨a.val - 516, by omega⟩ : Fin 4) b)
    (fun d hd => match d with
      | ⟨0, _⟩ => rfl | ⟨1, _⟩ => rfl | ⟨2, _⟩ => absurd rfl hd | ⟨3, _⟩ => rfl)
    (by show a.val - 516 + 516 = a.val; omega)).trans ?_
  refine (reverse2_apply _ _ _ _ _).trans ?_
  exact extractStridedSlice_apply _ _ _ _ _ (fun d => match d with
    | ⟨0, _⟩ => by show (0 : ℕ) = 0 + 0; omega
    | ⟨1, _⟩ => by show c.val = 0 + c.val; omega
    | ⟨2, _⟩ => by show 1030 - a.val = 511 + (4 - (a.val - 516 + 1)); omega
    | ⟨3, _⟩ => by show b.val = 0 + b.val; omega)

/-- The row-padded image reads the image at the reflected row. -/
theorem rows_apply (c : Fin 3) (a : Fin 520) (b : Fin 512) :
    rows x (ValueIdx.ix4 (0 : Fin 1) c a b) = x (ValueIdx.ix4 (0 : Fin 1) c (Cert.Blur.refl a) b) := by
  have ha := a.isLt
  by_cases h1 : a.val < 4
  · rw [rows_lo x c a b (by omega), rowsLo_lo x c _ b h1]
    exact congrArg (fun r => x (ValueIdx.ix4 (0 : Fin 1) c r b))
      (Fin.ext (by rw [Cert.Blur.refl_val, if_pos h1]))
  · by_cases h2 : a.val < 516
    · rw [rows_lo x c a b h2, rowsLo_hi x c _ b (by show 4 ≤ a.val; omega)]
      exact congrArg (fun r => x (ValueIdx.ix4 (0 : Fin 1) c r b))
        (Fin.ext (by rw [Cert.Blur.refl_val, if_neg h1, if_pos h2]))
    · rw [rows_hi x c a b (by omega), rowsLo_hi x c _ b (by show 4 ≤ 1030 - a.val; omega)]
      exact congrArg (fun r => x (ValueIdx.ix4 (0 : Fin 1) c r b))
        (Fin.ext (by rw [Cert.Blur.refl_val, if_neg h1, if_neg h2]; show 1030 - a.val - 4 = 1026 - a.val; omega))

/-- Columns, first step, before the image: column `b < 4` is the row-padded image's column `4 - b`. -/
theorem colsLo_lo (c : Fin 3) (a : Fin 520) (b : Fin 516) (h : b.val < 4) :
    colsLo x (ValueIdx.ix4 (0 : Fin 1) c a b) = rows x (ValueIdx.ix4 (0 : Fin 1) c a (⟨4 - b.val, by omega⟩ : Fin 512)) := by
  unfold colsLo
  refine (concatenate_pair_apply_left (t := S1x3x520x516) (s₁ := S1x3x520x4) (s₂ := S1x3x520x512) (3 : Fin 4) _ _ _
    (ValueIdx.ix4 (0 : Fin 1) c a b) rfl (ValueIdx.ix4 (0 : Fin 1) c a (⟨b.val, h⟩ : Fin 4))
    (fun d => match d with | ⟨0, _⟩ => rfl | ⟨1, _⟩ => rfl | ⟨2, _⟩ => rfl | ⟨3, _⟩ => rfl)).trans ?_
  refine (reverse3_apply _ _ _ _ _).trans ?_
  exact extractStridedSlice_apply _ _ _ _ _ (fun d => match d with
    | ⟨0, _⟩ => by show (0 : ℕ) = 0 + 0; omega
    | ⟨1, _⟩ => by show c.val = 0 + c.val; omega
    | ⟨2, _⟩ => by show a.val = 0 + a.val; omega
    | ⟨3, _⟩ => by show 4 - b.val = 1 + (4 - (b.val + 1)); omega)

/-- Columns, first step, from the image on: column `b ≥ 4` is the row-padded image's column `b - 4`. -/
theorem colsLo_hi (c : Fin 3) (a : Fin 520) (b : Fin 516) (h : 4 ≤ b.val) :
    colsLo x (ValueIdx.ix4 (0 : Fin 1) c a b) = rows x (ValueIdx.ix4 (0 : Fin 1) c a (⟨b.val - 4, by omega⟩ : Fin 512)) := by
  unfold colsLo
  exact concatenate_pair_apply_right (t := S1x3x520x516) (s₁ := S1x3x520x4) (s₂ := S1x3x520x512) (3 : Fin 4) _ _ _
    (ValueIdx.ix4 (0 : Fin 1) c a b) rfl rfl (ValueIdx.ix4 (0 : Fin 1) c a (⟨b.val - 4, by omega⟩ : Fin 512))
    (fun d hd => match d with
      | ⟨0, _⟩ => rfl | ⟨1, _⟩ => rfl | ⟨2, _⟩ => rfl | ⟨3, _⟩ => absurd rfl hd)
    (by show b.val - 4 + 4 = b.val; omega)

/-- Columns, second step, inside the first step: column `b < 516` is the first step's column `b`. -/
theorem pad_lo (c : Fin 3) (a : Fin 520) (b : Fin 520) (h : b.val < 516) :
    padTerm x (ValueIdx.ix4 (0 : Fin 1) c a b) = colsLo x (ValueIdx.ix4 (0 : Fin 1) c a (⟨b.val, h⟩ : Fin 516)) := by
  unfold padTerm
  exact concatenate_pair_apply_left (t := S1x3x520x520) (s₁ := S1x3x520x516) (s₂ := S1x3x520x4) (3 : Fin 4) _ _ _
    (ValueIdx.ix4 (0 : Fin 1) c a b) rfl (ValueIdx.ix4 (0 : Fin 1) c a (⟨b.val, h⟩ : Fin 516))
    (fun d => match d with | ⟨0, _⟩ => rfl | ⟨1, _⟩ => rfl | ⟨2, _⟩ => rfl | ⟨3, _⟩ => rfl)

/-- Columns, second step, past the first step: column `b ≥ 516` is the first step's column `1030 - b`. -/
theorem pad_hi (c : Fin 3) (a : Fin 520) (b : Fin 520) (h : 516 ≤ b.val) :
    padTerm x (ValueIdx.ix4 (0 : Fin 1) c a b)
      = colsLo x (ValueIdx.ix4 (0 : Fin 1) c a (⟨1030 - b.val, by have := b.isLt; omega⟩ : Fin 516)) := by
  have hb := b.isLt
  unfold padTerm
  refine (concatenate_pair_apply_right (t := S1x3x520x520) (s₁ := S1x3x520x516) (s₂ := S1x3x520x4) (3 : Fin 4) _ _ _
    (ValueIdx.ix4 (0 : Fin 1) c a b) rfl rfl (ValueIdx.ix4 (0 : Fin 1) c a (⟨b.val - 516, by omega⟩ : Fin 4))
    (fun d hd => match d with
      | ⟨0, _⟩ => rfl | ⟨1, _⟩ => rfl | ⟨2, _⟩ => rfl | ⟨3, _⟩ => absurd rfl hd)
    (by show b.val - 516 + 516 = b.val; omega)).trans ?_
  refine (reverse3_apply _ _ _ _ _).trans ?_
  exact extractStridedSlice_apply _ _ _ _ _ (fun d => match d with
    | ⟨0, _⟩ => by show (0 : ℕ) = 0 + 0; omega
    | ⟨1, _⟩ => by show c.val = 0 + c.val; omega
    | ⟨2, _⟩ => by show a.val = 0 + a.val; omega
    | ⟨3, _⟩ => by show 1030 - b.val = 511 + (4 - (b.val - 516 + 1)); omega)

/-- The padded image reads the row-padded image at the reflected column. -/
theorem cols_apply (c : Fin 3) (a : Fin 520) (b : Fin 520) :
    padTerm x (ValueIdx.ix4 (0 : Fin 1) c a b) = rows x (ValueIdx.ix4 (0 : Fin 1) c a (Cert.Blur.refl b)) := by
  have hb := b.isLt
  by_cases h1 : b.val < 4
  · rw [pad_lo x c a b (by omega), colsLo_lo x c a _ h1]
    exact congrArg (fun r => rows x (ValueIdx.ix4 (0 : Fin 1) c a r))
      (Fin.ext (by rw [Cert.Blur.refl_val, if_pos h1]))
  · by_cases h2 : b.val < 516
    · rw [pad_lo x c a b h2, colsLo_hi x c a _ (by show 4 ≤ b.val; omega)]
      exact congrArg (fun r => rows x (ValueIdx.ix4 (0 : Fin 1) c a r))
        (Fin.ext (by rw [Cert.Blur.refl_val, if_neg h1, if_pos h2]))
    · rw [pad_hi x c a b (by omega), colsLo_hi x c a _ (by show 4 ≤ 1030 - b.val; omega)]
      exact congrArg (fun r => rows x (ValueIdx.ix4 (0 : Fin 1) c a r))
        (Fin.ext (by rw [Cert.Blur.refl_val, if_neg h1, if_neg h2]; show 1030 - b.val - 4 = 1026 - b.val; omega))

end Steps2

/-- The padded image at channel `c` and padded coordinates `(a, b)` is the image at the reflected coordinates. -/
theorem padTerm_apply (x : FVec Ideal S1x3x512x512 .f32) (c : Fin 3) (a b : Fin 520) :
    padTerm (F := Ideal) x (ValueIdx.ix4 (0 : Fin 1) c a b) = Cert.Blur.padR x c a b := by
  rw [cols_apply x c a b, rows_apply x c a (Cert.Blur.refl b)]
  rfl

end Cert.ReferenceIdeal.PadValue

end
-- ==== Proof.RefHead.lean ====
/-
  Before the taps. From any contents `V` of the device's buffers, the unused integer constant, the reflect-pad's sixteen
  operations, the zero constant and its broadcast leave the padded image in `main_v0` — the pad function's composed term
  of `V`'s image —, the zero accumulator in `main_v1`, and both arguments as they were.
-/
import proofs.«108208_j53102975647806_2_alg».proof.Proof.RefOps
import proofs.«108208_j53102975647806_2_alg».proof.Proof.RefPad

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The accumulator's start: the constant zero broadcast to the image's shape. -/
def acc0 : FVec Ideal S1x3x512x512 .f32 :=
  broadcastInDim S1x3x512x512 ![] bcast_S_S1x3x512x512 (constant (F := Ideal) S_ .f32 0x00000000#32)

-- the three layout functions stay folded while the two sides are compared: the equation never looks inside them, and
-- the casts the typed references put around each inlined operation are identities the comparison sees through
attribute [local irreducible] concatenate Host.reverse extractStridedSlice in
set_option maxRecDepth 8192 in
set_option maxHeartbeats 1000000 in
/-- The padded image is the pad function's sixteen operations composed: its four stages, each a concatenation of a
    reversed block with the stage before. -/
theorem head_v0 (V : Valuation τ sig (Elt Ideal)) :
    after headOps V (Proc.devRef .tc main_v0) = PadValue.padTerm (F := Ideal) (V (Proc.devRef .tc main_arg0)) := by
  simp only [headOps, pc0]
  after_results_simp
  unfold PadValue.padTerm PadValue.colsLo PadValue.rows PadValue.rowsLo
  rfl

set_option maxRecDepth 8192 in
set_option maxHeartbeats 1000000 in
theorem head_acc (V : Valuation τ sig (Elt Ideal)) : after headOps V (Proc.devRef .tc main_v1) = acc0 := by
  simp only [headOps, pc0]
  after_results_simp
  all_goals rfl

set_option maxRecDepth 8192 in
set_option maxHeartbeats 1000000 in
theorem head_arg0 (V : Valuation τ sig (Elt Ideal)) : after headOps V (Proc.devRef .tc main_arg0) = V (Proc.devRef .tc main_arg0) := by
  simp only [headOps, pc0]
  after_results_simp

set_option maxRecDepth 8192 in
set_option maxHeartbeats 1000000 in
theorem head_arg1 (V : Valuation τ sig (Elt Ideal)) : after headOps V (Proc.devRef .tc main_arg1) = V (Proc.devRef .tc main_arg1) := by
  simp only [headOps, pc0]
  after_results_simp

end Cert.ReferenceIdeal.RefValue

end
-- ==== Proof.RefRowsA.lean ====
/-
  Rows 0 … 2 of taps. From any contents `W`, the 63 operations of a row read the padded image `main_v0`, the kernel
  field `main_arg1` and the accumulator the row before left, and leave the accumulator nine taps further on (`rowTerm`):
  each tap's seven operations are the two blocks, the recast, the two broadcasts, the product and the sum, exactly the
  operations `tapProd` and `rowTerm` compose (the blocks' side conditions are propositions, any proof of them is the
  same). A row writes neither the padded image nor an argument.
-/
import proofs.«108208_j53102975647806_2_alg».proof.Proof.RefOps
import proofs.«108208_j53102975647806_2_alg».proof.Proof.RefTap

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- Row 0: the accumulator after its nine taps. -/
theorem row0_acc (W : Valuation τ sig (Elt Ideal)) :
    after rowOps0 W (Proc.devRef .tc main_v64)
      = rowTerm 0 (by omega) (W (Proc.devRef .tc main_v0)) (W (Proc.devRef .tc main_arg1)) (W (Proc.devRef .tc main_v1)) := by
  simp only [rowOps0, pc1, pc2, List.cons_append, List.nil_append]
  after_results_simp
  all_goals rfl

set_option maxRecDepth 8192 in
set_option maxHeartbeats 4000000 in
theorem row0_main_v0 (W : Valuation τ sig (Elt Ideal)) : after rowOps0 W (Proc.devRef .tc main_v0) = W (Proc.devRef .tc main_v0) := by
  simp only [rowOps0, pc1, pc2, List.cons_append, List.nil_append]
  after_results_simp

set_option maxRecDepth 8192 in
set_option maxHeartbeats 4000000 in
theorem row0_main_arg0 (W : Valuation τ sig (Elt Ideal)) : after rowOps0 W (Proc.devRef .tc main_arg0) = W (Proc.devRef .tc main_arg0) := by
  simp only [rowOps0, pc1, pc2, List.cons_append, List.nil_append]
  after_results_simp

set_option maxRecDepth 8192 in
set_option maxHeartbeats 4000000 in
theorem row0_main_arg1 (W : Valuation τ sig (Elt Ideal)) : after rowOps0 W (Proc.devRef .tc main_arg1) = W (Proc.devRef .tc main_arg1) := by
  simp only [rowOps0, pc1, pc2, List.cons_append, List.nil_append]
  after_results_simp

set_option maxRecDepth 8192 in
set_option maxHeartbeats 4000000 in
/-- Row 1: the accumulator after its nine taps. -/
theorem row1_acc (W : Valuation τ sig (Elt Ideal)) :
    after rowOps1 W (Proc.devRef .tc main_v127)
      = rowTerm 1 (by omega) (W (Proc.devRef .tc main_v0)) (W (Proc.devRef .tc main_arg1)) (W (Proc.devRef .tc main_v64)) := by
  simp only [rowOps1, pc3, pc4, List.cons_append, List.nil_append]
  after_results_simp
  all_goals rfl

set_option maxRecDepth 8192 in
set_option maxHeartbeats 4000000 in
theorem row1_main_v0 (W : Valuation τ sig (Elt Ideal)) : after rowOps1 W (Proc.devRef .tc main_v0) = W (Proc.devRef .tc main_v0) := by
  simp only [rowOps1, pc3, pc4, List.cons_append, List.nil_append]
  after_results_simp

set_option maxRecDepth 8192 in
set_option maxHeartbeats 4000000 in
theorem row1_main_arg0 (W : Valuation τ sig (Elt Ideal)) : after rowOps1 W (Proc.devRef .tc main_arg0) = W (Proc.devRef .tc main_arg0) := by
  simp only [rowOps1, pc3, pc4, List.cons_append, List.nil_append]
  after_results_simp

set_option maxRecDepth 8192 in
set_option maxHeartbeats 4000000 in
theorem row1_main_arg1 (W : Valuation τ sig (Elt Ideal)) : after rowOps1 W (Proc.devRef .tc main_arg1) = W (Proc.devRef .tc main_arg1) := by
  simp only [rowOps1, pc3, pc4, List.cons_append, List.nil_append]
  after_results_simp

set_option maxRecDepth 8192 in
set_option maxHeartbeats 4000000 in
/-- Row 2: the accumulator after its nine taps. -/
theorem row2_acc (W : Valuation τ sig (Elt Ideal)) :
    after rowOps2 W (Proc.devRef .tc main_v190)
      = rowTerm 2 (by omega) (W (Proc.devRef .tc main_v0)) (W (Proc.devRef .tc main_arg1)) (W (Proc.devRef .tc main_v127)) := by
  simp only [rowOps2, pc5, pc6, List.cons_append, List.nil_append]
  after_results_simp
  all_goals rfl

set_option maxRecDepth 8192 in
set_option maxHeartbeats 4000000 in
theorem row2_main_v0 (W : Valuation τ sig (Elt Ideal)) : after rowOps2 W (Proc.devRef .tc main_v0) = W (Proc.devRef .tc main_v0) := by
  simp only [rowOps2, pc5, pc6, List.cons_append, List.nil_append]
  after_results_simp

set_option maxRecDepth 8192 in
set_option maxHeartbeats 4000000 in
theorem row2_main_arg0 (W : Valuation τ sig (Elt Ideal)) : after rowOps2 W (Proc.devRef .tc main_arg0) = W (Proc.devRef .tc main_arg0) := by
  simp only [rowOps2, pc5, pc6, List.cons_append, List.nil_append]
  after_results_simp

set_option maxRecDepth 8192 in
set_option maxHeartbeats 4000000 in
theorem row2_main_arg1 (W : Valuation τ sig (Elt Ideal)) : after rowOps2 W (Proc.devRef .tc main_arg1) = W (Proc.devRef .tc main_arg1) := by
  simp only [rowOps2, pc5, pc6, List.cons_append, List.nil_append]
  after_results_simp

end Cert.ReferenceIdeal.RefValue

end
-- ==== Proof.RefRowsB.lean ====
/-
  Rows 3 … 5 of taps. From any contents `W`, the 63 operations of a row read the padded image `main_v0`, the kernel
  field `main_arg1` and the accumulator the row before left, and leave the accumulator nine taps further on (`rowTerm`):
  each tap's seven operations are the two blocks, the recast, the two broadcasts, the product and the sum, exactly the
  operations `tapProd` and `rowTerm` compose (the blocks' side conditions are propositions, any proof of them is the
  same). A row writes neither the padded image nor an argument.
-/
import proofs.«108208_j53102975647806_2_alg».proof.Proof.RefOps
import proofs.«108208_j53102975647806_2_alg».proof.Proof.RefTap

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- Row 3: the accumulator after its nine taps. -/
theorem row3_acc (W : Valuation τ sig (Elt Ideal)) :
    after rowOps3 W (Proc.devRef .tc main_v253)
      = rowTerm 3 (by omega) (W (Proc.devRef .tc main_v0)) (W (Proc.devRef .tc main_arg1)) (W (Proc.devRef .tc main_v190)) := by
  simp only [rowOps3, pc7, pc8, List.cons_append, List.nil_append]
  after_results_simp
  all_goals rfl

set_option maxRecDepth 8192 in
set_option maxHeartbeats 4000000 in
theorem row3_main_v0 (W : Valuation τ sig (Elt Ideal)) : after rowOps3 W (Proc.devRef .tc main_v0) = W (Proc.devRef .tc main_v0) := by
  simp only [rowOps3, pc7, pc8, List.cons_append, List.nil_append]
  after_results_simp

set_option maxRecDepth 8192 in
set_option maxHeartbeats 4000000 in
theorem row3_main_arg0 (W : Valuation τ sig (Elt Ideal)) : after rowOps3 W (Proc.devRef .tc main_arg0) = W (Proc.devRef .tc main_arg0) := by
  simp only [rowOps3, pc7, pc8, List.cons_append, List.nil_append]
  after_results_simp

set_option maxRecDepth 8192 in
set_option maxHeartbeats 4000000 in
theorem row3_main_arg1 (W : Valuation τ sig (Elt Ideal)) : after rowOps3 W (Proc.devRef .tc main_arg1) = W (Proc.devRef .tc main_arg1) := by
  simp only [rowOps3, pc7, pc8, List.cons_append, List.nil_append]
  after_results_simp

set_option maxRecDepth 8192 in
set_option maxHeartbeats 4000000 in
/-- Row 4: the accumulator after its nine taps. -/
theorem row4_acc (W : Valuation τ sig (Elt Ideal)) :
    after rowOps4 W (Proc.devRef .tc main_v316)
      = rowTerm 4 (by omega) (W (Proc.devRef .tc main_v0)) (W (Proc.devRef .tc main_arg1)) (W (Proc.devRef .tc main_v253)) := by
  simp only [rowOps4, pc9, pc10, List.cons_append, List.nil_append]
  after_results_simp
  all_goals rfl

set_option maxRecDepth 8192 in
set_option maxHeartbeats 4000000 in
theorem row4_main_v0 (W : Valuation τ sig (Elt Ideal)) : after rowOps4 W (Proc.devRef .tc main_v0) = W (Proc.devRef .tc main_v0) := by
  simp only [rowOps4, pc9, pc10, List.cons_append, List.nil_append]
  after_results_simp

set_option maxRecDepth 8192 in
set_option maxHeartbeats 4000000 in
theorem row4_main_arg0 (W : Valuation τ sig (Elt Ideal)) : after rowOps4 W (Proc.devRef .tc main_arg0) = W (Proc.devRef .tc main_arg0) := by
  simp only [rowOps4, pc9, pc10, List.cons_append, List.nil_append]
  after_results_simp

set_option maxRecDepth 8192 in
set_option maxHeartbeats 4000000 in
theorem row4_main_arg1 (W : Valuation τ sig (Elt Ideal)) : after rowOps4 W (Proc.devRef .tc main_arg1) = W (Proc.devRef .tc main_arg1) := by
  simp only [rowOps4, pc9, pc10, List.cons_append, List.nil_append]
  after_results_simp

set_option maxRecDepth 8192 in
set_option maxHeartbeats 4000000 in
/-- Row 5: the accumulator after its nine taps. -/
theorem row5_acc (W : Valuation τ sig (Elt Ideal)) :
    after rowOps5 W (Proc.devRef .tc main_v379)
      = rowTerm 5 (by omega) (W (Proc.devRef .tc main_v0)) (W (Proc.devRef .tc main_arg1)) (W (Proc.devRef .tc main_v316)) := by
  simp only [rowOps5, pc11, pc12, List.cons_append, List.nil_append]
  after_results_simp
  all_goals rfl

set_option maxRecDepth 8192 in
set_option maxHeartbeats 4000000 in
theorem row5_main_v0 (W : Valuation τ sig (Elt Ideal)) : after rowOps5 W (Proc.devRef .tc main_v0) = W (Proc.devRef .tc main_v0) := by
  simp only [rowOps5, pc11, pc12, List.cons_append, List.nil_append]
  after_results_simp

set_option maxRecDepth 8192 in
set_option maxHeartbeats 4000000 in
theorem row5_main_arg0 (W : Valuation τ sig (Elt Ideal)) : after rowOps5 W (Proc.devRef .tc main_arg0) = W (Proc.devRef .tc main_arg0) := by
  simp only [rowOps5, pc11, pc12, List.cons_append, List.nil_append]
  after_results_simp

set_option maxRecDepth 8192 in
set_option maxHeartbeats 4000000 in
theorem row5_main_arg1 (W : Valuation τ sig (Elt Ideal)) : after rowOps5 W (Proc.devRef .tc main_arg1) = W (Proc.devRef .tc main_arg1) := by
  simp only [rowOps5, pc11, pc12, List.cons_append, List.nil_append]
  after_results_simp

end Cert.ReferenceIdeal.RefValue

end
-- ==== Proof.RefRowsC.lean ====
/-
  Rows 6 … 8 of taps. From any contents `W`, the 63 operations of a row read the padded image `main_v0`, the kernel
  field `main_arg1` and the accumulator the row before left, and leave the accumulator nine taps further on (`rowTerm`):
  each tap's seven operations are the two blocks, the recast, the two broadcasts, the product and the sum, exactly the
  operations `tapProd` and `rowTerm` compose (the blocks' side conditions are propositions, any proof of them is the
  same). A row writes neither the padded image nor an argument.
-/
import proofs.«108208_j53102975647806_2_alg».proof.Proof.RefOps
import proofs.«108208_j53102975647806_2_alg».proof.Proof.RefTap

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- Row 6: the accumulator after its nine taps. -/
theorem row6_acc (W : Valuation τ sig (Elt Ideal)) :
    after rowOps6 W (Proc.devRef .tc main_v442)
      = rowTerm 6 (by omega) (W (Proc.devRef .tc main_v0)) (W (Proc.devRef .tc main_arg1)) (W (Proc.devRef .tc main_v379)) := by
  simp only [rowOps6, pc13, pc14, List.cons_append, List.nil_append]
  after_results_simp
  all_goals rfl

set_option maxRecDepth 8192 in
set_option maxHeartbeats 4000000 in
theorem row6_main_v0 (W : Valuation τ sig (Elt Ideal)) : after rowOps6 W (Proc.devRef .tc main_v0) = W (Proc.devRef .tc main_v0) := by
  simp only [rowOps6, pc13, pc14, List.cons_append, List.nil_append]
  after_results_simp

set_option maxRecDepth 8192 in
set_option maxHeartbeats 4000000 in
theorem row6_main_arg0 (W : Valuation τ sig (Elt Ideal)) : after rowOps6 W (Proc.devRef .tc main_arg0) = W (Proc.devRef .tc main_arg0) := by
  simp only [rowOps6, pc13, pc14, List.cons_append, List.nil_append]
  after_results_simp

set_option maxRecDepth 8192 in
set_option maxHeartbeats 4000000 in
theorem row6_main_arg1 (W : Valuation τ sig (Elt Ideal)) : after rowOps6 W (Proc.devRef .tc main_arg1) = W (Proc.devRef .tc main_arg1) := by
  simp only [rowOps6, pc13, pc14, List.cons_append, List.nil_append]
  after_results_simp

set_option maxRecDepth 8192 in
set_option maxHeartbeats 4000000 in
/-- Row 7: the accumulator after its nine taps. -/
theorem row7_acc (W : Valuation τ sig (Elt Ideal)) :
    after rowOps7 W (Proc.devRef .tc main_v505)
      = rowTerm 7 (by omega) (W (Proc.devRef .tc main_v0)) (W (Proc.devRef .tc main_arg1)) (W (Proc.devRef .tc main_v442)) := by
  simp only [rowOps7, pc15, pc16, List.cons_append, List.nil_append]
  after_results_simp
  all_goals rfl

set_option maxRecDepth 8192 in
set_option maxHeartbeats 4000000 in
theorem row7_main_v0 (W : Valuation τ sig (Elt Ideal)) : after rowOps7 W (Proc.devRef .tc main_v0) = W (Proc.devRef .tc main_v0) := by
  simp only [rowOps7, pc15, pc16, List.cons_append, List.nil_append]
  after_results_simp

set_option maxRecDepth 8192 in
set_option maxHeartbeats 4000000 in
theorem row7_main_arg0 (W : Valuation τ sig (Elt Ideal)) : after rowOps7 W (Proc.devRef .tc main_arg0) = W (Proc.devRef .tc main_arg0) := by
  simp only [rowOps7, pc15, pc16, List.cons_append, List.nil_append]
  after_results_simp

set_option maxRecDepth 8192 in
set_option maxHeartbeats 4000000 in
theorem row7_main_arg1 (W : Valuation τ sig (Elt Ideal)) : after rowOps7 W (Proc.devRef .tc main_arg1) = W (Proc.devRef .tc main_arg1) := by
  simp only [rowOps7, pc15, pc16, List.cons_append, List.nil_append]
  after_results_simp

set_option maxRecDepth 8192 in
set_option maxHeartbeats 4000000 in
/-- Row 8: the accumulator after its nine taps. -/
theorem row8_acc (W : Valuation τ sig (Elt Ideal)) :
    after rowOps8 W (Proc.devRef .tc main_v568)
      = rowTerm 8 (by omega) (W (Proc.devRef .tc main_v0)) (W (Proc.devRef .tc main_arg1)) (W (Proc.devRef .tc main_v505)) := by
  simp only [rowOps8, pc17, pc18, List.cons_append, List.nil_append]
  after_results_simp
  all_goals rfl

set_option maxRecDepth 8192 in
set_option maxHeartbeats 4000000 in
theorem row8_main_v0 (W : Valuation τ sig (Elt Ideal)) : after rowOps8 W (Proc.devRef .tc main_v0) = W (Proc.devRef .tc main_v0) := by
  simp only [rowOps8, pc17, pc18, List.cons_append, List.nil_append]
  after_results_simp

set_option maxRecDepth 8192 in
set_option maxHeartbeats 4000000 in
theorem row8_main_arg0 (W : Valuation τ sig (Elt Ideal)) : after rowOps8 W (Proc.devRef .tc main_arg0) = W (Proc.devRef .tc main_arg0) := by
  simp only [rowOps8, pc17, pc18, List.cons_append, List.nil_append]
  after_results_simp

set_option maxRecDepth 8192 in
set_option maxHeartbeats 4000000 in
theorem row8_main_arg1 (W : Valuation τ sig (Elt Ideal)) : after rowOps8 W (Proc.devRef .tc main_arg1) = W (Proc.devRef .tc main_arg1) := by
  simp only [rowOps8, pc17, pc18, List.cons_append, List.nil_append]
  after_results_simp

end Cert.ReferenceIdeal.RefValue

end
-- ==== Proof.RefVal.lean ====
/-
  The fold of the reference's operations, chained: the contents after the head and after each row of taps. The padded
  image and the two arguments are kept by every row; the accumulator after `k` rows is `k` rows applied in turn to zero
  over the padded image and the kernel field. The whole line regrouped by rows (concatenation is associative) folds to
  the last of these contents.
-/
import proofs.«108208_j53102975647806_2_alg».proof.Proof.RefOps
import proofs.«108208_j53102975647806_2_alg».proof.Proof.RefMain
import proofs.«108208_j53102975647806_2_alg».proof.Proof.RefTap
import proofs.«108208_j53102975647806_2_alg».proof.Proof.RefPad
import proofs.«108208_j53102975647806_2_alg».proof.Proof.RefHead
import proofs.«108208_j53102975647806_2_alg».proof.Proof.RefRowsA
import proofs.«108208_j53102975647806_2_alg».proof.Proof.RefRowsB
import proofs.«108208_j53102975647806_2_alg».proof.Proof.RefRowsC

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The chain: contents after the head and after each row -/

/-- The contents before the first tap. -/
def val0 (V : Valuation τ sig (Elt Ideal)) : Valuation τ sig (Elt Ideal) := after headOps V
/-- The contents after the first 1 row of taps. -/
def val1 (V : Valuation τ sig (Elt Ideal)) : Valuation τ sig (Elt Ideal) := after rowOps0 (val0 V)
/-- The contents after the first 2 rows of taps. -/
def val2 (V : Valuation τ sig (Elt Ideal)) : Valuation τ sig (Elt Ideal) := after rowOps1 (val1 V)
/-- The contents after the first 3 rows of taps. -/
def val3 (V : Valuation τ sig (Elt Ideal)) : Valuation τ sig (Elt Ideal) := after rowOps2 (val2 V)
/-- The contents after the first 4 rows of taps. -/
def val4 (V : Valuation τ sig (Elt Ideal)) : Valuation τ sig (Elt Ideal) := after rowOps3 (val3 V)
/-- The contents after the first 5 rows of taps. -/
def val5 (V : Valuation τ sig (Elt Ideal)) : Valuation τ sig (Elt Ideal) := after rowOps4 (val4 V)
/-- The contents after the first 6 rows of taps. -/
def val6 (V : Valuation τ sig (Elt Ideal)) : Valuation τ sig (Elt Ideal) := after rowOps5 (val5 V)
/-- The contents after the first 7 rows of taps. -/
def val7 (V : Valuation τ sig (Elt Ideal)) : Valuation τ sig (Elt Ideal) := after rowOps6 (val6 V)
/-- The contents after the first 8 rows of taps. -/
def val8 (V : Valuation τ sig (Elt Ideal)) : Valuation τ sig (Elt Ideal) := after rowOps7 (val7 V)
/-- The contents after the first 9 rows of taps. -/
def val9 (V : Valuation τ sig (Elt Ideal)) : Valuation τ sig (Elt Ideal) := after rowOps8 (val8 V)

/-- The accumulator after the first 1 row, over a padded image `P` and a kernel field `K`. -/
def acc1 (P : FVec Ideal S1x3x520x520 .f32) (K : FVec Ideal S512x512x9x9 .f32) : FVec Ideal S1x3x512x512 .f32 :=
  rowTerm 0 (by omega) P K acc0
/-- The accumulator after the first 2 rows, over a padded image `P` and a kernel field `K`. -/
def acc2 (P : FVec Ideal S1x3x520x520 .f32) (K : FVec Ideal S512x512x9x9 .f32) : FVec Ideal S1x3x512x512 .f32 :=
  rowTerm 1 (by omega) P K (acc1 P K)
/-- The accumulator after the first 3 rows, over a padded image `P` and a kernel field `K`. -/
def acc3 (P : FVec Ideal S1x3x520x520 .f32) (K : FVec Ideal S512x512x9x9 .f32) : FVec Ideal S1x3x512x512 .f32 :=
  rowTerm 2 (by omega) P K (acc2 P K)
/-- The accumulator after the first 4 rows, over a padded image `P` and a kernel field `K`. -/
def acc4 (P : FVec Ideal S1x3x520x520 .f32) (K : FVec Ideal S512x512x9x9 .f32) : FVec Ideal S1x3x512x512 .f32 :=
  rowTerm 3 (by omega) P K (acc3 P K)
/-- The accumulator after the first 5 rows, over a padded image `P` and a kernel field `K`. -/
def acc5 (P : FVec Ideal S1x3x520x520 .f32) (K : FVec Ideal S512x512x9x9 .f32) : FVec Ideal S1x3x512x512 .f32 :=
  rowTerm 4 (by omega) P K (acc4 P K)
/-- The accumulator after the first 6 rows, over a padded image `P` and a kernel field `K`. -/
def acc6 (P : FVec Ideal S1x3x520x520 .f32) (K : FVec Ideal S512x512x9x9 .f32) : FVec Ideal S1x3x512x512 .f32 :=
  rowTerm 5 (by omega) P K (acc5 P K)
/-- The accumulator after the first 7 rows, over a padded image `P` and a kernel field `K`. -/
def acc7 (P : FVec Ideal S1x3x520x520 .f32) (K : FVec Ideal S512x512x9x9 .f32) : FVec Ideal S1x3x512x512 .f32 :=
  rowTerm 6 (by omega) P K (acc6 P K)
/-- The accumulator after the first 8 rows, over a padded image `P` and a kernel field `K`. -/
def acc8 (P : FVec Ideal S1x3x520x520 .f32) (K : FVec Ideal S512x512x9x9 .f32) : FVec Ideal S1x3x512x512 .f32 :=
  rowTerm 7 (by omega) P K (acc7 P K)
/-- The accumulator after the first 9 rows, over a padded image `P` and a kernel field `K`. -/
def acc9 (P : FVec Ideal S1x3x520x520 .f32) (K : FVec Ideal S512x512x9x9 .f32) : FVec Ideal S1x3x512x512 .f32 :=
  rowTerm 8 (by omega) P K (acc8 P K)

theorem val0_v0 (V : Valuation τ sig (Elt Ideal)) : val0 V (Proc.devRef .tc main_v0) = PadValue.padTerm (F := Ideal) (V (Proc.devRef .tc main_arg0)) := head_v0 V
theorem val0_arg0 (V : Valuation τ sig (Elt Ideal)) : val0 V (Proc.devRef .tc main_arg0) = V (Proc.devRef .tc main_arg0) := head_arg0 V
theorem val0_arg1 (V : Valuation τ sig (Elt Ideal)) : val0 V (Proc.devRef .tc main_arg1) = V (Proc.devRef .tc main_arg1) := head_arg1 V
theorem val0_acc (V : Valuation τ sig (Elt Ideal)) : val0 V (Proc.devRef .tc main_v1) = acc0 := head_acc V

theorem val1_v0 (V : Valuation τ sig (Elt Ideal)) : val1 V (Proc.devRef .tc main_v0) = PadValue.padTerm (F := Ideal) (V (Proc.devRef .tc main_arg0)) :=
  (row0_main_v0 _).trans (val0_v0 V)
theorem val1_arg0 (V : Valuation τ sig (Elt Ideal)) : val1 V (Proc.devRef .tc main_arg0) = V (Proc.devRef .tc main_arg0) :=
  (row0_main_arg0 _).trans (val0_arg0 V)
theorem val1_arg1 (V : Valuation τ sig (Elt Ideal)) : val1 V (Proc.devRef .tc main_arg1) = V (Proc.devRef .tc main_arg1) :=
  (row0_main_arg1 _).trans (val0_arg1 V)
theorem val1_acc (V : Valuation τ sig (Elt Ideal)) :
    val1 V (Proc.devRef .tc main_v64) = acc1 (PadValue.padTerm (F := Ideal) (V (Proc.devRef .tc main_arg0))) (V (Proc.devRef .tc main_arg1)) := by
  unfold val1 acc1
  rw [row0_acc, val0_v0, val0_arg1, val0_acc]

theorem val2_v0 (V : Valuation τ sig (Elt Ideal)) : val2 V (Proc.devRef .tc main_v0) = PadValue.padTerm (F := Ideal) (V (Proc.devRef .tc main_arg0)) :=
  (row1_main_v0 _).trans (val1_v0 V)
theorem val2_arg0 (V : Valuation τ sig (Elt Ideal)) : val2 V (Proc.devRef .tc main_arg0) = V (Proc.devRef .tc main_arg0) :=
  (row1_main_arg0 _).trans (val1_arg0 V)
theorem val2_arg1 (V : Valuation τ sig (Elt Ideal)) : val2 V (Proc.devRef .tc main_arg1) = V (Proc.devRef .tc main_arg1) :=
  (row1_main_arg1 _).trans (val1_arg1 V)
theorem val2_acc (V : Valuation τ sig (Elt Ideal)) :
    val2 V (Proc.devRef .tc main_v127) = acc2 (PadValue.padTerm (F := Ideal) (V (Proc.devRef .tc main_arg0))) (V (Proc.devRef .tc main_arg1)) := by
  unfold val2 acc2
  rw [row1_acc, val1_v0, val1_arg1, val1_acc]

theorem val3_v0 (V : Valuation τ sig (Elt Ideal)) : val3 V (Proc.devRef .tc main_v0) = PadValue.padTerm (F := Ideal) (V (Proc.devRef .tc main_arg0)) :=
  (row2_main_v0 _).trans (val2_v0 V)
theorem val3_arg0 (V : Valuation τ sig (Elt Ideal)) : val3 V (Proc.devRef .tc main_arg0) = V (Proc.devRef .tc main_arg0) :=
  (row2_main_arg0 _).trans (val2_arg0 V)
theorem val3_arg1 (V : Valuation τ sig (Elt Ideal)) : val3 V (Proc.devRef .tc main_arg1) = V (Proc.devRef .tc main_arg1) :=
  (row2_main_arg1 _).trans (val2_arg1 V)
theorem val3_acc (V : Valuation τ sig (Elt Ideal)) :
    val3 V (Proc.devRef .tc main_v190) = acc3 (PadValue.padTerm (F := Ideal) (V (Proc.devRef .tc main_arg0))) (V (Proc.devRef .tc main_arg1)) := by
  unfold val3 acc3
  rw [row2_acc, val2_v0, val2_arg1, val2_acc]

theorem val4_v0 (V : Valuation τ sig (Elt Ideal)) : val4 V (Proc.devRef .tc main_v0) = PadValue.padTerm (F := Ideal) (V (Proc.devRef .tc main_arg0)) :=
  (row3_main_v0 _).trans (val3_v0 V)
theorem val4_arg0 (V : Valuation τ sig (Elt Ideal)) : val4 V (Proc.devRef .tc main_arg0) = V (Proc.devRef .tc main_arg0) :=
  (row3_main_arg0 _).trans (val3_arg0 V)
theorem val4_arg1 (V : Valuation τ sig (Elt Ideal)) : val4 V (Proc.devRef .tc main_arg1) = V (Proc.devRef .tc main_arg1) :=
  (row3_main_arg1 _).trans (val3_arg1 V)
theorem val4_acc (V : Valuation τ sig (Elt Ideal)) :
    val4 V (Proc.devRef .tc main_v253) = acc4 (PadValue.padTerm (F := Ideal) (V (Proc.devRef .tc main_arg0))) (V (Proc.devRef .tc main_arg1)) := by
  unfold val4 acc4
  rw [row3_acc, val3_v0, val3_arg1, val3_acc]

theorem val5_v0 (V : Valuation τ sig (Elt Ideal)) : val5 V (Proc.devRef .tc main_v0) = PadValue.padTerm (F := Ideal) (V (Proc.devRef .tc main_arg0)) :=
  (row4_main_v0 _).trans (val4_v0 V)
theorem val5_arg0 (V : Valuation τ sig (Elt Ideal)) : val5 V (Proc.devRef .tc main_arg0) = V (Proc.devRef .tc main_arg0) :=
  (row4_main_arg0 _).trans (val4_arg0 V)
theorem val5_arg1 (V : Valuation τ sig (Elt Ideal)) : val5 V (Proc.devRef .tc main_arg1) = V (Proc.devRef .tc main_arg1) :=
  (row4_main_arg1 _).trans (val4_arg1 V)
theorem val5_acc (V : Valuation τ sig (Elt Ideal)) :
    val5 V (Proc.devRef .tc main_v316) = acc5 (PadValue.padTerm (F := Ideal) (V (Proc.devRef .tc main_arg0))) (V (Proc.devRef .tc main_arg1)) := by
  unfold val5 acc5
  rw [row4_acc, val4_v0, val4_arg1, val4_acc]

theorem val6_v0 (V : Valuation τ sig (Elt Ideal)) : val6 V (Proc.devRef .tc main_v0) = PadValue.padTerm (F := Ideal) (V (Proc.devRef .tc main_arg0)) :=
  (row5_main_v0 _).trans (val5_v0 V)
theorem val6_arg0 (V : Valuation τ sig (Elt Ideal)) : val6 V (Proc.devRef .tc main_arg0) = V (Proc.devRef .tc main_arg0) :=
  (row5_main_arg0 _).trans (val5_arg0 V)
theorem val6_arg1 (V : Valuation τ sig (Elt Ideal)) : val6 V (Proc.devRef .tc main_arg1) = V (Proc.devRef .tc main_arg1) :=
  (row5_main_arg1 _).trans (val5_arg1 V)
theorem val6_acc (V : Valuation τ sig (Elt Ideal)) :
    val6 V (Proc.devRef .tc main_v379) = acc6 (PadValue.padTerm (F := Ideal) (V (Proc.devRef .tc main_arg0))) (V (Proc.devRef .tc main_arg1)) := by
  unfold val6 acc6
  rw [row5_acc, val5_v0, val5_arg1, val5_acc]

theorem val7_v0 (V : Valuation τ sig (Elt Ideal)) : val7 V (Proc.devRef .tc main_v0) = PadValue.padTerm (F := Ideal) (V (Proc.devRef .tc main_arg0)) :=
  (row6_main_v0 _).trans (val6_v0 V)
theorem val7_arg0 (V : Valuation τ sig (Elt Ideal)) : val7 V (Proc.devRef .tc main_arg0) = V (Proc.devRef .tc main_arg0) :=
  (row6_main_arg0 _).trans (val6_arg0 V)
theorem val7_arg1 (V : Valuation τ sig (Elt Ideal)) : val7 V (Proc.devRef .tc main_arg1) = V (Proc.devRef .tc main_arg1) :=
  (row6_main_arg1 _).trans (val6_arg1 V)
theorem val7_acc (V : Valuation τ sig (Elt Ideal)) :
    val7 V (Proc.devRef .tc main_v442) = acc7 (PadValue.padTerm (F := Ideal) (V (Proc.devRef .tc main_arg0))) (V (Proc.devRef .tc main_arg1)) := by
  unfold val7 acc7
  rw [row6_acc, val6_v0, val6_arg1, val6_acc]

theorem val8_v0 (V : Valuation τ sig (Elt Ideal)) : val8 V (Proc.devRef .tc main_v0) = PadValue.padTerm (F := Ideal) (V (Proc.devRef .tc main_arg0)) :=
  (row7_main_v0 _).trans (val7_v0 V)
theorem val8_arg0 (V : Valuation τ sig (Elt Ideal)) : val8 V (Proc.devRef .tc main_arg0) = V (Proc.devRef .tc main_arg0) :=
  (row7_main_arg0 _).trans (val7_arg0 V)
theorem val8_arg1 (V : Valuation τ sig (Elt Ideal)) : val8 V (Proc.devRef .tc main_arg1) = V (Proc.devRef .tc main_arg1) :=
  (row7_main_arg1 _).trans (val7_arg1 V)
theorem val8_acc (V : Valuation τ sig (Elt Ideal)) :
    val8 V (Proc.devRef .tc main_v505) = acc8 (PadValue.padTerm (F := Ideal) (V (Proc.devRef .tc main_arg0))) (V (Proc.devRef .tc main_arg1)) := by
  unfold val8 acc8
  rw [row7_acc, val7_v0, val7_arg1, val7_acc]

theorem val9_v0 (V : Valuation τ sig (Elt Ideal)) : val9 V (Proc.devRef .tc main_v0) = PadValue.padTerm (F := Ideal) (V (Proc.devRef .tc main_arg0)) :=
  (row8_main_v0 _).trans (val8_v0 V)
theorem val9_arg0 (V : Valuation τ sig (Elt Ideal)) : val9 V (Proc.devRef .tc main_arg0) = V (Proc.devRef .tc main_arg0) :=
  (row8_main_arg0 _).trans (val8_arg0 V)
theorem val9_arg1 (V : Valuation τ sig (Elt Ideal)) : val9 V (Proc.devRef .tc main_arg1) = V (Proc.devRef .tc main_arg1) :=
  (row8_main_arg1 _).trans (val8_arg1 V)
theorem val9_acc (V : Valuation τ sig (Elt Ideal)) :
    val9 V (Proc.devRef .tc main_v568) = acc9 (PadValue.padTerm (F := Ideal) (V (Proc.devRef .tc main_arg0))) (V (Proc.devRef .tc main_arg1)) := by
  unfold val9 acc9
  rw [row8_acc, val8_v0, val8_arg1, val8_acc]

/-- The whole line's fold is the chain: the line regrouped by rows, and the fold over a concatenation taken apart. -/
theorem after_ops (V : Valuation τ sig (Elt Ideal)) : after ops V = val9 V := by
  rw [ops_eq_opsByRow]
  unfold opsByRow
  rw [after_app, after_app, after_app, after_app, after_app, after_app, after_app, after_app, after_app]
  rfl

end Cert.ReferenceIdeal.RefValue

end
-- ==== Proof.RefRun.lean ====
/-
  The reference's value and run.

  The last accumulator is the nine rows of taps applied in turn to zero over the reflect-padded image. Read at a pixel
  `(c, h, w)`, each row adds its nine products `P[c, h + i, w + j] · K[h, w, i, j]` on the right, in order, and the padded
  image at `(c, a, b)` is the image at the reflected coordinates; the specification's fold over its 81 taps, unrolled, is
  the same expression term for term. The run then follows from the straight line's: every execution ends with each
  buffer at the fold of the operations over the launch contents.
-/
import proofs.«108208_j53102975647806_2_alg».proof.Proof.RefVal

noncomputable section

namespace Cert.ReferenceIdeal.RefValue

open Cert.ReferenceIdeal Cert.ReferenceIdeal.Gen Idealize.ShloMosaic Idealize.ShloMosaic.TcCoe Idealize.SL.Sem Idealize.ShloMosaic.StableHlo

theorem acc0_apply (idx : S1x3x512x512.Idx) : acc0 idx = 0 := zero_apply _ idx

set_option maxRecDepth 8192 in
set_option maxHeartbeats 2000000 in
/-- The nine rows over the padded image are the specification's sum, pixel by pixel. -/
theorem acc9_eq_G (x : FVec Ideal S1x3x512x512 .f32) (K : FVec Ideal S512x512x9x9 .f32) :
    acc9 (PadValue.padTerm (F := Ideal) x) K = Cert.Blur.G x K := by
  funext idx
  obtain ⟨b, c, h, w, rfl⟩ : ∃ (b : Fin 1) (c : Fin 3) (h w : Fin 512), idx = ValueIdx.ix4 b c h w :=
    ⟨idx 0, idx 1, idx 2, idx 3, ValueIdx.eq_ix4 idx⟩
  obtain rfl : b = 0 := Subsingleton.elim _ _
  rw [Cert.Blur.G_apply]
  simp only [acc9, acc8, acc7, acc6, acc5, acc4, acc3, acc2, acc1, rowTerm_apply, acc0_apply, stepAt,
    PadValue.padTerm_apply]
  simp only [Cert.Blur.blurAt, Cert.Blur.taps, List.foldl_cons, List.foldl_nil, Cert.Blur.kerR]

/-- The result buffer after the whole line, from any contents: the specification of the two arguments' contents. -/
theorem out_eq (V : Valuation τ sig (Elt Ideal)) :
    after ops V (Proc.devRef .tc main_v568) = Cert.Blur.G (V (Proc.devRef .tc main_arg0)) (V (Proc.devRef .tc main_arg1)) := by
  rw [after_ops, val9_acc, acc9_eq_G]

theorem arg0_eq (V : Valuation τ sig (Elt Ideal)) : after ops V (Proc.devRef .tc main_arg0) = V (Proc.devRef .tc main_arg0) := by
  rw [after_ops]; exact val9_arg0 V

theorem arg1_eq (V : Valuation τ sig (Elt Ideal)) : after ops V (Proc.devRef .tc main_arg1) = V (Proc.devRef .tc main_arg1) := by
  rw [after_ops]; exact val9_arg1 V

/-- On every device, from any memory with zero counters: every weakly fair execution of @main terminates with the result
    buffer at the specification `G` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v568) = Cert.Blur.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨(h c main_v568).trans (out_eq (launchContents m c)),
      (h c main_arg0).trans (arg0_eq (launchContents m c)),
      (h c main_arg1).trans (arg1_eq (launchContents m c))⟩)
    (run_seq scopedRefs_eq scopedSems_eq (defs (F := Ideal)) (main (F := Ideal)) (fun _ => ops) main_eq (fun _ => ops_sub) m ρ
      (fun _ => ops_fresh))

end Cert.ReferenceIdeal.RefValue

end
-- ==== Proof.Claims.lean ====
/-
  The five conjuncts of the certificate.

  Both programs compute, over the extended reals, the same function of the image `x` and the per-pixel kernel field `K`:
  the image is padded by 4 on both spatial axes by reflection, and every output pixel is the 81-tap sum of the padded
  image's shifted samples times that pixel's own 9×9 kernel, accumulated from the left, from zero, in row-major order of the
  taps (`Cert.Blur.G`). The reference does it on whole arrays, one tap at a time; the kernel tile by tile on a 4×4 grid,
  from a tap-leading re-layout of the kernel field, and restores the unit batch axis afterwards. Since the order and the
  operands of every addition and multiplication agree, no algebraic law of the extended reals is needed and the
  precondition (finite inputs) is never used.
-/
import proofs.«108208_j53102975647806_2_alg».proof.Defs
import proofs.«108208_j53102975647806_2_alg».proof.Proof.Gen.Pre_finite_inputs
import proofs.«108208_j53102975647806_2_alg».proof.Proof.Gen.Kernel.Frame
import proofs.«108208_j53102975647806_2_alg».proof.Proof.Gen.KernelIdeal.Frame
import proofs.«108208_j53102975647806_2_alg».proof.Proof.KerValue
import proofs.«108208_j53102975647806_2_alg».proof.Proof.KerRun
import proofs.«108208_j53102975647806_2_alg».proof.Proof.RefRun

noncomputable section

namespace Cert.Proof.Claims

open Idealize.ShloMosaic Idealize.ShloMosaic.TcCoe Idealize.SL.Sem

/-- The word-level kernel runs and leaves its arguments as they were: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, with the result's value dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the two arguments, both programs end with the result array at `Cert.Blur.G` of the
    arguments: the kernel by its tiles covering the output array, the reference by its run read tap by tap. -/
theorem algebraic : Cert.algebraic_KernelIdeal_ReferenceIdeal := by
  intro m ρ m' ρ' _ hagree
  refine ⟨_, Cert.KernelIdeal.RunValue.run m ρ (Cert.KernelIdeal.Tiles.final m), ?_⟩
  refine (θ_run Cert.ReferenceIdeal.defs _ _).mono (fun _ h c => ⟨(h c).1.trans ?_, (h c).2⟩)
    (Cert.ReferenceIdeal.RefValue.run m' ρ')
  exact congrArg₂ Cert.Blur.G (hagree c).1 (hagree c).2

end Cert.Proof.Claims

end
-- ==== Proof.lean ====
/- The proof of `Cert.Claim`: the three frames, the (empty) idealization ledger, and the equality of the idealized kernel's
   and the idealized reference's results as extended reals. The witnesses of the programs' stated side conditions come
   first; the five conjuncts are proved in Proof/Claims.lean, over the value of each side (the kernel's tiles and its host
   code around them; the reference's run, tap by tap) against one specification, Proof/Spec.lean. -/
import proofs.«108208_j53102975647806_2_alg».proof.Defs
import proofs.«108208_j53102975647806_2_alg».proof.Proof.Gen.Kernel
import proofs.«108208_j53102975647806_2_alg».proof.Proof.Gen.Kernel.Skeleton
import proofs.«108208_j53102975647806_2_alg».proof.Proof.Gen.Kernel.Launch
import proofs.«108208_j53102975647806_2_alg».proof.Proof.Gen.Kernel.Points
import proofs.«108208_j53102975647806_2_alg».proof.Proof.Gen.Kernel.Frame
import proofs.«108208_j53102975647806_2_alg».proof.Proof.Gen.KernelIdeal
import proofs.«108208_j53102975647806_2_alg».proof.Proof.Gen.KernelIdeal.Skeleton
import proofs.«108208_j53102975647806_2_alg».proof.Proof.Gen.KernelIdeal.Launch
import proofs.«108208_j53102975647806_2_alg».proof.Proof.Gen.KernelIdeal.Points
import proofs.«108208_j53102975647806_2_alg».proof.Proof.Gen.KernelIdeal.Frame
import proofs.«108208_j53102975647806_2_alg».proof.Proof.Gen.ReferenceIdeal
import proofs.«108208_j53102975647806_2_alg».proof.Proof.Gen.Pre_finite_inputs
import proofs.«108208_j53102975647806_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
